-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v239) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v445) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128x128 .f32) (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S100000x128 .f32) (main_arg1 : FVec F S3x128x128 .f32) (main_arg2 : FVec F S3x128x128 .f32) (main_arg3 : FVec F S3x128x128 .f32) (main_arg4 : FVec F S3x128x128 .f32) (main_arg5 : FVec F S3x128 .f32) (main_arg6 : IVec S600000 32) (main_arg7 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x100000x128 : Shape := ⟨3, ![1, 100000, 128]⟩
abbrev S4x100000x128 : Shape := ⟨3, ![4, 100000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩

abbrev nBuf : Space → Nat
  | .hbm => 299
  | .vmem => 45
  | .smem => 0
  | _ => 0

abbrev hbmTy0_0 (i : Nat) : BufTy := match i % 128 with
  | 0 => ⟨S100000x128, .f32⟩
  | 1 => ⟨S3x128x128, .f32⟩
  | 2 => ⟨S3x128x128, .f32⟩
  | 3 => ⟨S3x128x128, .f32⟩
  | 4 => ⟨S3x128x128, .f32⟩
  | 5 => ⟨S3x128, .f32⟩
  | 6 => ⟨S600000, .i32⟩
  | 7 => ⟨S600000, .i32⟩
  | 8 => ⟨S_, .f32⟩
  | 9 => ⟨S600000, .f32⟩
  | 10 => ⟨S_, .f32⟩
  | 11 => ⟨S100000, .f32⟩
  | 12 => ⟨S600000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000, .f32⟩
  | 66 => ⟨S_, .f32⟩
  | 67 => ⟨S100000, .f32⟩
  | 68 => ⟨S100000, .i1⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S_, .f32⟩
  | 82 => ⟨S100000x128, .f32⟩
  | 83 => ⟨S600000x1, .i32⟩
  | 84 => ⟨S100000x128, .f32⟩
  | 85 => ⟨S100000x1, .f32⟩
  | 86 => ⟨S100000x128, .f32⟩
  | 87 => ⟨S100000x128, .f32⟩
  | 88 => ⟨S100000x128, .f32⟩
  | 89 => ⟨S600000x1, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S600000x128, .f32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S100000x1, .f32⟩
  | 106 => ⟨S100000x128, .f32⟩
  | 107 => ⟨S100000x128, .f32⟩
  | 108 => ⟨S100000x128, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x100000x128, .f32⟩
  | 2 => ⟨S1x100000x128, .f32⟩
  | 3 => ⟨S1x100000x128, .f32⟩
  | 4 => ⟨S1x100000x128, .f32⟩
  | 5 => ⟨S4x100000x128, .f32⟩
  | 6 => ⟨S_, .f32⟩
  | 7 => ⟨S100000x128, .f32⟩
  | 8 => ⟨S_, .f32⟩
  | 9 => ⟨S100000x128, .f32⟩
  | 10 => ⟨S100000x128, .f32⟩
  | 11 => ⟨S600000x1, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S600000x128, .f32⟩
  | 22 => ⟨S600000x128, .f32⟩
  | 23 => ⟨S_, .f32⟩
  | 24 => ⟨S100000x128, .f32⟩
  | 25 => ⟨S600000x1, .i32⟩
  | 26 => ⟨S100000x128, .f32⟩
  | 27 => ⟨S600000x1, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x128, .f32⟩
  | 38 => ⟨S600000x128, .f32⟩
  | 39 => ⟨S_, .f32⟩
  | 40 => ⟨S100000x128, .f32⟩
  | 41 => ⟨S600000x1, .i32⟩
  | 42 => ⟨S100000x128, .f32⟩
  | 43 => ⟨S1x128x128, .f32⟩
  | 44 => ⟨S128x128, .f32⟩
  | 45 => ⟨S1x128x128, .f32⟩
  | 46 => ⟨S128x128, .f32⟩
  | 47 => ⟨S1x128x128, .f32⟩
  | 48 => ⟨S128x128, .f32⟩
  | 49 => ⟨S1x128x128, .f32⟩
  | 50 => ⟨S128x128, .f32⟩
  | 51 => ⟨S1x128, .f32⟩
  | 52 => ⟨S128, .f32⟩
  | 53 => ⟨S128x128, .f32⟩
  | 54 => ⟨S128x128, .f32⟩
  | 55 => ⟨S128x128, .f32⟩
  | 56 => ⟨S128x128, .f32⟩
  | 57 => ⟨S1x128, .f32⟩
  | 58 => ⟨S100000x1, .f32⟩
  | 59 => ⟨S100000x128, .f32⟩
  | 60 => ⟨S600000x1, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x128, .f32⟩
  | 71 => ⟨S600000x128, .f32⟩
  | 72 => ⟨S_, .f32⟩
  | 73 => ⟨S100000x128, .f32⟩
  | 74 => ⟨S600000x1, .i32⟩
  | 75 => ⟨S100000x128, .f32⟩
  | 76 => ⟨S600000x1, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S1x128x128, .f32⟩
  | 93 => ⟨S128x128, .f32⟩
  | 94 => ⟨S1x128x128, .f32⟩
  | 95 => ⟨S128x128, .f32⟩
  | 96 => ⟨S1x128x128, .f32⟩
  | 97 => ⟨S128x128, .f32⟩
  | 98 => ⟨S1x128x128, .f32⟩
  | 99 => ⟨S128x128, .f32⟩
  | 100 => ⟨S1x128, .f32⟩
  | 101 => ⟨S128, .f32⟩
  | 102 => ⟨S128x128, .f32⟩
  | 103 => ⟨S128x128, .f32⟩
  | 104 => ⟨S128x128, .f32⟩
  | 105 => ⟨S128x128, .f32⟩
  | 106 => ⟨S1x128, .f32⟩
  | 107 => ⟨S100000x1, .f32⟩
  | 108 => ⟨S100000x128, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S600000x1, .f32⟩
  | 126 => ⟨S_, .i32⟩
  | 127 => ⟨S600000, .i32⟩
  | _ => ⟨S100000x128, .f32⟩

abbrev hbmTy0_2 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S600000x128, .f32⟩
  | 8 => ⟨S600000x128, .f32⟩
  | 9 => ⟨S_, .f32⟩
  | 10 => ⟨S100000x128, .f32⟩
  | 11 => ⟨S600000x1, .i32⟩
  | 12 => ⟨S100000x128, .f32⟩
  | 13 => ⟨S1x128x128, .f32⟩
  | 14 => ⟨S128x128, .f32⟩
  | 15 => ⟨S1x128x128, .f32⟩
  | 16 => ⟨S128x128, .f32⟩
  | 17 => ⟨S1x128x128, .f32⟩
  | 18 => ⟨S128x128, .f32⟩
  | 19 => ⟨S1x128x128, .f32⟩
  | 20 => ⟨S128x128, .f32⟩
  | 21 => ⟨S1x128, .f32⟩
  | 22 => ⟨S128, .f32⟩
  | 23 => ⟨S128x128, .f32⟩
  | 24 => ⟨S128x128, .f32⟩
  | 25 => ⟨S128x128, .f32⟩
  | 26 => ⟨S128x128, .f32⟩
  | 27 => ⟨S1x128, .f32⟩
  | 28 => ⟨S100000x1, .f32⟩
  | 29 => ⟨S100000x128, .f32⟩
  | 30 => ⟨S1x100000x128, .f32⟩
  | 31 => ⟨S1x100000x128, .f32⟩
  | 32 => ⟨S1x100000x128, .f32⟩
  | 33 => ⟨S1x100000x128, .f32⟩
  | 34 => ⟨S4x100000x128, .f32⟩
  | 35 => ⟨S_, .f32⟩
  | 36 => ⟨S100000x128, .f32⟩
  | 37 => ⟨S_, .f32⟩
  | 38 => ⟨S100000x128, .f32⟩
  | 39 => ⟨S100000x128, .f32⟩
  | 40 => ⟨S100000x1, .i1⟩
  | 41 => ⟨S100000x128, .i1⟩
  | 42 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_v15 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_c_11 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_c_13 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_14 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_15 : Ref sig .tc := ⟨.hbm, 70, rfl⟩
abbrev main_v43 : Ref sig .tc := ⟨.hbm, 71, rfl⟩
abbrev main_v44 : Ref sig .tc := ⟨.hbm, 72, rfl⟩
abbrev main_c_16 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_18 : Ref sig .tc := ⟨.hbm, 90, rfl⟩
abbrev main_v60 : Ref sig .tc := ⟨.hbm, 91, rfl⟩
abbrev main_v61 : Ref sig .tc := ⟨.hbm, 92, rfl⟩
abbrev main_c_19 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_21 : Ref sig .tc := ⟨.hbm, 110, rfl⟩
abbrev main_v77 : Ref sig .tc := ⟨.hbm, 111, rfl⟩
abbrev main_v78 : Ref sig .tc := ⟨.hbm, 112, rfl⟩
abbrev main_c_22 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_23 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_24 : Ref sig .tc := ⟨.hbm, 134, rfl⟩
abbrev main_v98 : Ref sig .tc := ⟨.hbm, 135, rfl⟩
abbrev main_cst_25 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_26 : Ref sig .tc := ⟨.hbm, 140, rfl⟩
abbrev main_v102 : Ref sig .tc := ⟨.hbm, 141, rfl⟩
abbrev main_v103 : Ref sig .tc := ⟨.hbm, 142, rfl⟩
abbrev main_c_27 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_28 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_29 : Ref sig .tc := ⟨.hbm, 156, rfl⟩
abbrev main_v115 : Ref sig .tc := ⟨.hbm, 157, rfl⟩
abbrev main_v116 : Ref sig .tc := ⟨.hbm, 158, rfl⟩
abbrev main_c_30 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_31 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_c_32 : Ref sig .tc := ⟨.hbm, 189, rfl⟩
abbrev main_v145 : Ref sig .tc := ⟨.hbm, 190, rfl⟩
abbrev main_v146 : Ref sig .tc := ⟨.hbm, 191, rfl⟩
abbrev main_c_33 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_34 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_35 : Ref sig .tc := ⟨.hbm, 205, rfl⟩
abbrev main_v158 : Ref sig .tc := ⟨.hbm, 206, rfl⟩
abbrev main_v159 : Ref sig .tc := ⟨.hbm, 207, rfl⟩
abbrev main_c_36 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_37 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_c_38 : Ref sig .tc := ⟨.hbm, 238, rfl⟩
abbrev main_v188 : Ref sig .tc := ⟨.hbm, 239, rfl⟩
abbrev main_v189 : Ref sig .tc := ⟨.hbm, 240, rfl⟩
abbrev main_c_39 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_40 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_c_41 : Ref sig .tc := ⟨.hbm, 254, rfl⟩
abbrev main_v201 : Ref sig .tc := ⟨.hbm, 255, rfl⟩
abbrev main_v202 : Ref sig .tc := ⟨.hbm, 256, rfl⟩
abbrev main_c_42 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_43 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_44 : Ref sig .tc := ⟨.hbm, 291, rfl⟩
abbrev main_v235 : Ref sig .tc := ⟨.hbm, 292, rfl⟩
abbrev main_cst_45 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_call1_v0 : Ref sig .tc := ⟨.hbm, 297, rfl⟩
abbrev main_v239 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg9_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem9_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  reducesTo_S4x100000x128_S100000x128_d0 : S4x100000x128.ReducesTo [0] S100000x128
  h_S_ : 0 < S_.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  shapeCasts_S128_S1x128 : S128.ShapeCasts S1x128
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  broadcasts_S2000x1_S2000x128 : S2000x1.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v113) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v126) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v142) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v137) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v138) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v139) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v140) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v141) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v143) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v143) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v156) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v169) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v185) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v180) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v181) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v182) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v183) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v184) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v186) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v186) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v199) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v212) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v228) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v223) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v224) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v225) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v226) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v227) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v229) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x1 : Shape := ⟨2, ![100000, 1]⟩
abbrev S1x100000x128 : Shape := ⟨3, ![1, 100000, 128]⟩
abbrev S4x100000x128 : Shape := ⟨3, ![4, 100000, 128]⟩
abbrev S3x100000x128 : Shape := ⟨3, ![3, 100000, 128]⟩

abbrev nBuf : Space → Nat
  | .hbm => 608
  | .vmem => 0
  | .smem => 0
  | _ => 0

abbrev hbmTy0_0 (i : Nat) : BufTy := match i % 128 with
  | 0 => ⟨S100000x128, .f32⟩
  | 1 => ⟨S3x128x128, .f32⟩
  | 2 => ⟨S3x128x128, .f32⟩
  | 3 => ⟨S3x128x128, .f32⟩
  | 4 => ⟨S3x128x128, .f32⟩
  | 5 => ⟨S3x128, .f32⟩
  | 6 => ⟨S600000, .i32⟩
  | 7 => ⟨S600000, .i32⟩
  | 8 => ⟨S_, .f32⟩
  | 9 => ⟨S600000, .f32⟩
  | 10 => ⟨S_, .f32⟩
  | 11 => ⟨S100000, .f32⟩
  | 12 => ⟨S600000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000, .f32⟩
  | 66 => ⟨S_, .f32⟩
  | 67 => ⟨S100000, .f32⟩
  | 68 => ⟨S100000, .i1⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S_, .f32⟩
  | 82 => ⟨S100000x128, .f32⟩
  | 83 => ⟨S600000x1, .i32⟩
  | 84 => ⟨S100000x128, .f32⟩
  | 85 => ⟨S1x128x128, .f32⟩
  | 86 => ⟨S128x128, .f32⟩
  | 87 => ⟨S128x128, .f32⟩
  | 88 => ⟨S100000x128, .f32⟩
  | 89 => ⟨S1x128x128, .f32⟩
  | 90 => ⟨S128x128, .f32⟩
  | 91 => ⟨S128x128, .f32⟩
  | 92 => ⟨S100000x128, .f32⟩
  | 93 => ⟨S100000x128, .f32⟩
  | 94 => ⟨S_, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128x128, .f32⟩
  | 106 => ⟨S128x128, .f32⟩
  | 107 => ⟨S128x128, .f32⟩
  | 108 => ⟨S100000x128, .f32⟩
  | 109 => ⟨S1x128x128, .f32⟩
  | 110 => ⟨S128x128, .f32⟩
  | 111 => ⟨S128x128, .f32⟩
  | 112 => ⟨S100000x128, .f32⟩
  | 113 => ⟨S100000x128, .f32⟩
  | 114 => ⟨S_, .f32⟩
  | 115 => ⟨S_, .f32⟩
  | 116 => ⟨S100000x128, .f32⟩
  | 117 => ⟨S100000x128, .i1⟩
  | 118 => ⟨S_, .f32⟩
  | 119 => ⟨S100000x128, .f32⟩
  | 120 => ⟨S100000x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S600000x1, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S600000x128, .f32⟩
  | 13 => ⟨S600000x128, .f32⟩
  | 14 => ⟨S_, .f32⟩
  | 15 => ⟨S100000x128, .f32⟩
  | 16 => ⟨S600000x1, .i32⟩
  | 17 => ⟨S100000x128, .f32⟩
  | 18 => ⟨S100000x1, .f32⟩
  | 19 => ⟨S100000x128, .f32⟩
  | 20 => ⟨S100000x128, .f32⟩
  | 21 => ⟨S100000x128, .f32⟩
  | 22 => ⟨S600000x1, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S600000x128, .f32⟩
  | 34 => ⟨S_, .f32⟩
  | 35 => ⟨S100000x128, .f32⟩
  | 36 => ⟨S600000x1, .i32⟩
  | 37 => ⟨S100000x128, .f32⟩
  | 38 => ⟨S1x128x128, .f32⟩
  | 39 => ⟨S128x128, .f32⟩
  | 40 => ⟨S128x128, .f32⟩
  | 41 => ⟨S100000x128, .f32⟩
  | 42 => ⟨S1x128x128, .f32⟩
  | 43 => ⟨S128x128, .f32⟩
  | 44 => ⟨S128x128, .f32⟩
  | 45 => ⟨S100000x128, .f32⟩
  | 46 => ⟨S100000x128, .f32⟩
  | 47 => ⟨S_, .f32⟩
  | 48 => ⟨S_, .f32⟩
  | 49 => ⟨S100000x128, .f32⟩
  | 50 => ⟨S100000x128, .i1⟩
  | 51 => ⟨S_, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S1x128x128, .f32⟩
  | 59 => ⟨S128x128, .f32⟩
  | 60 => ⟨S128x128, .f32⟩
  | 61 => ⟨S100000x128, .f32⟩
  | 62 => ⟨S1x128x128, .f32⟩
  | 63 => ⟨S128x128, .f32⟩
  | 64 => ⟨S128x128, .f32⟩
  | 65 => ⟨S100000x128, .f32⟩
  | 66 => ⟨S100000x128, .f32⟩
  | 67 => ⟨S_, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S600000x1, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S600000x128, .f32⟩
  | 94 => ⟨S600000x128, .f32⟩
  | 95 => ⟨S_, .f32⟩
  | 96 => ⟨S100000x128, .f32⟩
  | 97 => ⟨S600000x1, .i32⟩
  | 98 => ⟨S100000x128, .f32⟩
  | 99 => ⟨S100000x1, .f32⟩
  | 100 => ⟨S100000x128, .f32⟩
  | 101 => ⟨S100000x128, .f32⟩
  | 102 => ⟨S100000x128, .f32⟩
  | 103 => ⟨S600000x1, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S600000x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S1x128x128, .f32⟩
  | 120 => ⟨S128x128, .f32⟩
  | 121 => ⟨S128x128, .f32⟩
  | 122 => ⟨S100000x128, .f32⟩
  | 123 => ⟨S1x128x128, .f32⟩
  | 124 => ⟨S128x128, .f32⟩
  | 125 => ⟨S128x128, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S_, .f32⟩
  | 2 => ⟨S100000x128, .f32⟩
  | 3 => ⟨S100000x128, .i1⟩
  | 4 => ⟨S_, .f32⟩
  | 5 => ⟨S100000x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S1x128x128, .f32⟩
  | 12 => ⟨S128x128, .f32⟩
  | 13 => ⟨S128x128, .f32⟩
  | 14 => ⟨S100000x128, .f32⟩
  | 15 => ⟨S1x128x128, .f32⟩
  | 16 => ⟨S128x128, .f32⟩
  | 17 => ⟨S128x128, .f32⟩
  | 18 => ⟨S100000x128, .f32⟩
  | 19 => ⟨S100000x128, .f32⟩
  | 20 => ⟨S_, .f32⟩
  | 21 => ⟨S_, .f32⟩
  | 22 => ⟨S100000x128, .f32⟩
  | 23 => ⟨S100000x128, .i1⟩
  | 24 => ⟨S_, .f32⟩
  | 25 => ⟨S100000x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S100000x128, .f32⟩
  | 36 => ⟨S600000x1, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S600000x128, .f32⟩
  | 47 => ⟨S600000x128, .f32⟩
  | 48 => ⟨S_, .f32⟩
  | 49 => ⟨S100000x128, .f32⟩
  | 50 => ⟨S600000x1, .i32⟩
  | 51 => ⟨S100000x128, .f32⟩
  | 52 => ⟨S100000x1, .f32⟩
  | 53 => ⟨S100000x128, .f32⟩
  | 54 => ⟨S100000x128, .f32⟩
  | 55 => ⟨S100000x128, .f32⟩
  | 56 => ⟨S1x100000x128, .f32⟩
  | 57 => ⟨S1x100000x128, .f32⟩
  | 58 => ⟨S1x100000x128, .f32⟩
  | 59 => ⟨S1x100000x128, .f32⟩
  | 60 => ⟨S4x100000x128, .f32⟩
  | 61 => ⟨S_, .f32⟩
  | 62 => ⟨S100000x128, .f32⟩
  | 63 => ⟨S_, .f32⟩
  | 64 => ⟨S100000x128, .f32⟩
  | 65 => ⟨S100000x128, .f32⟩
  | 66 => ⟨S1x100000x128, .f32⟩
  | 67 => ⟨S1x100000x128, .f32⟩
  | 68 => ⟨S1x100000x128, .f32⟩
  | 69 => ⟨S3x100000x128, .f32⟩
  | 70 => ⟨S_, .f32⟩
  | 71 => ⟨S100000x128, .f32⟩
  | 72 => ⟨S_, .f32⟩
  | 73 => ⟨S100000x128, .f32⟩
  | 74 => ⟨S100000x128, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S_, .f32⟩
  | 88 => ⟨S100000x128, .f32⟩
  | 89 => ⟨S600000x1, .i32⟩
  | 90 => ⟨S100000x128, .f32⟩
  | 91 => ⟨S1x128x128, .f32⟩
  | 92 => ⟨S128x128, .f32⟩
  | 93 => ⟨S128x128, .f32⟩
  | 94 => ⟨S100000x128, .f32⟩
  | 95 => ⟨S1x128x128, .f32⟩
  | 96 => ⟨S128x128, .f32⟩
  | 97 => ⟨S128x128, .f32⟩
  | 98 => ⟨S100000x128, .f32⟩
  | 99 => ⟨S100000x128, .f32⟩
  | 100 => ⟨S_, .f32⟩
  | 101 => ⟨S_, .f32⟩
  | 102 => ⟨S100000x128, .f32⟩
  | 103 => ⟨S100000x128, .i1⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S128x128, .f32⟩
  | 114 => ⟨S100000x128, .f32⟩
  | 115 => ⟨S1x128x128, .f32⟩
  | 116 => ⟨S128x128, .f32⟩
  | 117 => ⟨S128x128, .f32⟩
  | 118 => ⟨S100000x128, .f32⟩
  | 119 => ⟨S100000x128, .f32⟩
  | 120 => ⟨S_, .f32⟩
  | 121 => ⟨S_, .f32⟩
  | 122 => ⟨S100000x128, .f32⟩
  | 123 => ⟨S100000x128, .i1⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_3 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S600000x1, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x128, .f32⟩
  | 19 => ⟨S600000x128, .f32⟩
  | 20 => ⟨S_, .f32⟩
  | 21 => ⟨S100000x128, .f32⟩
  | 22 => ⟨S600000x1, .i32⟩
  | 23 => ⟨S100000x128, .f32⟩
  | 24 => ⟨S100000x1, .f32⟩
  | 25 => ⟨S100000x128, .f32⟩
  | 26 => ⟨S100000x128, .f32⟩
  | 27 => ⟨S100000x128, .f32⟩
  | 28 => ⟨S100000x1, .f32⟩
  | 29 => ⟨S100000x128, .f32⟩
  | 30 => ⟨S100000x128, .f32⟩
  | 31 => ⟨S100000x128, .f32⟩
  | 32 => ⟨S600000x1, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S600000x128, .f32⟩
  | 44 => ⟨S_, .f32⟩
  | 45 => ⟨S100000x128, .f32⟩
  | 46 => ⟨S600000x1, .i32⟩
  | 47 => ⟨S100000x128, .f32⟩
  | 48 => ⟨S1x128x128, .f32⟩
  | 49 => ⟨S128x128, .f32⟩
  | 50 => ⟨S128x128, .f32⟩
  | 51 => ⟨S100000x128, .f32⟩
  | 52 => ⟨S1x128x128, .f32⟩
  | 53 => ⟨S128x128, .f32⟩
  | 54 => ⟨S128x128, .f32⟩
  | 55 => ⟨S100000x128, .f32⟩
  | 56 => ⟨S100000x128, .f32⟩
  | 57 => ⟨S_, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x128x128, .f32⟩
  | 69 => ⟨S128x128, .f32⟩
  | 70 => ⟨S128x128, .f32⟩
  | 71 => ⟨S100000x128, .f32⟩
  | 72 => ⟨S1x128x128, .f32⟩
  | 73 => ⟨S128x128, .f32⟩
  | 74 => ⟨S128x128, .f32⟩
  | 75 => ⟨S100000x128, .f32⟩
  | 76 => ⟨S100000x128, .f32⟩
  | 77 => ⟨S_, .f32⟩
  | 78 => ⟨S_, .f32⟩
  | 79 => ⟨S100000x128, .f32⟩
  | 80 => ⟨S100000x128, .i1⟩
  | 81 => ⟨S_, .f32⟩
  | 82 => ⟨S100000x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S100000x1, .f32⟩
  | 110 => ⟨S100000x128, .f32⟩
  | 111 => ⟨S100000x128, .f32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S600000x1, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x128, .f32⟩
  | _ => ⟨S100000x128, .f32⟩

abbrev hbmTy0_4 (i : Nat) : BufTy := match i % 128 with
  | 0 => ⟨S600000x128, .f32⟩
  | 1 => ⟨S_, .f32⟩
  | 2 => ⟨S100000x128, .f32⟩
  | 3 => ⟨S600000x1, .i32⟩
  | 4 => ⟨S100000x128, .f32⟩
  | 5 => ⟨S1x128x128, .f32⟩
  | 6 => ⟨S128x128, .f32⟩
  | 7 => ⟨S128x128, .f32⟩
  | 8 => ⟨S100000x128, .f32⟩
  | 9 => ⟨S1x128x128, .f32⟩
  | 10 => ⟨S128x128, .f32⟩
  | 11 => ⟨S128x128, .f32⟩
  | 12 => ⟨S100000x128, .f32⟩
  | 13 => ⟨S100000x128, .f32⟩
  | 14 => ⟨S_, .f32⟩
  | 15 => ⟨S_, .f32⟩
  | 16 => ⟨S100000x128, .f32⟩
  | 17 => ⟨S100000x128, .i1⟩
  | 18 => ⟨S_, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S1x128x128, .f32⟩
  | 26 => ⟨S128x128, .f32⟩
  | 27 => ⟨S128x128, .f32⟩
  | 28 => ⟨S100000x128, .f32⟩
  | 29 => ⟨S1x128x128, .f32⟩
  | 30 => ⟨S128x128, .f32⟩
  | 31 => ⟨S128x128, .f32⟩
  | 32 => ⟨S100000x128, .f32⟩
  | 33 => ⟨S100000x128, .f32⟩
  | 34 => ⟨S_, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S600000x1, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x128, .f32⟩
  | 61 => ⟨S600000x128, .f32⟩
  | 62 => ⟨S_, .f32⟩
  | 63 => ⟨S100000x128, .f32⟩
  | 64 => ⟨S600000x1, .i32⟩
  | 65 => ⟨S100000x128, .f32⟩
  | 66 => ⟨S100000x1, .f32⟩
  | 67 => ⟨S100000x128, .f32⟩
  | 68 => ⟨S100000x128, .f32⟩
  | 69 => ⟨S100000x128, .f32⟩
  | 70 => ⟨S100000x1, .f32⟩
  | 71 => ⟨S100000x128, .f32⟩
  | 72 => ⟨S100000x128, .f32⟩
  | 73 => ⟨S100000x128, .f32⟩
  | 74 => ⟨S1x100000x128, .f32⟩
  | 75 => ⟨S1x100000x128, .f32⟩
  | 76 => ⟨S1x100000x128, .f32⟩
  | 77 => ⟨S1x100000x128, .f32⟩
  | 78 => ⟨S4x100000x128, .f32⟩
  | 79 => ⟨S_, .f32⟩
  | 80 => ⟨S100000x128, .f32⟩
  | 81 => ⟨S_, .f32⟩
  | 82 => ⟨S100000x128, .f32⟩
  | 83 => ⟨S100000x128, .f32⟩
  | 84 => ⟨S1x100000x128, .f32⟩
  | 85 => ⟨S1x100000x128, .f32⟩
  | 86 => ⟨S1x100000x128, .f32⟩
  | 87 => ⟨S3x100000x128, .f32⟩
  | 88 => ⟨S_, .f32⟩
  | 89 => ⟨S100000x128, .f32⟩
  | 90 => ⟨S_, .f32⟩
  | 91 => ⟨S100000x128, .f32⟩
  | 92 => ⟨S100000x128, .f32⟩
  | 93 => ⟨S100000x1, .i1⟩
  | 94 => ⟨S100000x128, .i1⟩
  | 95 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_v15 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_c_11 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_c_13 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_14 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_15 : Ref sig .tc := ⟨.hbm, 70, rfl⟩
abbrev main_v43 : Ref sig .tc := ⟨.hbm, 71, rfl⟩
abbrev main_v44 : Ref sig .tc := ⟨.hbm, 72, rfl⟩
abbrev main_c_16 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_18 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v64 : Ref sig .tc := ⟨.hbm, 101, rfl⟩
abbrev main_cst_19 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_21 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_23 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_24 : Ref sig .tc := ⟨.hbm, 151, rfl⟩
abbrev main_v103 : Ref sig .tc := ⟨.hbm, 152, rfl⟩
abbrev main_v104 : Ref sig .tc := ⟨.hbm, 153, rfl⟩
abbrev main_c_25 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_26 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_27 : Ref sig .tc := ⟨.hbm, 175, rfl⟩
abbrev main_call3_cst : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v124 : Ref sig .tc := ⟨.hbm, 182, rfl⟩
abbrev main_cst_28 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_29 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_c_30 : Ref sig .tc := ⟨.hbm, 212, rfl⟩
abbrev main_v146 : Ref sig .tc := ⟨.hbm, 213, rfl⟩
abbrev main_v147 : Ref sig .tc := ⟨.hbm, 214, rfl⟩
abbrev main_c_31 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_32 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_c_33 : Ref sig .tc := ⟨.hbm, 232, rfl⟩
abbrev main_v163 : Ref sig .tc := ⟨.hbm, 233, rfl⟩
abbrev main_v164 : Ref sig .tc := ⟨.hbm, 234, rfl⟩
abbrev main_c_34 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_cst_35 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_36 : Ref sig .tc := ⟨.hbm, 256, rfl⟩
abbrev main_call5_cst : Ref sig .tc := ⟨.hbm, 257, rfl⟩
abbrev main_call5_v0 : Ref sig .tc := ⟨.hbm, 258, rfl⟩
abbrev main_call5_v1 : Ref sig .tc := ⟨.hbm, 259, rfl⟩
abbrev main_call5_v2 : Ref sig .tc := ⟨.hbm, 260, rfl⟩
abbrev main_call5_v3 : Ref sig .tc := ⟨.hbm, 261, rfl⟩
abbrev main_call5_v4 : Ref sig .tc := ⟨.hbm, 262, rfl⟩
abbrev main_v184 : Ref sig .tc := ⟨.hbm, 263, rfl⟩
abbrev main_cst_37 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_cst_38 : Ref sig .tc := ⟨.hbm, 276, rfl⟩
abbrev main_call6_cst : Ref sig .tc := ⟨.hbm, 277, rfl⟩
abbrev main_call6_v0 : Ref sig .tc := ⟨.hbm, 278, rfl⟩
abbrev main_call6_v1 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_c_39 : Ref sig .tc := ⟨.hbm, 293, rfl⟩
abbrev main_v206 : Ref sig .tc := ⟨.hbm, 294, rfl⟩
abbrev main_v207 : Ref sig .tc := ⟨.hbm, 295, rfl⟩
abbrev main_c_40 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_cst_41 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_cst_42 : Ref sig .tc := ⟨.hbm, 317, rfl⟩
abbrev main_v227 : Ref sig .tc := ⟨.hbm, 318, rfl⟩
abbrev main_cst_43 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_cst_44 : Ref sig .tc := ⟨.hbm, 326, rfl⟩
abbrev main_v234 : Ref sig .tc := ⟨.hbm, 327, rfl⟩
abbrev main_cst_45 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_c_46 : Ref sig .tc := ⟨.hbm, 332, rfl⟩
abbrev main_v238 : Ref sig .tc := ⟨.hbm, 333, rfl⟩
abbrev main_v239 : Ref sig .tc := ⟨.hbm, 334, rfl⟩
abbrev main_c_47 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_cst_48 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_cst_49 : Ref sig .tc := ⟨.hbm, 356, rfl⟩
abbrev main_call7_cst : Ref sig .tc := ⟨.hbm, 357, rfl⟩
abbrev main_call7_v0 : Ref sig .tc := ⟨.hbm, 358, rfl⟩
abbrev main_call7_v1 : Ref sig .tc := ⟨.hbm, 359, rfl⟩
abbrev main_call7_v2 : Ref sig .tc := ⟨.hbm, 360, rfl⟩
abbrev main_call7_v3 : Ref sig .tc := ⟨.hbm, 361, rfl⟩
abbrev main_call7_v4 : Ref sig .tc := ⟨.hbm, 362, rfl⟩
abbrev main_v259 : Ref sig .tc := ⟨.hbm, 363, rfl⟩
abbrev main_cst_50 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_cst_51 : Ref sig .tc := ⟨.hbm, 376, rfl⟩
abbrev main_call8_cst : Ref sig .tc := ⟨.hbm, 377, rfl⟩
abbrev main_call8_v0 : Ref sig .tc := ⟨.hbm, 378, rfl⟩
abbrev main_call8_v1 : Ref sig .tc := ⟨.hbm, 379, rfl⟩
abbrev main_call8_v2 : Ref sig .tc := ⟨.hbm, 380, rfl⟩
abbrev main_call8_v3 : Ref sig .tc := ⟨.hbm, 381, rfl⟩
abbrev main_call8_v4 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_c_52 : Ref sig .tc := ⟨.hbm, 393, rfl⟩
abbrev main_v281 : Ref sig .tc := ⟨.hbm, 394, rfl⟩
abbrev main_v282 : Ref sig .tc := ⟨.hbm, 395, rfl⟩
abbrev main_c_53 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_cst_54 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_c_55 : Ref sig .tc := ⟨.hbm, 417, rfl⟩
abbrev main_v302 : Ref sig .tc := ⟨.hbm, 418, rfl⟩
abbrev main_v303 : Ref sig .tc := ⟨.hbm, 419, rfl⟩
abbrev main_c_56 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_cst_57 : Ref sig .tc := ⟨.hbm, 428, rfl⟩
abbrev main_v311 : Ref sig .tc := ⟨.hbm, 429, rfl⟩
abbrev main_v312 : Ref sig .tc := ⟨.hbm, 430, rfl⟩
abbrev main_v313 : Ref sig .tc := ⟨.hbm, 431, rfl⟩
abbrev main_v314 : Ref sig .tc := ⟨.hbm, 432, rfl⟩
abbrev main_v315 : Ref sig .tc := ⟨.hbm, 433, rfl⟩
abbrev main_v316 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_v320 : Ref sig .tc := ⟨.hbm, 438, rfl⟩
abbrev main_v321 : Ref sig .tc := ⟨.hbm, 439, rfl⟩
abbrev main_v322 : Ref sig .tc := ⟨.hbm, 440, rfl⟩
abbrev main_cst_58 : Ref sig .tc := ⟨.hbm, 441, rfl⟩
abbrev main_call9_cst : Ref sig .tc := ⟨.hbm, 442, rfl⟩
abbrev main_call9_v0 : Ref sig .tc := ⟨.hbm, 443, rfl⟩
abbrev main_call9_v1 : Ref sig .tc := ⟨.hbm, 444, rfl⟩
abbrev main_call9_v2 : Ref sig .tc := ⟨.hbm, 445, rfl⟩
abbrev main_call9_v3 : Ref sig .tc := ⟨.hbm, 446, rfl⟩
abbrev main_call9_v4 : Ref sig .tc := ⟨.hbm, 447, rfl⟩
abbrev main_v323 : Ref sig .tc := ⟨.hbm, 448, rfl⟩
abbrev main_cst_59 : Ref sig .tc := ⟨.hbm, 449, rfl⟩
abbrev main_v324 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_v332 : Ref sig .tc := ⟨.hbm, 458, rfl⟩
abbrev main_v333 : Ref sig .tc := ⟨.hbm, 459, rfl⟩
abbrev main_v334 : Ref sig .tc := ⟨.hbm, 460, rfl⟩
abbrev main_cst_60 : Ref sig .tc := ⟨.hbm, 461, rfl⟩
abbrev main_call10_cst : Ref sig .tc := ⟨.hbm, 462, rfl⟩
abbrev main_call10_v0 : Ref sig .tc := ⟨.hbm, 463, rfl⟩
abbrev main_call10_v1 : Ref sig .tc := ⟨.hbm, 464, rfl⟩
abbrev main_call10_v2 : Ref sig .tc := ⟨.hbm, 465, rfl⟩
abbrev main_call10_v3 : Ref sig .tc := ⟨.hbm, 466, rfl⟩
abbrev main_call10_v4 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_v338 : Ref sig .tc := ⟨.hbm, 471, rfl⟩
abbrev main_v339 : Ref sig .tc := ⟨.hbm, 472, rfl⟩
abbrev main_v340 : Ref sig .tc := ⟨.hbm, 473, rfl⟩
abbrev main_v341 : Ref sig .tc := ⟨.hbm, 474, rfl⟩
abbrev main_v342 : Ref sig .tc := ⟨.hbm, 475, rfl⟩
abbrev main_v343 : Ref sig .tc := ⟨.hbm, 476, rfl⟩
abbrev main_v344 : Ref sig .tc := ⟨.hbm, 477, rfl⟩
abbrev main_c_61 : Ref sig .tc := ⟨.hbm, 478, rfl⟩
abbrev main_v345 : Ref sig .tc := ⟨.hbm, 479, rfl⟩
abbrev main_v346 : Ref sig .tc := ⟨.hbm, 480, rfl⟩
abbrev main_c_62 : Ref sig .tc := ⟨.hbm, 481, rfl⟩
abbrev main_v347 : Ref sig .tc := ⟨.hbm, 482, rfl⟩
abbrev main_v348 : Ref sig .tc := ⟨.hbm, 483, rfl⟩
abbrev main_v349 : Ref sig .tc := ⟨.hbm, 484, rfl⟩
abbrev main_v350 : Ref sig .tc := ⟨.hbm, 485, rfl⟩
abbrev main_v351 : Ref sig .tc := ⟨.hbm, 486, rfl⟩
abbrev main_v352 : Ref sig .tc := ⟨.hbm, 487, rfl⟩
abbrev main_v353 : Ref sig .tc := ⟨.hbm, 488, rfl⟩
abbrev main_cst_63 : Ref sig .tc := ⟨.hbm, 489, rfl⟩
abbrev main_v354 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_v365 : Ref sig .tc := ⟨.hbm, 501, rfl⟩
abbrev main_c_64 : Ref sig .tc := ⟨.hbm, 502, rfl⟩
abbrev main_v366 : Ref sig .tc := ⟨.hbm, 503, rfl⟩
abbrev main_v367 : Ref sig .tc := ⟨.hbm, 504, rfl⟩
abbrev main_c_65 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_v373 : Ref sig .tc := ⟨.hbm, 511, rfl⟩
abbrev main_v374 : Ref sig .tc := ⟨.hbm, 512, rfl⟩
abbrev main_cst_66 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_v378 : Ref sig .tc := ⟨.hbm, 517, rfl⟩
abbrev main_v379 : Ref sig .tc := ⟨.hbm, 518, rfl⟩
abbrev main_v380 : Ref sig .tc := ⟨.hbm, 519, rfl⟩
abbrev main_v381 : Ref sig .tc := ⟨.hbm, 520, rfl⟩
abbrev main_v382 : Ref sig .tc := ⟨.hbm, 521, rfl⟩
abbrev main_v383 : Ref sig .tc := ⟨.hbm, 522, rfl⟩
abbrev main_v384 : Ref sig .tc := ⟨.hbm, 523, rfl⟩
abbrev main_v385 : Ref sig .tc := ⟨.hbm, 524, rfl⟩
abbrev main_v386 : Ref sig .tc := ⟨.hbm, 525, rfl⟩
abbrev main_cst_67 : Ref sig .tc := ⟨.hbm, 526, rfl⟩
abbrev main_call11_cst : Ref sig .tc := ⟨.hbm, 527, rfl⟩
abbrev main_call11_v0 : Ref sig .tc := ⟨.hbm, 528, rfl⟩
abbrev main_call11_v1 : Ref sig .tc := ⟨.hbm, 529, rfl⟩
abbrev main_call11_v2 : Ref sig .tc := ⟨.hbm, 530, rfl⟩
abbrev main_call11_v3 : Ref sig .tc := ⟨.hbm, 531, rfl⟩
abbrev main_call11_v4 : Ref sig .tc := ⟨.hbm, 532, rfl⟩
abbrev main_v387 : Ref sig .tc := ⟨.hbm, 533, rfl⟩
abbrev main_cst_68 : Ref sig .tc := ⟨.hbm, 534, rfl⟩
abbrev main_v388 : Ref sig .tc := ⟨.hbm, 535, rfl⟩
abbrev main_v389 : Ref sig .tc := ⟨.hbm, 536, rfl⟩
abbrev main_v390 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_cst_69 : Ref sig .tc := ⟨.hbm, 546, rfl⟩
abbrev main_call12_cst : Ref sig .tc := ⟨.hbm, 547, rfl⟩
abbrev main_call12_v0 : Ref sig .tc := ⟨.hbm, 548, rfl⟩
abbrev main_call12_v1 : Ref sig .tc := ⟨.hbm, 549, rfl⟩
abbrev main_call12_v2 : Ref sig .tc := ⟨.hbm, 550, rfl⟩
abbrev main_call12_v3 : Ref sig .tc := ⟨.hbm, 551, rfl⟩
abbrev main_call12_v4 : Ref sig .tc := ⟨.hbm, 552, rfl⟩
abbrev main_v399 : Ref sig .tc := ⟨.hbm, 553, rfl⟩
abbrev main_v400 : Ref sig .tc := ⟨.hbm, 554, rfl⟩
abbrev main_v401 : Ref sig .tc := ⟨.hbm, 555, rfl⟩
abbrev main_v402 : Ref sig .tc := ⟨.hbm, 556, rfl⟩
abbrev main_v403 : Ref sig .tc := ⟨.hbm, 557, rfl⟩
abbrev main_v404 : Ref sig .tc := ⟨.hbm, 558, rfl⟩
abbrev main_v405 : Ref sig .tc := ⟨.hbm, 559, rfl⟩
abbrev main_v406 : Ref sig .tc := ⟨.hbm, 560, rfl⟩
abbrev main_v407 : Ref sig .tc := ⟨.hbm, 561, rfl⟩
abbrev main_v408 : Ref sig .tc := ⟨.hbm, 562, rfl⟩
abbrev main_c_70 : Ref sig .tc := ⟨.hbm, 563, rfl⟩
abbrev main_v409 : Ref sig .tc := ⟨.hbm, 564, rfl⟩
abbrev main_v410 : Ref sig .tc := ⟨.hbm, 565, rfl⟩
abbrev main_c_71 : Ref sig .tc := ⟨.hbm, 566, rfl⟩
abbrev main_v411 : Ref sig .tc := ⟨.hbm, 567, rfl⟩
abbrev main_v412 : Ref sig .tc := ⟨.hbm, 568, rfl⟩
abbrev main_v413 : Ref sig .tc := ⟨.hbm, 569, rfl⟩
abbrev main_v414 : Ref sig .tc := ⟨.hbm, 570, rfl⟩
abbrev main_v415 : Ref sig .tc := ⟨.hbm, 571, rfl⟩
abbrev main_v416 : Ref sig .tc := ⟨.hbm, 572, rfl⟩
abbrev main_v417 : Ref sig .tc := ⟨.hbm, 573, rfl⟩
abbrev main_cst_72 : Ref sig .tc := ⟨.hbm, 574, rfl⟩
abbrev main_v418 : Ref sig .tc := ⟨.hbm, 575, rfl⟩
abbrev main_v419 : Ref sig .tc := ⟨.hbm, 576, rfl⟩
abbrev main_v420 : Ref sig .tc := ⟨.hbm, 577, rfl⟩
abbrev main_v421 : Ref sig .tc := ⟨.hbm, 578, rfl⟩
abbrev main_v422 : Ref sig .tc := ⟨.hbm, 579, rfl⟩
abbrev main_v423 : Ref sig .tc := ⟨.hbm, 580, rfl⟩
abbrev main_v424 : Ref sig .tc := ⟨.hbm, 581, rfl⟩
abbrev main_v425 : Ref sig .tc := ⟨.hbm, 582, rfl⟩
abbrev main_v426 : Ref sig .tc := ⟨.hbm, 583, rfl⟩
abbrev main_v427 : Ref sig .tc := ⟨.hbm, 584, rfl⟩
abbrev main_v428 : Ref sig .tc := ⟨.hbm, 585, rfl⟩
abbrev main_v429 : Ref sig .tc := ⟨.hbm, 586, rfl⟩
abbrev main_v430 : Ref sig .tc := ⟨.hbm, 587, rfl⟩
abbrev main_v431 : Ref sig .tc := ⟨.hbm, 588, rfl⟩
abbrev main_v432 : Ref sig .tc := ⟨.hbm, 589, rfl⟩
abbrev main_v433 : Ref sig .tc := ⟨.hbm, 590, rfl⟩
abbrev main_cst_73 : Ref sig .tc := ⟨.hbm, 591, rfl⟩
abbrev main_v434 : Ref sig .tc := ⟨.hbm, 592, rfl⟩
abbrev main_cst_74 : Ref sig .tc := ⟨.hbm, 593, rfl⟩
abbrev main_v435 : Ref sig .tc := ⟨.hbm, 594, rfl⟩
abbrev main_v436 : Ref sig .tc := ⟨.hbm, 595, rfl⟩
abbrev main_v437 : Ref sig .tc := ⟨.hbm, 596, rfl⟩
abbrev main_v438 : Ref sig .tc := ⟨.hbm, 597, rfl⟩
abbrev main_v439 : Ref sig .tc := ⟨.hbm, 598, rfl⟩
abbrev main_v440 : Ref sig .tc := ⟨.hbm, 599, rfl⟩
abbrev main_cst_75 : Ref sig .tc := ⟨.hbm, 600, rfl⟩
abbrev main_v441 : Ref sig .tc := ⟨.hbm, 601, rfl⟩
abbrev main_cst_76 : Ref sig .tc := ⟨.hbm, 602, rfl⟩
abbrev main_v442 : Ref sig .tc := ⟨.hbm, 603, rfl⟩
abbrev main_v443 : Ref sig .tc := ⟨.hbm, 604, rfl⟩
abbrev main_v444 : Ref sig .tc := ⟨.hbm, 605, rfl⟩
abbrev main_call13_v0 : Ref sig .tc := ⟨.hbm, 606, rfl⟩
abbrev main_v445 : Ref sig .tc := ⟨.hbm, 607, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  reducesTo_S4x100000x128_S100000x128_d0 : S4x100000x128.ReducesTo [0] S100000x128
  h_S_ : 0 < S_.numel
  concatenates_S1x100000x128_S1x100000x128_S1x100000x128_S3x100000x128_d0 : Shape.Concatenates [S1x100000x128, S1x100000x128, S1x100000x128] S3x100000x128 0
  reducesTo_S3x100000x128_S100000x128_d0 : S3x100000x128.ReducesTo [0] S100000x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KI.Body.lean ====
import proofs.«120490_j9904194585124_1_alg».proof.Proof.Gen.KernelIdeal.Launch
import proofs.«120490_j9904194585124_1_alg».proof.Proof.Gen.KernelIdeal.Skeleton
import proofs.«120490_j9904194585124_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The body's accesses: each is of a whole staging buffer -/

abbrev rA : Rect S2000x128 := Rect.unit (s := S2000x128) ![0, 0] S2000x128.size inb_S2000x128_S2000x128_0_0
abbrev rB : Rect S2000x1 := Rect.unit (s := S2000x1) ![0, 0] S2000x1.size inb_S2000x1_S2000x1_0_0
abbrev rC : Rect S128x128 := Rect.unit (s := S128x128) ![0, 0] S128x128.size inb_S128x128_S128x128_0_0
abbrev rD : Rect S1x128 := Rect.unit (s := S1x128) ![0, 0] S1x128.size inb_S1x128_S1x128_0_0

/-! # Region 0: the pipeline of custom_call 0, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (unfetched, the index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the nine input blocks: its one store, of the whole block. -/
def out0_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k0_pay1 (View.ld x0 rA) (k0_pay2 (View.ld x1 rA)) (k0_pay3 (View.ld x2 rA)) (k0_pay4 (View.ld x3 rB)) (k0_pay5 (View.ld x8 rD)) (k0_pay8 (View.ld x0 rA) (View.ld x1 rA) (View.ld x6 rC) (View.ld x7 rC)) (k0_pay9 (View.ld x0 rA) (View.ld x1 rA) (View.ld x4 rC) (View.ld x5 rC)) (Scalar.ofBits .f32 0x3F800000#32)⟩]

/-- The one store is of the whole buffer, so it covers it. -/
theorem cover0_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 0 on core `c`: the arrays as the region finds them; after the body at point `t` each input's
    buffer at its block and the output's at `out0_9` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-! # Region 1: the pipeline of custom_call 1, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (unfetched, the index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the nine input blocks: its one store, of the whole block. -/
def out1_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k1_pay1 (k1_pay2 (View.ld x0 rA)) (k1_pay3 (View.ld x1 rA)) (k1_pay4 (View.ld x2 rA)) (k1_pay5 (View.ld x3 rB)) (k1_pay6 (View.ld x8 rD)) (k1_pay9 (View.ld x0 rA) (View.ld x1 rA) (View.ld x6 rC) (View.ld x7 rC)) (k1_pay10 (View.ld x0 rA) (View.ld x1 rA) (View.ld x4 rC) (View.ld x5 rC))⟩]

/-- The one store is of the whole buffer, so it covers it. -/
theorem cover1_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 1 on core `c`: the arrays as the region finds them; after the body at point `t` each input's
    buffer at its block and the output's at `out1_9` of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-! # Region 2: the pipeline of custom_call 2, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (unfetched, the index has not moved). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the nine input blocks: its one store, of the whole block. -/
def out2_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k2_pay1 (k2_pay2 (View.ld x0 rA)) (k2_pay3 (View.ld x1 rA)) (k2_pay4 (View.ld x2 rA)) (k2_pay5 (View.ld x3 rB)) (k2_pay6 (View.ld x8 rD)) (k2_pay9 (View.ld x0 rA) (View.ld x1 rA) (View.ld x6 rC) (View.ld x7 rC)) (k2_pay10 (View.ld x0 rA) (View.ld x1 rA) (View.ld x4 rC) (View.ld x5 rC))⟩]

/-- The one store is of the whole buffer, so it covers it. -/
theorem cover2_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 2 on core `c`: the arrays as the region finds them; after the body at point `t` each input's
    buffer at its block and the output's at `out2_9` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

end Regions

end Cert.KernelIdeal.Hand

end
-- ==== Proof.KI.Bound.lean ====
import proofs.«120490_j9904194585124_1_alg».proof.Proof.KI.Body

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- The same read at the TensorCore's references (what region 1's proof data take). -/
abbrev V5 : (c : Dev nD) → (b : Ref sig .tc) → Buf (Elt F) ((c : Thread nD τ).loc b) := fun c b => W5 m ρ c b

/-- At region 1's exit: its arrays at what the pipeline leaves (the inputs as entered, the output's write-backs folded),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- The same read at the TensorCore's references (what region 2's proof data take). -/
abbrev V7 : (c : Dev nD) → (b : Ref sig .tc) → Buf (Elt F) ((c : Thread nD τ).loc b) := fun c b => W7 m ρ c b

/-- At region 2's exit: its arrays at what the pipeline leaves (the inputs as entered, the output's write-backs folded),
    every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`. -/
abbrev W9 : Dev nD → Valuation τ sig (Elt F) := fun c => StableHlo.after hostOps3 (W8 m ρ c)
/-- After `hostOps3_1` (the return). -/
abbrev W10 : Dev nD → Valuation τ sig (Elt F) := fun c => StableHlo.after hostOps3_1 (W9 m ρ c)

end Cert.KernelIdeal.Hand

end
-- ==== Proof.KI.Args.lean ====
import proofs.«120490_j9904194585124_1_alg».proof.Proof.KI.Bound

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation and no region writes one (region 0 reads `main_arg0` through an
    input window; every other region bypasses every argument), so the fold at an argument's buffer walks back to the
    launch memory -/

set_option maxHeartbeats 4000000 in
theorem hostOps0_keeps_arg0 : ∀ op ∈ (hostOps0 : List (HloOp τ sig (Elt F))), (Proc.devRef .tc main_arg0 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg1 : ∀ op ∈ (hostOps0 : List (HloOp τ sig (Elt F))), (Proc.devRef .tc main_arg1 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg2 : ∀ op ∈ (hostOps0 : List (HloOp τ sig (Elt F))), (Proc.devRef .tc main_arg2 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg3 : ∀ op ∈ (hostOps0 : List (HloOp τ sig (Elt F))), (Proc.devRef .tc main_arg3 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg4 : ∀ op ∈ (hostOps0 : List (HloOp τ sig (Elt F))), (Proc.devRef .tc main_arg4 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg5 : ∀ op ∈ (hostOps0 : List (HloOp τ sig (Elt F))), (Proc.devRef .tc main_arg5 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg6 : ∀ op ∈ (hostOps0 : List (HloOp τ sig (Elt F))), (Proc.devRef .tc main_arg6 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg7 : ∀ op ∈ (hostOps0 : List (HloOp τ sig (Elt F))), (Proc.devRef .tc main_arg7 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg0 : ∀ op ∈ (hostOps0_1 : List (HloOp τ sig (Elt F))), (Proc.devRef .tc main_arg0 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg1 : ∀ op ∈ (hostOps0_1 : List (HloOp τ sig (Elt F))), (Proc.devRef .tc main_arg1 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg2 : ∀ op ∈ (hostOps0_1 : List (HloOp τ sig (Elt F))), (Proc.devRef .tc main_arg2 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg3 : ∀ op ∈ (hostOps0_1 : List (HloOp τ sig (Elt F))), (Proc.devRef .tc main_arg3 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg4 : ∀ op ∈ (hostOps0_1 : List (HloOp τ sig (Elt F))), (Proc.devRef .tc main_arg4 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg5 : ∀ op ∈ (hostOps0_1 : List (HloOp τ sig (Elt F))), (Proc.devRef .tc main_arg5 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg6 : ∀ op ∈ (hostOps0_1 : List (HloOp τ sig (Elt F))), (Proc.devRef .tc main_arg6 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg7 : ∀ op ∈ (hostOps0_1 : List (HloOp τ sig (Elt F))), (Proc.devRef .tc main_arg7 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg0 : ∀ op ∈ (hostOps0_2 : List (HloOp τ sig (Elt F))), (Proc.devRef .tc main_arg0 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg1 : ∀ op ∈ (hostOps0_2 : List (HloOp τ sig (Elt F))), (Proc.devRef .tc main_arg1 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg2 : ∀ op ∈ (hostOps0_2 : List (HloOp τ sig (Elt F))), (Proc.devRef .tc main_arg2 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg3 : ∀ op ∈ (hostOps0_2 : List (HloOp τ sig (Elt F))), (Proc.devRef .tc main_arg3 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg4 : ∀ op ∈ (hostOps0_2 : List (HloOp τ sig (Elt F))), (Proc.devRef .tc main_arg4 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg5 : ∀ op ∈ (hostOps0_2 : List (HloOp τ sig (Elt F))), (Proc.devRef .tc main_arg5 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg6 : ∀ op ∈ (hostOps0_2 : List (HloOp τ sig (Elt F))), (Proc.devRef .tc main_arg6 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg7 : ∀ op ∈ (hostOps0_2 : List (HloOp τ sig (Elt F))), (Proc.devRef .tc main_arg7 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg0 : ∀ op ∈ (hostOps1 : List (HloOp τ sig (Elt F))), (Proc.devRef .tc main_arg0 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg1 : ∀ op ∈ (hostOps1 : List (HloOp τ sig (Elt F))), (Proc.devRef .tc main_arg1 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg2 : ∀ op ∈ (hostOps1 : List (HloOp τ sig (Elt F))), (Proc.devRef .tc main_arg2 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg3 : ∀ op ∈ (hostOps1 : List (HloOp τ sig (Elt F))), (Proc.devRef .tc main_arg3 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg4 : ∀ op ∈ (hostOps1 : List (HloOp τ sig (Elt F))), (Proc.devRef .tc main_arg4 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg5 : ∀ op ∈ (hostOps1 : List (HloOp τ sig (Elt F))), (Proc.devRef .tc main_arg5 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg6 : ∀ op ∈ (hostOps1 : List (HloOp τ sig (Elt F))), (Proc.devRef .tc main_arg6 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg7 : ∀ op ∈ (hostOps1 : List (HloOp τ sig (Elt F))), (Proc.devRef .tc main_arg7 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg0 : ∀ op ∈ (hostOps2 : List (HloOp τ sig (Elt F))), (Proc.devRef .tc main_arg0 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg1 : ∀ op ∈ (hostOps2 : List (HloOp τ sig (Elt F))), (Proc.devRef .tc main_arg1 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg2 : ∀ op ∈ (hostOps2 : List (HloOp τ sig (Elt F))), (Proc.devRef .tc main_arg2 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg3 : ∀ op ∈ (hostOps2 : List (HloOp τ sig (Elt F))), (Proc.devRef .tc main_arg3 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg4 : ∀ op ∈ (hostOps2 : List (HloOp τ sig (Elt F))), (Proc.devRef .tc main_arg4 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg5 : ∀ op ∈ (hostOps2 : List (HloOp τ sig (Elt F))), (Proc.devRef .tc main_arg5 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg6 : ∀ op ∈ (hostOps2 : List (HloOp τ sig (Elt F))), (Proc.devRef .tc main_arg6 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg7 : ∀ op ∈ (hostOps2 : List (HloOp τ sig (Elt F))), (Proc.devRef .tc main_arg7 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg0 : ∀ op ∈ (hostOps3 : List (HloOp τ sig (Elt F))), (Proc.devRef .tc main_arg0 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg1 : ∀ op ∈ (hostOps3 : List (HloOp τ sig (Elt F))), (Proc.devRef .tc main_arg1 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg2 : ∀ op ∈ (hostOps3 : List (HloOp τ sig (Elt F))), (Proc.devRef .tc main_arg2 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg3 : ∀ op ∈ (hostOps3 : List (HloOp τ sig (Elt F))), (Proc.devRef .tc main_arg3 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg4 : ∀ op ∈ (hostOps3 : List (HloOp τ sig (Elt F))), (Proc.devRef .tc main_arg4 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg5 : ∀ op ∈ (hostOps3 : List (HloOp τ sig (Elt F))), (Proc.devRef .tc main_arg5 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg6 : ∀ op ∈ (hostOps3 : List (HloOp τ sig (Elt F))), (Proc.devRef .tc main_arg6 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg7 : ∀ op ∈ (hostOps3 : List (HloOp τ sig (Elt F))), (Proc.devRef .tc main_arg7 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg0 : ∀ op ∈ (hostOps3_1 : List (HloOp τ sig (Elt F))), (Proc.devRef .tc main_arg0 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg1 : ∀ op ∈ (hostOps3_1 : List (HloOp τ sig (Elt F))), (Proc.devRef .tc main_arg1 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg2 : ∀ op ∈ (hostOps3_1 : List (HloOp τ sig (Elt F))), (Proc.devRef .tc main_arg2 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg3 : ∀ op ∈ (hostOps3_1 : List (HloOp τ sig (Elt F))), (Proc.devRef .tc main_arg3 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg4 : ∀ op ∈ (hostOps3_1 : List (HloOp τ sig (Elt F))), (Proc.devRef .tc main_arg4 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg5 : ∀ op ∈ (hostOps3_1 : List (HloOp τ sig (Elt F))), (Proc.devRef .tc main_arg5 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg6 : ∀ op ∈ (hostOps3_1 : List (HloOp τ sig (Elt F))), (Proc.devRef .tc main_arg6 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg7 : ∀ op ∈ (hostOps3_1 : List (HloOp τ sig (Elt F))), (Proc.devRef .tc main_arg7 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_forall_not_mem (b := Proc.devRef .tc main_arg0) _ _ (hostOps3_1_keeps_arg0)
    _ = W8 m ρ c (Proc.devRef .tc main_arg0) := StableHlo.after_of_forall_not_mem (b := Proc.devRef .tc main_arg0) _ _ (hostOps3_keeps_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (hostOps2_keeps_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (hostOps1_keeps_arg0)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_forall_not_mem (b := Proc.devRef .tc main_arg0) _ _ (hostOps0_2_keeps_arg0)
    _ = W1 m ρ c (Proc.devRef .tc main_arg0) := StableHlo.after_of_forall_not_mem (b := Proc.devRef .tc main_arg0) _ _ (hostOps0_1_keeps_arg0)
    _ = W0 m ρ c (Proc.devRef .tc main_arg0) := StableHlo.after_of_forall_not_mem (b := Proc.devRef .tc main_arg0) _ _ (hostOps0_keeps_arg0)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_forall_not_mem (b := Proc.devRef .tc main_arg1) _ _ (hostOps3_1_keeps_arg1)
    _ = W8 m ρ c (Proc.devRef .tc main_arg1) := StableHlo.after_of_forall_not_mem (b := Proc.devRef .tc main_arg1) _ _ (hostOps3_keeps_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (hostOps2_keeps_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (hostOps1_keeps_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (hostOps0_2_keeps_arg1)
    _ = W1 m ρ c (Proc.devRef .tc main_arg1) := StableHlo.after_of_forall_not_mem (b := Proc.devRef .tc main_arg1) _ _ (hostOps0_1_keeps_arg1)
    _ = W0 m ρ c (Proc.devRef .tc main_arg1) := StableHlo.after_of_forall_not_mem (b := Proc.devRef .tc main_arg1) _ _ (hostOps0_keeps_arg1)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_forall_not_mem (b := Proc.devRef .tc main_arg2) _ _ (hostOps3_1_keeps_arg2)
    _ = W8 m ρ c (Proc.devRef .tc main_arg2) := StableHlo.after_of_forall_not_mem (b := Proc.devRef .tc main_arg2) _ _ (hostOps3_keeps_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (hostOps2_keeps_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (hostOps1_keeps_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (hostOps0_2_keeps_arg2)
    _ = W1 m ρ c (Proc.devRef .tc main_arg2) := StableHlo.after_of_forall_not_mem (b := Proc.devRef .tc main_arg2) _ _ (hostOps0_1_keeps_arg2)
    _ = W0 m ρ c (Proc.devRef .tc main_arg2) := StableHlo.after_of_forall_not_mem (b := Proc.devRef .tc main_arg2) _ _ (hostOps0_keeps_arg2)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_forall_not_mem (b := Proc.devRef .tc main_arg3) _ _ (hostOps3_1_keeps_arg3)
    _ = W8 m ρ c (Proc.devRef .tc main_arg3) := StableHlo.after_of_forall_not_mem (b := Proc.devRef .tc main_arg3) _ _ (hostOps3_keeps_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (hostOps2_keeps_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (hostOps1_keeps_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (hostOps0_2_keeps_arg3)
    _ = W1 m ρ c (Proc.devRef .tc main_arg3) := StableHlo.after_of_forall_not_mem (b := Proc.devRef .tc main_arg3) _ _ (hostOps0_1_keeps_arg3)
    _ = W0 m ρ c (Proc.devRef .tc main_arg3) := StableHlo.after_of_forall_not_mem (b := Proc.devRef .tc main_arg3) _ _ (hostOps0_keeps_arg3)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_forall_not_mem (b := Proc.devRef .tc main_arg4) _ _ (hostOps3_1_keeps_arg4)
    _ = W8 m ρ c (Proc.devRef .tc main_arg4) := StableHlo.after_of_forall_not_mem (b := Proc.devRef .tc main_arg4) _ _ (hostOps3_keeps_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (hostOps2_keeps_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (hostOps1_keeps_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (hostOps0_2_keeps_arg4)
    _ = W1 m ρ c (Proc.devRef .tc main_arg4) := StableHlo.after_of_forall_not_mem (b := Proc.devRef .tc main_arg4) _ _ (hostOps0_1_keeps_arg4)
    _ = W0 m ρ c (Proc.devRef .tc main_arg4) := StableHlo.after_of_forall_not_mem (b := Proc.devRef .tc main_arg4) _ _ (hostOps0_keeps_arg4)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_forall_not_mem (b := Proc.devRef .tc main_arg5) _ _ (hostOps3_1_keeps_arg5)
    _ = W8 m ρ c (Proc.devRef .tc main_arg5) := StableHlo.after_of_forall_not_mem (b := Proc.devRef .tc main_arg5) _ _ (hostOps3_keeps_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (hostOps2_keeps_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (hostOps1_keeps_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (hostOps0_2_keeps_arg5)
    _ = W1 m ρ c (Proc.devRef .tc main_arg5) := StableHlo.after_of_forall_not_mem (b := Proc.devRef .tc main_arg5) _ _ (hostOps0_1_keeps_arg5)
    _ = W0 m ρ c (Proc.devRef .tc main_arg5) := StableHlo.after_of_forall_not_mem (b := Proc.devRef .tc main_arg5) _ _ (hostOps0_keeps_arg5)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_forall_not_mem (b := Proc.devRef .tc main_arg6) _ _ (hostOps3_1_keeps_arg6)
    _ = W8 m ρ c (Proc.devRef .tc main_arg6) := StableHlo.after_of_forall_not_mem (b := Proc.devRef .tc main_arg6) _ _ (hostOps3_keeps_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (hostOps2_keeps_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (hostOps1_keeps_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (hostOps0_2_keeps_arg6)
    _ = W1 m ρ c (Proc.devRef .tc main_arg6) := StableHlo.after_of_forall_not_mem (b := Proc.devRef .tc main_arg6) _ _ (hostOps0_1_keeps_arg6)
    _ = W0 m ρ c (Proc.devRef .tc main_arg6) := StableHlo.after_of_forall_not_mem (b := Proc.devRef .tc main_arg6) _ _ (hostOps0_keeps_arg6)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_forall_not_mem (b := Proc.devRef .tc main_arg7) _ _ (hostOps3_1_keeps_arg7)
    _ = W8 m ρ c (Proc.devRef .tc main_arg7) := StableHlo.after_of_forall_not_mem (b := Proc.devRef .tc main_arg7) _ _ (hostOps3_keeps_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (hostOps2_keeps_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (hostOps1_keeps_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (hostOps0_2_keeps_arg7)
    _ = W1 m ρ c (Proc.devRef .tc main_arg7) := StableHlo.after_of_forall_not_mem (b := Proc.devRef .tc main_arg7) _ _ (hostOps0_1_keeps_arg7)
    _ = W0 m ρ c (Proc.devRef .tc main_arg7) := StableHlo.after_of_forall_not_mem (b := Proc.devRef .tc main_arg7) _ _ (hostOps0_keeps_arg7)
    _ = m ((c : Thread nD τ).loc main_arg7) := rfl

end Cert.KernelIdeal.Hand

end
-- ==== Proof.KI.Sound0.lean ====
import proofs.«120490_j9904194585124_1_alg».proof.Proof.KI.Body

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out0_9` of the inputs': the body loads the nine
    inputs, loads the output buffer once (the value unused) and stores the whole output block. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__tail_fuse_kernel i arg1 harg1 arg2 harg2 arg3 harg3 arg4 harg4 arg5 harg5 arg6 harg6 arg7 harg7 arg8 harg8 arg9 harg9 arg10 harg10) K := by
  simp only [cc0__tail_fuse_kernel_eq_skeleton]; unfold cc0__tail_fuse_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Sound1.lean ====
import proofs.«120490_j9904194585124_1_alg».proof.Proof.KI.Body

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out1_9` of the inputs': the body loads the nine
    inputs, loads the output buffer once (the value unused) and stores the whole output block. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__tail_fuse_kernel i arg1 harg1 arg2 harg2 arg3 harg3 arg4 harg4 arg5 harg5 arg6 harg6 arg7 harg7 arg8 harg8 arg9 harg9 arg10 harg10) K := by
  simp only [cc1__tail_fuse_kernel_eq_skeleton]; unfold cc1__tail_fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Sound2.lean ====
import proofs.«120490_j9904194585124_1_alg».proof.Proof.KI.Body

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out2_9` of the inputs': the body loads the nine
    inputs, loads the output buffer once (the value unused) and stores the whole output block. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__tail_fuse_kernel i arg1 harg1 arg2 harg2 arg3 harg3 arg4 harg4 arg5 harg5 arg6 harg6 arg7 harg7 arg8 harg8 arg9 harg9 arg10 harg10) K := by
  simp only [cc2__tail_fuse_kernel_eq_skeleton]; unfold cc2__tail_fuse_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The body at any point: the inputs' memrefs hold their blocks, so `sound_kernel2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Run.lean ====
import proofs.«120490_j9904194585124_1_alg».proof.Proof.KI.Bound
import proofs.«120490_j9904194585124_1_alg».proof.Proof.KI.Args
import proofs.«120490_j9904194585124_1_alg».proof.Proof.KI.Sound0
import proofs.«120490_j9904194585124_1_alg».proof.Proof.KI.Sound1
import proofs.«120490_j9904194585124_1_alg».proof.Proof.KI.Sound2

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's ten segments from the launch to the return -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No operation of `hostOps0_2` allocates a buffer. -/
theorem hostOps0_2_fresh : (hostOps0_2 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the generator
    register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W3`, left at `W4`. Its arrays split out of
    the unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W5`, left at `W6`. Its arrays split out of
    the unscoped buffers and put back at the exit contents; the generator register into the invariant and out; nothing
    owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W7`, left at `W8`. Its arrays split out of
    the unscoped buffers and put back at the exit contents; the generator register into the invariant and out; nothing
    owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)) ]
/-- @main IS the run of the segments. -/
theorem main_run (c : Dev nD) : main (F := F) c = Pipeline.Seg.run (segs m ρ) := (main_chain c).trans (by chain_rfl)

-- the kit's implicit arguments are found by unifying its conclusion with this one, which takes unfolding plain definitions
-- in a metavariable's type
set_option backward.isDefEq.respectTransparency.types false in
/-- The run: at the compiled mesh, from any memory with zero counters, every weakly fair execution of @main on the
    TensorCores terminates, nothing faulting, and every final state holds every unscoped buffer at the last boundary's
    contents `W10`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every final state has the eight argument arrays as launched — each an unscoped buffer the run leaves at
    `W10`, which at an argument's buffer is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_main m ρ)

end Cert.KernelIdeal.Hand

end
-- ==== Proof.K.Body.lean ====
import proofs.«120490_j9904194585124_1_alg».proof.Proof.Gen.Kernel.Launch
import proofs.«120490_j9904194585124_1_alg».proof.Proof.Gen.Kernel.Skeleton
import proofs.«120490_j9904194585124_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The body's accesses: each is of a whole staging buffer -/

abbrev rA : Rect S2000x128 := Rect.unit (s := S2000x128) ![0, 0] S2000x128.size inb_S2000x128_S2000x128_0_0
abbrev rB : Rect S2000x1 := Rect.unit (s := S2000x1) ![0, 0] S2000x1.size inb_S2000x1_S2000x1_0_0
abbrev rC : Rect S128x128 := Rect.unit (s := S128x128) ![0, 0] S128x128.size inb_S128x128_S128x128_0_0
abbrev rD : Rect S1x128 := Rect.unit (s := S1x128) ![0, 0] S1x128.size inb_S1x128_S1x128_0_0

/-! # Region 0: the pipeline of custom_call 0, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (unfetched, the index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the nine input blocks: its one store, of the whole block. -/
def out0_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k0_pay1 (View.ld x0 rA) (k0_pay2 (View.ld x1 rA)) (k0_pay3 (View.ld x2 rA)) (k0_pay4 (View.ld x3 rB)) (k0_pay5 (View.ld x8 rD)) (k0_pay8 (View.ld x0 rA) (View.ld x1 rA) (View.ld x6 rC) (View.ld x7 rC)) (k0_pay9 (View.ld x0 rA) (View.ld x1 rA) (View.ld x4 rC) (View.ld x5 rC)) (Scalar.ofBits .f32 0x3F800000#32)⟩]

/-- The one store is of the whole buffer, so it covers it. -/
theorem cover0_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 0 on core `c`: the arrays as the region finds them; after the body at point `t` each input's
    buffer at its block and the output's at `out0_9` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-! # Region 1: the pipeline of custom_call 1, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (unfetched, the index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the nine input blocks: its one store, of the whole block. -/
def out1_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k1_pay1 (k1_pay2 (View.ld x0 rA)) (k1_pay3 (View.ld x1 rA)) (k1_pay4 (View.ld x2 rA)) (k1_pay5 (View.ld x3 rB)) (k1_pay6 (View.ld x8 rD)) (k1_pay9 (View.ld x0 rA) (View.ld x1 rA) (View.ld x6 rC) (View.ld x7 rC)) (k1_pay10 (View.ld x0 rA) (View.ld x1 rA) (View.ld x4 rC) (View.ld x5 rC))⟩]

/-- The one store is of the whole buffer, so it covers it. -/
theorem cover1_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 1 on core `c`: the arrays as the region finds them; after the body at point `t` each input's
    buffer at its block and the output's at `out1_9` of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-! # Region 2: the pipeline of custom_call 2, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (unfetched, the index has not moved). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the nine input blocks: its one store, of the whole block. -/
def out2_9 (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) : Vec F S2000x128 .f32 :=
  View.canon [⟨rA, k2_pay1 (k2_pay2 (View.ld x0 rA)) (k2_pay3 (View.ld x1 rA)) (k2_pay4 (View.ld x2 rA)) (k2_pay5 (View.ld x3 rB)) (k2_pay6 (View.ld x8 rD)) (k2_pay9 (View.ld x0 rA) (View.ld x1 rA) (View.ld x6 rC) (View.ld x7 rC)) (k2_pay10 (View.ld x0 rA) (View.ld x1 rA) (View.ld x4 rC) (View.ld x5 rC))⟩]

/-- The one store is of the whole buffer, so it covers it. -/
theorem cover2_9 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The proof data of pipeline 2 on core `c`: the arrays as the region finds them; after the body at point `t` each input's
    buffer at its block and the output's at `out2_9` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

end Regions

end Cert.Kernel.Hand

end
-- ==== Proof.K.Bound.lean ====
import proofs.«120490_j9904194585124_1_alg».proof.Proof.K.Body

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- The same read at the TensorCore's references (what region 1's proof data take). -/
abbrev V5 : (c : Dev nD) → (b : Ref sig .tc) → Buf (Elt F) ((c : Thread nD τ).loc b) := fun c b => W5 m ρ c b

/-- At region 1's exit: its arrays at what the pipeline leaves (the inputs as entered, the output's write-backs folded),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- The same read at the TensorCore's references (what region 2's proof data take). -/
abbrev V7 : (c : Dev nD) → (b : Ref sig .tc) → Buf (Elt F) ((c : Thread nD τ).loc b) := fun c b => W7 m ρ c b

/-- At region 2's exit: its arrays at what the pipeline leaves (the inputs as entered, the output's write-backs folded),
    every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`. -/
abbrev W9 : Dev nD → Valuation τ sig (Elt F) := fun c => StableHlo.after hostOps3 (W8 m ρ c)
/-- After `hostOps3_1` (the return). -/
abbrev W10 : Dev nD → Valuation τ sig (Elt F) := fun c => StableHlo.after hostOps3_1 (W9 m ρ c)

end Cert.Kernel.Hand

end
-- ==== Proof.K.Args.lean ====
import proofs.«120490_j9904194585124_1_alg».proof.Proof.K.Bound

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation and no region writes one (region 0 reads `main_arg0` through an
    input window; every other region bypasses every argument), so the fold at an argument's buffer walks back to the
    launch memory -/

set_option maxHeartbeats 4000000 in
theorem hostOps0_keeps_arg0 : ∀ op ∈ (hostOps0 : List (HloOp τ sig (Elt F))), (Proc.devRef .tc main_arg0 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg1 : ∀ op ∈ (hostOps0 : List (HloOp τ sig (Elt F))), (Proc.devRef .tc main_arg1 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg2 : ∀ op ∈ (hostOps0 : List (HloOp τ sig (Elt F))), (Proc.devRef .tc main_arg2 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg3 : ∀ op ∈ (hostOps0 : List (HloOp τ sig (Elt F))), (Proc.devRef .tc main_arg3 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg4 : ∀ op ∈ (hostOps0 : List (HloOp τ sig (Elt F))), (Proc.devRef .tc main_arg4 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg5 : ∀ op ∈ (hostOps0 : List (HloOp τ sig (Elt F))), (Proc.devRef .tc main_arg5 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg6 : ∀ op ∈ (hostOps0 : List (HloOp τ sig (Elt F))), (Proc.devRef .tc main_arg6 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_keeps_arg7 : ∀ op ∈ (hostOps0 : List (HloOp τ sig (Elt F))), (Proc.devRef .tc main_arg7 : DevRef τ sig) ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg0 : ∀ op ∈ (hostOps0_1 : List (HloOp τ sig (Elt F))), (Proc.devRef .tc main_arg0 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg1 : ∀ op ∈ (hostOps0_1 : List (HloOp τ sig (Elt F))), (Proc.devRef .tc main_arg1 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg2 : ∀ op ∈ (hostOps0_1 : List (HloOp τ sig (Elt F))), (Proc.devRef .tc main_arg2 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg3 : ∀ op ∈ (hostOps0_1 : List (HloOp τ sig (Elt F))), (Proc.devRef .tc main_arg3 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg4 : ∀ op ∈ (hostOps0_1 : List (HloOp τ sig (Elt F))), (Proc.devRef .tc main_arg4 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg5 : ∀ op ∈ (hostOps0_1 : List (HloOp τ sig (Elt F))), (Proc.devRef .tc main_arg5 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg6 : ∀ op ∈ (hostOps0_1 : List (HloOp τ sig (Elt F))), (Proc.devRef .tc main_arg6 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_1_keeps_arg7 : ∀ op ∈ (hostOps0_1 : List (HloOp τ sig (Elt F))), (Proc.devRef .tc main_arg7 : DevRef τ sig) ∉ op.writes :=
  List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg0 : ∀ op ∈ (hostOps0_2 : List (HloOp τ sig (Elt F))), (Proc.devRef .tc main_arg0 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg1 : ∀ op ∈ (hostOps0_2 : List (HloOp τ sig (Elt F))), (Proc.devRef .tc main_arg1 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg2 : ∀ op ∈ (hostOps0_2 : List (HloOp τ sig (Elt F))), (Proc.devRef .tc main_arg2 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg3 : ∀ op ∈ (hostOps0_2 : List (HloOp τ sig (Elt F))), (Proc.devRef .tc main_arg3 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg4 : ∀ op ∈ (hostOps0_2 : List (HloOp τ sig (Elt F))), (Proc.devRef .tc main_arg4 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg5 : ∀ op ∈ (hostOps0_2 : List (HloOp τ sig (Elt F))), (Proc.devRef .tc main_arg5 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg6 : ∀ op ∈ (hostOps0_2 : List (HloOp τ sig (Elt F))), (Proc.devRef .tc main_arg6 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps0_2_keeps_arg7 : ∀ op ∈ (hostOps0_2 : List (HloOp τ sig (Elt F))), (Proc.devRef .tc main_arg7 : DevRef τ sig) ∉ op.writes :=
  List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg0 : ∀ op ∈ (hostOps1 : List (HloOp τ sig (Elt F))), (Proc.devRef .tc main_arg0 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg1 : ∀ op ∈ (hostOps1 : List (HloOp τ sig (Elt F))), (Proc.devRef .tc main_arg1 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg2 : ∀ op ∈ (hostOps1 : List (HloOp τ sig (Elt F))), (Proc.devRef .tc main_arg2 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg3 : ∀ op ∈ (hostOps1 : List (HloOp τ sig (Elt F))), (Proc.devRef .tc main_arg3 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg4 : ∀ op ∈ (hostOps1 : List (HloOp τ sig (Elt F))), (Proc.devRef .tc main_arg4 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg5 : ∀ op ∈ (hostOps1 : List (HloOp τ sig (Elt F))), (Proc.devRef .tc main_arg5 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg6 : ∀ op ∈ (hostOps1 : List (HloOp τ sig (Elt F))), (Proc.devRef .tc main_arg6 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps1_keeps_arg7 : ∀ op ∈ (hostOps1 : List (HloOp τ sig (Elt F))), (Proc.devRef .tc main_arg7 : DevRef τ sig) ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg0 : ∀ op ∈ (hostOps2 : List (HloOp τ sig (Elt F))), (Proc.devRef .tc main_arg0 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg1 : ∀ op ∈ (hostOps2 : List (HloOp τ sig (Elt F))), (Proc.devRef .tc main_arg1 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg2 : ∀ op ∈ (hostOps2 : List (HloOp τ sig (Elt F))), (Proc.devRef .tc main_arg2 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg3 : ∀ op ∈ (hostOps2 : List (HloOp τ sig (Elt F))), (Proc.devRef .tc main_arg3 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg4 : ∀ op ∈ (hostOps2 : List (HloOp τ sig (Elt F))), (Proc.devRef .tc main_arg4 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg5 : ∀ op ∈ (hostOps2 : List (HloOp τ sig (Elt F))), (Proc.devRef .tc main_arg5 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg6 : ∀ op ∈ (hostOps2 : List (HloOp τ sig (Elt F))), (Proc.devRef .tc main_arg6 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps2_keeps_arg7 : ∀ op ∈ (hostOps2 : List (HloOp τ sig (Elt F))), (Proc.devRef .tc main_arg7 : DevRef τ sig) ∉ op.writes :=
  List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg0 : ∀ op ∈ (hostOps3 : List (HloOp τ sig (Elt F))), (Proc.devRef .tc main_arg0 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg1 : ∀ op ∈ (hostOps3 : List (HloOp τ sig (Elt F))), (Proc.devRef .tc main_arg1 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg2 : ∀ op ∈ (hostOps3 : List (HloOp τ sig (Elt F))), (Proc.devRef .tc main_arg2 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg3 : ∀ op ∈ (hostOps3 : List (HloOp τ sig (Elt F))), (Proc.devRef .tc main_arg3 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg4 : ∀ op ∈ (hostOps3 : List (HloOp τ sig (Elt F))), (Proc.devRef .tc main_arg4 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg5 : ∀ op ∈ (hostOps3 : List (HloOp τ sig (Elt F))), (Proc.devRef .tc main_arg5 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg6 : ∀ op ∈ (hostOps3 : List (HloOp τ sig (Elt F))), (Proc.devRef .tc main_arg6 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_keeps_arg7 : ∀ op ∈ (hostOps3 : List (HloOp τ sig (Elt F))), (Proc.devRef .tc main_arg7 : DevRef τ sig) ∉ op.writes :=
  List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg0 : ∀ op ∈ (hostOps3_1 : List (HloOp τ sig (Elt F))), (Proc.devRef .tc main_arg0 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg1 : ∀ op ∈ (hostOps3_1 : List (HloOp τ sig (Elt F))), (Proc.devRef .tc main_arg1 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg2 : ∀ op ∈ (hostOps3_1 : List (HloOp τ sig (Elt F))), (Proc.devRef .tc main_arg2 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg3 : ∀ op ∈ (hostOps3_1 : List (HloOp τ sig (Elt F))), (Proc.devRef .tc main_arg3 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg4 : ∀ op ∈ (hostOps3_1 : List (HloOp τ sig (Elt F))), (Proc.devRef .tc main_arg4 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg5 : ∀ op ∈ (hostOps3_1 : List (HloOp τ sig (Elt F))), (Proc.devRef .tc main_arg5 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg6 : ∀ op ∈ (hostOps3_1 : List (HloOp τ sig (Elt F))), (Proc.devRef .tc main_arg6 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
theorem hostOps3_1_keeps_arg7 : ∀ op ∈ (hostOps3_1 : List (HloOp τ sig (Elt F))), (Proc.devRef .tc main_arg7 : DevRef τ sig) ∉ op.writes :=
  List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_forall_not_mem (b := Proc.devRef .tc main_arg0) _ _ (hostOps3_1_keeps_arg0)
    _ = W8 m ρ c (Proc.devRef .tc main_arg0) := StableHlo.after_of_forall_not_mem (b := Proc.devRef .tc main_arg0) _ _ (hostOps3_keeps_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (hostOps2_keeps_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (hostOps1_keeps_arg0)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_forall_not_mem (b := Proc.devRef .tc main_arg0) _ _ (hostOps0_2_keeps_arg0)
    _ = W1 m ρ c (Proc.devRef .tc main_arg0) := StableHlo.after_of_forall_not_mem (b := Proc.devRef .tc main_arg0) _ _ (hostOps0_1_keeps_arg0)
    _ = W0 m ρ c (Proc.devRef .tc main_arg0) := StableHlo.after_of_forall_not_mem (b := Proc.devRef .tc main_arg0) _ _ (hostOps0_keeps_arg0)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_forall_not_mem (b := Proc.devRef .tc main_arg1) _ _ (hostOps3_1_keeps_arg1)
    _ = W8 m ρ c (Proc.devRef .tc main_arg1) := StableHlo.after_of_forall_not_mem (b := Proc.devRef .tc main_arg1) _ _ (hostOps3_keeps_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (hostOps2_keeps_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (hostOps1_keeps_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (hostOps0_2_keeps_arg1)
    _ = W1 m ρ c (Proc.devRef .tc main_arg1) := StableHlo.after_of_forall_not_mem (b := Proc.devRef .tc main_arg1) _ _ (hostOps0_1_keeps_arg1)
    _ = W0 m ρ c (Proc.devRef .tc main_arg1) := StableHlo.after_of_forall_not_mem (b := Proc.devRef .tc main_arg1) _ _ (hostOps0_keeps_arg1)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_forall_not_mem (b := Proc.devRef .tc main_arg2) _ _ (hostOps3_1_keeps_arg2)
    _ = W8 m ρ c (Proc.devRef .tc main_arg2) := StableHlo.after_of_forall_not_mem (b := Proc.devRef .tc main_arg2) _ _ (hostOps3_keeps_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (hostOps2_keeps_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (hostOps1_keeps_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (hostOps0_2_keeps_arg2)
    _ = W1 m ρ c (Proc.devRef .tc main_arg2) := StableHlo.after_of_forall_not_mem (b := Proc.devRef .tc main_arg2) _ _ (hostOps0_1_keeps_arg2)
    _ = W0 m ρ c (Proc.devRef .tc main_arg2) := StableHlo.after_of_forall_not_mem (b := Proc.devRef .tc main_arg2) _ _ (hostOps0_keeps_arg2)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_forall_not_mem (b := Proc.devRef .tc main_arg3) _ _ (hostOps3_1_keeps_arg3)
    _ = W8 m ρ c (Proc.devRef .tc main_arg3) := StableHlo.after_of_forall_not_mem (b := Proc.devRef .tc main_arg3) _ _ (hostOps3_keeps_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (hostOps2_keeps_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (hostOps1_keeps_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (hostOps0_2_keeps_arg3)
    _ = W1 m ρ c (Proc.devRef .tc main_arg3) := StableHlo.after_of_forall_not_mem (b := Proc.devRef .tc main_arg3) _ _ (hostOps0_1_keeps_arg3)
    _ = W0 m ρ c (Proc.devRef .tc main_arg3) := StableHlo.after_of_forall_not_mem (b := Proc.devRef .tc main_arg3) _ _ (hostOps0_keeps_arg3)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_forall_not_mem (b := Proc.devRef .tc main_arg4) _ _ (hostOps3_1_keeps_arg4)
    _ = W8 m ρ c (Proc.devRef .tc main_arg4) := StableHlo.after_of_forall_not_mem (b := Proc.devRef .tc main_arg4) _ _ (hostOps3_keeps_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (hostOps2_keeps_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (hostOps1_keeps_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (hostOps0_2_keeps_arg4)
    _ = W1 m ρ c (Proc.devRef .tc main_arg4) := StableHlo.after_of_forall_not_mem (b := Proc.devRef .tc main_arg4) _ _ (hostOps0_1_keeps_arg4)
    _ = W0 m ρ c (Proc.devRef .tc main_arg4) := StableHlo.after_of_forall_not_mem (b := Proc.devRef .tc main_arg4) _ _ (hostOps0_keeps_arg4)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_forall_not_mem (b := Proc.devRef .tc main_arg5) _ _ (hostOps3_1_keeps_arg5)
    _ = W8 m ρ c (Proc.devRef .tc main_arg5) := StableHlo.after_of_forall_not_mem (b := Proc.devRef .tc main_arg5) _ _ (hostOps3_keeps_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (hostOps2_keeps_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (hostOps1_keeps_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (hostOps0_2_keeps_arg5)
    _ = W1 m ρ c (Proc.devRef .tc main_arg5) := StableHlo.after_of_forall_not_mem (b := Proc.devRef .tc main_arg5) _ _ (hostOps0_1_keeps_arg5)
    _ = W0 m ρ c (Proc.devRef .tc main_arg5) := StableHlo.after_of_forall_not_mem (b := Proc.devRef .tc main_arg5) _ _ (hostOps0_keeps_arg5)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_forall_not_mem (b := Proc.devRef .tc main_arg6) _ _ (hostOps3_1_keeps_arg6)
    _ = W8 m ρ c (Proc.devRef .tc main_arg6) := StableHlo.after_of_forall_not_mem (b := Proc.devRef .tc main_arg6) _ _ (hostOps3_keeps_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (hostOps2_keeps_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (hostOps1_keeps_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (hostOps0_2_keeps_arg6)
    _ = W1 m ρ c (Proc.devRef .tc main_arg6) := StableHlo.after_of_forall_not_mem (b := Proc.devRef .tc main_arg6) _ _ (hostOps0_1_keeps_arg6)
    _ = W0 m ρ c (Proc.devRef .tc main_arg6) := StableHlo.after_of_forall_not_mem (b := Proc.devRef .tc main_arg6) _ _ (hostOps0_keeps_arg6)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_forall_not_mem (b := Proc.devRef .tc main_arg7) _ _ (hostOps3_1_keeps_arg7)
    _ = W8 m ρ c (Proc.devRef .tc main_arg7) := StableHlo.after_of_forall_not_mem (b := Proc.devRef .tc main_arg7) _ _ (hostOps3_keeps_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (hostOps2_keeps_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (hostOps1_keeps_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (hostOps0_2_keeps_arg7)
    _ = W1 m ρ c (Proc.devRef .tc main_arg7) := StableHlo.after_of_forall_not_mem (b := Proc.devRef .tc main_arg7) _ _ (hostOps0_1_keeps_arg7)
    _ = W0 m ρ c (Proc.devRef .tc main_arg7) := StableHlo.after_of_forall_not_mem (b := Proc.devRef .tc main_arg7) _ _ (hostOps0_keeps_arg7)
    _ = m ((c : Thread nD τ).loc main_arg7) := rfl

end Cert.Kernel.Hand

end
-- ==== Proof.K.Sound0.lean ====
import proofs.«120490_j9904194585124_1_alg».proof.Proof.K.Body

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out0_9` of the inputs': the body loads the nine
    inputs, loads the output buffer once (the value unused) and stores the whole output block. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__tail_fuse_kernel i arg1 harg1 arg2 harg2 arg3 harg3 arg4 harg4 arg5 harg5 arg6 harg6 arg7 harg7 arg8 harg8 arg9 harg9 arg10 harg10) K := by
  simp only [cc0__tail_fuse_kernel_eq_skeleton]; unfold cc0__tail_fuse_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Sound1.lean ====
import proofs.«120490_j9904194585124_1_alg».proof.Proof.K.Body

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out1_9` of the inputs': the body loads the nine
    inputs, loads the output buffer once (the value unused) and stores the whole output block. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__tail_fuse_kernel i arg1 harg1 arg2 harg2 arg3 harg3 arg4 harg4 arg5 harg5 arg6 harg6 arg7 harg7 arg8 harg8 arg9 harg9 arg10 harg10) K := by
  simp only [cc1__tail_fuse_kernel_eq_skeleton]; unfold cc1__tail_fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Sound2.lean ====
import proofs.«120490_j9904194585124_1_alg».proof.Proof.K.Body

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

set_option maxHeartbeats 4000000 in
/-- The kernel body on whole staging memrefs, the inputs' at read contents `xW` and the output's at anything, runs to the
    continuation holding the inputs' as they were and the output's at `out2_9` of the inputs': the body loads the nine
    inputs, loads the output buffer once (the value unused) and stores the whole output block. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S128x128 .f32) (x5 : Vec F S128x128 .f32) (x6 : Vec F S128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__tail_fuse_kernel i arg1 harg1 arg2 harg2 arg3 harg3 arg4 harg4 arg5 harg5 arg6 harg6 arg7 harg7 arg8 harg8 arg9 harg9 arg10 harg10) K := by
  simp only [cc2__tail_fuse_kernel_eq_skeleton]; unfold cc2__tail_fuse_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The body at any point: the inputs' memrefs hold their blocks, so `sound_kernel2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Run.lean ====
import proofs.«120490_j9904194585124_1_alg».proof.Proof.K.Bound
import proofs.«120490_j9904194585124_1_alg».proof.Proof.K.Args
import proofs.«120490_j9904194585124_1_alg».proof.Proof.K.Sound0
import proofs.«120490_j9904194585124_1_alg».proof.Proof.K.Sound1
import proofs.«120490_j9904194585124_1_alg».proof.Proof.K.Sound2

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's ten segments from the launch to the return -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No operation of `hostOps0_2` allocates a buffer. -/
theorem hostOps0_2_fresh : (hostOps0_2 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
set_option maxHeartbeats 4000000 in
/-- No operation of `hostOps3` allocates a buffer. -/
theorem hostOps3_fresh : (hostOps3 : List (HloOp τ sig (Elt F))).Forall fun op => op.fresh = ∅ := by
  simp only [List.Forall]; repeat' constructor
set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the generator
    register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W3`, left at `W4`. Its arrays split out of
    the unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W5`, left at `W6`. Its arrays split out of
    the unscoped buffers and put back at the exit contents; the generator register into the invariant and out; nothing
    owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W7`, left at `W8`. Its arrays split out of
    the unscoped buffers and put back at the exit contents; the generator register into the invariant and out; nothing
    owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)) ]
/-- @main IS the run of the segments. -/
theorem main_run (c : Dev nD) : main (F := F) c = Pipeline.Seg.run (segs m ρ) := (main_chain c).trans (by chain_rfl)

-- the kit's implicit arguments are found by unifying its conclusion with this one, which takes unfolding plain definitions
-- in a metavariable's type
set_option backward.isDefEq.respectTransparency.types false in
/-- The run: at the compiled mesh, from any memory with zero counters, every weakly fair execution of @main on the
    TensorCores terminates, nothing faulting, and every final state holds every unscoped buffer at the last boundary's
    contents `W10`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every final state has the eight argument arrays as launched — each an unscoped buffer the run leaves at
    `W10`, which at an argument's buffer is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_main m ρ)

end Cert.Kernel.Hand

end
-- ==== Proof.Ref.Ops0.lean ====
/- Window 0 of the reference program's @main (`main_part0`) as the list of its 62 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 62 operations of window 0, in order. -/
abbrev ops0 : List (HloOp τ sig (Elt F)) :=
  ( StableHlo.nullary main_cst (constant S_ .f32 0x3F800000#32)
  :: StableHlo.unary main_cst main_v0 (broadcastInDim S600000 ![] bcast_S_S600000 : (⟨S_, .f32⟩ : BufTy).Contents (Elt F) → (⟨S600000, .f32⟩ : BufTy).Contents (Elt F))
  :: StableHlo.nullary main_cst_0 (constant S_ .f32 0x00000000#32)
  :: StableHlo.unary main_cst_0 main_v1 (broadcastInDim S100000 ![] bcast_S_S100000 : (⟨S_, .f32⟩ : BufTy).Contents (Elt F) → (⟨S100000, .f32⟩ : BufTy).Contents (Elt F))
  :: StableHlo.unary main_arg6 main_v2 (broadcastInDim S600000x1 ![0] bcast_S600000_S600000x1_0 : (⟨S600000, .i32⟩ : BufTy).Contents (Elt F) → (⟨S600000x1, .i32⟩ : BufTy).Contents (Elt F))
  :: StableHlo.ternary main_v1 main_v2 main_v0 main_v3 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F))
  :: StableHlo.nullary main_cst_1 (constant S_ .f32 0x00000000#32)
  :: StableHlo.unary main_cst_1 main_v4 (broadcastInDim S100000 ![] bcast_S_S100000 : (⟨S_, .f32⟩ : BufTy).Contents (Elt F) → (⟨S100000, .f32⟩ : BufTy).Contents (Elt F))
  :: StableHlo.binary main_v3 main_v4 main_v5 (cmpf .ogt : (⟨S100000, .f32⟩ : BufTy).Contents (Elt F) → (⟨S100000, .f32⟩ : BufTy).Contents (Elt F) → (⟨S100000, .i1⟩ : BufTy).Contents (Elt F))
  :: StableHlo.nullary main_cst_2 (constant S_ .f32 0x3F800000#32)
  :: StableHlo.unary main_cst_2 main_v6 (broadcastInDim S100000 ![] bcast_S_S100000 : (⟨S_, .f32⟩ : BufTy).Contents (Elt F) → (⟨S100000, .f32⟩ : BufTy).Contents (Elt F))
  :: StableHlo.binary main_v3 main_v6 main_v7 (maximumf : (⟨S100000, .f32⟩ : BufTy).Contents (Elt F) → (⟨S100000, .f32⟩ : BufTy).Contents (Elt F) → (⟨S100000, .f32⟩ : BufTy).Contents (Elt F))
  :: StableHlo.nullary main_cst_3 (constant S_ .f32 0x3F800000#32)
  :: StableHlo.unary main_cst_3 main_v8 (broadcastInDim S100000 ![] bcast_S_S100000 : (⟨S_, .f32⟩ : BufTy).Contents (Elt F) → (⟨S100000, .f32⟩ : BufTy).Contents (Elt F))
  :: StableHlo.binary main_v8 main_v7 main_v9 (Host.divf : (⟨S100000, .f32⟩ : BufTy).Contents (Elt F) → (⟨S100000, .f32⟩ : BufTy).Contents (Elt F) → (⟨S100000, .f32⟩ : BufTy).Contents (Elt F))
  :: StableHlo.nullary main_cst_4 (constant S_ .f32 0x00000000#32)
  :: StableHlo.TRef.unary (.of main_cst_4 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S100000, .f32⟩) (broadcastInDim S100000 ![] bcast_S_S100000)
  :: StableHlo.TRef.ternary (.of main_v5 : StableHlo.TRef sig ⟨S100000, .i1⟩) (.of main_v9 : StableHlo.TRef sig ⟨S100000, .f32⟩) (.of main_call0_v1 : StableHlo.TRef sig ⟨S100000, .f32⟩) (.of main_v10 : StableHlo.TRef sig ⟨S100000, .f32⟩) select
  :: StableHlo.nullary main_cst_5 (constant S_ .f32 0x3F800000#32)
  :: StableHlo.unary main_cst_5 main_v11 (broadcastInDim S100000 ![] bcast_S_S100000 : (⟨S_, .f32⟩ : BufTy).Contents (Elt F) → (⟨S100000, .f32⟩ : BufTy).Contents (Elt F))
  :: StableHlo.binary main_v3 main_v11 main_v12 (addf : (⟨S100000, .f32⟩ : BufTy).Contents (Elt F) → (⟨S100000, .f32⟩ : BufTy).Contents (Elt F) → (⟨S100000, .f32⟩ : BufTy).Contents (Elt F))
  :: StableHlo.nullary main_cst_6 (constant S_ .f32 0x3F800000#32)
  :: StableHlo.unary main_cst_6 main_v13 (broadcastInDim S100000 ![] bcast_S_S100000 : (⟨S_, .f32⟩ : BufTy).Contents (Elt F) → (⟨S100000, .f32⟩ : BufTy).Contents (Elt F))
  :: StableHlo.binary main_v13 main_v12 main_v14 (Host.divf : (⟨S100000, .f32⟩ : BufTy).Contents (Elt F) → (⟨S100000, .f32⟩ : BufTy).Contents (Elt F) → (⟨S100000, .f32⟩ : BufTy).Contents (Elt F))
  :: StableHlo.nullary main_cst_7 (constant S_ .f32 0x40000000#32)
  :: StableHlo.unary main_cst_7 main_v15 (broadcastInDim S100000 ![] bcast_S_S100000 : (⟨S_, .f32⟩ : BufTy).Contents (Elt F) → (⟨S100000, .f32⟩ : BufTy).Contents (Elt F))
  :: StableHlo.binary main_v3 main_v15 main_v16 (addf : (⟨S100000, .f32⟩ : BufTy).Contents (Elt F) → (⟨S100000, .f32⟩ : BufTy).Contents (Elt F) → (⟨S100000, .f32⟩ : BufTy).Contents (Elt F))
  :: StableHlo.nullary main_cst_8 (constant S_ .f32 0x3F800000#32)
  :: StableHlo.unary main_cst_8 main_v17 (broadcastInDim S100000 ![] bcast_S_S100000 : (⟨S_, .f32⟩ : BufTy).Contents (Elt F) → (⟨S100000, .f32⟩ : BufTy).Contents (Elt F))
  :: StableHlo.binary main_v17 main_v16 main_v18 (Host.divf : (⟨S100000, .f32⟩ : BufTy).Contents (Elt F) → (⟨S100000, .f32⟩ : BufTy).Contents (Elt F) → (⟨S100000, .f32⟩ : BufTy).Contents (Elt F))
  :: StableHlo.nullary main_c (constantI S_ 32 0#32)
  :: StableHlo.unary main_c main_v19 (broadcastInDim S600000 ![] bcast_S_S600000 : (⟨S_, .i32⟩ : BufTy).Contents (Elt F) → (⟨S600000, .i32⟩ : BufTy).Contents (Elt F))
  :: StableHlo.binary main_arg6 main_v19 main_v20 (cmpi .slt : (⟨S600000, .i32⟩ : BufTy).Contents (Elt F) → (⟨S600000, .i32⟩ : BufTy).Contents (Elt F) → (⟨S600000, .i1⟩ : BufTy).Contents (Elt F))
  :: StableHlo.nullary main_c_9 (constantI S_ 32 100000#32)
  :: StableHlo.unary main_c_9 main_v21 (broadcastInDim S600000 ![] bcast_S_S600000 : (⟨S_, .i32⟩ : BufTy).Contents (Elt F) → (⟨S600000, .i32⟩ : BufTy).Contents (Elt F))
  :: StableHlo.binary main_arg6 main_v21 main_v22 (addi : (⟨S600000, .i32⟩ : BufTy).Contents (Elt F) → (⟨S600000, .i32⟩ : BufTy).Contents (Elt F) → (⟨S600000, .i32⟩ : BufTy).Contents (Elt F))
  :: StableHlo.ternary main_v20 main_v22 main_arg6 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v23 main_v24 (broadcastInDim S600000x1 ![0] bcast_S600000_S600000x1_0 : (⟨S600000, .i32⟩ : BufTy).Contents (Elt F) → (⟨S600000x1, .i32⟩ : BufTy).Contents (Elt F))
  :: StableHlo.binary main_v10 main_v24 main_v25 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))
  :: StableHlo.nullary main_c_10 (constantI S_ 32 0#32)
  :: StableHlo.unary main_c_10 main_v26 (broadcastInDim S600000 ![] bcast_S_S600000 : (⟨S_, .i32⟩ : BufTy).Contents (Elt F) → (⟨S600000, .i32⟩ : BufTy).Contents (Elt F))
  :: StableHlo.binary main_arg6 main_v26 main_v27 (cmpi .slt : (⟨S600000, .i32⟩ : BufTy).Contents (Elt F) → (⟨S600000, .i32⟩ : BufTy).Contents (Elt F) → (⟨S600000, .i1⟩ : BufTy).Contents (Elt F))
  :: StableHlo.nullary main_c_11 (constantI S_ 32 100000#32)
  :: StableHlo.unary main_c_11 main_v28 (broadcastInDim S600000 ![] bcast_S_S600000 : (⟨S_, .i32⟩ : BufTy).Contents (Elt F) → (⟨S600000, .i32⟩ : BufTy).Contents (Elt F))
  :: StableHlo.binary main_arg6 main_v28 main_v29 (addi : (⟨S600000, .i32⟩ : BufTy).Contents (Elt F) → (⟨S600000, .i32⟩ : BufTy).Contents (Elt F) → (⟨S600000, .i32⟩ : BufTy).Contents (Elt F))
  :: StableHlo.ternary main_v27 main_v29 main_arg6 main_v30 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v30 main_v31 (broadcastInDim S600000x1 ![0] bcast_S600000_S600000x1_0 : (⟨S600000, .i32⟩ : BufTy).Contents (Elt F) → (⟨S600000x1, .i32⟩ : BufTy).Contents (Elt F))
  :: StableHlo.binary main_v14 main_v31 main_v32 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))
  :: StableHlo.nullary main_c_12 (constantI S_ 32 0#32)
  :: StableHlo.unary main_c_12 main_v33 (broadcastInDim S600000 ![] bcast_S_S600000 : (⟨S_, .i32⟩ : BufTy).Contents (Elt F) → (⟨S600000, .i32⟩ : BufTy).Contents (Elt F))
  :: StableHlo.binary main_arg6 main_v33 main_v34 (cmpi .slt : (⟨S600000, .i32⟩ : BufTy).Contents (Elt F) → (⟨S600000, .i32⟩ : BufTy).Contents (Elt F) → (⟨S600000, .i1⟩ : BufTy).Contents (Elt F))
  :: StableHlo.nullary main_c_13 (constantI S_ 32 100000#32)
  :: StableHlo.unary main_c_13 main_v35 (broadcastInDim S600000 ![] bcast_S_S600000 : (⟨S_, .i32⟩ : BufTy).Contents (Elt F) → (⟨S600000, .i32⟩ : BufTy).Contents (Elt F))
  :: StableHlo.binary main_arg6 main_v35 main_v36 (addi : (⟨S600000, .i32⟩ : BufTy).Contents (Elt F) → (⟨S600000, .i32⟩ : BufTy).Contents (Elt F) → (⟨S600000, .i32⟩ : BufTy).Contents (Elt F))
  :: StableHlo.ternary main_v34 main_v36 main_arg6 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v37 main_v38 (broadcastInDim S600000x1 ![0] bcast_S600000_S600000x1_0 : (⟨S600000, .i32⟩ : BufTy).Contents (Elt F) → (⟨S600000x1, .i32⟩ : BufTy).Contents (Elt F))
  :: StableHlo.binary main_v18 main_v38 main_v39 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F))
  :: StableHlo.nullary main_cst_14 (constant S_ .f32 0x40A00000#32)
  :: StableHlo.unary main_cst_14 main_v40 (broadcastInDim S100000 ![] bcast_S_S100000 : (⟨S_, .f32⟩ : BufTy).Contents (Elt F) → (⟨S100000, .f32⟩ : BufTy).Contents (Elt F))
  :: StableHlo.binary main_v3 main_v40 main_v41 (cmpf .ogt : (⟨S100000, .f32⟩ : BufTy).Contents (Elt F) → (⟨S100000, .f32⟩ : BufTy).Contents (Elt F) → (⟨S100000, .i1⟩ : BufTy).Contents (Elt F))
  :: StableHlo.unary main_v25 main_v42 (broadcastInDim S600000x1 ![0] bcast_S600000_S600000x1_0 : (⟨S600000, .f32⟩ : BufTy).Contents (Elt F) → (⟨S600000x1, .f32⟩ : BufTy).Contents (Elt F))
  :: [] )

/-- The window is the straight line of its operations (both sides unfold to the same chain of steps). -/
theorem part0_eq (c : Dev nD) : main_part0 (F := F) c = seq ops0 := by
  chain_rfl

set_option maxHeartbeats 40000000 in
/-- Each operation touches TensorCore references only. -/
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub ..⟩

set_option maxHeartbeats 40000000 in
/-- Each operation determines its result (none allocates). -/
theorem ops0_fresh : ∀ op ∈ (ops0 : List (HloOp τ sig (Elt F))), op.fresh = ∅ := by
  intro _ h; (repeat (cases h with | head => rfl | tail _ h => ?_)); exact nomatch h

set_option maxHeartbeats 40000000 in
/-- No operation of the window writes @main's argument 0. -/
theorem ops0_keeps_arg0 : ∀ op ∈ (ops0 : List (HloOp τ sig (Elt F))), Proc.devRef .tc main_arg0 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops0_keeps_arg1 : ∀ op ∈ (ops0 : List (HloOp τ sig (Elt F))), Proc.devRef .tc main_arg1 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops0_keeps_arg2 : ∀ op ∈ (ops0 : List (HloOp τ sig (Elt F))), Proc.devRef .tc main_arg2 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops0_keeps_arg3 : ∀ op ∈ (ops0 : List (HloOp τ sig (Elt F))), Proc.devRef .tc main_arg3 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops0_keeps_arg4 : ∀ op ∈ (ops0 : List (HloOp τ sig (Elt F))), Proc.devRef .tc main_arg4 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops0_keeps_arg5 : ∀ op ∈ (ops0 : List (HloOp τ sig (Elt F))), Proc.devRef .tc main_arg5 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops0_keeps_arg6 : ∀ op ∈ (ops0 : List (HloOp τ sig (Elt F))), Proc.devRef .tc main_arg6 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops0_keeps_arg7 : ∀ op ∈ (ops0 : List (HloOp τ sig (Elt F))), Proc.devRef .tc main_arg7 ∉ op.writes :=
  List.forall_iff_forall_mem.mp (by
    simp only [ops0, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops1.lean ====
/- Window 1 of the reference program's @main (`main_part1`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 1, in order. -/
abbrev ops1 : List (HloOp τ sig (Elt F)) :=
  ( StableHlo.nullary main_c_15 (constantI S_ 32 0#32)
  :: StableHlo.unary main_c_15 main_v43 (broadcastInDim S600000 ![] bcast_S_S600000 : (⟨S_, .i32⟩ : BufTy).Contents (Elt F) → (⟨S600000, .i32⟩ : BufTy).Contents (Elt F))
  :: StableHlo.binary main_arg7 main_v43 main_v44 (cmpi .slt : (⟨S600000, .i32⟩ : BufTy).Contents (Elt F) → (⟨S600000, .i32⟩ : BufTy).Contents (Elt F) → (⟨S600000, .i1⟩ : BufTy).Contents (Elt F))
  :: StableHlo.nullary main_c_16 (constantI S_ 32 100000#32)
  :: StableHlo.unary main_c_16 main_v45 (broadcastInDim S600000 ![] bcast_S_S600000 : (⟨S_, .i32⟩ : BufTy).Contents (Elt F) → (⟨S600000, .i32⟩ : BufTy).Contents (Elt F))
  :: StableHlo.binary main_arg7 main_v45 main_v46 (addi : (⟨S600000, .i32⟩ : BufTy).Contents (Elt F) → (⟨S600000, .i32⟩ : BufTy).Contents (Elt F) → (⟨S600000, .i32⟩ : BufTy).Contents (Elt F))
  :: StableHlo.ternary main_v44 main_v46 main_arg7 main_v47 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v47 main_v48 (broadcastInDim S600000x1 ![0] bcast_S600000_S600000x1_0 : (⟨S600000, .i32⟩ : BufTy).Contents (Elt F) → (⟨S600000x1, .i32⟩ : BufTy).Contents (Elt F))
  :: StableHlo.binary main_arg0 main_v48 main_v49 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v42 main_v50 (broadcastInDim S600000x128 ![0, 1] bcast_S600000x1_S600000x128_0_1 : (⟨S600000x1, .f32⟩ : BufTy).Contents (Elt F) → (⟨S600000x128, .f32⟩ : BufTy).Contents (Elt F))
  :: StableHlo.binary main_v50 main_v49 main_v51 (mulf : (⟨S600000x128, .f32⟩ : BufTy).Contents (Elt F) → (⟨S600000x128, .f32⟩ : BufTy).Contents (Elt F) → (⟨S600000x128, .f32⟩ : BufTy).Contents (Elt F))
  :: StableHlo.nullary main_cst_17 (constant S_ .f32 0x00000000#32)
  :: StableHlo.unary main_cst_17 main_v52 (broadcastInDim S100000x128 ![] bcast_S_S100000x128 : (⟨S_, .f32⟩ : BufTy).Contents (Elt F) → (⟨S100000x128, .f32⟩ : BufTy).Contents (Elt F))
  :: StableHlo.unary main_arg6 main_v53 (broadcastInDim S600000x1 ![0] bcast_S600000_S600000x1_0 : (⟨S600000, .i32⟩ : BufTy).Contents (Elt F) → (⟨S600000x1, .i32⟩ : BufTy).Contents (Elt F))
  :: StableHlo.ternary main_v52 main_v53 main_v51 main_v54 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v55 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v55 main_v56 rfl shapeCasts_S1x128x128_S128x128
  :: StableHlo.unary main_v56 main_v57 ((transpose S128x128 [1, 0] · transposes_S128x128_S128x128_1_0) : (⟨S128x128, .f32⟩ : BufTy).Contents (Elt F) → (⟨S128x128, .f32⟩ : BufTy).Contents (Elt F))
  :: StableHlo.binary main_arg0 main_v57 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v59 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v59 main_v60 rfl shapeCasts_S1x128x128_S128x128
  :: StableHlo.unary main_v60 main_v61 ((transpose S128x128 [1, 0] · transposes_S128x128_S128x128_1_0) : (⟨S128x128, .f32⟩ : BufTy).Contents (Elt F) → (⟨S128x128, .f32⟩ : BufTy).Contents (Elt F))
  :: StableHlo.binary main_v54 main_v61 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v58 main_v62 main_v63 (addf : (⟨S100000x128, .f32⟩ : BufTy).Contents (Elt F) → (⟨S100000x128, .f32⟩ : BufTy).Contents (Elt F) → (⟨S100000x128, .f32⟩ : BufTy).Contents (Elt F))
  :: StableHlo.nullary main_cst_18 (constant S_ .f32 0x3E4CCCCD#32)
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S100000x128, .f32⟩) (broadcastInDim S100000x128 ![] bcast_S_S100000x128)
  :: StableHlo.TRef.binary (.of main_v63 : StableHlo.TRef sig ⟨S100000x128, .f32⟩) (.of main_call1_v0 : StableHlo.TRef sig ⟨S100000x128, .f32⟩) (.of main_call1_v1 : StableHlo.TRef sig ⟨S100000x128, .i1⟩) (cmpf .oge)
  :: StableHlo.TRef.unary (.of main_cst_18 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S100000x128, .f32⟩) (broadcastInDim S100000x128 ![] bcast_S_S100000x128)
  :: StableHlo.TRef.binary (.of main_call1_v3 : StableHlo.TRef sig ⟨S100000x128, .f32⟩) (.of main_v63 : StableHlo.TRef sig ⟨S100000x128, .f32⟩) (.of main_call1_v4 : StableHlo.TRef sig ⟨S100000x128, .f32⟩) mulf
  :: StableHlo.TRef.ternary (.of main_call1_v1 : StableHlo.TRef sig ⟨S100000x128, .i1⟩) (.of main_v63 : StableHlo.TRef sig ⟨S100000x128, .f32⟩) (.of main_call1_v4 : StableHlo.TRef sig ⟨S100000x128, .f32⟩) (.of main_v64 : StableHlo.TRef sig ⟨S100000x128, .f32⟩) select
  :: StableHlo.nullary main_cst_19 (constant S_ .f32 0x3F800000#32)
  :: StableHlo.unary main_cst_19 main_v65 (broadcastInDim S100000x128 ![] bcast_S_S100000x128 : (⟨S_, .f32⟩ : BufTy).Contents (Elt F) → (⟨S100000x128, .f32⟩ : BufTy).Contents (Elt F))
  :: StableHlo.binary main_v64 main_v65 main_v66 (addf : (⟨S100000x128, .f32⟩ : BufTy).Contents (Elt F) → (⟨S100000x128, .f32⟩ : BufTy).Contents (Elt F) → (⟨S100000x128, .f32⟩ : BufTy).Contents (Elt F))
  :: StableHlo.unary main_arg3 main_v67 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v67 main_v68 rfl shapeCasts_S1x128x128_S128x128
  :: StableHlo.unary main_v68 main_v69 ((transpose S128x128 [1, 0] · transposes_S128x128_S128x128_1_0) : (⟨S128x128, .f32⟩ : BufTy).Contents (Elt F) → (⟨S128x128, .f32⟩ : BufTy).Contents (Elt F))
  :: StableHlo.binary main_arg0 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v71 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v71 main_v72 rfl shapeCasts_S1x128x128_S128x128
  :: StableHlo.unary main_v72 main_v73 ((transpose S128x128 [1, 0] · transposes_S128x128_S128x128_1_0) : (⟨S128x128, .f32⟩ : BufTy).Contents (Elt F) → (⟨S128x128, .f32⟩ : BufTy).Contents (Elt F))
  :: StableHlo.binary main_v54 main_v73 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v70 main_v74 main_v75 (addf : (⟨S100000x128, .f32⟩ : BufTy).Contents (Elt F) → (⟨S100000x128, .f32⟩ : BufTy).Contents (Elt F) → (⟨S100000x128, .f32⟩ : BufTy).Contents (Elt F))
  :: StableHlo.nullary main_cst_20 (constant S_ .f32 0x3E4CCCCD#32)
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S100000x128, .f32⟩) (broadcastInDim S100000x128 ![] bcast_S_S100000x128)
  :: StableHlo.TRef.binary (.of main_v75 : StableHlo.TRef sig ⟨S100000x128, .f32⟩) (.of main_call2_v0 : StableHlo.TRef sig ⟨S100000x128, .f32⟩) (.of main_call2_v1 : StableHlo.TRef sig ⟨S100000x128, .i1⟩) (cmpf .oge)
  :: StableHlo.TRef.unary (.of main_cst_20 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S100000x128, .f32⟩) (broadcastInDim S100000x128 ![] bcast_S_S100000x128)
  :: StableHlo.TRef.binary (.of main_call2_v3 : StableHlo.TRef sig ⟨S100000x128, .f32⟩) (.of main_v75 : StableHlo.TRef sig ⟨S100000x128, .f32⟩) (.of main_call2_v4 : StableHlo.TRef sig ⟨S100000x128, .f32⟩) mulf
  :: StableHlo.TRef.ternary (.of main_call2_v1 : StableHlo.TRef sig ⟨S100000x128, .i1⟩) (.of main_v75 : StableHlo.TRef sig ⟨S100000x128, .f32⟩) (.of main_call2_v4 : StableHlo.TRef sig ⟨S100000x128, .f32⟩) (.of main_v76 : StableHlo.TRef sig ⟨S100000x128, .f32⟩) select
  :: StableHlo.unary main_arg5 main_v77 ((extractStridedSlice S1x128 ![0, 0] · slices_S3x128_S1x128_0_0) : (⟨S3x128, .f32⟩ : BufTy).Contents (Elt F) → (⟨S1x128, .f32⟩ : BufTy).Contents (Elt F))
  :: StableHlo.reshape main_v77 main_v78 rfl shapeCasts_S1x128_S128
  :: StableHlo.unary main_v78 main_v79 (broadcastInDim S1x128 ![1] bcast_S128_S1x128_1 : (⟨S128, .f32⟩ : BufTy).Contents (Elt F) → (⟨S1x128, .f32⟩ : BufTy).Contents (Elt F))
  :: StableHlo.unary main_v79 main_v80 (broadcastInDim S100000x128 ![0, 1] bcast_S1x128_S100000x128_0_1 : (⟨S1x128, .f32⟩ : BufTy).Contents (Elt F) → (⟨S100000x128, .f32⟩ : BufTy).Contents (Elt F))
  :: StableHlo.binary main_v66 main_v80 main_v81 (mulf : (⟨S100000x128, .f32⟩ : BufTy).Contents (Elt F) → (⟨S100000x128, .f32⟩ : BufTy).Contents (Elt F) → (⟨S100000x128, .f32⟩ : BufTy).Contents (Elt F))
  :: StableHlo.binary main_arg0 main_v81 main_v82 (addf : (⟨S100000x128, .f32⟩ : BufTy).Contents (Elt F) → (⟨S100000x128, .f32⟩ : BufTy).Contents (Elt F) → (⟨S100000x128, .f32⟩ : BufTy).Contents (Elt F))
  :: StableHlo.binary main_v82 main_v76 main_v83 (addf : (⟨S100000x128, .f32⟩ : BufTy).Contents (Elt F) → (⟨S100000x128, .f32⟩ : BufTy).Contents (Elt F) → (⟨S100000x128, .f32⟩ : BufTy).Contents (Elt F))
  :: StableHlo.binary main_v83 main_v54 main_v84 (subf : (⟨S100000x128, .f32⟩ : BufTy).Contents (Elt F) → (⟨S100000x128, .f32⟩ : BufTy).Contents (Elt F) → (⟨S100000x128, .f32⟩ : BufTy).Contents (Elt F))
  :: StableHlo.unary main_v32 main_v85 (broadcastInDim S600000x1 ![0] bcast_S600000_S600000x1_0 : (⟨S600000, .f32⟩ : BufTy).Contents (Elt F) → (⟨S600000x1, .f32⟩ : BufTy).Contents (Elt F))
  :: StableHlo.nullary main_c_21 (constantI S_ 32 0#32)
  :: StableHlo.unary main_c_21 main_v86 (broadcastInDim S600000 ![] bcast_S_S600000 : (⟨S_, .i32⟩ : BufTy).Contents (Elt F) → (⟨S600000, .i32⟩ : BufTy).Contents (Elt F))
  :: StableHlo.binary main_arg7 main_v86 main_v87 (cmpi .slt : (⟨S600000, .i32⟩ : BufTy).Contents (Elt F) → (⟨S600000, .i32⟩ : BufTy).Contents (Elt F) → (⟨S600000, .i1⟩ : BufTy).Contents (Elt F))
  :: StableHlo.nullary main_c_22 (constantI S_ 32 100000#32)
  :: StableHlo.unary main_c_22 main_v88 (broadcastInDim S600000 ![] bcast_S_S600000 : (⟨S_, .i32⟩ : BufTy).Contents (Elt F) → (⟨S600000, .i32⟩ : BufTy).Contents (Elt F))
  :: StableHlo.binary main_arg7 main_v88 main_v89 (addi : (⟨S600000, .i32⟩ : BufTy).Contents (Elt F) → (⟨S600000, .i32⟩ : BufTy).Contents (Elt F) → (⟨S600000, .i32⟩ : BufTy).Contents (Elt F))
  :: StableHlo.ternary main_v87 main_v89 main_arg7 main_v90 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v90 main_v91 (broadcastInDim S600000x1 ![0] bcast_S600000_S600000x1_0 : (⟨S600000, .i32⟩ : BufTy).Contents (Elt F) → (⟨S600000x1, .i32⟩ : BufTy).Contents (Elt F))
  :: StableHlo.binary main_arg0 main_v91 main_v92 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v85 main_v93 (broadcastInDim S600000x128 ![0, 1] bcast_S600000x1_S600000x128_0_1 : (⟨S600000x1, .f32⟩ : BufTy).Contents (Elt F) → (⟨S600000x128, .f32⟩ : BufTy).Contents (Elt F))
  :: StableHlo.binary main_v93 main_v92 main_v94 (mulf : (⟨S600000x128, .f32⟩ : BufTy).Contents (Elt F) → (⟨S600000x128, .f32⟩ : BufTy).Contents (Elt F) → (⟨S600000x128, .f32⟩ : BufTy).Contents (Elt F))
  :: [] )

/-- The window is the straight line of its operations (both sides unfold to the same chain of steps). -/
theorem part1_eq (c : Dev nD) : main_part1 (F := F) c = seq ops1 := by
  chain_rfl

set_option maxHeartbeats 40000000 in
/-- Each operation touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

set_option maxHeartbeats 40000000 in
/-- Each operation determines its result (none allocates). -/
theorem ops1_fresh : ∀ op ∈ (ops1 : List (HloOp τ sig (Elt F))), op.fresh = ∅ := by
  intro _ h; (repeat (cases h with | head => rfl | tail _ h => ?_)); exact nomatch h

set_option maxHeartbeats 40000000 in
/-- No operation of the window writes @main's argument 0. -/
theorem ops1_keeps_arg0 : ∀ op ∈ (ops1 : List (HloOp τ sig (Elt F))), Proc.devRef .tc main_arg0 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops1_keeps_arg1 : ∀ op ∈ (ops1 : List (HloOp τ sig (Elt F))), Proc.devRef .tc main_arg1 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops1_keeps_arg2 : ∀ op ∈ (ops1 : List (HloOp τ sig (Elt F))), Proc.devRef .tc main_arg2 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops1_keeps_arg3 : ∀ op ∈ (ops1 : List (HloOp τ sig (Elt F))), Proc.devRef .tc main_arg3 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops1_keeps_arg4 : ∀ op ∈ (ops1 : List (HloOp τ sig (Elt F))), Proc.devRef .tc main_arg4 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops1_keeps_arg5 : ∀ op ∈ (ops1 : List (HloOp τ sig (Elt F))), Proc.devRef .tc main_arg5 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops1_keeps_arg6 : ∀ op ∈ (ops1 : List (HloOp τ sig (Elt F))), Proc.devRef .tc main_arg6 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops1_keeps_arg7 : ∀ op ∈ (ops1 : List (HloOp τ sig (Elt F))), Proc.devRef .tc main_arg7 ∉ op.writes :=
  List.forall_iff_forall_mem.mp (by
    simp only [ops1, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops2.lean ====
/- Window 2 of the reference program's @main (`main_part2`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 2, in order. -/
abbrev ops2 : List (HloOp τ sig (Elt F)) :=
  ( StableHlo.nullary main_cst_23 (constant S_ .f32 0x00000000#32)
  :: StableHlo.unary main_cst_23 main_v95 (broadcastInDim S100000x128 ![] bcast_S_S100000x128 : (⟨S_, .f32⟩ : BufTy).Contents (Elt F) → (⟨S100000x128, .f32⟩ : BufTy).Contents (Elt F))
  :: StableHlo.unary main_arg6 main_v96 (broadcastInDim S600000x1 ![0] bcast_S600000_S600000x1_0 : (⟨S600000, .i32⟩ : BufTy).Contents (Elt F) → (⟨S600000x1, .i32⟩ : BufTy).Contents (Elt F))
  :: StableHlo.ternary main_v95 main_v96 main_v94 main_v97 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v14 main_v98 (broadcastInDim S100000x1 ![0] bcast_S100000_S100000x1_0 : (⟨S100000, .f32⟩ : BufTy).Contents (Elt F) → (⟨S100000x1, .f32⟩ : BufTy).Contents (Elt F))
  :: StableHlo.unary main_v98 main_v99 (broadcastInDim S100000x128 ![0, 1] bcast_S100000x1_S100000x128_0_1 : (⟨S100000x1, .f32⟩ : BufTy).Contents (Elt F) → (⟨S100000x128, .f32⟩ : BufTy).Contents (Elt F))
  :: StableHlo.binary main_v99 main_arg0 main_v100 (mulf : (⟨S100000x128, .f32⟩ : BufTy).Contents (Elt F) → (⟨S100000x128, .f32⟩ : BufTy).Contents (Elt F) → (⟨S100000x128, .f32⟩ : BufTy).Contents (Elt F))
  :: StableHlo.binary main_v97 main_v100 main_v101 (addf : (⟨S100000x128, .f32⟩ : BufTy).Contents (Elt F) → (⟨S100000x128, .f32⟩ : BufTy).Contents (Elt F) → (⟨S100000x128, .f32⟩ : BufTy).Contents (Elt F))
  :: StableHlo.unary main_v25 main_v102 (broadcastInDim S600000x1 ![0] bcast_S600000_S600000x1_0 : (⟨S600000, .f32⟩ : BufTy).Contents (Elt F) → (⟨S600000x1, .f32⟩ : BufTy).Contents (Elt F))
  :: StableHlo.nullary main_c_24 (constantI S_ 32 0#32)
  :: StableHlo.unary main_c_24 main_v103 (broadcastInDim S600000 ![] bcast_S_S600000 : (⟨S_, .i32⟩ : BufTy).Contents (Elt F) → (⟨S600000, .i32⟩ : BufTy).Contents (Elt F))
  :: StableHlo.binary main_arg7 main_v103 main_v104 (cmpi .slt : (⟨S600000, .i32⟩ : BufTy).Contents (Elt F) → (⟨S600000, .i32⟩ : BufTy).Contents (Elt F) → (⟨S600000, .i1⟩ : BufTy).Contents (Elt F))
  :: StableHlo.nullary main_c_25 (constantI S_ 32 100000#32)
  :: StableHlo.unary main_c_25 main_v105 (broadcastInDim S600000 ![] bcast_S_S600000 : (⟨S_, .i32⟩ : BufTy).Contents (Elt F) → (⟨S600000, .i32⟩ : BufTy).Contents (Elt F))
  :: StableHlo.binary main_arg7 main_v105 main_v106 (addi : (⟨S600000, .i32⟩ : BufTy).Contents (Elt F) → (⟨S600000, .i32⟩ : BufTy).Contents (Elt F) → (⟨S600000, .i32⟩ : BufTy).Contents (Elt F))
  :: StableHlo.ternary main_v104 main_v106 main_arg7 main_v107 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v107 main_v108 (broadcastInDim S600000x1 ![0] bcast_S600000_S600000x1_0 : (⟨S600000, .i32⟩ : BufTy).Contents (Elt F) → (⟨S600000x1, .i32⟩ : BufTy).Contents (Elt F))
  :: StableHlo.binary main_v101 main_v108 main_v109 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v102 main_v110 (broadcastInDim S600000x128 ![0, 1] bcast_S600000x1_S600000x128_0_1 : (⟨S600000x1, .f32⟩ : BufTy).Contents (Elt F) → (⟨S600000x128, .f32⟩ : BufTy).Contents (Elt F))
  :: StableHlo.binary main_v110 main_v109 main_v111 (mulf : (⟨S600000x128, .f32⟩ : BufTy).Contents (Elt F) → (⟨S600000x128, .f32⟩ : BufTy).Contents (Elt F) → (⟨S600000x128, .f32⟩ : BufTy).Contents (Elt F))
  :: StableHlo.nullary main_cst_26 (constant S_ .f32 0x00000000#32)
  :: StableHlo.unary main_cst_26 main_v112 (broadcastInDim S100000x128 ![] bcast_S_S100000x128 : (⟨S_, .f32⟩ : BufTy).Contents (Elt F) → (⟨S100000x128, .f32⟩ : BufTy).Contents (Elt F))
  :: StableHlo.unary main_arg6 main_v113 (broadcastInDim S600000x1 ![0] bcast_S600000_S600000x1_0 : (⟨S600000, .i32⟩ : BufTy).Contents (Elt F) → (⟨S600000x1, .i32⟩ : BufTy).Contents (Elt F))
  :: StableHlo.ternary main_v112 main_v113 main_v111 main_v114 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v115 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v115 main_v116 rfl shapeCasts_S1x128x128_S128x128
  :: StableHlo.unary main_v116 main_v117 ((transpose S128x128 [1, 0] · transposes_S128x128_S128x128_1_0) : (⟨S128x128, .f32⟩ : BufTy).Contents (Elt F) → (⟨S128x128, .f32⟩ : BufTy).Contents (Elt F))
  :: StableHlo.binary main_v101 main_v117 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v119 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v119 main_v120 rfl shapeCasts_S1x128x128_S128x128
  :: StableHlo.unary main_v120 main_v121 ((transpose S128x128 [1, 0] · transposes_S128x128_S128x128_1_0) : (⟨S128x128, .f32⟩ : BufTy).Contents (Elt F) → (⟨S128x128, .f32⟩ : BufTy).Contents (Elt F))
  :: StableHlo.binary main_v114 main_v121 main_v122 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v118 main_v122 main_v123 (addf : (⟨S100000x128, .f32⟩ : BufTy).Contents (Elt F) → (⟨S100000x128, .f32⟩ : BufTy).Contents (Elt F) → (⟨S100000x128, .f32⟩ : BufTy).Contents (Elt F))
  :: StableHlo.nullary main_cst_27 (constant S_ .f32 0x3E4CCCCD#32)
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S100000x128, .f32⟩) (broadcastInDim S100000x128 ![] bcast_S_S100000x128)
  :: StableHlo.TRef.binary (.of main_v123 : StableHlo.TRef sig ⟨S100000x128, .f32⟩) (.of main_call3_v0 : StableHlo.TRef sig ⟨S100000x128, .f32⟩) (.of main_call3_v1 : StableHlo.TRef sig ⟨S100000x128, .i1⟩) (cmpf .oge)
  :: StableHlo.TRef.unary (.of main_cst_27 : StableHlo.TRef sig ⟨S_, .f32⟩) (.of main_call3_v2 : StableHlo.TRef sig ⟨S_, .f32⟩) id
  :: StableHlo.TRef.unary (.of main_call3_v2 : StableHlo.TRef sig ⟨S_, .f32⟩) (.of main_call3_v3 : StableHlo.TRef sig ⟨S100000x128, .f32⟩) (broadcastInDim S100000x128 ![] bcast_S_S100000x128)
  :: StableHlo.TRef.binary (.of main_call3_v3 : StableHlo.TRef sig ⟨S100000x128, .f32⟩) (.of main_v123 : StableHlo.TRef sig ⟨S100000x128, .f32⟩) (.of main_call3_v4 : StableHlo.TRef sig ⟨S100000x128, .f32⟩) mulf
  :: StableHlo.TRef.ternary (.of main_call3_v1 : StableHlo.TRef sig ⟨S100000x128, .i1⟩) (.of main_v123 : StableHlo.TRef sig ⟨S100000x128, .f32⟩) (.of main_call3_v4 : StableHlo.TRef sig ⟨S100000x128, .f32⟩) (.of main_v124 : StableHlo.TRef sig ⟨S100000x128, .f32⟩) select
  :: StableHlo.nullary main_cst_28 (constant S_ .f32 0x3F800000#32)
  :: StableHlo.unary main_cst_28 main_v125 (broadcastInDim S100000x128 ![] bcast_S_S100000x128 : (⟨S_, .f32⟩ : BufTy).Contents (Elt F) → (⟨S100000x128, .f32⟩ : BufTy).Contents (Elt F))
  :: StableHlo.binary main_v124 main_v125 main_v126 (addf : (⟨S100000x128, .f32⟩ : BufTy).Contents (Elt F) → (⟨S100000x128, .f32⟩ : BufTy).Contents (Elt F) → (⟨S100000x128, .f32⟩ : BufTy).Contents (Elt F))
  :: StableHlo.unary main_arg3 main_v127 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v127 main_v128 rfl shapeCasts_S1x128x128_S128x128
  :: StableHlo.unary main_v128 main_v129 ((transpose S128x128 [1, 0] · transposes_S128x128_S128x128_1_0) : (⟨S128x128, .f32⟩ : BufTy).Contents (Elt F) → (⟨S128x128, .f32⟩ : BufTy).Contents (Elt F))
  :: StableHlo.binary main_v101 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v131 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v131 main_v132 rfl shapeCasts_S1x128x128_S128x128
  :: StableHlo.unary main_v132 main_v133 ((transpose S128x128 [1, 0] · transposes_S128x128_S128x128_1_0) : (⟨S128x128, .f32⟩ : BufTy).Contents (Elt F) → (⟨S128x128, .f32⟩ : BufTy).Contents (Elt F))
  :: StableHlo.binary main_v114 main_v133 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v130 main_v134 main_v135 (addf : (⟨S100000x128, .f32⟩ : BufTy).Contents (Elt F) → (⟨S100000x128, .f32⟩ : BufTy).Contents (Elt F) → (⟨S100000x128, .f32⟩ : BufTy).Contents (Elt F))
  :: StableHlo.nullary main_cst_29 (constant S_ .f32 0x3E4CCCCD#32)
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S100000x128, .f32⟩) (broadcastInDim S100000x128 ![] bcast_S_S100000x128)
  :: StableHlo.TRef.binary (.of main_v135 : StableHlo.TRef sig ⟨S100000x128, .f32⟩) (.of main_call4_v0 : StableHlo.TRef sig ⟨S100000x128, .f32⟩) (.of main_call4_v1 : StableHlo.TRef sig ⟨S100000x128, .i1⟩) (cmpf .oge)
  :: StableHlo.TRef.unary (.of main_cst_29 : StableHlo.TRef sig ⟨S_, .f32⟩) (.of main_call4_v2 : StableHlo.TRef sig ⟨S_, .f32⟩) id
  :: StableHlo.TRef.unary (.of main_call4_v2 : StableHlo.TRef sig ⟨S_, .f32⟩) (.of main_call4_v3 : StableHlo.TRef sig ⟨S100000x128, .f32⟩) (broadcastInDim S100000x128 ![] bcast_S_S100000x128)
  :: StableHlo.TRef.binary (.of main_call4_v3 : StableHlo.TRef sig ⟨S100000x128, .f32⟩) (.of main_v135 : StableHlo.TRef sig ⟨S100000x128, .f32⟩) (.of main_call4_v4 : StableHlo.TRef sig ⟨S100000x128, .f32⟩) mulf
  :: StableHlo.TRef.ternary (.of main_call4_v1 : StableHlo.TRef sig ⟨S100000x128, .i1⟩) (.of main_v135 : StableHlo.TRef sig ⟨S100000x128, .f32⟩) (.of main_call4_v4 : StableHlo.TRef sig ⟨S100000x128, .f32⟩) (.of main_v136 : StableHlo.TRef sig ⟨S100000x128, .f32⟩) select
  :: StableHlo.unary main_arg5 main_v137 ((extractStridedSlice S1x128 ![1, 0] · slices_S3x128_S1x128_1_0) : (⟨S3x128, .f32⟩ : BufTy).Contents (Elt F) → (⟨S1x128, .f32⟩ : BufTy).Contents (Elt F))
  :: StableHlo.reshape main_v137 main_v138 rfl shapeCasts_S1x128_S128
  :: StableHlo.unary main_v138 main_v139 (broadcastInDim S1x128 ![1] bcast_S128_S1x128_1 : (⟨S128, .f32⟩ : BufTy).Contents (Elt F) → (⟨S1x128, .f32⟩ : BufTy).Contents (Elt F))
  :: StableHlo.unary main_v139 main_v140 (broadcastInDim S100000x128 ![0, 1] bcast_S1x128_S100000x128_0_1 : (⟨S1x128, .f32⟩ : BufTy).Contents (Elt F) → (⟨S100000x128, .f32⟩ : BufTy).Contents (Elt F))
  :: StableHlo.binary main_v126 main_v140 main_v141 (mulf : (⟨S100000x128, .f32⟩ : BufTy).Contents (Elt F) → (⟨S100000x128, .f32⟩ : BufTy).Contents (Elt F) → (⟨S100000x128, .f32⟩ : BufTy).Contents (Elt F))
  :: StableHlo.binary main_v101 main_v141 main_v142 (addf : (⟨S100000x128, .f32⟩ : BufTy).Contents (Elt F) → (⟨S100000x128, .f32⟩ : BufTy).Contents (Elt F) → (⟨S100000x128, .f32⟩ : BufTy).Contents (Elt F))
  :: StableHlo.binary main_v142 main_v136 main_v143 (addf : (⟨S100000x128, .f32⟩ : BufTy).Contents (Elt F) → (⟨S100000x128, .f32⟩ : BufTy).Contents (Elt F) → (⟨S100000x128, .f32⟩ : BufTy).Contents (Elt F))
  :: StableHlo.binary main_v143 main_v114 main_v144 (subf : (⟨S100000x128, .f32⟩ : BufTy).Contents (Elt F) → (⟨S100000x128, .f32⟩ : BufTy).Contents (Elt F) → (⟨S100000x128, .f32⟩ : BufTy).Contents (Elt F))
  :: StableHlo.unary main_v32 main_v145 (broadcastInDim S600000x1 ![0] bcast_S600000_S600000x1_0 : (⟨S600000, .f32⟩ : BufTy).Contents (Elt F) → (⟨S600000x1, .f32⟩ : BufTy).Contents (Elt F))
  :: StableHlo.nullary main_c_30 (constantI S_ 32 0#32)
  :: StableHlo.unary main_c_30 main_v146 (broadcastInDim S600000 ![] bcast_S_S600000 : (⟨S_, .i32⟩ : BufTy).Contents (Elt F) → (⟨S600000, .i32⟩ : BufTy).Contents (Elt F))
  :: [] )

/-- The window is the straight line of its operations (both sides unfold to the same chain of steps). -/
theorem part2_eq (c : Dev nD) : main_part2 (F := F) c = seq ops2 := by
  chain_rfl

set_option maxHeartbeats 40000000 in
/-- Each operation touches TensorCore references only. -/
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., unary_bufs_sub .., binary_bufs_sub .., binary_bufs_sub .., binary_bufs_sub .., binary_bufs_sub .., unary_bufs_sub .., nullary_bufs_sub .., unary_bufs_sub ..⟩

set_option maxHeartbeats 40000000 in
/-- Each operation determines its result (none allocates). -/
theorem ops2_fresh : ∀ op ∈ (ops2 : List (HloOp τ sig (Elt F))), op.fresh = ∅ := by
  intro _ h; (repeat (cases h with | head => rfl | tail _ h => ?_)); exact nomatch h

set_option maxHeartbeats 40000000 in
/-- No operation of the window writes @main's argument 0. -/
theorem ops2_keeps_arg0 : ∀ op ∈ (ops2 : List (HloOp τ sig (Elt F))), Proc.devRef .tc main_arg0 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops2_keeps_arg1 : ∀ op ∈ (ops2 : List (HloOp τ sig (Elt F))), Proc.devRef .tc main_arg1 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops2_keeps_arg2 : ∀ op ∈ (ops2 : List (HloOp τ sig (Elt F))), Proc.devRef .tc main_arg2 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops2_keeps_arg3 : ∀ op ∈ (ops2 : List (HloOp τ sig (Elt F))), Proc.devRef .tc main_arg3 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops2_keeps_arg4 : ∀ op ∈ (ops2 : List (HloOp τ sig (Elt F))), Proc.devRef .tc main_arg4 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops2_keeps_arg5 : ∀ op ∈ (ops2 : List (HloOp τ sig (Elt F))), Proc.devRef .tc main_arg5 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops2_keeps_arg6 : ∀ op ∈ (ops2 : List (HloOp τ sig (Elt F))), Proc.devRef .tc main_arg6 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops2_keeps_arg7 : ∀ op ∈ (ops2 : List (HloOp τ sig (Elt F))), Proc.devRef .tc main_arg7 ∉ op.writes :=
  List.forall_iff_forall_mem.mp (by
    simp only [ops2, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops3.lean ====
/- Window 3 of the reference program's @main (`main_part3`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 3, in order. -/
abbrev ops3 : List (HloOp τ sig (Elt F)) :=
  ( StableHlo.binary main_arg7 main_v146 main_v147 (cmpi .slt : (⟨S600000, .i32⟩ : BufTy).Contents (Elt F) → (⟨S600000, .i32⟩ : BufTy).Contents (Elt F) → (⟨S600000, .i1⟩ : BufTy).Contents (Elt F))
  :: StableHlo.nullary main_c_31 (constantI S_ 32 100000#32)
  :: StableHlo.unary main_c_31 main_v148 (broadcastInDim S600000 ![] bcast_S_S600000 : (⟨S_, .i32⟩ : BufTy).Contents (Elt F) → (⟨S600000, .i32⟩ : BufTy).Contents (Elt F))
  :: StableHlo.binary main_arg7 main_v148 main_v149 (addi : (⟨S600000, .i32⟩ : BufTy).Contents (Elt F) → (⟨S600000, .i32⟩ : BufTy).Contents (Elt F) → (⟨S600000, .i32⟩ : BufTy).Contents (Elt F))
  :: StableHlo.ternary main_v147 main_v149 main_arg7 main_v150 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v150 main_v151 (broadcastInDim S600000x1 ![0] bcast_S600000_S600000x1_0 : (⟨S600000, .i32⟩ : BufTy).Contents (Elt F) → (⟨S600000x1, .i32⟩ : BufTy).Contents (Elt F))
  :: StableHlo.binary main_v101 main_v151 main_v152 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v145 main_v153 (broadcastInDim S600000x128 ![0, 1] bcast_S600000x1_S600000x128_0_1 : (⟨S600000x1, .f32⟩ : BufTy).Contents (Elt F) → (⟨S600000x128, .f32⟩ : BufTy).Contents (Elt F))
  :: StableHlo.binary main_v153 main_v152 main_v154 (mulf : (⟨S600000x128, .f32⟩ : BufTy).Contents (Elt F) → (⟨S600000x128, .f32⟩ : BufTy).Contents (Elt F) → (⟨S600000x128, .f32⟩ : BufTy).Contents (Elt F))
  :: StableHlo.nullary main_cst_32 (constant S_ .f32 0x00000000#32)
  :: StableHlo.unary main_cst_32 main_v155 (broadcastInDim S100000x128 ![] bcast_S_S100000x128 : (⟨S_, .f32⟩ : BufTy).Contents (Elt F) → (⟨S100000x128, .f32⟩ : BufTy).Contents (Elt F))
  :: StableHlo.unary main_arg6 main_v156 (broadcastInDim S600000x1 ![0] bcast_S600000_S600000x1_0 : (⟨S600000, .i32⟩ : BufTy).Contents (Elt F) → (⟨S600000x1, .i32⟩ : BufTy).Contents (Elt F))
  :: StableHlo.ternary main_v155 main_v156 main_v154 main_v157 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v14 main_v158 (broadcastInDim S100000x1 ![0] bcast_S100000_S100000x1_0 : (⟨S100000, .f32⟩ : BufTy).Contents (Elt F) → (⟨S100000x1, .f32⟩ : BufTy).Contents (Elt F))
  :: StableHlo.unary main_v158 main_v159 (broadcastInDim S100000x128 ![0, 1] bcast_S100000x1_S100000x128_0_1 : (⟨S100000x1, .f32⟩ : BufTy).Contents (Elt F) → (⟨S100000x128, .f32⟩ : BufTy).Contents (Elt F))
  :: StableHlo.binary main_v159 main_v101 main_v160 (mulf : (⟨S100000x128, .f32⟩ : BufTy).Contents (Elt F) → (⟨S100000x128, .f32⟩ : BufTy).Contents (Elt F) → (⟨S100000x128, .f32⟩ : BufTy).Contents (Elt F))
  :: StableHlo.binary main_v157 main_v160 main_v161 (addf : (⟨S100000x128, .f32⟩ : BufTy).Contents (Elt F) → (⟨S100000x128, .f32⟩ : BufTy).Contents (Elt F) → (⟨S100000x128, .f32⟩ : BufTy).Contents (Elt F))
  :: StableHlo.unary main_v25 main_v162 (broadcastInDim S600000x1 ![0] bcast_S600000_S600000x1_0 : (⟨S600000, .f32⟩ : BufTy).Contents (Elt F) → (⟨S600000x1, .f32⟩ : BufTy).Contents (Elt F))
  :: StableHlo.nullary main_c_33 (constantI S_ 32 0#32)
  :: StableHlo.unary main_c_33 main_v163 (broadcastInDim S600000 ![] bcast_S_S600000 : (⟨S_, .i32⟩ : BufTy).Contents (Elt F) → (⟨S600000, .i32⟩ : BufTy).Contents (Elt F))
  :: StableHlo.binary main_arg7 main_v163 main_v164 (cmpi .slt : (⟨S600000, .i32⟩ : BufTy).Contents (Elt F) → (⟨S600000, .i32⟩ : BufTy).Contents (Elt F) → (⟨S600000, .i1⟩ : BufTy).Contents (Elt F))
  :: StableHlo.nullary main_c_34 (constantI S_ 32 100000#32)
  :: StableHlo.unary main_c_34 main_v165 (broadcastInDim S600000 ![] bcast_S_S600000 : (⟨S_, .i32⟩ : BufTy).Contents (Elt F) → (⟨S600000, .i32⟩ : BufTy).Contents (Elt F))
  :: StableHlo.binary main_arg7 main_v165 main_v166 (addi : (⟨S600000, .i32⟩ : BufTy).Contents (Elt F) → (⟨S600000, .i32⟩ : BufTy).Contents (Elt F) → (⟨S600000, .i32⟩ : BufTy).Contents (Elt F))
  :: StableHlo.ternary main_v164 main_v166 main_arg7 main_v167 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v167 main_v168 (broadcastInDim S600000x1 ![0] bcast_S600000_S600000x1_0 : (⟨S600000, .i32⟩ : BufTy).Contents (Elt F) → (⟨S600000x1, .i32⟩ : BufTy).Contents (Elt F))
  :: StableHlo.binary main_v161 main_v168 main_v169 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v162 main_v170 (broadcastInDim S600000x128 ![0, 1] bcast_S600000x1_S600000x128_0_1 : (⟨S600000x1, .f32⟩ : BufTy).Contents (Elt F) → (⟨S600000x128, .f32⟩ : BufTy).Contents (Elt F))
  :: StableHlo.binary main_v170 main_v169 main_v171 (mulf : (⟨S600000x128, .f32⟩ : BufTy).Contents (Elt F) → (⟨S600000x128, .f32⟩ : BufTy).Contents (Elt F) → (⟨S600000x128, .f32⟩ : BufTy).Contents (Elt F))
  :: StableHlo.nullary main_cst_35 (constant S_ .f32 0x00000000#32)
  :: StableHlo.unary main_cst_35 main_v172 (broadcastInDim S100000x128 ![] bcast_S_S100000x128 : (⟨S_, .f32⟩ : BufTy).Contents (Elt F) → (⟨S100000x128, .f32⟩ : BufTy).Contents (Elt F))
  :: StableHlo.unary main_arg6 main_v173 (broadcastInDim S600000x1 ![0] bcast_S600000_S600000x1_0 : (⟨S600000, .i32⟩ : BufTy).Contents (Elt F) → (⟨S600000x1, .i32⟩ : BufTy).Contents (Elt F))
  :: StableHlo.ternary main_v172 main_v173 main_v171 main_v174 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v175 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v175 main_v176 rfl shapeCasts_S1x128x128_S128x128
  :: StableHlo.unary main_v176 main_v177 ((transpose S128x128 [1, 0] · transposes_S128x128_S128x128_1_0) : (⟨S128x128, .f32⟩ : BufTy).Contents (Elt F) → (⟨S128x128, .f32⟩ : BufTy).Contents (Elt F))
  :: StableHlo.binary main_v161 main_v177 main_v178 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v179 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v179 main_v180 rfl shapeCasts_S1x128x128_S128x128
  :: StableHlo.unary main_v180 main_v181 ((transpose S128x128 [1, 0] · transposes_S128x128_S128x128_1_0) : (⟨S128x128, .f32⟩ : BufTy).Contents (Elt F) → (⟨S128x128, .f32⟩ : BufTy).Contents (Elt F))
  :: StableHlo.binary main_v174 main_v181 main_v182 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v178 main_v182 main_v183 (addf : (⟨S100000x128, .f32⟩ : BufTy).Contents (Elt F) → (⟨S100000x128, .f32⟩ : BufTy).Contents (Elt F) → (⟨S100000x128, .f32⟩ : BufTy).Contents (Elt F))
  :: StableHlo.nullary main_cst_36 (constant S_ .f32 0x3E4CCCCD#32)
  :: StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S100000x128, .f32⟩) (broadcastInDim S100000x128 ![] bcast_S_S100000x128)
  :: StableHlo.TRef.binary (.of main_v183 : StableHlo.TRef sig ⟨S100000x128, .f32⟩) (.of main_call5_v0 : StableHlo.TRef sig ⟨S100000x128, .f32⟩) (.of main_call5_v1 : StableHlo.TRef sig ⟨S100000x128, .i1⟩) (cmpf .oge)
  :: StableHlo.TRef.unary (.of main_cst_36 : StableHlo.TRef sig ⟨S_, .f32⟩) (.of main_call5_v2 : StableHlo.TRef sig ⟨S_, .f32⟩) id
  :: StableHlo.TRef.unary (.of main_call5_v2 : StableHlo.TRef sig ⟨S_, .f32⟩) (.of main_call5_v3 : StableHlo.TRef sig ⟨S100000x128, .f32⟩) (broadcastInDim S100000x128 ![] bcast_S_S100000x128)
  :: StableHlo.TRef.binary (.of main_call5_v3 : StableHlo.TRef sig ⟨S100000x128, .f32⟩) (.of main_v183 : StableHlo.TRef sig ⟨S100000x128, .f32⟩) (.of main_call5_v4 : StableHlo.TRef sig ⟨S100000x128, .f32⟩) mulf
  :: StableHlo.TRef.ternary (.of main_call5_v1 : StableHlo.TRef sig ⟨S100000x128, .i1⟩) (.of main_v183 : StableHlo.TRef sig ⟨S100000x128, .f32⟩) (.of main_call5_v4 : StableHlo.TRef sig ⟨S100000x128, .f32⟩) (.of main_v184 : StableHlo.TRef sig ⟨S100000x128, .f32⟩) select
  :: StableHlo.nullary main_cst_37 (constant S_ .f32 0x3F800000#32)
  :: StableHlo.unary main_cst_37 main_v185 (broadcastInDim S100000x128 ![] bcast_S_S100000x128 : (⟨S_, .f32⟩ : BufTy).Contents (Elt F) → (⟨S100000x128, .f32⟩ : BufTy).Contents (Elt F))
  :: StableHlo.binary main_v184 main_v185 main_v186 (addf : (⟨S100000x128, .f32⟩ : BufTy).Contents (Elt F) → (⟨S100000x128, .f32⟩ : BufTy).Contents (Elt F) → (⟨S100000x128, .f32⟩ : BufTy).Contents (Elt F))
  :: StableHlo.unary main_arg3 main_v187 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v187 main_v188 rfl shapeCasts_S1x128x128_S128x128
  :: StableHlo.unary main_v188 main_v189 ((transpose S128x128 [1, 0] · transposes_S128x128_S128x128_1_0) : (⟨S128x128, .f32⟩ : BufTy).Contents (Elt F) → (⟨S128x128, .f32⟩ : BufTy).Contents (Elt F))
  :: StableHlo.binary main_v161 main_v189 main_v190 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v191 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v191 main_v192 rfl shapeCasts_S1x128x128_S128x128
  :: StableHlo.unary main_v192 main_v193 ((transpose S128x128 [1, 0] · transposes_S128x128_S128x128_1_0) : (⟨S128x128, .f32⟩ : BufTy).Contents (Elt F) → (⟨S128x128, .f32⟩ : BufTy).Contents (Elt F))
  :: StableHlo.binary main_v174 main_v193 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v190 main_v194 main_v195 (addf : (⟨S100000x128, .f32⟩ : BufTy).Contents (Elt F) → (⟨S100000x128, .f32⟩ : BufTy).Contents (Elt F) → (⟨S100000x128, .f32⟩ : BufTy).Contents (Elt F))
  :: StableHlo.nullary main_cst_38 (constant S_ .f32 0x3E4CCCCD#32)
  :: StableHlo.TRef.nullary (.of main_call6_cst : StableHlo.TRef sig ⟨S_, .f32⟩) (constant S_ .f32 0x00000000#32)
  :: StableHlo.TRef.unary (.of main_call6_cst : StableHlo.TRef sig ⟨S_, .f32⟩) (.of main_call6_v0 : StableHlo.TRef sig ⟨S100000x128, .f32⟩) (broadcastInDim S100000x128 ![] bcast_S_S100000x128)
  :: StableHlo.TRef.binary (.of main_v195 : StableHlo.TRef sig ⟨S100000x128, .f32⟩) (.of main_call6_v0 : StableHlo.TRef sig ⟨S100000x128, .f32⟩) (.of main_call6_v1 : StableHlo.TRef sig ⟨S100000x128, .i1⟩) (cmpf .oge)
  :: StableHlo.TRef.unary (.of main_cst_38 : StableHlo.TRef sig ⟨S_, .f32⟩) (.of main_call6_v2 : StableHlo.TRef sig ⟨S_, .f32⟩) id
  :: StableHlo.TRef.unary (.of main_call6_v2 : StableHlo.TRef sig ⟨S_, .f32⟩) (.of main_call6_v3 : StableHlo.TRef sig ⟨S100000x128, .f32⟩) (broadcastInDim S100000x128 ![] bcast_S_S100000x128)
  :: StableHlo.TRef.binary (.of main_call6_v3 : StableHlo.TRef sig ⟨S100000x128, .f32⟩) (.of main_v195 : StableHlo.TRef sig ⟨S100000x128, .f32⟩) (.of main_call6_v4 : StableHlo.TRef sig ⟨S100000x128, .f32⟩) mulf
  :: StableHlo.TRef.ternary (.of main_call6_v1 : StableHlo.TRef sig ⟨S100000x128, .i1⟩) (.of main_v195 : StableHlo.TRef sig ⟨S100000x128, .f32⟩) (.of main_call6_v4 : StableHlo.TRef sig ⟨S100000x128, .f32⟩) (.of main_v196 : StableHlo.TRef sig ⟨S100000x128, .f32⟩) select
  :: StableHlo.unary main_arg5 main_v197 ((extractStridedSlice S1x128 ![2, 0] · slices_S3x128_S1x128_2_0) : (⟨S3x128, .f32⟩ : BufTy).Contents (Elt F) → (⟨S1x128, .f32⟩ : BufTy).Contents (Elt F))
  :: StableHlo.reshape main_v197 main_v198 rfl shapeCasts_S1x128_S128
  :: [] )

/-- The window is the straight line of its operations (both sides unfold to the same chain of steps). -/
theorem part3_eq (c : Dev nD) : main_part3 (F := F) c = seq ops3 := by
  chain_rfl

set_option maxHeartbeats 40000000 in
/-- Each operation touches TensorCore references only. -/
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub ..⟩

set_option maxHeartbeats 40000000 in
/-- Each operation determines its result (none allocates). -/
theorem ops3_fresh : ∀ op ∈ (ops3 : List (HloOp τ sig (Elt F))), op.fresh = ∅ := by
  intro _ h; (repeat (cases h with | head => rfl | tail _ h => ?_)); exact nomatch h

set_option maxHeartbeats 40000000 in
/-- No operation of the window writes @main's argument 0. -/
theorem ops3_keeps_arg0 : ∀ op ∈ (ops3 : List (HloOp τ sig (Elt F))), Proc.devRef .tc main_arg0 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops3_keeps_arg1 : ∀ op ∈ (ops3 : List (HloOp τ sig (Elt F))), Proc.devRef .tc main_arg1 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops3_keeps_arg2 : ∀ op ∈ (ops3 : List (HloOp τ sig (Elt F))), Proc.devRef .tc main_arg2 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops3_keeps_arg3 : ∀ op ∈ (ops3 : List (HloOp τ sig (Elt F))), Proc.devRef .tc main_arg3 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops3_keeps_arg4 : ∀ op ∈ (ops3 : List (HloOp τ sig (Elt F))), Proc.devRef .tc main_arg4 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops3_keeps_arg5 : ∀ op ∈ (ops3 : List (HloOp τ sig (Elt F))), Proc.devRef .tc main_arg5 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops3_keeps_arg6 : ∀ op ∈ (ops3 : List (HloOp τ sig (Elt F))), Proc.devRef .tc main_arg6 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops3_keeps_arg7 : ∀ op ∈ (ops3 : List (HloOp τ sig (Elt F))), Proc.devRef .tc main_arg7 ∉ op.writes :=
  List.forall_iff_forall_mem.mp (by
    simp only [ops3, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops4.lean ====
/- Window 4 of the reference program's @main (`main_part4`) as the list of its 60 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 operations of window 4, in order. -/
abbrev ops4 : List (HloOp τ sig (Elt F)) :=
  ( StableHlo.unary main_v198 main_v199 (broadcastInDim S1x128 ![1] bcast_S128_S1x128_1 : (⟨S128, .f32⟩ : BufTy).Contents (Elt F) → (⟨S1x128, .f32⟩ : BufTy).Contents (Elt F))
  :: StableHlo.unary main_v199 main_v200 (broadcastInDim S100000x128 ![0, 1] bcast_S1x128_S100000x128_0_1 : (⟨S1x128, .f32⟩ : BufTy).Contents (Elt F) → (⟨S100000x128, .f32⟩ : BufTy).Contents (Elt F))
  :: StableHlo.binary main_v186 main_v200 main_v201 (mulf : (⟨S100000x128, .f32⟩ : BufTy).Contents (Elt F) → (⟨S100000x128, .f32⟩ : BufTy).Contents (Elt F) → (⟨S100000x128, .f32⟩ : BufTy).Contents (Elt F))
  :: StableHlo.binary main_v161 main_v201 main_v202 (addf : (⟨S100000x128, .f32⟩ : BufTy).Contents (Elt F) → (⟨S100000x128, .f32⟩ : BufTy).Contents (Elt F) → (⟨S100000x128, .f32⟩ : BufTy).Contents (Elt F))
  :: StableHlo.binary main_v202 main_v196 main_v203 (addf : (⟨S100000x128, .f32⟩ : BufTy).Contents (Elt F) → (⟨S100000x128, .f32⟩ : BufTy).Contents (Elt F) → (⟨S100000x128, .f32⟩ : BufTy).Contents (Elt F))
  :: StableHlo.binary main_v203 main_v174 main_v204 (subf : (⟨S100000x128, .f32⟩ : BufTy).Contents (Elt F) → (⟨S100000x128, .f32⟩ : BufTy).Contents (Elt F) → (⟨S100000x128, .f32⟩ : BufTy).Contents (Elt F))
  :: StableHlo.unary main_v32 main_v205 (broadcastInDim S600000x1 ![0] bcast_S600000_S600000x1_0 : (⟨S600000, .f32⟩ : BufTy).Contents (Elt F) → (⟨S600000x1, .f32⟩ : BufTy).Contents (Elt F))
  :: StableHlo.nullary main_c_39 (constantI S_ 32 0#32)
  :: StableHlo.unary main_c_39 main_v206 (broadcastInDim S600000 ![] bcast_S_S600000 : (⟨S_, .i32⟩ : BufTy).Contents (Elt F) → (⟨S600000, .i32⟩ : BufTy).Contents (Elt F))
  :: StableHlo.binary main_arg7 main_v206 main_v207 (cmpi .slt : (⟨S600000, .i32⟩ : BufTy).Contents (Elt F) → (⟨S600000, .i32⟩ : BufTy).Contents (Elt F) → (⟨S600000, .i1⟩ : BufTy).Contents (Elt F))
  :: StableHlo.nullary main_c_40 (constantI S_ 32 100000#32)
  :: StableHlo.unary main_c_40 main_v208 (broadcastInDim S600000 ![] bcast_S_S600000 : (⟨S_, .i32⟩ : BufTy).Contents (Elt F) → (⟨S600000, .i32⟩ : BufTy).Contents (Elt F))
  :: StableHlo.binary main_arg7 main_v208 main_v209 (addi : (⟨S600000, .i32⟩ : BufTy).Contents (Elt F) → (⟨S600000, .i32⟩ : BufTy).Contents (Elt F) → (⟨S600000, .i32⟩ : BufTy).Contents (Elt F))
  :: StableHlo.ternary main_v207 main_v209 main_arg7 main_v210 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v210 main_v211 (broadcastInDim S600000x1 ![0] bcast_S600000_S600000x1_0 : (⟨S600000, .i32⟩ : BufTy).Contents (Elt F) → (⟨S600000x1, .i32⟩ : BufTy).Contents (Elt F))
  :: StableHlo.binary main_v161 main_v211 main_v212 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v205 main_v213 (broadcastInDim S600000x128 ![0, 1] bcast_S600000x1_S600000x128_0_1 : (⟨S600000x1, .f32⟩ : BufTy).Contents (Elt F) → (⟨S600000x128, .f32⟩ : BufTy).Contents (Elt F))
  :: StableHlo.binary main_v213 main_v212 main_v214 (mulf : (⟨S600000x128, .f32⟩ : BufTy).Contents (Elt F) → (⟨S600000x128, .f32⟩ : BufTy).Contents (Elt F) → (⟨S600000x128, .f32⟩ : BufTy).Contents (Elt F))
  :: StableHlo.nullary main_cst_41 (constant S_ .f32 0x00000000#32)
  :: StableHlo.unary main_cst_41 main_v215 (broadcastInDim S100000x128 ![] bcast_S_S100000x128 : (⟨S_, .f32⟩ : BufTy).Contents (Elt F) → (⟨S100000x128, .f32⟩ : BufTy).Contents (Elt F))
  :: StableHlo.unary main_arg6 main_v216 (broadcastInDim S600000x1 ![0] bcast_S600000_S600000x1_0 : (⟨S600000, .i32⟩ : BufTy).Contents (Elt F) → (⟨S600000x1, .i32⟩ : BufTy).Contents (Elt F))
  :: StableHlo.ternary main_v215 main_v216 main_v214 main_v217 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v14 main_v218 (broadcastInDim S100000x1 ![0] bcast_S100000_S100000x1_0 : (⟨S100000, .f32⟩ : BufTy).Contents (Elt F) → (⟨S100000x1, .f32⟩ : BufTy).Contents (Elt F))
  :: StableHlo.unary main_v218 main_v219 (broadcastInDim S100000x128 ![0, 1] bcast_S100000x1_S100000x128_0_1 : (⟨S100000x1, .f32⟩ : BufTy).Contents (Elt F) → (⟨S100000x128, .f32⟩ : BufTy).Contents (Elt F))
  :: StableHlo.binary main_v219 main_v161 main_v220 (mulf : (⟨S100000x128, .f32⟩ : BufTy).Contents (Elt F) → (⟨S100000x128, .f32⟩ : BufTy).Contents (Elt F) → (⟨S100000x128, .f32⟩ : BufTy).Contents (Elt F))
  :: StableHlo.binary main_v217 main_v220 main_v221 (addf : (⟨S100000x128, .f32⟩ : BufTy).Contents (Elt F) → (⟨S100000x128, .f32⟩ : BufTy).Contents (Elt F) → (⟨S100000x128, .f32⟩ : BufTy).Contents (Elt F))
  :: StableHlo.unary main_arg0 main_v222 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v101 main_v223 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v161 main_v224 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v221 main_v225 (broadcastInDim S1x100000x128 ![1, 2] bcast_S100000x128_S1x100000x128_1_2 : (⟨S100000x128, .f32⟩ : BufTy).Contents (Elt F) → (⟨S1x100000x128, .f32⟩ : BufTy).Contents (Elt F))
  :: StableHlo.nary ![main_v222, main_v223, main_v224, main_v225] main_v226 (fun u => concatenate S4x100000x128 0 [⟨S1x100000x128, u 0⟩, ⟨S1x100000x128, u 1⟩, ⟨S1x100000x128, u 2⟩, ⟨S1x100000x128, u 3⟩] concatenates_S1x100000x128_S1x100000x128_S1x100000x128_S1x100000x128_S4x100000x128_d0)
  :: StableHlo.nullary main_cst_42 (constant S_ .f32 0x00000000#32)
  :: StableHlo.binary main_v226 main_cst_42 main_v227 ((fun x v => Host.reduceAdd x v reducesTo_S4x100000x128_S100000x128_d0 h_S_) : (⟨S4x100000x128, .f32⟩ : BufTy).Contents (Elt F) → (⟨S_, .f32⟩ : BufTy).Contents (Elt F) → (⟨S100000x128, .f32⟩ : BufTy).Contents (Elt F))
  :: StableHlo.nullary main_cst_43 (constant S_ .f32 0x40800000#32)
  :: StableHlo.unary main_cst_43 main_v228 (broadcastInDim S100000x128 ![] bcast_S_S100000x128 : (⟨S_, .f32⟩ : BufTy).Contents (Elt F) → (⟨S100000x128, .f32⟩ : BufTy).Contents (Elt F))
  :: StableHlo.binary main_v227 main_v228 main_v229 (Host.divf : (⟨S100000x128, .f32⟩ : BufTy).Contents (Elt F) → (⟨S100000x128, .f32⟩ : BufTy).Contents (Elt F) → (⟨S100000x128, .f32⟩ : BufTy).Contents (Elt F))
  :: StableHlo.unary main_v84 main_v230 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v144 main_v231 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v204 main_v232 (broadcastInDim S1x100000x128 ![1, 2] bcast_S100000x128_S1x100000x128_1_2 : (⟨S100000x128, .f32⟩ : BufTy).Contents (Elt F) → (⟨S1x100000x128, .f32⟩ : BufTy).Contents (Elt F))
  :: StableHlo.nary ![main_v230, main_v231, main_v232] main_v233 (fun u => concatenate S3x100000x128 0 [⟨S1x100000x128, u 0⟩, ⟨S1x100000x128, u 1⟩, ⟨S1x100000x128, u 2⟩] concatenates_S1x100000x128_S1x100000x128_S1x100000x128_S3x100000x128_d0)
  :: StableHlo.nullary main_cst_44 (constant S_ .f32 0x00000000#32)
  :: StableHlo.binary main_v233 main_cst_44 main_v234 ((fun x v => Host.reduceAdd x v reducesTo_S3x100000x128_S100000x128_d0 h_S_) : (⟨S3x100000x128, .f32⟩ : BufTy).Contents (Elt F) → (⟨S_, .f32⟩ : BufTy).Contents (Elt F) → (⟨S100000x128, .f32⟩ : BufTy).Contents (Elt F))
  :: StableHlo.nullary main_cst_45 (constant S_ .f32 0x40400000#32)
  :: StableHlo.unary main_cst_45 main_v235 (broadcastInDim S100000x128 ![] bcast_S_S100000x128 : (⟨S_, .f32⟩ : BufTy).Contents (Elt F) → (⟨S100000x128, .f32⟩ : BufTy).Contents (Elt F))
  :: StableHlo.binary main_v234 main_v235 main_v236 (Host.divf : (⟨S100000x128, .f32⟩ : BufTy).Contents (Elt F) → (⟨S100000x128, .f32⟩ : BufTy).Contents (Elt F) → (⟨S100000x128, .f32⟩ : BufTy).Contents (Elt F))
  :: StableHlo.unary main_v25 main_v237 (broadcastInDim S600000x1 ![0] bcast_S600000_S600000x1_0 : (⟨S600000, .f32⟩ : BufTy).Contents (Elt F) → (⟨S600000x1, .f32⟩ : BufTy).Contents (Elt F))
  :: StableHlo.nullary main_c_46 (constantI S_ 32 0#32)
  :: StableHlo.unary main_c_46 main_v238 (broadcastInDim S600000 ![] bcast_S_S600000 : (⟨S_, .i32⟩ : BufTy).Contents (Elt F) → (⟨S600000, .i32⟩ : BufTy).Contents (Elt F))
  :: StableHlo.binary main_arg7 main_v238 main_v239 (cmpi .slt : (⟨S600000, .i32⟩ : BufTy).Contents (Elt F) → (⟨S600000, .i32⟩ : BufTy).Contents (Elt F) → (⟨S600000, .i1⟩ : BufTy).Contents (Elt F))
  :: StableHlo.nullary main_c_47 (constantI S_ 32 100000#32)
  :: StableHlo.unary main_c_47 main_v240 (broadcastInDim S600000 ![] bcast_S_S600000 : (⟨S_, .i32⟩ : BufTy).Contents (Elt F) → (⟨S600000, .i32⟩ : BufTy).Contents (Elt F))
  :: StableHlo.binary main_arg7 main_v240 main_v241 (addi : (⟨S600000, .i32⟩ : BufTy).Contents (Elt F) → (⟨S600000, .i32⟩ : BufTy).Contents (Elt F) → (⟨S600000, .i32⟩ : BufTy).Contents (Elt F))
  :: StableHlo.ternary main_v239 main_v241 main_arg7 main_v242 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v242 main_v243 (broadcastInDim S600000x1 ![0] bcast_S600000_S600000x1_0 : (⟨S600000, .i32⟩ : BufTy).Contents (Elt F) → (⟨S600000x1, .i32⟩ : BufTy).Contents (Elt F))
  :: StableHlo.binary main_arg0 main_v243 main_v244 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v237 main_v245 (broadcastInDim S600000x128 ![0, 1] bcast_S600000x1_S600000x128_0_1 : (⟨S600000x1, .f32⟩ : BufTy).Contents (Elt F) → (⟨S600000x128, .f32⟩ : BufTy).Contents (Elt F))
  :: StableHlo.binary main_v245 main_v244 main_v246 (mulf : (⟨S600000x128, .f32⟩ : BufTy).Contents (Elt F) → (⟨S600000x128, .f32⟩ : BufTy).Contents (Elt F) → (⟨S600000x128, .f32⟩ : BufTy).Contents (Elt F))
  :: StableHlo.nullary main_cst_48 (constant S_ .f32 0x00000000#32)
  :: StableHlo.unary main_cst_48 main_v247 (broadcastInDim S100000x128 ![] bcast_S_S100000x128 : (⟨S_, .f32⟩ : BufTy).Contents (Elt F) → (⟨S100000x128, .f32⟩ : BufTy).Contents (Elt F))
  :: StableHlo.unary main_arg6 main_v248 (broadcastInDim S600000x1 ![0] bcast_S600000_S600000x1_0 : (⟨S600000, .i32⟩ : BufTy).Contents (Elt F) → (⟨S600000x1, .i32⟩ : BufTy).Contents (Elt F))
  :: [] )

/-- The window is the straight line of its operations (both sides unfold to the same chain of steps). -/
theorem part4_eq (c : Dev nD) : main_part4 (F := F) c = seq ops4 := by
  chain_rfl

set_option maxHeartbeats 40000000 in
/-- Each operation touches TensorCore references only. -/
theorem ops4_sub : (ops4 : List (HloOp τ sig (Elt F))).Forall fun op => op.bufs ⊆ tcRefs τ sig :=
  ⟨unary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

set_option maxHeartbeats 40000000 in
/-- Each operation determines its result (none allocates). -/
theorem ops4_fresh : ∀ op ∈ (ops4 : List (HloOp τ sig (Elt F))), op.fresh = ∅ := by
  intro _ h; (repeat (cases h with | head => rfl | tail _ h => ?_)); exact nomatch h

set_option maxHeartbeats 40000000 in
/-- No operation of the window writes @main's argument 0. -/
theorem ops4_keeps_arg0 : ∀ op ∈ (ops4 : List (HloOp τ sig (Elt F))), Proc.devRef .tc main_arg0 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops4_keeps_arg1 : ∀ op ∈ (ops4 : List (HloOp τ sig (Elt F))), Proc.devRef .tc main_arg1 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops4_keeps_arg2 : ∀ op ∈ (ops4 : List (HloOp τ sig (Elt F))), Proc.devRef .tc main_arg2 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops4_keeps_arg3 : ∀ op ∈ (ops4 : List (HloOp τ sig (Elt F))), Proc.devRef .tc main_arg3 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops4_keeps_arg4 : ∀ op ∈ (ops4 : List (HloOp τ sig (Elt F))), Proc.devRef .tc main_arg4 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops4_keeps_arg5 : ∀ op ∈ (ops4 : List (HloOp τ sig (Elt F))), Proc.devRef .tc main_arg5 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops4_keeps_arg6 : ∀ op ∈ (ops4 : List (HloOp τ sig (Elt F))), Proc.devRef .tc main_arg6 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops4_keeps_arg7 : ∀ op ∈ (ops4 : List (HloOp τ sig (Elt F))), Proc.devRef .tc main_arg7 ∉ op.writes :=
  List.forall_iff_forall_mem.mp (by
    simp only [ops4, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops5.lean ====
/- Window 5 of the reference program's @main (`main_part5`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 5, in order. -/
abbrev ops5 : List (HloOp τ sig (Elt F)) :=
  ( StableHlo.ternary main_v247 main_v248 main_v246 main_v249 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v250 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v250 main_v251 rfl shapeCasts_S1x128x128_S128x128
  :: StableHlo.unary main_v251 main_v252 ((transpose S128x128 [1, 0] · transposes_S128x128_S128x128_1_0) : (⟨S128x128, .f32⟩ : BufTy).Contents (Elt F) → (⟨S128x128, .f32⟩ : BufTy).Contents (Elt F))
  :: StableHlo.binary main_arg0 main_v252 main_v253 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v254 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v254 main_v255 rfl shapeCasts_S1x128x128_S128x128
  :: StableHlo.unary main_v255 main_v256 ((transpose S128x128 [1, 0] · transposes_S128x128_S128x128_1_0) : (⟨S128x128, .f32⟩ : BufTy).Contents (Elt F) → (⟨S128x128, .f32⟩ : BufTy).Contents (Elt F))
  :: StableHlo.binary main_v249 main_v256 main_v257 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v253 main_v257 main_v258 (addf : (⟨S100000x128, .f32⟩ : BufTy).Contents (Elt F) → (⟨S100000x128, .f32⟩ : BufTy).Contents (Elt F) → (⟨S100000x128, .f32⟩ : BufTy).Contents (Elt F))
  :: StableHlo.nullary main_cst_49 (constant S_ .f32 0x3E4CCCCD#32)
  :: StableHlo.TRef.nullary (.of main_call7_cst : StableHlo.TRef sig ⟨S_, .f32⟩) (constant S_ .f32 0x00000000#32)
  :: StableHlo.TRef.unary (.of main_call7_cst : StableHlo.TRef sig ⟨S_, .f32⟩) (.of main_call7_v0 : StableHlo.TRef sig ⟨S100000x128, .f32⟩) (broadcastInDim S100000x128 ![] bcast_S_S100000x128)
  :: StableHlo.TRef.binary (.of main_v258 : StableHlo.TRef sig ⟨S100000x128, .f32⟩) (.of main_call7_v0 : StableHlo.TRef sig ⟨S100000x128, .f32⟩) (.of main_call7_v1 : StableHlo.TRef sig ⟨S100000x128, .i1⟩) (cmpf .oge)
  :: StableHlo.TRef.unary (.of main_cst_49 : StableHlo.TRef sig ⟨S_, .f32⟩) (.of main_call7_v2 : StableHlo.TRef sig ⟨S_, .f32⟩) id
  :: StableHlo.TRef.unary (.of main_call7_v2 : StableHlo.TRef sig ⟨S_, .f32⟩) (.of main_call7_v3 : StableHlo.TRef sig ⟨S100000x128, .f32⟩) (broadcastInDim S100000x128 ![] bcast_S_S100000x128)
  :: StableHlo.TRef.binary (.of main_call7_v3 : StableHlo.TRef sig ⟨S100000x128, .f32⟩) (.of main_v258 : StableHlo.TRef sig ⟨S100000x128, .f32⟩) (.of main_call7_v4 : StableHlo.TRef sig ⟨S100000x128, .f32⟩) mulf
  :: StableHlo.TRef.ternary (.of main_call7_v1 : StableHlo.TRef sig ⟨S100000x128, .i1⟩) (.of main_v258 : StableHlo.TRef sig ⟨S100000x128, .f32⟩) (.of main_call7_v4 : StableHlo.TRef sig ⟨S100000x128, .f32⟩) (.of main_v259 : StableHlo.TRef sig ⟨S100000x128, .f32⟩) select
  :: StableHlo.nullary main_cst_50 (constant S_ .f32 0x3F800000#32)
  :: StableHlo.unary main_cst_50 main_v260 (broadcastInDim S100000x128 ![] bcast_S_S100000x128 : (⟨S_, .f32⟩ : BufTy).Contents (Elt F) → (⟨S100000x128, .f32⟩ : BufTy).Contents (Elt F))
  :: StableHlo.binary main_v259 main_v260 main_v261 (addf : (⟨S100000x128, .f32⟩ : BufTy).Contents (Elt F) → (⟨S100000x128, .f32⟩ : BufTy).Contents (Elt F) → (⟨S100000x128, .f32⟩ : BufTy).Contents (Elt F))
  :: StableHlo.unary main_arg3 main_v262 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v262 main_v263 rfl shapeCasts_S1x128x128_S128x128
  :: StableHlo.unary main_v263 main_v264 ((transpose S128x128 [1, 0] · transposes_S128x128_S128x128_1_0) : (⟨S128x128, .f32⟩ : BufTy).Contents (Elt F) → (⟨S128x128, .f32⟩ : BufTy).Contents (Elt F))
  :: StableHlo.binary main_arg0 main_v264 main_v265 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v266 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v266 main_v267 rfl shapeCasts_S1x128x128_S128x128
  :: StableHlo.unary main_v267 main_v268 ((transpose S128x128 [1, 0] · transposes_S128x128_S128x128_1_0) : (⟨S128x128, .f32⟩ : BufTy).Contents (Elt F) → (⟨S128x128, .f32⟩ : BufTy).Contents (Elt F))
  :: StableHlo.binary main_v249 main_v268 main_v269 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v265 main_v269 main_v270 (addf : (⟨S100000x128, .f32⟩ : BufTy).Contents (Elt F) → (⟨S100000x128, .f32⟩ : BufTy).Contents (Elt F) → (⟨S100000x128, .f32⟩ : BufTy).Contents (Elt F))
  :: StableHlo.nullary main_cst_51 (constant S_ .f32 0x3E4CCCCD#32)
  :: StableHlo.TRef.nullary (.of main_call8_cst : StableHlo.TRef sig ⟨S_, .f32⟩) (constant S_ .f32 0x00000000#32)
  :: StableHlo.TRef.unary (.of main_call8_cst : StableHlo.TRef sig ⟨S_, .f32⟩) (.of main_call8_v0 : StableHlo.TRef sig ⟨S100000x128, .f32⟩) (broadcastInDim S100000x128 ![] bcast_S_S100000x128)
  :: StableHlo.TRef.binary (.of main_v270 : StableHlo.TRef sig ⟨S100000x128, .f32⟩) (.of main_call8_v0 : StableHlo.TRef sig ⟨S100000x128, .f32⟩) (.of main_call8_v1 : StableHlo.TRef sig ⟨S100000x128, .i1⟩) (cmpf .oge)
  :: StableHlo.TRef.unary (.of main_cst_51 : StableHlo.TRef sig ⟨S_, .f32⟩) (.of main_call8_v2 : StableHlo.TRef sig ⟨S_, .f32⟩) id
  :: StableHlo.TRef.unary (.of main_call8_v2 : StableHlo.TRef sig ⟨S_, .f32⟩) (.of main_call8_v3 : StableHlo.TRef sig ⟨S100000x128, .f32⟩) (broadcastInDim S100000x128 ![] bcast_S_S100000x128)
  :: StableHlo.TRef.binary (.of main_call8_v3 : StableHlo.TRef sig ⟨S100000x128, .f32⟩) (.of main_v270 : StableHlo.TRef sig ⟨S100000x128, .f32⟩) (.of main_call8_v4 : StableHlo.TRef sig ⟨S100000x128, .f32⟩) mulf
  :: StableHlo.TRef.ternary (.of main_call8_v1 : StableHlo.TRef sig ⟨S100000x128, .i1⟩) (.of main_v270 : StableHlo.TRef sig ⟨S100000x128, .f32⟩) (.of main_call8_v4 : StableHlo.TRef sig ⟨S100000x128, .f32⟩) (.of main_v271 : StableHlo.TRef sig ⟨S100000x128, .f32⟩) select
  :: StableHlo.unary main_arg5 main_v272 ((extractStridedSlice S1x128 ![0, 0] · slices_S3x128_S1x128_0_0) : (⟨S3x128, .f32⟩ : BufTy).Contents (Elt F) → (⟨S1x128, .f32⟩ : BufTy).Contents (Elt F))
  :: StableHlo.reshape main_v272 main_v273 rfl shapeCasts_S1x128_S128
  :: StableHlo.unary main_v273 main_v274 (broadcastInDim S1x128 ![1] bcast_S128_S1x128_1 : (⟨S128, .f32⟩ : BufTy).Contents (Elt F) → (⟨S1x128, .f32⟩ : BufTy).Contents (Elt F))
  :: StableHlo.unary main_v274 main_v275 (broadcastInDim S100000x128 ![0, 1] bcast_S1x128_S100000x128_0_1 : (⟨S1x128, .f32⟩ : BufTy).Contents (Elt F) → (⟨S100000x128, .f32⟩ : BufTy).Contents (Elt F))
  :: StableHlo.binary main_v261 main_v275 main_v276 (mulf : (⟨S100000x128, .f32⟩ : BufTy).Contents (Elt F) → (⟨S100000x128, .f32⟩ : BufTy).Contents (Elt F) → (⟨S100000x128, .f32⟩ : BufTy).Contents (Elt F))
  :: StableHlo.binary main_arg0 main_v276 main_v277 (addf : (⟨S100000x128, .f32⟩ : BufTy).Contents (Elt F) → (⟨S100000x128, .f32⟩ : BufTy).Contents (Elt F) → (⟨S100000x128, .f32⟩ : BufTy).Contents (Elt F))
  :: StableHlo.binary main_v277 main_v271 main_v278 (addf : (⟨S100000x128, .f32⟩ : BufTy).Contents (Elt F) → (⟨S100000x128, .f32⟩ : BufTy).Contents (Elt F) → (⟨S100000x128, .f32⟩ : BufTy).Contents (Elt F))
  :: StableHlo.binary main_v278 main_v249 main_v279 (subf : (⟨S100000x128, .f32⟩ : BufTy).Contents (Elt F) → (⟨S100000x128, .f32⟩ : BufTy).Contents (Elt F) → (⟨S100000x128, .f32⟩ : BufTy).Contents (Elt F))
  :: StableHlo.unary main_v39 main_v280 (broadcastInDim S600000x1 ![0] bcast_S600000_S600000x1_0 : (⟨S600000, .f32⟩ : BufTy).Contents (Elt F) → (⟨S600000x1, .f32⟩ : BufTy).Contents (Elt F))
  :: StableHlo.nullary main_c_52 (constantI S_ 32 0#32)
  :: StableHlo.unary main_c_52 main_v281 (broadcastInDim S600000 ![] bcast_S_S600000 : (⟨S_, .i32⟩ : BufTy).Contents (Elt F) → (⟨S600000, .i32⟩ : BufTy).Contents (Elt F))
  :: StableHlo.binary main_arg7 main_v281 main_v282 (cmpi .slt : (⟨S600000, .i32⟩ : BufTy).Contents (Elt F) → (⟨S600000, .i32⟩ : BufTy).Contents (Elt F) → (⟨S600000, .i1⟩ : BufTy).Contents (Elt F))
  :: StableHlo.nullary main_c_53 (constantI S_ 32 100000#32)
  :: StableHlo.unary main_c_53 main_v283 (broadcastInDim S600000 ![] bcast_S_S600000 : (⟨S_, .i32⟩ : BufTy).Contents (Elt F) → (⟨S600000, .i32⟩ : BufTy).Contents (Elt F))
  :: StableHlo.binary main_arg7 main_v283 main_v284 (addi : (⟨S600000, .i32⟩ : BufTy).Contents (Elt F) → (⟨S600000, .i32⟩ : BufTy).Contents (Elt F) → (⟨S600000, .i32⟩ : BufTy).Contents (Elt F))
  :: StableHlo.ternary main_v282 main_v284 main_arg7 main_v285 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v285 main_v286 (broadcastInDim S600000x1 ![0] bcast_S600000_S600000x1_0 : (⟨S600000, .i32⟩ : BufTy).Contents (Elt F) → (⟨S600000x1, .i32⟩ : BufTy).Contents (Elt F))
  :: StableHlo.binary main_arg0 main_v286 main_v287 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v280 main_v288 (broadcastInDim S600000x128 ![0, 1] bcast_S600000x1_S600000x128_0_1 : (⟨S600000x1, .f32⟩ : BufTy).Contents (Elt F) → (⟨S600000x128, .f32⟩ : BufTy).Contents (Elt F))
  :: StableHlo.binary main_v288 main_v287 main_v289 (mulf : (⟨S600000x128, .f32⟩ : BufTy).Contents (Elt F) → (⟨S600000x128, .f32⟩ : BufTy).Contents (Elt F) → (⟨S600000x128, .f32⟩ : BufTy).Contents (Elt F))
  :: StableHlo.nullary main_cst_54 (constant S_ .f32 0x00000000#32)
  :: StableHlo.unary main_cst_54 main_v290 (broadcastInDim S100000x128 ![] bcast_S_S100000x128 : (⟨S_, .f32⟩ : BufTy).Contents (Elt F) → (⟨S100000x128, .f32⟩ : BufTy).Contents (Elt F))
  :: StableHlo.unary main_arg6 main_v291 (broadcastInDim S600000x1 ![0] bcast_S600000_S600000x1_0 : (⟨S600000, .i32⟩ : BufTy).Contents (Elt F) → (⟨S600000x1, .i32⟩ : BufTy).Contents (Elt F))
  :: StableHlo.ternary main_v290 main_v291 main_v289 main_v292 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v18 main_v293 (broadcastInDim S100000x1 ![0] bcast_S100000_S100000x1_0 : (⟨S100000, .f32⟩ : BufTy).Contents (Elt F) → (⟨S100000x1, .f32⟩ : BufTy).Contents (Elt F))
  :: StableHlo.unary main_v293 main_v294 (broadcastInDim S100000x128 ![0, 1] bcast_S100000x1_S100000x128_0_1 : (⟨S100000x1, .f32⟩ : BufTy).Contents (Elt F) → (⟨S100000x128, .f32⟩ : BufTy).Contents (Elt F))
  :: StableHlo.binary main_v294 main_arg0 main_v295 (mulf : (⟨S100000x128, .f32⟩ : BufTy).Contents (Elt F) → (⟨S100000x128, .f32⟩ : BufTy).Contents (Elt F) → (⟨S100000x128, .f32⟩ : BufTy).Contents (Elt F))
  :: StableHlo.binary main_v292 main_v295 main_v296 (addf : (⟨S100000x128, .f32⟩ : BufTy).Contents (Elt F) → (⟨S100000x128, .f32⟩ : BufTy).Contents (Elt F) → (⟨S100000x128, .f32⟩ : BufTy).Contents (Elt F))
  :: StableHlo.unary main_v18 main_v297 (broadcastInDim S100000x1 ![0] bcast_S100000_S100000x1_0 : (⟨S100000, .f32⟩ : BufTy).Contents (Elt F) → (⟨S100000x1, .f32⟩ : BufTy).Contents (Elt F))
  :: StableHlo.unary main_v297 main_v298 (broadcastInDim S100000x128 ![0, 1] bcast_S100000x1_S100000x128_0_1 : (⟨S100000x1, .f32⟩ : BufTy).Contents (Elt F) → (⟨S100000x128, .f32⟩ : BufTy).Contents (Elt F))
  :: StableHlo.binary main_v279 main_v298 main_v299 (mulf : (⟨S100000x128, .f32⟩ : BufTy).Contents (Elt F) → (⟨S100000x128, .f32⟩ : BufTy).Contents (Elt F) → (⟨S100000x128, .f32⟩ : BufTy).Contents (Elt F))
  :: StableHlo.binary main_v296 main_v299 main_v300 (addf : (⟨S100000x128, .f32⟩ : BufTy).Contents (Elt F) → (⟨S100000x128, .f32⟩ : BufTy).Contents (Elt F) → (⟨S100000x128, .f32⟩ : BufTy).Contents (Elt F))
  :: StableHlo.unary main_v25 main_v301 (broadcastInDim S600000x1 ![0] bcast_S600000_S600000x1_0 : (⟨S600000, .f32⟩ : BufTy).Contents (Elt F) → (⟨S600000x1, .f32⟩ : BufTy).Contents (Elt F))
  :: StableHlo.nullary main_c_55 (constantI S_ 32 0#32)
  :: [] )

/-- The window is the straight line of its operations (both sides unfold to the same chain of steps). -/
theorem part5_eq (c : Dev nD) : main_part5 (F := F) c = seq ops5 := by
  chain_rfl

set_option maxHeartbeats 40000000 in
/-- Each operation touches TensorCore references only. -/
theorem ops5_sub : (ops5 : List (HloOp τ sig (Elt F))).Forall fun op => op.bufs ⊆ tcRefs τ sig :=
  ⟨ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., nullary_bufs_sub ..⟩

set_option maxHeartbeats 40000000 in
/-- Each operation determines its result (none allocates). -/
theorem ops5_fresh : ∀ op ∈ (ops5 : List (HloOp τ sig (Elt F))), op.fresh = ∅ := by
  intro _ h; (repeat (cases h with | head => rfl | tail _ h => ?_)); exact nomatch h

set_option maxHeartbeats 40000000 in
/-- No operation of the window writes @main's argument 0. -/
theorem ops5_keeps_arg0 : ∀ op ∈ (ops5 : List (HloOp τ sig (Elt F))), Proc.devRef .tc main_arg0 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops5_keeps_arg1 : ∀ op ∈ (ops5 : List (HloOp τ sig (Elt F))), Proc.devRef .tc main_arg1 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops5_keeps_arg2 : ∀ op ∈ (ops5 : List (HloOp τ sig (Elt F))), Proc.devRef .tc main_arg2 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops5_keeps_arg3 : ∀ op ∈ (ops5 : List (HloOp τ sig (Elt F))), Proc.devRef .tc main_arg3 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops5_keeps_arg4 : ∀ op ∈ (ops5 : List (HloOp τ sig (Elt F))), Proc.devRef .tc main_arg4 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops5_keeps_arg5 : ∀ op ∈ (ops5 : List (HloOp τ sig (Elt F))), Proc.devRef .tc main_arg5 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops5_keeps_arg6 : ∀ op ∈ (ops5 : List (HloOp τ sig (Elt F))), Proc.devRef .tc main_arg6 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops5_keeps_arg7 : ∀ op ∈ (ops5 : List (HloOp τ sig (Elt F))), Proc.devRef .tc main_arg7 ∉ op.writes :=
  List.forall_iff_forall_mem.mp (by
    simp only [ops5, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops6.lean ====
/- Window 6 of the reference program's @main (`main_part6`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 6, in order. -/
abbrev ops6 : List (HloOp τ sig (Elt F)) :=
  ( StableHlo.unary main_c_55 main_v302 (broadcastInDim S600000 ![] bcast_S_S600000 : (⟨S_, .i32⟩ : BufTy).Contents (Elt F) → (⟨S600000, .i32⟩ : BufTy).Contents (Elt F))
  :: StableHlo.binary main_arg7 main_v302 main_v303 (cmpi .slt : (⟨S600000, .i32⟩ : BufTy).Contents (Elt F) → (⟨S600000, .i32⟩ : BufTy).Contents (Elt F) → (⟨S600000, .i1⟩ : BufTy).Contents (Elt F))
  :: StableHlo.nullary main_c_56 (constantI S_ 32 100000#32)
  :: StableHlo.unary main_c_56 main_v304 (broadcastInDim S600000 ![] bcast_S_S600000 : (⟨S_, .i32⟩ : BufTy).Contents (Elt F) → (⟨S600000, .i32⟩ : BufTy).Contents (Elt F))
  :: StableHlo.binary main_arg7 main_v304 main_v305 (addi : (⟨S600000, .i32⟩ : BufTy).Contents (Elt F) → (⟨S600000, .i32⟩ : BufTy).Contents (Elt F) → (⟨S600000, .i32⟩ : BufTy).Contents (Elt F))
  :: StableHlo.ternary main_v303 main_v305 main_arg7 main_v306 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v306 main_v307 (broadcastInDim S600000x1 ![0] bcast_S600000_S600000x1_0 : (⟨S600000, .i32⟩ : BufTy).Contents (Elt F) → (⟨S600000x1, .i32⟩ : BufTy).Contents (Elt F))
  :: StableHlo.binary main_v300 main_v307 main_v308 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v301 main_v309 (broadcastInDim S600000x128 ![0, 1] bcast_S600000x1_S600000x128_0_1 : (⟨S600000x1, .f32⟩ : BufTy).Contents (Elt F) → (⟨S600000x128, .f32⟩ : BufTy).Contents (Elt F))
  :: StableHlo.binary main_v309 main_v308 main_v310 (mulf : (⟨S600000x128, .f32⟩ : BufTy).Contents (Elt F) → (⟨S600000x128, .f32⟩ : BufTy).Contents (Elt F) → (⟨S600000x128, .f32⟩ : BufTy).Contents (Elt F))
  :: StableHlo.nullary main_cst_57 (constant S_ .f32 0x00000000#32)
  :: StableHlo.unary main_cst_57 main_v311 (broadcastInDim S100000x128 ![] bcast_S_S100000x128 : (⟨S_, .f32⟩ : BufTy).Contents (Elt F) → (⟨S100000x128, .f32⟩ : BufTy).Contents (Elt F))
  :: StableHlo.unary main_arg6 main_v312 (broadcastInDim S600000x1 ![0] bcast_S600000_S600000x1_0 : (⟨S600000, .i32⟩ : BufTy).Contents (Elt F) → (⟨S600000x1, .i32⟩ : BufTy).Contents (Elt F))
  :: StableHlo.ternary main_v311 main_v312 main_v310 main_v313 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v314 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v314 main_v315 rfl shapeCasts_S1x128x128_S128x128
  :: StableHlo.unary main_v315 main_v316 ((transpose S128x128 [1, 0] · transposes_S128x128_S128x128_1_0) : (⟨S128x128, .f32⟩ : BufTy).Contents (Elt F) → (⟨S128x128, .f32⟩ : BufTy).Contents (Elt F))
  :: StableHlo.binary main_v300 main_v316 main_v317 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v318 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v318 main_v319 rfl shapeCasts_S1x128x128_S128x128
  :: StableHlo.unary main_v319 main_v320 ((transpose S128x128 [1, 0] · transposes_S128x128_S128x128_1_0) : (⟨S128x128, .f32⟩ : BufTy).Contents (Elt F) → (⟨S128x128, .f32⟩ : BufTy).Contents (Elt F))
  :: StableHlo.binary main_v313 main_v320 main_v321 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v317 main_v321 main_v322 (addf : (⟨S100000x128, .f32⟩ : BufTy).Contents (Elt F) → (⟨S100000x128, .f32⟩ : BufTy).Contents (Elt F) → (⟨S100000x128, .f32⟩ : BufTy).Contents (Elt F))
  :: StableHlo.nullary main_cst_58 (constant S_ .f32 0x3E4CCCCD#32)
  :: StableHlo.TRef.nullary (.of main_call9_cst : StableHlo.TRef sig ⟨S_, .f32⟩) (constant S_ .f32 0x00000000#32)
  :: StableHlo.TRef.unary (.of main_call9_cst : StableHlo.TRef sig ⟨S_, .f32⟩) (.of main_call9_v0 : StableHlo.TRef sig ⟨S100000x128, .f32⟩) (broadcastInDim S100000x128 ![] bcast_S_S100000x128)
  :: StableHlo.TRef.binary (.of main_v322 : StableHlo.TRef sig ⟨S100000x128, .f32⟩) (.of main_call9_v0 : StableHlo.TRef sig ⟨S100000x128, .f32⟩) (.of main_call9_v1 : StableHlo.TRef sig ⟨S100000x128, .i1⟩) (cmpf .oge)
  :: StableHlo.TRef.unary (.of main_cst_58 : StableHlo.TRef sig ⟨S_, .f32⟩) (.of main_call9_v2 : StableHlo.TRef sig ⟨S_, .f32⟩) id
  :: StableHlo.TRef.unary (.of main_call9_v2 : StableHlo.TRef sig ⟨S_, .f32⟩) (.of main_call9_v3 : StableHlo.TRef sig ⟨S100000x128, .f32⟩) (broadcastInDim S100000x128 ![] bcast_S_S100000x128)
  :: StableHlo.TRef.binary (.of main_call9_v3 : StableHlo.TRef sig ⟨S100000x128, .f32⟩) (.of main_v322 : StableHlo.TRef sig ⟨S100000x128, .f32⟩) (.of main_call9_v4 : StableHlo.TRef sig ⟨S100000x128, .f32⟩) mulf
  :: StableHlo.TRef.ternary (.of main_call9_v1 : StableHlo.TRef sig ⟨S100000x128, .i1⟩) (.of main_v322 : StableHlo.TRef sig ⟨S100000x128, .f32⟩) (.of main_call9_v4 : StableHlo.TRef sig ⟨S100000x128, .f32⟩) (.of main_v323 : StableHlo.TRef sig ⟨S100000x128, .f32⟩) select
  :: StableHlo.nullary main_cst_59 (constant S_ .f32 0x3F800000#32)
  :: StableHlo.unary main_cst_59 main_v324 (broadcastInDim S100000x128 ![] bcast_S_S100000x128 : (⟨S_, .f32⟩ : BufTy).Contents (Elt F) → (⟨S100000x128, .f32⟩ : BufTy).Contents (Elt F))
  :: StableHlo.binary main_v323 main_v324 main_v325 (addf : (⟨S100000x128, .f32⟩ : BufTy).Contents (Elt F) → (⟨S100000x128, .f32⟩ : BufTy).Contents (Elt F) → (⟨S100000x128, .f32⟩ : BufTy).Contents (Elt F))
  :: StableHlo.unary main_arg3 main_v326 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v326 main_v327 rfl shapeCasts_S1x128x128_S128x128
  :: StableHlo.unary main_v327 main_v328 ((transpose S128x128 [1, 0] · transposes_S128x128_S128x128_1_0) : (⟨S128x128, .f32⟩ : BufTy).Contents (Elt F) → (⟨S128x128, .f32⟩ : BufTy).Contents (Elt F))
  :: StableHlo.binary main_v300 main_v328 main_v329 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v330 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v330 main_v331 rfl shapeCasts_S1x128x128_S128x128
  :: StableHlo.unary main_v331 main_v332 ((transpose S128x128 [1, 0] · transposes_S128x128_S128x128_1_0) : (⟨S128x128, .f32⟩ : BufTy).Contents (Elt F) → (⟨S128x128, .f32⟩ : BufTy).Contents (Elt F))
  :: StableHlo.binary main_v313 main_v332 main_v333 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v329 main_v333 main_v334 (addf : (⟨S100000x128, .f32⟩ : BufTy).Contents (Elt F) → (⟨S100000x128, .f32⟩ : BufTy).Contents (Elt F) → (⟨S100000x128, .f32⟩ : BufTy).Contents (Elt F))
  :: StableHlo.nullary main_cst_60 (constant S_ .f32 0x3E4CCCCD#32)
  :: StableHlo.TRef.nullary (.of main_call10_cst : StableHlo.TRef sig ⟨S_, .f32⟩) (constant S_ .f32 0x00000000#32)
  :: StableHlo.TRef.unary (.of main_call10_cst : StableHlo.TRef sig ⟨S_, .f32⟩) (.of main_call10_v0 : StableHlo.TRef sig ⟨S100000x128, .f32⟩) (broadcastInDim S100000x128 ![] bcast_S_S100000x128)
  :: StableHlo.TRef.binary (.of main_v334 : StableHlo.TRef sig ⟨S100000x128, .f32⟩) (.of main_call10_v0 : StableHlo.TRef sig ⟨S100000x128, .f32⟩) (.of main_call10_v1 : StableHlo.TRef sig ⟨S100000x128, .i1⟩) (cmpf .oge)
  :: StableHlo.TRef.unary (.of main_cst_60 : StableHlo.TRef sig ⟨S_, .f32⟩) (.of main_call10_v2 : StableHlo.TRef sig ⟨S_, .f32⟩) id
  :: StableHlo.TRef.unary (.of main_call10_v2 : StableHlo.TRef sig ⟨S_, .f32⟩) (.of main_call10_v3 : StableHlo.TRef sig ⟨S100000x128, .f32⟩) (broadcastInDim S100000x128 ![] bcast_S_S100000x128)
  :: StableHlo.TRef.binary (.of main_call10_v3 : StableHlo.TRef sig ⟨S100000x128, .f32⟩) (.of main_v334 : StableHlo.TRef sig ⟨S100000x128, .f32⟩) (.of main_call10_v4 : StableHlo.TRef sig ⟨S100000x128, .f32⟩) mulf
  :: StableHlo.TRef.ternary (.of main_call10_v1 : StableHlo.TRef sig ⟨S100000x128, .i1⟩) (.of main_v334 : StableHlo.TRef sig ⟨S100000x128, .f32⟩) (.of main_call10_v4 : StableHlo.TRef sig ⟨S100000x128, .f32⟩) (.of main_v335 : StableHlo.TRef sig ⟨S100000x128, .f32⟩) select
  :: StableHlo.unary main_arg5 main_v336 ((extractStridedSlice S1x128 ![1, 0] · slices_S3x128_S1x128_1_0) : (⟨S3x128, .f32⟩ : BufTy).Contents (Elt F) → (⟨S1x128, .f32⟩ : BufTy).Contents (Elt F))
  :: StableHlo.reshape main_v336 main_v337 rfl shapeCasts_S1x128_S128
  :: StableHlo.unary main_v337 main_v338 (broadcastInDim S1x128 ![1] bcast_S128_S1x128_1 : (⟨S128, .f32⟩ : BufTy).Contents (Elt F) → (⟨S1x128, .f32⟩ : BufTy).Contents (Elt F))
  :: StableHlo.unary main_v338 main_v339 (broadcastInDim S100000x128 ![0, 1] bcast_S1x128_S100000x128_0_1 : (⟨S1x128, .f32⟩ : BufTy).Contents (Elt F) → (⟨S100000x128, .f32⟩ : BufTy).Contents (Elt F))
  :: StableHlo.binary main_v325 main_v339 main_v340 (mulf : (⟨S100000x128, .f32⟩ : BufTy).Contents (Elt F) → (⟨S100000x128, .f32⟩ : BufTy).Contents (Elt F) → (⟨S100000x128, .f32⟩ : BufTy).Contents (Elt F))
  :: StableHlo.binary main_v300 main_v340 main_v341 (addf : (⟨S100000x128, .f32⟩ : BufTy).Contents (Elt F) → (⟨S100000x128, .f32⟩ : BufTy).Contents (Elt F) → (⟨S100000x128, .f32⟩ : BufTy).Contents (Elt F))
  :: StableHlo.binary main_v341 main_v335 main_v342 (addf : (⟨S100000x128, .f32⟩ : BufTy).Contents (Elt F) → (⟨S100000x128, .f32⟩ : BufTy).Contents (Elt F) → (⟨S100000x128, .f32⟩ : BufTy).Contents (Elt F))
  :: StableHlo.binary main_v342 main_v313 main_v343 (subf : (⟨S100000x128, .f32⟩ : BufTy).Contents (Elt F) → (⟨S100000x128, .f32⟩ : BufTy).Contents (Elt F) → (⟨S100000x128, .f32⟩ : BufTy).Contents (Elt F))
  :: StableHlo.unary main_v39 main_v344 (broadcastInDim S600000x1 ![0] bcast_S600000_S600000x1_0 : (⟨S600000, .f32⟩ : BufTy).Contents (Elt F) → (⟨S600000x1, .f32⟩ : BufTy).Contents (Elt F))
  :: StableHlo.nullary main_c_61 (constantI S_ 32 0#32)
  :: StableHlo.unary main_c_61 main_v345 (broadcastInDim S600000 ![] bcast_S_S600000 : (⟨S_, .i32⟩ : BufTy).Contents (Elt F) → (⟨S600000, .i32⟩ : BufTy).Contents (Elt F))
  :: StableHlo.binary main_arg7 main_v345 main_v346 (cmpi .slt : (⟨S600000, .i32⟩ : BufTy).Contents (Elt F) → (⟨S600000, .i32⟩ : BufTy).Contents (Elt F) → (⟨S600000, .i1⟩ : BufTy).Contents (Elt F))
  :: StableHlo.nullary main_c_62 (constantI S_ 32 100000#32)
  :: StableHlo.unary main_c_62 main_v347 (broadcastInDim S600000 ![] bcast_S_S600000 : (⟨S_, .i32⟩ : BufTy).Contents (Elt F) → (⟨S600000, .i32⟩ : BufTy).Contents (Elt F))
  :: StableHlo.binary main_arg7 main_v347 main_v348 (addi : (⟨S600000, .i32⟩ : BufTy).Contents (Elt F) → (⟨S600000, .i32⟩ : BufTy).Contents (Elt F) → (⟨S600000, .i32⟩ : BufTy).Contents (Elt F))
  :: StableHlo.ternary main_v346 main_v348 main_arg7 main_v349 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v349 main_v350 (broadcastInDim S600000x1 ![0] bcast_S600000_S600000x1_0 : (⟨S600000, .i32⟩ : BufTy).Contents (Elt F) → (⟨S600000x1, .i32⟩ : BufTy).Contents (Elt F))
  :: StableHlo.binary main_v300 main_v350 main_v351 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v344 main_v352 (broadcastInDim S600000x128 ![0, 1] bcast_S600000x1_S600000x128_0_1 : (⟨S600000x1, .f32⟩ : BufTy).Contents (Elt F) → (⟨S600000x128, .f32⟩ : BufTy).Contents (Elt F))
  :: StableHlo.binary main_v352 main_v351 main_v353 (mulf : (⟨S600000x128, .f32⟩ : BufTy).Contents (Elt F) → (⟨S600000x128, .f32⟩ : BufTy).Contents (Elt F) → (⟨S600000x128, .f32⟩ : BufTy).Contents (Elt F))
  :: StableHlo.nullary main_cst_63 (constant S_ .f32 0x00000000#32)
  :: [] )

/-- The window is the straight line of its operations (both sides unfold to the same chain of steps). -/
theorem part6_eq (c : Dev nD) : main_part6 (F := F) c = seq ops6 := by
  chain_rfl

set_option maxHeartbeats 40000000 in
/-- Each operation touches TensorCore references only. -/
theorem ops6_sub : (ops6 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩

set_option maxHeartbeats 40000000 in
/-- Each operation determines its result (none allocates). -/
theorem ops6_fresh : ∀ op ∈ (ops6 : List (HloOp τ sig (Elt F))), op.fresh = ∅ := by
  intro _ h; (repeat (cases h with | head => rfl | tail _ h => ?_)); exact nomatch h

set_option maxHeartbeats 40000000 in
/-- No operation of the window writes @main's argument 0. -/
theorem ops6_keeps_arg0 : ∀ op ∈ (ops6 : List (HloOp τ sig (Elt F))), Proc.devRef .tc main_arg0 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops6_keeps_arg1 : ∀ op ∈ (ops6 : List (HloOp τ sig (Elt F))), Proc.devRef .tc main_arg1 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops6_keeps_arg2 : ∀ op ∈ (ops6 : List (HloOp τ sig (Elt F))), Proc.devRef .tc main_arg2 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops6_keeps_arg3 : ∀ op ∈ (ops6 : List (HloOp τ sig (Elt F))), Proc.devRef .tc main_arg3 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops6_keeps_arg4 : ∀ op ∈ (ops6 : List (HloOp τ sig (Elt F))), Proc.devRef .tc main_arg4 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops6_keeps_arg5 : ∀ op ∈ (ops6 : List (HloOp τ sig (Elt F))), Proc.devRef .tc main_arg5 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops6_keeps_arg6 : ∀ op ∈ (ops6 : List (HloOp τ sig (Elt F))), Proc.devRef .tc main_arg6 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops6_keeps_arg7 : ∀ op ∈ (ops6 : List (HloOp τ sig (Elt F))), Proc.devRef .tc main_arg7 ∉ op.writes :=
  List.forall_iff_forall_mem.mp (by
    simp only [ops6, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops7.lean ====
/- Window 7 of the reference program's @main (`main_part7`) as the list of its 72 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 72 operations of window 7, in order. -/
abbrev ops7 : List (HloOp τ sig (Elt F)) :=
  ( StableHlo.unary main_cst_63 main_v354 (broadcastInDim S100000x128 ![] bcast_S_S100000x128 : (⟨S_, .f32⟩ : BufTy).Contents (Elt F) → (⟨S100000x128, .f32⟩ : BufTy).Contents (Elt F))
  :: StableHlo.unary main_arg6 main_v355 (broadcastInDim S600000x1 ![0] bcast_S600000_S600000x1_0 : (⟨S600000, .i32⟩ : BufTy).Contents (Elt F) → (⟨S600000x1, .i32⟩ : BufTy).Contents (Elt F))
  :: StableHlo.ternary main_v354 main_v355 main_v353 main_v356 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v18 main_v357 (broadcastInDim S100000x1 ![0] bcast_S100000_S100000x1_0 : (⟨S100000, .f32⟩ : BufTy).Contents (Elt F) → (⟨S100000x1, .f32⟩ : BufTy).Contents (Elt F))
  :: StableHlo.unary main_v357 main_v358 (broadcastInDim S100000x128 ![0, 1] bcast_S100000x1_S100000x128_0_1 : (⟨S100000x1, .f32⟩ : BufTy).Contents (Elt F) → (⟨S100000x128, .f32⟩ : BufTy).Contents (Elt F))
  :: StableHlo.binary main_v358 main_v300 main_v359 (mulf : (⟨S100000x128, .f32⟩ : BufTy).Contents (Elt F) → (⟨S100000x128, .f32⟩ : BufTy).Contents (Elt F) → (⟨S100000x128, .f32⟩ : BufTy).Contents (Elt F))
  :: StableHlo.binary main_v356 main_v359 main_v360 (addf : (⟨S100000x128, .f32⟩ : BufTy).Contents (Elt F) → (⟨S100000x128, .f32⟩ : BufTy).Contents (Elt F) → (⟨S100000x128, .f32⟩ : BufTy).Contents (Elt F))
  :: StableHlo.unary main_v18 main_v361 (broadcastInDim S100000x1 ![0] bcast_S100000_S100000x1_0 : (⟨S100000, .f32⟩ : BufTy).Contents (Elt F) → (⟨S100000x1, .f32⟩ : BufTy).Contents (Elt F))
  :: StableHlo.unary main_v361 main_v362 (broadcastInDim S100000x128 ![0, 1] bcast_S100000x1_S100000x128_0_1 : (⟨S100000x1, .f32⟩ : BufTy).Contents (Elt F) → (⟨S100000x128, .f32⟩ : BufTy).Contents (Elt F))
  :: StableHlo.binary main_v343 main_v362 main_v363 (mulf : (⟨S100000x128, .f32⟩ : BufTy).Contents (Elt F) → (⟨S100000x128, .f32⟩ : BufTy).Contents (Elt F) → (⟨S100000x128, .f32⟩ : BufTy).Contents (Elt F))
  :: StableHlo.binary main_v360 main_v363 main_v364 (addf : (⟨S100000x128, .f32⟩ : BufTy).Contents (Elt F) → (⟨S100000x128, .f32⟩ : BufTy).Contents (Elt F) → (⟨S100000x128, .f32⟩ : BufTy).Contents (Elt F))
  :: StableHlo.unary main_v25 main_v365 (broadcastInDim S600000x1 ![0] bcast_S600000_S600000x1_0 : (⟨S600000, .f32⟩ : BufTy).Contents (Elt F) → (⟨S600000x1, .f32⟩ : BufTy).Contents (Elt F))
  :: StableHlo.nullary main_c_64 (constantI S_ 32 0#32)
  :: StableHlo.unary main_c_64 main_v366 (broadcastInDim S600000 ![] bcast_S_S600000 : (⟨S_, .i32⟩ : BufTy).Contents (Elt F) → (⟨S600000, .i32⟩ : BufTy).Contents (Elt F))
  :: StableHlo.binary main_arg7 main_v366 main_v367 (cmpi .slt : (⟨S600000, .i32⟩ : BufTy).Contents (Elt F) → (⟨S600000, .i32⟩ : BufTy).Contents (Elt F) → (⟨S600000, .i1⟩ : BufTy).Contents (Elt F))
  :: StableHlo.nullary main_c_65 (constantI S_ 32 100000#32)
  :: StableHlo.unary main_c_65 main_v368 (broadcastInDim S600000 ![] bcast_S_S600000 : (⟨S_, .i32⟩ : BufTy).Contents (Elt F) → (⟨S600000, .i32⟩ : BufTy).Contents (Elt F))
  :: StableHlo.binary main_arg7 main_v368 main_v369 (addi : (⟨S600000, .i32⟩ : BufTy).Contents (Elt F) → (⟨S600000, .i32⟩ : BufTy).Contents (Elt F) → (⟨S600000, .i32⟩ : BufTy).Contents (Elt F))
  :: StableHlo.ternary main_v367 main_v369 main_arg7 main_v370 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v370 main_v371 (broadcastInDim S600000x1 ![0] bcast_S600000_S600000x1_0 : (⟨S600000, .i32⟩ : BufTy).Contents (Elt F) → (⟨S600000x1, .i32⟩ : BufTy).Contents (Elt F))
  :: StableHlo.binary main_v364 main_v371 main_v372 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v365 main_v373 (broadcastInDim S600000x128 ![0, 1] bcast_S600000x1_S600000x128_0_1 : (⟨S600000x1, .f32⟩ : BufTy).Contents (Elt F) → (⟨S600000x128, .f32⟩ : BufTy).Contents (Elt F))
  :: StableHlo.binary main_v373 main_v372 main_v374 (mulf : (⟨S600000x128, .f32⟩ : BufTy).Contents (Elt F) → (⟨S600000x128, .f32⟩ : BufTy).Contents (Elt F) → (⟨S600000x128, .f32⟩ : BufTy).Contents (Elt F))
  :: StableHlo.nullary main_cst_66 (constant S_ .f32 0x00000000#32)
  :: StableHlo.unary main_cst_66 main_v375 (broadcastInDim S100000x128 ![] bcast_S_S100000x128 : (⟨S_, .f32⟩ : BufTy).Contents (Elt F) → (⟨S100000x128, .f32⟩ : BufTy).Contents (Elt F))
  :: StableHlo.unary main_arg6 main_v376 (broadcastInDim S600000x1 ![0] bcast_S600000_S600000x1_0 : (⟨S600000, .i32⟩ : BufTy).Contents (Elt F) → (⟨S600000x1, .i32⟩ : BufTy).Contents (Elt F))
  :: StableHlo.ternary main_v375 main_v376 main_v374 main_v377 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_arg1 main_v378 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v378 main_v379 rfl shapeCasts_S1x128x128_S128x128
  :: StableHlo.unary main_v379 main_v380 ((transpose S128x128 [1, 0] · transposes_S128x128_S128x128_1_0) : (⟨S128x128, .f32⟩ : BufTy).Contents (Elt F) → (⟨S128x128, .f32⟩ : BufTy).Contents (Elt F))
  :: StableHlo.binary main_v364 main_v380 main_v381 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg2 main_v382 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v382 main_v383 rfl shapeCasts_S1x128x128_S128x128
  :: StableHlo.unary main_v383 main_v384 ((transpose S128x128 [1, 0] · transposes_S128x128_S128x128_1_0) : (⟨S128x128, .f32⟩ : BufTy).Contents (Elt F) → (⟨S128x128, .f32⟩ : BufTy).Contents (Elt F))
  :: StableHlo.binary main_v377 main_v384 main_v385 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v381 main_v385 main_v386 (addf : (⟨S100000x128, .f32⟩ : BufTy).Contents (Elt F) → (⟨S100000x128, .f32⟩ : BufTy).Contents (Elt F) → (⟨S100000x128, .f32⟩ : BufTy).Contents (Elt F))
  :: StableHlo.nullary main_cst_67 (constant S_ .f32 0x3E4CCCCD#32)
  :: StableHlo.TRef.nullary (.of main_call11_cst : StableHlo.TRef sig ⟨S_, .f32⟩) (constant S_ .f32 0x00000000#32)
  :: StableHlo.TRef.unary (.of main_call11_cst : StableHlo.TRef sig ⟨S_, .f32⟩) (.of main_call11_v0 : StableHlo.TRef sig ⟨S100000x128, .f32⟩) (broadcastInDim S100000x128 ![] bcast_S_S100000x128)
  :: StableHlo.TRef.binary (.of main_v386 : StableHlo.TRef sig ⟨S100000x128, .f32⟩) (.of main_call11_v0 : StableHlo.TRef sig ⟨S100000x128, .f32⟩) (.of main_call11_v1 : StableHlo.TRef sig ⟨S100000x128, .i1⟩) (cmpf .oge)
  :: StableHlo.TRef.unary (.of main_cst_67 : StableHlo.TRef sig ⟨S_, .f32⟩) (.of main_call11_v2 : StableHlo.TRef sig ⟨S_, .f32⟩) id
  :: StableHlo.TRef.unary (.of main_call11_v2 : StableHlo.TRef sig ⟨S_, .f32⟩) (.of main_call11_v3 : StableHlo.TRef sig ⟨S100000x128, .f32⟩) (broadcastInDim S100000x128 ![] bcast_S_S100000x128)
  :: StableHlo.TRef.binary (.of main_call11_v3 : StableHlo.TRef sig ⟨S100000x128, .f32⟩) (.of main_v386 : StableHlo.TRef sig ⟨S100000x128, .f32⟩) (.of main_call11_v4 : StableHlo.TRef sig ⟨S100000x128, .f32⟩) mulf
  :: StableHlo.TRef.ternary (.of main_call11_v1 : StableHlo.TRef sig ⟨S100000x128, .i1⟩) (.of main_v386 : StableHlo.TRef sig ⟨S100000x128, .f32⟩) (.of main_call11_v4 : StableHlo.TRef sig ⟨S100000x128, .f32⟩) (.of main_v387 : StableHlo.TRef sig ⟨S100000x128, .f32⟩) select
  :: StableHlo.nullary main_cst_68 (constant S_ .f32 0x3F800000#32)
  :: StableHlo.unary main_cst_68 main_v388 (broadcastInDim S100000x128 ![] bcast_S_S100000x128 : (⟨S_, .f32⟩ : BufTy).Contents (Elt F) → (⟨S100000x128, .f32⟩ : BufTy).Contents (Elt F))
  :: StableHlo.binary main_v387 main_v388 main_v389 (addf : (⟨S100000x128, .f32⟩ : BufTy).Contents (Elt F) → (⟨S100000x128, .f32⟩ : BufTy).Contents (Elt F) → (⟨S100000x128, .f32⟩ : BufTy).Contents (Elt F))
  :: StableHlo.unary main_arg3 main_v390 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v390 main_v391 rfl shapeCasts_S1x128x128_S128x128
  :: StableHlo.unary main_v391 main_v392 ((transpose S128x128 [1, 0] · transposes_S128x128_S128x128_1_0) : (⟨S128x128, .f32⟩ : BufTy).Contents (Elt F) → (⟨S128x128, .f32⟩ : BufTy).Contents (Elt F))
  :: StableHlo.binary main_v364 main_v392 main_v393 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg4 main_v394 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v394 main_v395 rfl shapeCasts_S1x128x128_S128x128
  :: StableHlo.unary main_v395 main_v396 ((transpose S128x128 [1, 0] · transposes_S128x128_S128x128_1_0) : (⟨S128x128, .f32⟩ : BufTy).Contents (Elt F) → (⟨S128x128, .f32⟩ : BufTy).Contents (Elt F))
  :: StableHlo.binary main_v377 main_v396 main_v397 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.binary main_v393 main_v397 main_v398 (addf : (⟨S100000x128, .f32⟩ : BufTy).Contents (Elt F) → (⟨S100000x128, .f32⟩ : BufTy).Contents (Elt F) → (⟨S100000x128, .f32⟩ : BufTy).Contents (Elt F))
  :: StableHlo.nullary main_cst_69 (constant S_ .f32 0x3E4CCCCD#32)
  :: StableHlo.TRef.nullary (.of main_call12_cst : StableHlo.TRef sig ⟨S_, .f32⟩) (constant S_ .f32 0x00000000#32)
  :: StableHlo.TRef.unary (.of main_call12_cst : StableHlo.TRef sig ⟨S_, .f32⟩) (.of main_call12_v0 : StableHlo.TRef sig ⟨S100000x128, .f32⟩) (broadcastInDim S100000x128 ![] bcast_S_S100000x128)
  :: StableHlo.TRef.binary (.of main_v398 : StableHlo.TRef sig ⟨S100000x128, .f32⟩) (.of main_call12_v0 : StableHlo.TRef sig ⟨S100000x128, .f32⟩) (.of main_call12_v1 : StableHlo.TRef sig ⟨S100000x128, .i1⟩) (cmpf .oge)
  :: StableHlo.TRef.unary (.of main_cst_69 : StableHlo.TRef sig ⟨S_, .f32⟩) (.of main_call12_v2 : StableHlo.TRef sig ⟨S_, .f32⟩) id
  :: StableHlo.TRef.unary (.of main_call12_v2 : StableHlo.TRef sig ⟨S_, .f32⟩) (.of main_call12_v3 : StableHlo.TRef sig ⟨S100000x128, .f32⟩) (broadcastInDim S100000x128 ![] bcast_S_S100000x128)
  :: StableHlo.TRef.binary (.of main_call12_v3 : StableHlo.TRef sig ⟨S100000x128, .f32⟩) (.of main_v398 : StableHlo.TRef sig ⟨S100000x128, .f32⟩) (.of main_call12_v4 : StableHlo.TRef sig ⟨S100000x128, .f32⟩) mulf
  :: StableHlo.TRef.ternary (.of main_call12_v1 : StableHlo.TRef sig ⟨S100000x128, .i1⟩) (.of main_v398 : StableHlo.TRef sig ⟨S100000x128, .f32⟩) (.of main_call12_v4 : StableHlo.TRef sig ⟨S100000x128, .f32⟩) (.of main_v399 : StableHlo.TRef sig ⟨S100000x128, .f32⟩) select
  :: StableHlo.unary main_arg5 main_v400 ((extractStridedSlice S1x128 ![2, 0] · slices_S3x128_S1x128_2_0) : (⟨S3x128, .f32⟩ : BufTy).Contents (Elt F) → (⟨S1x128, .f32⟩ : BufTy).Contents (Elt F))
  :: StableHlo.reshape main_v400 main_v401 rfl shapeCasts_S1x128_S128
  :: StableHlo.unary main_v401 main_v402 (broadcastInDim S1x128 ![1] bcast_S128_S1x128_1 : (⟨S128, .f32⟩ : BufTy).Contents (Elt F) → (⟨S1x128, .f32⟩ : BufTy).Contents (Elt F))
  :: StableHlo.unary main_v402 main_v403 (broadcastInDim S100000x128 ![0, 1] bcast_S1x128_S100000x128_0_1 : (⟨S1x128, .f32⟩ : BufTy).Contents (Elt F) → (⟨S100000x128, .f32⟩ : BufTy).Contents (Elt F))
  :: StableHlo.binary main_v389 main_v403 main_v404 (mulf : (⟨S100000x128, .f32⟩ : BufTy).Contents (Elt F) → (⟨S100000x128, .f32⟩ : BufTy).Contents (Elt F) → (⟨S100000x128, .f32⟩ : BufTy).Contents (Elt F))
  :: StableHlo.binary main_v364 main_v404 main_v405 (addf : (⟨S100000x128, .f32⟩ : BufTy).Contents (Elt F) → (⟨S100000x128, .f32⟩ : BufTy).Contents (Elt F) → (⟨S100000x128, .f32⟩ : BufTy).Contents (Elt F))
  :: StableHlo.binary main_v405 main_v399 main_v406 (addf : (⟨S100000x128, .f32⟩ : BufTy).Contents (Elt F) → (⟨S100000x128, .f32⟩ : BufTy).Contents (Elt F) → (⟨S100000x128, .f32⟩ : BufTy).Contents (Elt F))
  :: StableHlo.binary main_v406 main_v377 main_v407 (subf : (⟨S100000x128, .f32⟩ : BufTy).Contents (Elt F) → (⟨S100000x128, .f32⟩ : BufTy).Contents (Elt F) → (⟨S100000x128, .f32⟩ : BufTy).Contents (Elt F))
  :: [] )

/-- The window is the straight line of its operations (both sides unfold to the same chain of steps). -/
theorem part7_eq (c : Dev nD) : main_part7 (F := F) c = seq ops7 := by
  chain_rfl

set_option maxHeartbeats 40000000 in
/-- Each operation touches TensorCore references only. -/
theorem ops7_sub : (ops7 : List (HloOp τ sig (Elt F))).Forall fun op => op.bufs ⊆ tcRefs τ sig :=
  ⟨unary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., unary_bufs_sub .., binary_bufs_sub .., binary_bufs_sub .., binary_bufs_sub .., binary_bufs_sub ..⟩

set_option maxHeartbeats 40000000 in
/-- Each operation determines its result (none allocates). -/
theorem ops7_fresh : ∀ op ∈ (ops7 : List (HloOp τ sig (Elt F))), op.fresh = ∅ := by
  intro _ h; (repeat (cases h with | head => rfl | tail _ h => ?_)); exact nomatch h

set_option maxHeartbeats 40000000 in
/-- No operation of the window writes @main's argument 0. -/
theorem ops7_keeps_arg0 : ∀ op ∈ (ops7 : List (HloOp τ sig (Elt F))), Proc.devRef .tc main_arg0 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops7_keeps_arg1 : ∀ op ∈ (ops7 : List (HloOp τ sig (Elt F))), Proc.devRef .tc main_arg1 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops7_keeps_arg2 : ∀ op ∈ (ops7 : List (HloOp τ sig (Elt F))), Proc.devRef .tc main_arg2 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops7_keeps_arg3 : ∀ op ∈ (ops7 : List (HloOp τ sig (Elt F))), Proc.devRef .tc main_arg3 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops7_keeps_arg4 : ∀ op ∈ (ops7 : List (HloOp τ sig (Elt F))), Proc.devRef .tc main_arg4 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops7_keeps_arg5 : ∀ op ∈ (ops7 : List (HloOp τ sig (Elt F))), Proc.devRef .tc main_arg5 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops7_keeps_arg6 : ∀ op ∈ (ops7 : List (HloOp τ sig (Elt F))), Proc.devRef .tc main_arg6 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops7_keeps_arg7 : ∀ op ∈ (ops7 : List (HloOp τ sig (Elt F))), Proc.devRef .tc main_arg7 ∉ op.writes :=
  List.forall_iff_forall_mem.mp (by
    simp only [ops7, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Ops8.lean ====
/- Window 8 of the reference program's @main (`main_part8`) as the list of its 46 operations in order,
   a call replaced by the callee's operations over the call's buffers; the window is that straight line,
   every operation touches TensorCore references only, determines its result, and writes no argument of @main. -/
import proofs.«120490_j9904194585124_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 46 operations of window 8, in order. -/
abbrev ops8 : List (HloOp τ sig (Elt F)) :=
  ( StableHlo.unary main_v39 main_v408 (broadcastInDim S600000x1 ![0] bcast_S600000_S600000x1_0 : (⟨S600000, .f32⟩ : BufTy).Contents (Elt F) → (⟨S600000x1, .f32⟩ : BufTy).Contents (Elt F))
  :: StableHlo.nullary main_c_70 (constantI S_ 32 0#32)
  :: StableHlo.unary main_c_70 main_v409 (broadcastInDim S600000 ![] bcast_S_S600000 : (⟨S_, .i32⟩ : BufTy).Contents (Elt F) → (⟨S600000, .i32⟩ : BufTy).Contents (Elt F))
  :: StableHlo.binary main_arg7 main_v409 main_v410 (cmpi .slt : (⟨S600000, .i32⟩ : BufTy).Contents (Elt F) → (⟨S600000, .i32⟩ : BufTy).Contents (Elt F) → (⟨S600000, .i1⟩ : BufTy).Contents (Elt F))
  :: StableHlo.nullary main_c_71 (constantI S_ 32 100000#32)
  :: StableHlo.unary main_c_71 main_v411 (broadcastInDim S600000 ![] bcast_S_S600000 : (⟨S_, .i32⟩ : BufTy).Contents (Elt F) → (⟨S600000, .i32⟩ : BufTy).Contents (Elt F))
  :: StableHlo.binary main_arg7 main_v411 main_v412 (addi : (⟨S600000, .i32⟩ : BufTy).Contents (Elt F) → (⟨S600000, .i32⟩ : BufTy).Contents (Elt F) → (⟨S600000, .i32⟩ : BufTy).Contents (Elt F))
  :: StableHlo.ternary main_v410 main_v412 main_arg7 main_v413 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v413 main_v414 (broadcastInDim S600000x1 ![0] bcast_S600000_S600000x1_0 : (⟨S600000, .i32⟩ : BufTy).Contents (Elt F) → (⟨S600000x1, .i32⟩ : BufTy).Contents (Elt F))
  :: StableHlo.binary main_v364 main_v414 main_v415 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: StableHlo.unary main_v408 main_v416 (broadcastInDim S600000x128 ![0, 1] bcast_S600000x1_S600000x128_0_1 : (⟨S600000x1, .f32⟩ : BufTy).Contents (Elt F) → (⟨S600000x128, .f32⟩ : BufTy).Contents (Elt F))
  :: StableHlo.binary main_v416 main_v415 main_v417 (mulf : (⟨S600000x128, .f32⟩ : BufTy).Contents (Elt F) → (⟨S600000x128, .f32⟩ : BufTy).Contents (Elt F) → (⟨S600000x128, .f32⟩ : BufTy).Contents (Elt F))
  :: StableHlo.nullary main_cst_72 (constant S_ .f32 0x00000000#32)
  :: StableHlo.unary main_cst_72 main_v418 (broadcastInDim S100000x128 ![] bcast_S_S100000x128 : (⟨S_, .f32⟩ : BufTy).Contents (Elt F) → (⟨S100000x128, .f32⟩ : BufTy).Contents (Elt F))
  :: StableHlo.unary main_arg6 main_v419 (broadcastInDim S600000x1 ![0] bcast_S600000_S600000x1_0 : (⟨S600000, .i32⟩ : BufTy).Contents (Elt F) → (⟨S600000x1, .i32⟩ : BufTy).Contents (Elt F))
  :: StableHlo.ternary main_v418 main_v419 main_v417 main_v420 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: StableHlo.unary main_v18 main_v421 (broadcastInDim S100000x1 ![0] bcast_S100000_S100000x1_0 : (⟨S100000, .f32⟩ : BufTy).Contents (Elt F) → (⟨S100000x1, .f32⟩ : BufTy).Contents (Elt F))
  :: StableHlo.unary main_v421 main_v422 (broadcastInDim S100000x128 ![0, 1] bcast_S100000x1_S100000x128_0_1 : (⟨S100000x1, .f32⟩ : BufTy).Contents (Elt F) → (⟨S100000x128, .f32⟩ : BufTy).Contents (Elt F))
  :: StableHlo.binary main_v422 main_v364 main_v423 (mulf : (⟨S100000x128, .f32⟩ : BufTy).Contents (Elt F) → (⟨S100000x128, .f32⟩ : BufTy).Contents (Elt F) → (⟨S100000x128, .f32⟩ : BufTy).Contents (Elt F))
  :: StableHlo.binary main_v420 main_v423 main_v424 (addf : (⟨S100000x128, .f32⟩ : BufTy).Contents (Elt F) → (⟨S100000x128, .f32⟩ : BufTy).Contents (Elt F) → (⟨S100000x128, .f32⟩ : BufTy).Contents (Elt F))
  :: StableHlo.unary main_v18 main_v425 (broadcastInDim S100000x1 ![0] bcast_S100000_S100000x1_0 : (⟨S100000, .f32⟩ : BufTy).Contents (Elt F) → (⟨S100000x1, .f32⟩ : BufTy).Contents (Elt F))
  :: StableHlo.unary main_v425 main_v426 (broadcastInDim S100000x128 ![0, 1] bcast_S100000x1_S100000x128_0_1 : (⟨S100000x1, .f32⟩ : BufTy).Contents (Elt F) → (⟨S100000x128, .f32⟩ : BufTy).Contents (Elt F))
  :: StableHlo.binary main_v407 main_v426 main_v427 (mulf : (⟨S100000x128, .f32⟩ : BufTy).Contents (Elt F) → (⟨S100000x128, .f32⟩ : BufTy).Contents (Elt F) → (⟨S100000x128, .f32⟩ : BufTy).Contents (Elt F))
  :: StableHlo.binary main_v424 main_v427 main_v428 (addf : (⟨S100000x128, .f32⟩ : BufTy).Contents (Elt F) → (⟨S100000x128, .f32⟩ : BufTy).Contents (Elt F) → (⟨S100000x128, .f32⟩ : BufTy).Contents (Elt F))
  :: StableHlo.unary main_arg0 main_v429 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v300 main_v430 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v364 main_v431 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v428 main_v432 (broadcastInDim S1x100000x128 ![1, 2] bcast_S100000x128_S1x100000x128_1_2 : (⟨S100000x128, .f32⟩ : BufTy).Contents (Elt F) → (⟨S1x100000x128, .f32⟩ : BufTy).Contents (Elt F))
  :: StableHlo.nary ![main_v429, main_v430, main_v431, main_v432] main_v433 (fun u => concatenate S4x100000x128 0 [⟨S1x100000x128, u 0⟩, ⟨S1x100000x128, u 1⟩, ⟨S1x100000x128, u 2⟩, ⟨S1x100000x128, u 3⟩] concatenates_S1x100000x128_S1x100000x128_S1x100000x128_S1x100000x128_S4x100000x128_d0)
  :: StableHlo.nullary main_cst_73 (constant S_ .f32 0x00000000#32)
  :: StableHlo.binary main_v433 main_cst_73 main_v434 ((fun x v => Host.reduceAdd x v reducesTo_S4x100000x128_S100000x128_d0 h_S_) : (⟨S4x100000x128, .f32⟩ : BufTy).Contents (Elt F) → (⟨S_, .f32⟩ : BufTy).Contents (Elt F) → (⟨S100000x128, .f32⟩ : BufTy).Contents (Elt F))
  :: StableHlo.nullary main_cst_74 (constant S_ .f32 0x40800000#32)
  :: StableHlo.unary main_cst_74 main_v435 (broadcastInDim S100000x128 ![] bcast_S_S100000x128 : (⟨S_, .f32⟩ : BufTy).Contents (Elt F) → (⟨S100000x128, .f32⟩ : BufTy).Contents (Elt F))
  :: StableHlo.binary main_v434 main_v435 main_v436 (Host.divf : (⟨S100000x128, .f32⟩ : BufTy).Contents (Elt F) → (⟨S100000x128, .f32⟩ : BufTy).Contents (Elt F) → (⟨S100000x128, .f32⟩ : BufTy).Contents (Elt F))
  :: StableHlo.unary main_v279 main_v437 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v343 main_v438 (broadcastInDim S1x100000x128 ![1, 2] bcast_S100000x128_S1x100000x128_1_2 : (⟨S100000x128, .f32⟩ : BufTy).Contents (Elt F) → (⟨S1x100000x128, .f32⟩ : BufTy).Contents (Elt F))
  :: StableHlo.unary main_v407 main_v439 (broadcastInDim S1x100000x128 ![1, 2] bcast_S100000x128_S1x100000x128_1_2 : (⟨S100000x128, .f32⟩ : BufTy).Contents (Elt F) → (⟨S1x100000x128, .f32⟩ : BufTy).Contents (Elt F))
  :: StableHlo.nary ![main_v437, main_v438, main_v439] main_v440 (fun u => concatenate S3x100000x128 0 [⟨S1x100000x128, u 0⟩, ⟨S1x100000x128, u 1⟩, ⟨S1x100000x128, u 2⟩] concatenates_S1x100000x128_S1x100000x128_S1x100000x128_S3x100000x128_d0)
  :: StableHlo.nullary main_cst_75 (constant S_ .f32 0x00000000#32)
  :: StableHlo.binary main_v440 main_cst_75 main_v441 ((fun x v => Host.reduceAdd x v reducesTo_S3x100000x128_S100000x128_d0 h_S_) : (⟨S3x100000x128, .f32⟩ : BufTy).Contents (Elt F) → (⟨S_, .f32⟩ : BufTy).Contents (Elt F) → (⟨S100000x128, .f32⟩ : BufTy).Contents (Elt F))
  :: StableHlo.nullary main_cst_76 (constant S_ .f32 0x40400000#32)
  :: StableHlo.unary main_cst_76 main_v442 (broadcastInDim S100000x128 ![] bcast_S_S100000x128 : (⟨S_, .f32⟩ : BufTy).Contents (Elt F) → (⟨S100000x128, .f32⟩ : BufTy).Contents (Elt F))
  :: StableHlo.binary main_v441 main_v442 main_v443 (Host.divf : (⟨S100000x128, .f32⟩ : BufTy).Contents (Elt F) → (⟨S100000x128, .f32⟩ : BufTy).Contents (Elt F) → (⟨S100000x128, .f32⟩ : BufTy).Contents (Elt F))
  :: StableHlo.unary main_v41 main_v444 (broadcastInDim S100000x1 ![0] bcast_S100000_S100000x1_0 : (⟨S100000, .i1⟩ : BufTy).Contents (Elt F) → (⟨S100000x1, .i1⟩ : BufTy).Contents (Elt F))
  :: StableHlo.TRef.unary (.of main_v444 : StableHlo.TRef sig ⟨S100000x1, .i1⟩) (.of main_call13_v0 : StableHlo.TRef sig ⟨S100000x128, .i1⟩) (broadcastInDim S100000x128 ![0, 1] bcast_S100000x1_S100000x128_0_1)
  :: StableHlo.TRef.ternary (.of main_call13_v0 : StableHlo.TRef sig ⟨S100000x128, .i1⟩) (.of main_v229 : StableHlo.TRef sig ⟨S100000x128, .f32⟩) (.of main_v436 : StableHlo.TRef sig ⟨S100000x128, .f32⟩) (.of main_v445 : StableHlo.TRef sig ⟨S100000x128, .f32⟩) select
  :: [] )

/-- The window is the straight line of its operations (both sides unfold to the same chain of steps). -/
theorem part8_eq (c : Dev nD) : main_part8 (F := F) c = seq ops8 := by
  chain_rfl

set_option maxHeartbeats 40000000 in
/-- Each operation touches TensorCore references only. -/
theorem ops8_sub : (ops8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub .., ternary_bufs_sub ..⟩

set_option maxHeartbeats 40000000 in
/-- Each operation determines its result (none allocates). -/
theorem ops8_fresh : ∀ op ∈ (ops8 : List (HloOp τ sig (Elt F))), op.fresh = ∅ := by
  intro _ h; (repeat (cases h with | head => rfl | tail _ h => ?_)); exact nomatch h

set_option maxHeartbeats 40000000 in
/-- No operation of the window writes @main's argument 0. -/
theorem ops8_keeps_arg0 : ∀ op ∈ (ops8 : List (HloOp τ sig (Elt F))), Proc.devRef .tc main_arg0 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 1. -/
theorem ops8_keeps_arg1 : ∀ op ∈ (ops8 : List (HloOp τ sig (Elt F))), Proc.devRef .tc main_arg1 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 2. -/
theorem ops8_keeps_arg2 : ∀ op ∈ (ops8 : List (HloOp τ sig (Elt F))), Proc.devRef .tc main_arg2 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 3. -/
theorem ops8_keeps_arg3 : ∀ op ∈ (ops8 : List (HloOp τ sig (Elt F))), Proc.devRef .tc main_arg3 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 4. -/
theorem ops8_keeps_arg4 : ∀ op ∈ (ops8 : List (HloOp τ sig (Elt F))), Proc.devRef .tc main_arg4 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 5. -/
theorem ops8_keeps_arg5 : ∀ op ∈ (ops8 : List (HloOp τ sig (Elt F))), Proc.devRef .tc main_arg5 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 6. -/
theorem ops8_keeps_arg6 : ∀ op ∈ (ops8 : List (HloOp τ sig (Elt F))), Proc.devRef .tc main_arg6 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

set_option maxHeartbeats 40000000 in
/-- No operation of the window writes @main's argument 7. -/
theorem ops8_keeps_arg7 : ∀ op ∈ (ops8 : List (HloOp τ sig (Elt F))), Proc.devRef .tc main_arg7 ∉ op.writes :=
  List.forall_iff_forall_mem.mp (by
    simp only [ops8, List.Forall, nullary_writes, unary_writes, binary_writes, ternary_writes, quaternary_writes, reshape_writes, nary_writes, Finset.mem_singleton]
    repeat' apply And.intro
    all_goals exact devRef_ne_of_ne (by decide))

end Cert.ReferenceIdeal.Hand

end
-- ==== Proof.Ref.Run.lean ====
/- The run of the reference program's @main, read back for any float values: @main is the straight line of its
   600 operations (its nine printed windows one after the other, each the line of its own operations), so every
   weakly fair execution terminates without a fault and leaves each TensorCore buffer at the fold of the
   operations' results over the launch contents; the fold splits at the window boundaries, and no operation
   writes an argument of @main. -/
import proofs.«120490_j9904194585124_1_alg».proof.Proof.Ref.Ops0
import proofs.«120490_j9904194585124_1_alg».proof.Proof.Ref.Ops1
import proofs.«120490_j9904194585124_1_alg».proof.Proof.Ref.Ops2
import proofs.«120490_j9904194585124_1_alg».proof.Proof.Ref.Ops3
import proofs.«120490_j9904194585124_1_alg».proof.Proof.Ref.Ops4
import proofs.«120490_j9904194585124_1_alg».proof.Proof.Ref.Ops5
import proofs.«120490_j9904194585124_1_alg».proof.Proof.Ref.Ops6
import proofs.«120490_j9904194585124_1_alg».proof.Proof.Ref.Ops7
import proofs.«120490_j9904194585124_1_alg».proof.Proof.Ref.Ops8
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- All of @main's operations in order, calls inlined: the nine windows' lists one after the other. -/
abbrev ops : List (HloOp τ sig (Elt F)) :=
  ops0 ++ (ops1 ++ (ops2 ++ (ops3 ++ (ops4 ++ (ops5 ++ (ops6 ++ (ops7 ++ ops8)))))))

/-- A property of every operation of every window is a property of every operation of @main. -/
theorem mem_ops {P : HloOp τ sig (Elt F) → Prop}
    (h0 : ∀ op ∈ (ops0 : List (HloOp τ sig (Elt F))), P op)
    (h1 : ∀ op ∈ (ops1 : List (HloOp τ sig (Elt F))), P op)
    (h2 : ∀ op ∈ (ops2 : List (HloOp τ sig (Elt F))), P op)
    (h3 : ∀ op ∈ (ops3 : List (HloOp τ sig (Elt F))), P op)
    (h4 : ∀ op ∈ (ops4 : List (HloOp τ sig (Elt F))), P op)
    (h5 : ∀ op ∈ (ops5 : List (HloOp τ sig (Elt F))), P op)
    (h6 : ∀ op ∈ (ops6 : List (HloOp τ sig (Elt F))), P op)
    (h7 : ∀ op ∈ (ops7 : List (HloOp τ sig (Elt F))), P op)
    (h8 : ∀ op ∈ (ops8 : List (HloOp τ sig (Elt F))), P op) :
    ∀ op ∈ (ops : List (HloOp τ sig (Elt F))), P op := by
  intro op h
  simp only [ops, List.mem_append] at h
  rcases h with h | h | h | h | h | h | h | h | h
  exacts [h0 op h, h1 op h, h2 op h, h3 op h, h4 op h, h5 op h, h6 op h, h7 op h, h8 op h]

/-- @main runs its windows in order, each the line of its operations: it is the line of all of them
    (a line of two lists one after the other is the line of their concatenation). -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c]
  rfl

theorem scopedRefs_eq : (Finset.univ.filter fun b : Ref sig .tc => b.isScoped) = ∅ := by decide
theorem scopedSems_eq : (Finset.univ.filter fun sm : SemLoc sig => sm.isScoped .tc) = ∅ := by decide

/-- Each operation of @main touches TensorCore references only. -/
theorem ops_sub : (ops : List (HloOp τ sig (Elt F))).Forall fun op => op.bufs ⊆ tcRefs τ sig :=
  List.forall_iff_forall_mem.mpr (mem_ops (List.forall_iff_forall_mem.mp ops0_sub) (List.forall_iff_forall_mem.mp ops1_sub) (List.forall_iff_forall_mem.mp ops2_sub) (List.forall_iff_forall_mem.mp ops3_sub) (List.forall_iff_forall_mem.mp ops4_sub) (List.forall_iff_forall_mem.mp ops5_sub) (List.forall_iff_forall_mem.mp ops6_sub) (List.forall_iff_forall_mem.mp ops7_sub) (List.forall_iff_forall_mem.mp ops8_sub))

/-- Each operation of @main determines its result. -/
theorem ops_fresh : ∀ op ∈ (ops : List (HloOp τ sig (Elt F))), op.fresh = ∅ :=
  mem_ops ops0_fresh ops1_fresh ops2_fresh ops3_fresh ops4_fresh ops5_fresh ops6_fresh ops7_fresh ops8_fresh

/-- On every device, for any float values, from any memory with zero counters: every weakly fair execution of
    @main terminates, without a fault, with each TensorCore buffer at the fold of the operations' results over
    the device's launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over all of @main is the folds over its windows, one after the other. -/
theorem after_ops (V : Valuation τ sig (Elt F)) :
    after ops V = after ops8 (after ops7 (after ops6 (after ops5 (after ops4 (after ops3 (after ops2 (after ops1 (after ops0 V)))))))) := by
  simp only [ops, after_append]

/-- No operation of @main writes its argument 0: the fold leaves that buffer as it was. -/
theorem kept_main_arg0 (V : Valuation τ sig (Elt F)) :
    after ops V (Proc.devRef .tc main_arg0) = V (Proc.devRef .tc main_arg0) :=
  after_of_forall_not_mem ops V (mem_ops ops0_keeps_arg0 ops1_keeps_arg0 ops2_keeps_arg0 ops3_keeps_arg0 ops4_keeps_arg0 ops5_keeps_arg0 ops6_keeps_arg0 ops7_keeps_arg0 ops8_keeps_arg0)

/-- No operation of @main writes its argument 1: the fold leaves that buffer as it was. -/
theorem kept_main_arg1 (V : Valuation τ sig (Elt F)) :
    after ops V (Proc.devRef .tc main_arg1) = V (Proc.devRef .tc main_arg1) :=
  after_of_forall_not_mem ops V (mem_ops ops0_keeps_arg1 ops1_keeps_arg1 ops2_keeps_arg1 ops3_keeps_arg1 ops4_keeps_arg1 ops5_keeps_arg1 ops6_keeps_arg1 ops7_keeps_arg1 ops8_keeps_arg1)

/-- No operation of @main writes its argument 2: the fold leaves that buffer as it was. -/
theorem kept_main_arg2 (V : Valuation τ sig (Elt F)) :
    after ops V (Proc.devRef .tc main_arg2) = V (Proc.devRef .tc main_arg2) :=
  after_of_forall_not_mem ops V (mem_ops ops0_keeps_arg2 ops1_keeps_arg2 ops2_keeps_arg2 ops3_keeps_arg2 ops4_keeps_arg2 ops5_keeps_arg2 ops6_keeps_arg2 ops7_keeps_arg2 ops8_keeps_arg2)

/-- No operation of @main writes its argument 3: the fold leaves that buffer as it was. -/
theorem kept_main_arg3 (V : Valuation τ sig (Elt F)) :
    after ops V (Proc.devRef .tc main_arg3) = V (Proc.devRef .tc main_arg3) :=
  after_of_forall_not_mem ops V (mem_ops ops0_keeps_arg3 ops1_keeps_arg3 ops2_keeps_arg3 ops3_keeps_arg3 ops4_keeps_arg3 ops5_keeps_arg3 ops6_keeps_arg3 ops7_keeps_arg3 ops8_keeps_arg3)

/-- No operation of @main writes its argument 4: the fold leaves that buffer as it was. -/
theorem kept_main_arg4 (V : Valuation τ sig (Elt F)) :
    after ops V (Proc.devRef .tc main_arg4) = V (Proc.devRef .tc main_arg4) :=
  after_of_forall_not_mem ops V (mem_ops ops0_keeps_arg4 ops1_keeps_arg4 ops2_keeps_arg4 ops3_keeps_arg4 ops4_keeps_arg4 ops5_keeps_arg4 ops6_keeps_arg4 ops7_keeps_arg4 ops8_keeps_arg4)

/-- No operation of @main writes its argument 5: the fold leaves that buffer as it was. -/
theorem kept_main_arg5 (V : Valuation τ sig (Elt F)) :
    after ops V (Proc.devRef .tc main_arg5) = V (Proc.devRef .tc main_arg5) :=
  after_of_forall_not_mem ops V (mem_ops ops0_keeps_arg5 ops1_keeps_arg5 ops2_keeps_arg5 ops3_keeps_arg5 ops4_keeps_arg5 ops5_keeps_arg5 ops6_keeps_arg5 ops7_keeps_arg5 ops8_keeps_arg5)

/-- No operation of @main writes its argument 6: the fold leaves that buffer as it was. -/
theorem kept_main_arg6 (V : Valuation τ sig (Elt F)) :
    after ops V (Proc.devRef .tc main_arg6) = V (Proc.devRef .tc main_arg6) :=
  after_of_forall_not_mem ops V (mem_ops ops0_keeps_arg6 ops1_keeps_arg6 ops2_keeps_arg6 ops3_keeps_arg6 ops4_keeps_arg6 ops5_keeps_arg6 ops6_keeps_arg6 ops7_keeps_arg6 ops8_keeps_arg6)

/-- No operation of @main writes its argument 7: the fold leaves that buffer as it was. -/
theorem kept_main_arg7 (V : Valuation τ sig (Elt F)) :
    after ops V (Proc.devRef .tc main_arg7) = V (Proc.devRef .tc main_arg7) :=
  after_of_forall_not_mem ops V (mem_ops ops0_keeps_arg7 ops1_keeps_arg7 ops2_keeps_arg7 ops3_keeps_arg7 ops4_keeps_arg7 ops5_keeps_arg7 ops6_keeps_arg7 ops7_keeps_arg7 ops8_keeps_arg7)

end Cert.ReferenceIdeal.Hand

end
-- ==== Proof.Ref.Frame.lean ====
/- The reference program's frame: under the precondition every weakly fair execution of @main terminates without
   a fault and its eight argument arrays end as launched — the run read back as the fold of the operations, and no
   operation writes an argument. -/
import proofs.«120490_j9904194585124_1_alg».proof.Proof.Ref.Run
import proofs.«120490_j9904194585124_1_alg».proof.Defs
import proofs.«120490_j9904194585124_1_alg».proof.Proof.Gen.Pre_finite_inputs

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference program runs and leaves its arguments unchanged. -/
theorem frame : Cert.frame_ReferenceIdeal (hReferenceIdeal := Cert.ReferenceIdeal.Gen.facts)
    (hPre_finite_inputs := Cert.Pre_finite_inputs.Gen.facts) := by
  intro m g _
  exact (θ_run _ _ _).mono (fun _ h c =>
    ⟨(h c main_arg0).trans (kept_main_arg0 (launchContents m c)),
     (h c main_arg1).trans (kept_main_arg1 (launchContents m c)),
     (h c main_arg2).trans (kept_main_arg2 (launchContents m c)),
     (h c main_arg3).trans (kept_main_arg3 (launchContents m c)),
     (h c main_arg4).trans (kept_main_arg4 (launchContents m c)),
     (h c main_arg5).trans (kept_main_arg5 (launchContents m c)),
     (h c main_arg6).trans (kept_main_arg6 (launchContents m c)),
     (h c main_arg7).trans (kept_main_arg7 (launchContents m c))⟩)
    (run_fold (F := Ideal) m g)

end Cert.ReferenceIdeal.Hand

end
-- ==== Proof.V.Spec.lean ====
/-
  The two programs' host-side vocabulary as NAMED functions of the argument arrays, spelt exactly as the printed
  host operations spell them, so that a stretch of host operations read back at a buffer IS one of these terms.

  Nodes n < 100000, features c < 128, edges e < 600000 with a source src e and a destination dst e.
    deg n        = the number of edges whose source lands on n (a scatter-add of ones into zeros)
    invd, invd1, invd2 = where(deg > 0, 1/max(deg,1), 0), 1/(deg+1), 1/(deg+2)
    onEdges v    = v at each edge's source (jnp's negative-index wrap, then a clamped gather)
    spmm w h     = the scatter-add, into the row of each edge's source, of w e · h[dst e]
    headStep     = spmm w1 h + invd1 · h                       (a hop of the head branch)
    mean4        = the mean of four arrays stacked along a new leading axis
    pick         = where(deg > 5, head embedding, tail embedding), the mask laid along the features
    weightT l G  = G[l] transposed;  biasRow l R = R[l] as a [1,128] row;  column v = v as a [100000,1] column
  and the reference's tail update, layer by layer:
    lrelu v = where(v ≥ 0, v, 0.2 · v)
    missing = ((h + (lrelu(h·G1ᵀ + nb·G2ᵀ) + 1) · R) + lrelu(h·B1ᵀ + nb·B2ᵀ)) − nb
    tailStepRef = (spmm w2 h + invd2 · h) + missing · invd2
-/
import proofs.«120490_j9904194585124_1_alg».proof.Proof.Gen.KernelIdeal
import Idealize.ShloMosaic.PureOps.Ideal

noncomputable section

namespace Cert.V

open Idealize.ShloMosaic Cert.KernelIdeal Cert.KernelIdeal.Facts₀

variable {F : FTy → Type} [FloatOps F]

/-- An array's contents, by shape and element type, as the buffers hold them. -/
abbrev Cf (F : FTy → Type) [FloatOps F] (s : Shape) : Type := (⟨s, .f32⟩ : BufTy).Contents (Elt F)
abbrev Ci (F : FTy → Type) [FloatOps F] (s : Shape) : Type := (⟨s, .i32⟩ : BufTy).Contents (Elt F)
abbrev Cb (F : FTy → Type) [FloatOps F] (s : Shape) : Type := (⟨s, .i1⟩ : BufTy).Contents (Elt F)

/-! ## The facts of the reference's own shapes (the kernel program states the others) -/

theorem bcast_S128_S1x128_1 : S128.BroadcastsInDim S1x128 (![1] : Fin 1 → Fin S1x128.rank) := by decide
theorem bcast_S1x128_S100000x128_0_1 : S1x128.BroadcastsInDim S100000x128 (![0, 1] : Fin 2 → Fin S100000x128.rank) := by decide
theorem dotND_wf : DotDims.WF S100000x128 S128x128 S100000x128 [1] [0] [0] [1] [] [] := by decide
/-- [100000,128] × [128,128], contracting the left's features with the right's rows. -/
def dotND : DotDims S100000x128 S128x128 S100000x128 where
  lhsContracting := [1]
  rhsContracting := [0]
  lhsNonContracting := [0]
  rhsNonContracting := [1]
  lhsBatch := []
  rhsBatch := []
  wf := dotND_wf

/-! ## Splats -/

def splatN (b : BitVec 32) : Cf F S100000 := broadcastInDim S100000 ![] bcast_S_S100000 (constant S_ .f32 b)
def splatND (b : BitVec 32) : Cf F S100000x128 := broadcastInDim S100000x128 ![] bcast_S_S100000x128 (constant S_ .f32 b)
def splatE (b : BitVec 32) : Ci F S600000 := broadcastInDim S600000 ![] bcast_S_S600000 (constantI S_ 32 b)

/-! ## Degrees and normalisations -/

def deg (src : Ci F S600000) : Cf F S100000 :=
  Host.scatterAdd scatter_S100000_S600000x1_S600000_n_0_0_1 (splatN 0x00000000#32)
    (broadcastInDim S600000x1 ![0] bcast_S600000_S600000x1_0 src)
    (broadcastInDim S600000 ![] bcast_S_S600000 (constant S_ .f32 0x3F800000#32))

def invd (d : Cf F S100000) : Cf F S100000 :=
  select (cmpf .ogt d (splatN 0x00000000#32)) (Host.divf (splatN 0x3F800000#32) (maximumf d (splatN 0x3F800000#32)))
    (broadcastInDim S100000 ![] bcast_S_S100000 (id (constant S_ .f32 0x00000000#32)))
def invd1 (d : Cf F S100000) : Cf F S100000 := Host.divf (splatN 0x3F800000#32) (addf d (splatN 0x3F800000#32))
def invd2 (d : Cf F S100000) : Cf F S100000 := Host.divf (splatN 0x3F800000#32) (addf d (splatN 0x40000000#32))
def headMask (d : Cf F S100000) : Cb F S100000 := cmpf .ogt d (splatN 0x40A00000#32)

/-! ## Edges -/

/-- jnp's wrap of a negative index, then laid down a column: the start indices a gather reads. -/
def starts (i : Ci F S600000) : Ci F S600000x1 :=
  broadcastInDim S600000x1 ![0] bcast_S600000_S600000x1_0
    (select (cmpi .slt i (splatE (F := F) 0#32)) (addi i (splatE (F := F) 100000#32)) i)

def onEdges (v : Cf F S100000) (src : Ci F S600000) : Cf F S600000 :=
  Host.gather gather_S100000_S600000x1_S600000_n_0_n_n_0_1_1 v (starts src)

def spmm (w : Cf F S600000) (h : Cf F S100000x128) (src dst : Ci F S600000) : Cf F S100000x128 :=
  Host.scatterAdd scatter_S100000x128_S600000x1_S600000x128_1_0_0_1 (splatND 0x00000000#32)
    (broadcastInDim S600000x1 ![0] bcast_S600000_S600000x1_0 src)
    (mulf (broadcastInDim S600000x128 ![0, 1] bcast_S600000x1_S600000x128_0_1
        (broadcastInDim S600000x1 ![0] bcast_S600000_S600000x1_0 w))
      (Host.gather gather_S100000x128_S600000x1_S600000x128_1_0_n_n_0_1_1128 h (starts dst)))

/-- A per-node factor laid along the features. -/
def alongRows (v : Cf F S100000) : Cf F S100000x128 :=
  broadcastInDim S100000x128 ![0, 1] bcast_S100000x1_S100000x128_0_1
    (broadcastInDim S100000x1 ![0] bcast_S100000_S100000x1_0 v)

def headStep (w1 : Cf F S600000) (d1 : Cf F S100000) (h : Cf F S100000x128) (src dst : Ci F S600000) : Cf F S100000x128 :=
  addf (spmm w1 h src dst) (mulf (alongRows d1) h)

/-! ## The mean of four layers and the final choice -/

def lift (a : Cf F S100000x128) : Cf F S1x100000x128 :=
  broadcastInDim S1x100000x128 ![1, 2] bcast_S100000x128_S1x100000x128_1_2 a

def mean4 (a b c d : Cf F S100000x128) : Cf F S100000x128 :=
  Host.divf
    (Host.reduceAdd
      (concatenate S4x100000x128 0 [⟨S1x100000x128, lift a⟩, ⟨S1x100000x128, lift b⟩, ⟨S1x100000x128, lift c⟩, ⟨S1x100000x128, lift d⟩]
        concatenates_S1x100000x128_S1x100000x128_S1x100000x128_S1x100000x128_S4x100000x128_d0)
      (constant S_ .f32 0x00000000#32) reducesTo_S4x100000x128_S100000x128_d0 h_S_)
    (splatND 0x40800000#32)

def pick (mask : Cb F S100000) (eh et : Cf F S100000x128) : Cf F S100000x128 :=
  select (broadcastInDim S100000x128 ![0, 1] bcast_S100000x1_S100000x128_0_1
      (broadcastInDim S100000x1 ![0] bcast_S100000_S100000x1_0 mask)) eh et

/-! ## A layer's weights -/

def weightT0 (G : Cf F S3x128x128) : Cf F S128x128 :=
  transpose S128x128 [1, 0] (shapeCast S128x128 (extractStridedSlice S1x128x128 ![0, 0, 0] G slices_S3x128x128_S1x128x128_0_0_0) shapeCasts_S1x128x128_S128x128) transposes_S128x128_S128x128_1_0
def weightT1 (G : Cf F S3x128x128) : Cf F S128x128 :=
  transpose S128x128 [1, 0] (shapeCast S128x128 (extractStridedSlice S1x128x128 ![1, 0, 0] G slices_S3x128x128_S1x128x128_1_0_0) shapeCasts_S1x128x128_S128x128) transposes_S128x128_S128x128_1_0
def weightT2 (G : Cf F S3x128x128) : Cf F S128x128 :=
  transpose S128x128 [1, 0] (shapeCast S128x128 (extractStridedSlice S1x128x128 ![2, 0, 0] G slices_S3x128x128_S1x128x128_2_0_0) shapeCasts_S1x128x128_S128x128) transposes_S128x128_S128x128_1_0

def bias0 (R : Cf F S3x128) : Cf F S128 := shapeCast S128 (extractStridedSlice S1x128 ![0, 0] R slices_S3x128_S1x128_0_0) shapeCasts_S1x128_S128
def bias1 (R : Cf F S3x128) : Cf F S128 := shapeCast S128 (extractStridedSlice S1x128 ![1, 0] R slices_S3x128_S1x128_1_0) shapeCasts_S1x128_S128
def bias2 (R : Cf F S3x128) : Cf F S128 := shapeCast S128 (extractStridedSlice S1x128 ![2, 0] R slices_S3x128_S1x128_2_0) shapeCasts_S1x128_S128

/-- The bias as the kernel's [1,128] row (a reshape) and the normalisation as its [100000,1] column. -/
def biasRow (r : Cf F S128) : Cf F S1x128 := shapeCast S1x128 r shapeCasts_S128_S1x128
def column (v : Cf F S100000) : Cf F S100000x1 := shapeCast S100000x1 v shapeCasts_S100000_S100000x1

/-! ## The reference's tail update -/

def lrelu (v : Cf F S100000x128) : Cf F S100000x128 :=
  select (cmpf .oge v (splatND 0x00000000#32)) v
    (mulf (broadcastInDim S100000x128 ![] bcast_S_S100000x128 (id (constant S_ .f32 0x3E4CCCCD#32))) v)

def mm (h : Cf F S100000x128) (w : Cf F S128x128) : Cf F S100000x128 := Host.dotGeneral dotND none h w

/-- The bias laid along every node (the reference's two broadcasts). -/
def alongNodes (r : Cf F S128) : Cf F S100000x128 :=
  broadcastInDim S100000x128 ![0, 1] bcast_S1x128_S100000x128_0_1 (broadcastInDim S1x128 ![1] bcast_S128_S1x128_1 r)

def missing (h nb : Cf F S100000x128) (g1 g2 b1 b2 : Cf F S128x128) (r : Cf F S128) : Cf F S100000x128 :=
  subf (addf (addf h (mulf (addf (lrelu (addf (mm h g1) (mm nb g2))) (splatND 0x3F800000#32)) (alongNodes r)))
    (lrelu (addf (mm h b1) (mm nb b2)))) nb

/-- The reference's update from the two neighbour sums: (agg + invd2 · h) + missing · invd2. -/
def tailRef (agg nb h : Cf F S100000x128) (d2 : Cf F S100000) (g1 g2 b1 b2 : Cf F S128x128) (r : Cf F S128) : Cf F S100000x128 :=
  addf (addf agg (mulf (alongRows d2) h)) (mulf (missing h nb g1 g2 b1 b2 r) (alongRows d2))

def tailStepRef (w0 w2 : Cf F S600000) (d2 : Cf F S100000) (h : Cf F S100000x128) (src dst : Ci F S600000)
    (g1 g2 b1 b2 : Cf F S128x128) (r : Cf F S128) : Cf F S100000x128 :=
  tailRef (spmm w2 h src dst) (spmm w0 h src dst) h d2 g1 g2 b1 b2 r

end Cert.V

end
-- ==== Proof.V.Algebra.lean ====
/-
  The one law that joins the two tail updates, on the extended reals.

  The kernel leaves  agg + d · (h + m)  in a row of the next layer, the reference  (agg + d · h) + m · d,
  where d = 1 / (deg + 2) is the node's normalisation.  Multiplication by d distributes over the sum
  h + m for EVERY pair of extended reals h, m as soon as d is a finite nonnegative number; the rest is
  associativity and commutativity, which the extended reals have without side conditions.  That d is
  finite and nonnegative needs only 0 ≤ deg: deg + 2 is then at least 2 (or +∞), and its reciprocal lies
  in [0, 1/2].  The degree is a scatter-add of ones into zeros, a sum of nonnegative terms.
-/
import Idealize.ShloMosaic.PureOps.Ideal
import Mathlib.Data.EReal.Operations
import Mathlib.Data.EReal.Inv

namespace Cert.V

open Idealize.ShloMosaic

/-- agg + d · (h + m) = (agg + d · h) + m · d for a finite nonnegative d. -/
theorem combine (agg h m d : EReal) (h0 : 0 ≤ d) (ht : d ≠ ⊤) :
    agg + d * (h + m) = (agg + d * h) + m * d := by
  rw [EReal.left_distrib_of_nonneg_of_ne_top h0 ht, add_assoc, mul_comm m d]

/-- The reciprocal of deg + 2 is a finite nonnegative number as soon as deg is nonnegative. -/
theorem recip_bounds (deg two : EReal) (h2 : two = ((2 : ℝ) : EReal)) (one : EReal) (h1 : one = ((1 : ℝ) : EReal))
    (hd : 0 ≤ deg) :
    0 ≤ Ideal.div one (deg + two) ∧ Ideal.div one (deg + two) ≠ ⊤ := by
  subst h2 h1
  induction deg using EReal.rec with
  | bot => exact absurd hd (by simp)
  | top =>
    have : (⊤ : EReal) + ((2 : ℝ) : EReal) = ⊤ := EReal.top_add_coe _
    rw [this, Ideal.div, if_neg (by simp), EReal.inv_top, mul_zero]
    exact ⟨le_refl _, EReal.zero_ne_top⟩
  | coe r =>
    have hr : (0 : ℝ) ≤ r := by exact_mod_cast hd
    have hne : r + 2 ≠ 0 := by positivity
    rw [← EReal.coe_add, Ideal.div_coe hne, ← EReal.coe_mul]
    refine ⟨?_, EReal.coe_ne_top _⟩
    exact EReal.coe_nonneg.mpr (by positivity)

/-- A scatter-add of nonnegative updates into a nonnegative operand is nonnegative at every index. -/
theorem scatterAdd_nonneg {s si su : Shape} {φ : FTy} {w : ℕ} (d : ScatterDims s si su) (x : FVec Ideal s φ)
    (idx : IVec si w) (upd : FVec Ideal su φ) (hx : ∀ i, (0 : EReal) ≤ x i) (hu : ∀ j, (0 : EReal) ≤ upd j) (i : s.Idx) :
    (0 : EReal) ≤ Host.scatterAdd d x idx upd i := by
  show (0 : EReal) ≤ x i + ∑ j ∈ Finset.univ.filter (fun j => d.resultIdx? j idx = some i), upd j
  exact add_nonneg (hx i) (Finset.sum_nonneg fun j _ => hu j)

end Cert.V
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.LibRowLayout.lean ====
/-
  A vector laid out as a one-row matrix, two spellings.

  A `[n]` vector can be made a `[1, n]` matrix by a reshape or by a broadcast along a new leading axis
  (`broadcast_in_dim` with `dims = [1]`). Both read entry `k` of the vector at `(0, k)`, so they are the same matrix,
  for any element type and any length other than one (at length one the broadcast's unit-axis rule reads entry `0`,
  which is again the same entry, but the statement here leaves that case out).
-/
import Idealize.ShloMosaic.Lib.Pipeline.Value

namespace Cert.Lib.RowLayout

open Idealize.ShloMosaic

/-- `shapeCast [1, n] v = broadcastInDim [1, n] ![1] v` for a vector `v` of length `n ≠ 1`: a program that reshapes a
    bias vector to a row and one that broadcasts it along a new leading axis hold the same row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  exact (shapeCast_addUnit_apply ![n] v hc j).trans
    (broadcastInDim_apply (![1] : Fin 1 → Fin 2) hb v j (fun a => j a.succ)
      (fun a => by match a with | ⟨0, _⟩ => exact (if_neg hn).symm)).symm

end Cert.Lib.RowLayout
-- ==== Proof.V.TailK.lean ====
/-
  One tail layer as the kernel computes it, as ONE function of whole arrays, and the law that makes it the
  reference's update.

  At node n and feature c, with h, nb, agg the layer's input and its two neighbour sums, col the normalisation
  1/(deg+2) as a column, g1 … b2 the four transposed weight matrices and row the bias as a row:
      s_g = Σ_k h[n,k]·g1[k,c] + Σ_k nb[n,k]·g2[k,c]          s_b likewise with b1, b2
      gamma = lrelu s_g + 1,  beta = lrelu s_b
      m = ((h[n,c] + gamma · row[0,c]) + beta) − nb[n,c]
      next[n,c] = agg[n,c] + col[n,0] · (h[n,c] + m)
  The reference has (agg + d·h) + m·d with the same m: equal for a finite nonnegative d (Algebra.combine).
-/
import proofs.«120490_j9904194585124_1_alg».proof.Proof.V.Spec
import proofs.«120490_j9904194585124_1_alg».proof.Proof.V.Algebra
import proofs.«120490_j9904194585124_1_alg».proof.Proof.LibPlainDotGeneral
import proofs.«120490_j9904194585124_1_alg».proof.Proof.LibColumnLayout
import proofs.«120490_j9904194585124_1_alg».proof.Proof.LibHostColumns
import proofs.«120490_j9904194585124_1_alg».proof.Proof.LibHostRows
import proofs.«120490_j9904194585124_1_alg».proof.Proof.LibRowLayout
import Idealize.ShloMosaic.Lib.ValueIdx

noncomputable section

namespace Cert.V

open Idealize.ShloMosaic Idealize.ShloMosaic.ValueIdx Cert.KernelIdeal Cert.KernelIdeal.Facts₀

/-- leaky_relu with slope 0.2 on one extended real, the constants as the programs spell them. -/
def lreluS (x : EReal) : EReal :=
  Scalar.select (Ideal.cmp .oge x (Ideal.ofBits .f32 0x00000000#32)) x (Ideal.ofBits .f32 0x3E4CCCCD#32 * x)

/-- The pre-activation at (n, c): h's row n against column c of the first matrix plus nb's row n against the second's. -/
def preact (h nb : FVec Ideal S100000x128 .f32) (w1 w2 : FVec Ideal S128x128 .f32) (n : Fin 100000) (c : Fin 128) : EReal :=
  (∑ k : Fin 128, h (ix2 n k) * w1 (ix2 k c)) + ∑ k : Fin 128, nb (ix2 n k) * w2 (ix2 k c)

/-- The missing-information term at (n, c), with the bias read as rb. -/
def missingAt (h nb : FVec Ideal S100000x128 .f32) (g1 g2 b1 b2 : FVec Ideal S128x128 .f32) (rb : EReal)
    (n : Fin 100000) (c : Fin 128) : EReal :=
  ((h (ix2 n c) + (lreluS (preact h nb g1 g2 n c) + Ideal.ofBits .f32 0x3F800000#32) * rb)
    + lreluS (preact h nb b1 b2 n c)) - nb (ix2 n c)

/-- The kernel's next layer at (n, c). -/
def tailKAt (h nb agg : FVec Ideal S100000x128 .f32) (col : FVec Ideal S100000x1 .f32)
    (g1 g2 b1 b2 : FVec Ideal S128x128 .f32) (row : FVec Ideal S1x128 .f32) (n : Fin 100000) (c : Fin 128) : EReal :=
  agg (ix2 n c) + col (ix2 n (0 : Fin 1)) * (h (ix2 n c) + missingAt h nb g1 g2 b1 b2 (row (ix2 (0 : Fin 1) c)) n c)

/-- The kernel's next layer, whole. -/
def tailK (h nb agg : FVec Ideal S100000x128 .f32) (col : FVec Ideal S100000x1 .f32)
    (g1 g2 b1 b2 : FVec Ideal S128x128 .f32) (row : FVec Ideal S1x128 .f32) : FVec Ideal S100000x128 .f32 :=
  fun i => tailKAt h nb agg col g1 g2 b1 b2 row (i 0) (i 1)

theorem tailK_apply (h nb agg : FVec Ideal S100000x128 .f32) (col : FVec Ideal S100000x1 .f32)
    (g1 g2 b1 b2 : FVec Ideal S128x128 .f32) (row : FVec Ideal S1x128 .f32) (n : Fin 100000) (c : Fin 128) :
    tailK h nb agg col g1 g2 b1 b2 row (ix2 n c) = tailKAt h nb agg col g1 g2 b1 b2 row n c := rfl

/-! ## The reference's update read at (n, c) -/

theorem alongRows_apply (v : FVec Ideal S100000 .f32) (n : Fin 100000) (c : Fin 128) :
    alongRows (F := Ideal) v (ix2 n c) = v (ix1 n) := by
  unfold alongRows
  exact (Cert.Lib.HostColumns.bcast_a1_ab_apply bcast_S100000x1_S100000x128_0_1 _ n c).trans
    (Cert.Lib.HostColumns.bcast_a_a1_apply bcast_S100000_S100000x1_0 v n 0)

theorem alongNodes_apply (r : FVec Ideal S128 .f32) (n : Fin 100000) (c : Fin 128) :
    alongNodes (F := Ideal) r (ix2 n c) = r (ix1 c) := by
  unfold alongNodes
  exact (Cert.Lib.HostRows.bcast_1b_ab_apply bcast_S1x128_S100000x128_0_1 _ n c).trans
    (Cert.Lib.HostRows.bcast_b_1b_apply bcast_S128_S1x128_1 r 0 c)

theorem column_apply (v : FVec Ideal S100000 .f32) (n : Fin 100000) :
    column (F := Ideal) v (ix2 n (0 : Fin 1)) = v (ix1 n) := by
  unfold column
  exact Idealize.ShloMosaic.ColumnLayout.shapeCast_a_a1_apply v shapeCasts_S100000_S100000x1 n 0

theorem biasRow_apply (r : FVec Ideal S128 .f32) (c : Fin 128) :
    biasRow (F := Ideal) r (ix2 (0 : Fin 1) c) = r (ix1 c) := by
  unfold biasRow
  rw [Cert.Lib.RowLayout.shapeCast_eq_broadcastInDim (by decide) r shapeCasts_S128_S1x128 bcast_S128_S1x128_1]
  exact Cert.Lib.HostRows.bcast_b_1b_apply bcast_S128_S1x128_1 r 0 c

theorem mm_apply (h : FVec Ideal S100000x128 .f32) (w : FVec Ideal S128x128 .f32) (n : Fin 100000) (c : Fin 128) :
    mm (F := Ideal) h w (ix2 n c) = ∑ k : Fin 128, h (ix2 n k) * w (ix2 k c) := by
  unfold mm
  exact Cert.Lib.PlainDotGeneral.dotGeneral_apply dotND rfl rfl rfl rfl rfl rfl none _ h w n c

theorem lrelu_apply (v : FVec Ideal S100000x128 .f32) (i : S100000x128.Idx) :
    lrelu (F := Ideal) v i = lreluS (v i) := rfl

theorem splatND_apply (b : BitVec 32) (i : S100000x128.Idx) : splatND (F := Ideal) b i = Ideal.ofBits .f32 b := rfl

theorem missing_apply (h nb : FVec Ideal S100000x128 .f32) (g1 g2 b1 b2 : FVec Ideal S128x128 .f32) (r : FVec Ideal S128 .f32)
    (n : Fin 100000) (c : Fin 128) :
    missing (F := Ideal) h nb g1 g2 b1 b2 r (ix2 n c) = missingAt h nb g1 g2 b1 b2 (r (ix1 c)) n c := by
  unfold missing missingAt preact
  simp only [subf_apply, addf_apply, mulf_apply, lrelu_apply, splatND_apply, alongNodes_apply, mm_apply]

/-- THE BRIDGE of one layer: the kernel's whole-array function at the normalisation as a column and the bias as a row
    is the reference's update, when the normalisation is a finite nonnegative number at every node. -/
theorem tailK_eq_tailRef (h nb agg : FVec Ideal S100000x128 .f32) (d2 : FVec Ideal S100000 .f32)
    (g1 g2 b1 b2 : FVec Ideal S128x128 .f32) (r : FVec Ideal S128 .f32)
    (hd : ∀ n : Fin 100000, (0 : EReal) ≤ d2 (ix1 n) ∧ d2 (ix1 n) ≠ ⊤) :
    tailK h nb agg (column (F := Ideal) d2) g1 g2 b1 b2 (biasRow (F := Ideal) r)
      = tailRef (F := Ideal) agg nb h d2 g1 g2 b1 b2 r := by
  funext i
  obtain ⟨n, c, rfl⟩ : ∃ (n : Fin 100000) (c : Fin 128), i = ix2 n c := ⟨i 0, i 1, eq_ix2 i⟩
  rw [tailK_apply]
  unfold tailRef tailKAt
  simp only [addf_apply, mulf_apply, alongRows_apply, missing_apply, column_apply, biasRow_apply]
  exact combine _ _ _ _ (hd n).1 (hd n).2

end Cert.V

end
-- ==== Proof.V.Consts.lean ====
/-
  The float words the two programs spell around the normalisation, as the reals they denote on the extended reals:
  0.0, 1.0 and 2.0.  Unfolded here once; every other module cites these.
-/
import Idealize.ShloMosaic.PureOps.Ideal

noncomputable section

namespace Cert.V

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.V

end
-- ==== Proof.V.Result.lean ====
/-
  The two programs' results as terms over the shared vocabulary (Spec.lean), and their equality at Ideal.

  Both programs compute, from x, the weights and the edges,
      pick (deg > 5) (mean4 x h1 h2 h3) (mean4 x t1 t2 t3)
  with h_{l+1} = headStep h_l in both, and t_{l+1} the kernel's tailK of (t_l, spmm w0 t_l, spmm w2 t_l, …) on one side and the
  reference's tailStepRef t_l on the other.  Layer by layer the two tail updates are one function (TailK.tailK_eq_tailRef),
  because 1/(deg+2) is a finite nonnegative number at every node: the degree is a sum of ones (Algebra).
-/
import proofs.«120490_j9904194585124_1_alg».proof.Proof.V.TailK
import proofs.«120490_j9904194585124_1_alg».proof.Proof.V.Consts

noncomputable section

namespace Cert.V

open Idealize.ShloMosaic Idealize.ShloMosaic.ValueIdx Cert.KernelIdeal Cert.KernelIdeal.Facts₀

section
variable (x : FVec Ideal S100000x128 .f32) (G1 G2 B1 B2 : FVec Ideal S3x128x128 .f32) (R : FVec Ideal S3x128 .f32)
  (src dst : IVec S600000 32)

/-- The three edge weights and the head branch, shared by the two programs. -/
def w0 : FVec Ideal S600000 .f32 := onEdges (F := Ideal) (invd (F := Ideal) (deg (F := Ideal) src)) src
def w1 : FVec Ideal S600000 .f32 := onEdges (F := Ideal) (invd1 (F := Ideal) (deg (F := Ideal) src)) src
def w2 : FVec Ideal S600000 .f32 := onEdges (F := Ideal) (invd2 (F := Ideal) (deg (F := Ideal) src)) src
def hd1 : FVec Ideal S100000x128 .f32 := headStep (F := Ideal) (w1 src) (invd1 (F := Ideal) (deg (F := Ideal) src)) x src dst
def hd2 : FVec Ideal S100000x128 .f32 := headStep (F := Ideal) (w1 src) (invd1 (F := Ideal) (deg (F := Ideal) src)) (hd1 x src dst) src dst
def hd3 : FVec Ideal S100000x128 .f32 := headStep (F := Ideal) (w1 src) (invd1 (F := Ideal) (deg (F := Ideal) src)) (hd2 x src dst) src dst
def embH : FVec Ideal S100000x128 .f32 := mean4 (F := Ideal) x (hd1 x src dst) (hd2 x src dst) (hd3 x src dst)

/-- The kernel's three tail layers. -/
def tK1 : FVec Ideal S100000x128 .f32 :=
  tailK x (spmm (F := Ideal) (w0 src) x src dst) (spmm (F := Ideal) (w2 src) x src dst) (column (F := Ideal) (invd2 (F := Ideal) (deg (F := Ideal) src)))
    (weightT0 (F := Ideal) G1) (weightT0 (F := Ideal) G2) (weightT0 (F := Ideal) B1) (weightT0 (F := Ideal) B2) (biasRow (F := Ideal) (bias0 (F := Ideal) R))
def tK2 : FVec Ideal S100000x128 .f32 :=
  tailK (tK1 x G1 G2 B1 B2 R src dst) (spmm (F := Ideal) (w0 src) (tK1 x G1 G2 B1 B2 R src dst) src dst) (spmm (F := Ideal) (w2 src) (tK1 x G1 G2 B1 B2 R src dst) src dst)
    (column (F := Ideal) (invd2 (F := Ideal) (deg (F := Ideal) src)))
    (weightT1 (F := Ideal) G1) (weightT1 (F := Ideal) G2) (weightT1 (F := Ideal) B1) (weightT1 (F := Ideal) B2) (biasRow (F := Ideal) (bias1 (F := Ideal) R))
def tK3 : FVec Ideal S100000x128 .f32 :=
  tailK (tK2 x G1 G2 B1 B2 R src dst) (spmm (F := Ideal) (w0 src) (tK2 x G1 G2 B1 B2 R src dst) src dst) (spmm (F := Ideal) (w2 src) (tK2 x G1 G2 B1 B2 R src dst) src dst)
    (column (F := Ideal) (invd2 (F := Ideal) (deg (F := Ideal) src)))
    (weightT2 (F := Ideal) G1) (weightT2 (F := Ideal) G2) (weightT2 (F := Ideal) B1) (weightT2 (F := Ideal) B2) (biasRow (F := Ideal) (bias2 (F := Ideal) R))

/-- What the kernel program's result array holds. -/
def resultK : FVec Ideal S100000x128 .f32 :=
  pick (F := Ideal) (headMask (F := Ideal) (deg (F := Ideal) src)) (embH x src dst)
    (mean4 (F := Ideal) x (tK1 x G1 G2 B1 B2 R src dst) (tK2 x G1 G2 B1 B2 R src dst) (tK3 x G1 G2 B1 B2 R src dst))

/-- The reference's three tail layers. -/
def tR1 : FVec Ideal S100000x128 .f32 :=
  tailStepRef (F := Ideal) (w0 src) (w2 src) (invd2 (F := Ideal) (deg (F := Ideal) src)) x src dst
    (weightT0 (F := Ideal) G1) (weightT0 (F := Ideal) G2) (weightT0 (F := Ideal) B1) (weightT0 (F := Ideal) B2) (bias0 (F := Ideal) R)
def tR2 : FVec Ideal S100000x128 .f32 :=
  tailStepRef (F := Ideal) (w0 src) (w2 src) (invd2 (F := Ideal) (deg (F := Ideal) src)) (tR1 x G1 G2 B1 B2 R src dst) src dst
    (weightT1 (F := Ideal) G1) (weightT1 (F := Ideal) G2) (weightT1 (F := Ideal) B1) (weightT1 (F := Ideal) B2) (bias1 (F := Ideal) R)
def tR3 : FVec Ideal S100000x128 .f32 :=
  tailStepRef (F := Ideal) (w0 src) (w2 src) (invd2 (F := Ideal) (deg (F := Ideal) src)) (tR2 x G1 G2 B1 B2 R src dst) src dst
    (weightT2 (F := Ideal) G1) (weightT2 (F := Ideal) G2) (weightT2 (F := Ideal) B1) (weightT2 (F := Ideal) B2) (bias2 (F := Ideal) R)

/-- What the reference's result array holds. -/
def resultR : FVec Ideal S100000x128 .f32 :=
  pick (F := Ideal) (headMask (F := Ideal) (deg (F := Ideal) src)) (embH x src dst)
    (mean4 (F := Ideal) x (tR1 x G1 G2 B1 B2 R src dst) (tR2 x G1 G2 B1 B2 R src dst) (tR3 x G1 G2 B1 B2 R src dst))

/-- The degree of a node is nonnegative: ones added into zeros. -/
theorem deg_nonneg (n : S100000.Idx) : (0 : EReal) ≤ deg (F := Ideal) src n := by
  unfold deg
  refine scatterAdd_nonneg _ _ _ _ (fun i => ?_) (fun j => ?_) n
  · show (0 : EReal) ≤ Ideal.ofBits .f32 0x00000000#32
    rw [ofBits_zero]
  · show (0 : EReal) ≤ Ideal.ofBits .f32 0x3F800000#32
    rw [ofBits_one]
    exact EReal.coe_nonneg.mpr zero_le_one

/-- The reciprocal of (a nonnegative array + 2) is a finite nonnegative number at every node. -/
theorem invd2_bounds_of (d : FVec Ideal S100000 .f32) (hd : ∀ i, (0 : EReal) ≤ d i) (n : Fin 100000) :
    (0 : EReal) ≤ invd2 (F := Ideal) d (ix1 n) ∧ invd2 (F := Ideal) d (ix1 n) ≠ ⊤ := by
  have e : invd2 (F := Ideal) d (ix1 n)
      = Ideal.div (Ideal.ofBits .f32 0x3F800000#32) (d (ix1 n) + Ideal.ofBits .f32 0x40000000#32) := rfl
  rw [e]
  exact recip_bounds _ _ ofBits_two _ ofBits_one (hd _)

/-- The normalisation 1/(deg+2) is a finite nonnegative number at every node. -/
theorem invd2_bounds (n : Fin 100000) :
    (0 : EReal) ≤ invd2 (F := Ideal) (deg (F := Ideal) src) (ix1 n) ∧ invd2 (F := Ideal) (deg (F := Ideal) src) (ix1 n) ≠ ⊤ :=
  invd2_bounds_of _ (deg_nonneg src) n

theorem tK1_eq : tK1 x G1 G2 B1 B2 R src dst = tR1 x G1 G2 B1 B2 R src dst := by
  unfold tK1 tR1 tailStepRef
  exact tailK_eq_tailRef _ _ _ _ _ _ _ _ _ (invd2_bounds src)
theorem tK2_eq : tK2 x G1 G2 B1 B2 R src dst = tR2 x G1 G2 B1 B2 R src dst := by
  unfold tK2 tR2 tailStepRef
  rw [tK1_eq]
  exact tailK_eq_tailRef _ _ _ _ _ _ _ _ _ (invd2_bounds src)
theorem tK3_eq : tK3 x G1 G2 B1 B2 R src dst = tR3 x G1 G2 B1 B2 R src dst := by
  unfold tK3 tR3 tailStepRef
  rw [tK2_eq]
  exact tailK_eq_tailRef _ _ _ _ _ _ _ _ _ (invd2_bounds src)

/-- The two programs' results are one array. -/
theorem resultK_eq_resultR : resultK x G1 G2 B1 B2 R src dst = resultR x G1 G2 B1 B2 R src dst := by
  unfold resultK resultR
  rw [tK1_eq, tK2_eq, tK3_eq]

end

end Cert.V

end
-- ==== Proof.Claims.lean ====
/- The assembly of the claim: the three frames, the (empty) ledger of the ideal pass, and the algebraic claim from the two
   programs' runs — each run weakened to a post over one term, the two result arrays being one function of the eight
   arguments (the kernel program's at what its last boundary holds, the reference's at the fold of its operations). -/
import proofs.«120490_j9904194585124_1_alg».proof.Defs
import proofs.«120490_j9904194585124_1_alg».proof.Proof.Gen.Pre_finite_inputs
import proofs.«120490_j9904194585124_1_alg».proof.Proof.KI.Run
import proofs.«120490_j9904194585124_1_alg».proof.Proof.K.Run
import proofs.«120490_j9904194585124_1_alg».proof.Proof.Ref.Frame
import proofs.«120490_j9904194585124_1_alg».proof.Proof.V.Result

noncomputable section

namespace Cert.Proof.Claims

open Idealize.ShloMosaic Idealize.ShloMosaic.TcCoe Idealize.SL.Sem

/-- The reference's result term respects equality of its eight arguments. -/
theorem resultR_congr {x x' : FVec Ideal Cert.KernelIdeal.S100000x128 .f32} {G1 G1' G2 G2' B1 B1' B2 B2' : FVec Ideal Cert.KernelIdeal.S3x128x128 .f32}
    {R R' : FVec Ideal Cert.KernelIdeal.S3x128 .f32} {src src' dst dst' : IVec Cert.KernelIdeal.S600000 32}
    (h0 : x' = x) (h1 : G1' = G1) (h2 : G2' = G2) (h3 : B1' = B1) (h4 : B2' = B2) (h5 : R' = R) (h6 : src' = src) (h7 : dst' = dst) :
    Cert.V.resultR x' G1' G2' B1' B2' R' src' dst' = Cert.V.resultR x G1 G2 B1 B2 R src dst := by
  subst h0 h1 h2 h3 h4 h5 h6 h7; rfl

/-- What the kernel program's result array ends holding: its last boundary's contents at the result buffer are `resultK` of
    the launch arguments. -/
abbrev KResult : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Hand.W10 (F := Ideal) m ρ c (Proc.devRef .tc Cert.KernelIdeal.main_v239)
      = Cert.V.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- What the reference's result array ends holding: the fold of its operations over any contents, at the result buffer, is
    `resultR` of those contents at the argument buffers. -/
abbrev RResult : Prop :=
  ∀ (V : Valuation Cert.ReferenceIdeal.τ Cert.ReferenceIdeal.sig (Elt Ideal)),
    StableHlo.after (Cert.ReferenceIdeal.Hand.ops (F := Ideal)) V (Proc.devRef .tc Cert.ReferenceIdeal.main_v445)
      = Cert.V.resultR (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7))

/-- The algebraic claim, from what each program's result array ends holding: the kernel program's last boundary at its
    result buffer is `resultK` of the launch arguments (`hK`), the fold of the reference's operations over ANY contents at
    its result buffer is `resultR` of those contents' arguments (`hR`); the two are one function at the ideal instance. The
    precondition is not used. -/
theorem algebraic_of
    (hK : KResult) (hR : RResult) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' _ hagree
  refine ⟨fun c => Cert.V.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v239 (by decide))).trans (hK m g c),
       (h c _ (Cert.KernelIdeal.Hand.mem_uc Cert.KernelIdeal.main_arg0 (by decide))).trans (Cert.KernelIdeal.Hand.W10_main_arg0 m g c),
       (h c _ (Cert.KernelIdeal.Hand.mem_uc Cert.KernelIdeal.main_arg1 (by decide))).trans (Cert.KernelIdeal.Hand.W10_main_arg1 m g c),
       (h c _ (Cert.KernelIdeal.Hand.mem_uc Cert.KernelIdeal.main_arg2 (by decide))).trans (Cert.KernelIdeal.Hand.W10_main_arg2 m g c),
       (h c _ (Cert.KernelIdeal.Hand.mem_uc Cert.KernelIdeal.main_arg3 (by decide))).trans (Cert.KernelIdeal.Hand.W10_main_arg3 m g c),
       (h c _ (Cert.KernelIdeal.Hand.mem_uc Cert.KernelIdeal.main_arg4 (by decide))).trans (Cert.KernelIdeal.Hand.W10_main_arg4 m g c),
       (h c _ (Cert.KernelIdeal.Hand.mem_uc Cert.KernelIdeal.main_arg5 (by decide))).trans (Cert.KernelIdeal.Hand.W10_main_arg5 m g c),
       (h c _ (Cert.KernelIdeal.Hand.mem_uc Cert.KernelIdeal.main_arg6 (by decide))).trans (Cert.KernelIdeal.Hand.W10_main_arg6 m g c),
       (h c _ (Cert.KernelIdeal.Hand.mem_uc Cert.KernelIdeal.main_arg7 (by decide))).trans (Cert.KernelIdeal.Hand.W10_main_arg7 m g c)⟩)
      (Cert.KernelIdeal.Hand.run_main (F := Ideal) m g)
  · exact (θ_run Cert.ReferenceIdeal.defs _ _).mono (fun r h c =>
      ⟨(h c Cert.ReferenceIdeal.main_v445).trans ((hR (StableHlo.launchContents m' c)).trans
          ((resultR_congr (hagree c).1 (hagree c).2.1 (hagree c).2.2.1 (hagree c).2.2.2.1 (hagree c).2.2.2.2.1
              (hagree c).2.2.2.2.2.1 (hagree c).2.2.2.2.2.2.1 (hagree c).2.2.2.2.2.2.2).trans
            (Cert.V.resultK_eq_resultR _ _ _ _ _ _ _ _).symm)),
       (h c Cert.ReferenceIdeal.main_arg0).trans (Cert.ReferenceIdeal.Hand.kept_main_arg0 (StableHlo.launchContents m' c)),
       (h c Cert.ReferenceIdeal.main_arg1).trans (Cert.ReferenceIdeal.Hand.kept_main_arg1 (StableHlo.launchContents m' c)),
       (h c Cert.ReferenceIdeal.main_arg2).trans (Cert.ReferenceIdeal.Hand.kept_main_arg2 (StableHlo.launchContents m' c)),
       (h c Cert.ReferenceIdeal.main_arg3).trans (Cert.ReferenceIdeal.Hand.kept_main_arg3 (StableHlo.launchContents m' c)),
       (h c Cert.ReferenceIdeal.main_arg4).trans (Cert.ReferenceIdeal.Hand.kept_main_arg4 (StableHlo.launchContents m' c)),
       (h c Cert.ReferenceIdeal.main_arg5).trans (Cert.ReferenceIdeal.Hand.kept_main_arg5 (StableHlo.launchContents m' c)),
       (h c Cert.ReferenceIdeal.main_arg6).trans (Cert.ReferenceIdeal.Hand.kept_main_arg6 (StableHlo.launchContents m' c)),
       (h c Cert.ReferenceIdeal.main_arg7).trans (Cert.ReferenceIdeal.Hand.kept_main_arg7 (StableHlo.launchContents m' c))⟩)
      (Cert.ReferenceIdeal.Hand.run_fold (F := Ideal) m' g')

/-- The kernel program as printed runs and leaves its arguments unchanged. -/
theorem frame_p : Cert.frame_Kernel (hKernel := Cert.Kernel.Gen.facts) (hPre_finite_inputs := Cert.Pre_finite_inputs.Gen.facts) :=
  fun m g _ => Cert.Kernel.Hand.frame (F := Bits) m g

/-- The idealized kernel program runs and leaves its arguments unchanged. -/
theorem frame_pi : Cert.frame_KernelIdeal (hKernelIdeal := Cert.KernelIdeal.Gen.facts) (hPre_finite_inputs := Cert.Pre_finite_inputs.Gen.facts) :=
  fun m g _ => Cert.KernelIdeal.Hand.frame (F := Ideal) m g

/-- The idealized reference runs and leaves its arguments unchanged. -/
theorem frame_ri : Cert.frame_ReferenceIdeal (hReferenceIdeal := Cert.ReferenceIdeal.Gen.facts) (hPre_finite_inputs := Cert.Pre_finite_inputs.Gen.facts) :=
  Cert.ReferenceIdeal.Hand.frame

/-- The ideal pass rewrote nothing: its ledger is empty. -/
theorem preserves : Cert.preserves_Kernel_KernelIdeal := trivial

/-- The claim, from the two result arrays' contents. -/
theorem claim_of (hK : KResult) (hR : RResult) : Cert.Claim :=
  ⟨Cert.Kernel.Gen.facts, Cert.KernelIdeal.Gen.facts, Cert.ReferenceIdeal.Gen.facts, Cert.Pre_finite_inputs.Gen.facts,
    frame_p, frame_pi, frame_ri, preserves, algebraic_of hK hR⟩

end Cert.Proof.Claims

end
-- ==== Proof.V.KStage0.lean ====
/- The host operations before pallas_call 0, in their three stretches, read from any contents W:
   the first computes the degree and the two operands of the guarded reciprocal, the second (the called where) the
   guarded reciprocal itself, the third the other two normalisations, the three edge weights, the head branch's three
   hops with their mean, and layer 0's operands.  The argument arrays are left as they were. -/
import proofs.«120490_j9904194585124_1_alg».proof.Proof.V.Spec
import proofs.«120490_j9904194585124_1_alg».proof.Proof.Gen.KernelIdeal.Launch
import Idealize.ShloMosaic.Lib.StableHlo.Run

set_option maxRecDepth 16384

noncomputable section

namespace Cert.V.K

open Idealize.ShloMosaic Idealize.ShloMosaic.TcCoe Idealize.ShloMosaic.StableHlo Cert.KernelIdeal Cert.KernelIdeal.Gen

variable {F : FTy → Type} [FloatOps F]

set_option maxHeartbeats 4000000 in
theorem s0_v3 (W : Valuation τ sig (Elt F)) :
    after hostOps0 W (Proc.devRef .tc main_v3)
      = deg (W (Proc.devRef .tc main_arg6)) := by
  after_results_simp <;> rfl

theorem s0_v3' (W : Valuation τ sig (Elt F)) {x_arg6 : Ci F S600000}
    (h_arg6 : W (Proc.devRef .tc main_arg6) = x_arg6) :
    after hostOps0 W (Proc.devRef .tc main_v3)
      = deg x_arg6 := by
  subst h_arg6
  exact s0_v3 W

set_option maxHeartbeats 4000000 in
theorem s0_v5 (W : Valuation τ sig (Elt F)) :
    after hostOps0 W (Proc.devRef .tc main_v5)
      = cmpf .ogt (deg (W (Proc.devRef .tc main_arg6))) (splatN (F := F) 0x00000000#32) := by
  after_results_simp <;> rfl

theorem s0_v5' (W : Valuation τ sig (Elt F)) {x_arg6 : Ci F S600000}
    (h_arg6 : W (Proc.devRef .tc main_arg6) = x_arg6) :
    after hostOps0 W (Proc.devRef .tc main_v5)
      = cmpf .ogt (deg x_arg6) (splatN (F := F) 0x00000000#32) := by
  subst h_arg6
  exact s0_v5 W

set_option maxHeartbeats 4000000 in
theorem s0_v9 (W : Valuation τ sig (Elt F)) :
    after hostOps0 W (Proc.devRef .tc main_v9)
      = Host.divf (splatN (F := F) 0x3F800000#32) (maximumf (deg (W (Proc.devRef .tc main_arg6))) (splatN (F := F) 0x3F800000#32)) := by
  after_results_simp <;> rfl

theorem s0_v9' (W : Valuation τ sig (Elt F)) {x_arg6 : Ci F S600000}
    (h_arg6 : W (Proc.devRef .tc main_arg6) = x_arg6) :
    after hostOps0 W (Proc.devRef .tc main_v9)
      = Host.divf (splatN (F := F) 0x3F800000#32) (maximumf (deg x_arg6) (splatN (F := F) 0x3F800000#32)) := by
  subst h_arg6
  exact s0_v9 W

set_option maxHeartbeats 4000000 in
theorem s0_cst_4 (W : Valuation τ sig (Elt F)) :
    after hostOps0 W (Proc.devRef .tc main_cst_4)
      = constant (F := F) S_ .f32 0x00000000#32 := by
  after_results_simp <;> rfl

theorem s0_cst_4' (W : Valuation τ sig (Elt F))
    :
    after hostOps0 W (Proc.devRef .tc main_cst_4)
      = constant (F := F) S_ .f32 0x00000000#32 := by
  exact s0_cst_4 W

set_option maxHeartbeats 4000000 in
theorem s0_keep_arg0 (W : Valuation τ sig (Elt F)) :
    after hostOps0 W (Proc.devRef .tc main_arg0) = W (Proc.devRef .tc main_arg0) := by
  after_results_simp

theorem s0_keep_arg0' (W : Valuation τ sig (Elt F)) {x : Cf F S100000x128} (h : W (Proc.devRef .tc main_arg0) = x) :
    after hostOps0 W (Proc.devRef .tc main_arg0) = x := (s0_keep_arg0 W).trans h

set_option maxHeartbeats 4000000 in
theorem s0_keep_arg1 (W : Valuation τ sig (Elt F)) :
    after hostOps0 W (Proc.devRef .tc main_arg1) = W (Proc.devRef .tc main_arg1) := by
  after_results_simp

theorem s0_keep_arg1' (W : Valuation τ sig (Elt F)) {x : Cf F S3x128x128} (h : W (Proc.devRef .tc main_arg1) = x) :
    after hostOps0 W (Proc.devRef .tc main_arg1) = x := (s0_keep_arg1 W).trans h

set_option maxHeartbeats 4000000 in
theorem s0_keep_arg2 (W : Valuation τ sig (Elt F)) :
    after hostOps0 W (Proc.devRef .tc main_arg2) = W (Proc.devRef .tc main_arg2) := by
  after_results_simp

theorem s0_keep_arg2' (W : Valuation τ sig (Elt F)) {x : Cf F S3x128x128} (h : W (Proc.devRef .tc main_arg2) = x) :
    after hostOps0 W (Proc.devRef .tc main_arg2) = x := (s0_keep_arg2 W).trans h

set_option maxHeartbeats 4000000 in
theorem s0_keep_arg3 (W : Valuation τ sig (Elt F)) :
    after hostOps0 W (Proc.devRef .tc main_arg3) = W (Proc.devRef .tc main_arg3) := by
  after_results_simp

theorem s0_keep_arg3' (W : Valuation τ sig (Elt F)) {x : Cf F S3x128x128} (h : W (Proc.devRef .tc main_arg3) = x) :
    after hostOps0 W (Proc.devRef .tc main_arg3) = x := (s0_keep_arg3 W).trans h

set_option maxHeartbeats 4000000 in
theorem s0_keep_arg4 (W : Valuation τ sig (Elt F)) :
    after hostOps0 W (Proc.devRef .tc main_arg4) = W (Proc.devRef .tc main_arg4) := by
  after_results_simp

theorem s0_keep_arg4' (W : Valuation τ sig (Elt F)) {x : Cf F S3x128x128} (h : W (Proc.devRef .tc main_arg4) = x) :
    after hostOps0 W (Proc.devRef .tc main_arg4) = x := (s0_keep_arg4 W).trans h

set_option maxHeartbeats 4000000 in
theorem s0_keep_arg5 (W : Valuation τ sig (Elt F)) :
    after hostOps0 W (Proc.devRef .tc main_arg5) = W (Proc.devRef .tc main_arg5) := by
  after_results_simp

theorem s0_keep_arg5' (W : Valuation τ sig (Elt F)) {x : Cf F S3x128} (h : W (Proc.devRef .tc main_arg5) = x) :
    after hostOps0 W (Proc.devRef .tc main_arg5) = x := (s0_keep_arg5 W).trans h

set_option maxHeartbeats 4000000 in
theorem s0_keep_arg6 (W : Valuation τ sig (Elt F)) :
    after hostOps0 W (Proc.devRef .tc main_arg6) = W (Proc.devRef .tc main_arg6) := by
  after_results_simp

theorem s0_keep_arg6' (W : Valuation τ sig (Elt F)) {x : Ci F S600000} (h : W (Proc.devRef .tc main_arg6) = x) :
    after hostOps0 W (Proc.devRef .tc main_arg6) = x := (s0_keep_arg6 W).trans h

set_option maxHeartbeats 4000000 in
theorem s0_keep_arg7 (W : Valuation τ sig (Elt F)) :
    after hostOps0 W (Proc.devRef .tc main_arg7) = W (Proc.devRef .tc main_arg7) := by
  after_results_simp

theorem s0_keep_arg7' (W : Valuation τ sig (Elt F)) {x : Ci F S600000} (h : W (Proc.devRef .tc main_arg7) = x) :
    after hostOps0 W (Proc.devRef .tc main_arg7) = x := (s0_keep_arg7 W).trans h

set_option maxHeartbeats 4000000 in
theorem s01_v10 (W : Valuation τ sig (Elt F)) :
    after hostOps0_1 W (Proc.devRef .tc main_v10)
      = select (W (Proc.devRef .tc main_v5)) (W (Proc.devRef .tc main_v9)) (broadcastInDim S100000 ![] bcast_S_S100000 (id (W (Proc.devRef .tc main_cst_4)))) := by
  after_results_simp <;> rfl

theorem s01_v10' (W : Valuation τ sig (Elt F)) {x_v5 : Cb F S100000} {x_v9 : Cf F S100000} {x_cst_4 : Cf F S_}
    (h_v5 : W (Proc.devRef .tc main_v5) = x_v5) (h_v9 : W (Proc.devRef .tc main_v9) = x_v9) (h_cst_4 : W (Proc.devRef .tc main_cst_4) = x_cst_4) :
    after hostOps0_1 W (Proc.devRef .tc main_v10)
      = select x_v5 x_v9 (broadcastInDim S100000 ![] bcast_S_S100000 (id x_cst_4)) := by
  subst h_v5 h_v9 h_cst_4
  exact s01_v10 W

set_option maxHeartbeats 4000000 in
theorem s01_keep_v3 (W : Valuation τ sig (Elt F)) :
    after hostOps0_1 W (Proc.devRef .tc main_v3) = W (Proc.devRef .tc main_v3) := by
  after_results_simp

theorem s01_keep_v3' (W : Valuation τ sig (Elt F)) {x : Cf F S100000} (h : W (Proc.devRef .tc main_v3) = x) :
    after hostOps0_1 W (Proc.devRef .tc main_v3) = x := (s01_keep_v3 W).trans h

set_option maxHeartbeats 4000000 in
theorem s01_keep_arg0 (W : Valuation τ sig (Elt F)) :
    after hostOps0_1 W (Proc.devRef .tc main_arg0) = W (Proc.devRef .tc main_arg0) := by
  after_results_simp

theorem s01_keep_arg0' (W : Valuation τ sig (Elt F)) {x : Cf F S100000x128} (h : W (Proc.devRef .tc main_arg0) = x) :
    after hostOps0_1 W (Proc.devRef .tc main_arg0) = x := (s01_keep_arg0 W).trans h

set_option maxHeartbeats 4000000 in
theorem s01_keep_arg1 (W : Valuation τ sig (Elt F)) :
    after hostOps0_1 W (Proc.devRef .tc main_arg1) = W (Proc.devRef .tc main_arg1) := by
  after_results_simp

theorem s01_keep_arg1' (W : Valuation τ sig (Elt F)) {x : Cf F S3x128x128} (h : W (Proc.devRef .tc main_arg1) = x) :
    after hostOps0_1 W (Proc.devRef .tc main_arg1) = x := (s01_keep_arg1 W).trans h

set_option maxHeartbeats 4000000 in
theorem s01_keep_arg2 (W : Valuation τ sig (Elt F)) :
    after hostOps0_1 W (Proc.devRef .tc main_arg2) = W (Proc.devRef .tc main_arg2) := by
  after_results_simp

theorem s01_keep_arg2' (W : Valuation τ sig (Elt F)) {x : Cf F S3x128x128} (h : W (Proc.devRef .tc main_arg2) = x) :
    after hostOps0_1 W (Proc.devRef .tc main_arg2) = x := (s01_keep_arg2 W).trans h

set_option maxHeartbeats 4000000 in
theorem s01_keep_arg3 (W : Valuation τ sig (Elt F)) :
    after hostOps0_1 W (Proc.devRef .tc main_arg3) = W (Proc.devRef .tc main_arg3) := by
  after_results_simp

theorem s01_keep_arg3' (W : Valuation τ sig (Elt F)) {x : Cf F S3x128x128} (h : W (Proc.devRef .tc main_arg3) = x) :
    after hostOps0_1 W (Proc.devRef .tc main_arg3) = x := (s01_keep_arg3 W).trans h

set_option maxHeartbeats 4000000 in
theorem s01_keep_arg4 (W : Valuation τ sig (Elt F)) :
    after hostOps0_1 W (Proc.devRef .tc main_arg4) = W (Proc.devRef .tc main_arg4) := by
  after_results_simp

theorem s01_keep_arg4' (W : Valuation τ sig (Elt F)) {x : Cf F S3x128x128} (h : W (Proc.devRef .tc main_arg4) = x) :
    after hostOps0_1 W (Proc.devRef .tc main_arg4) = x := (s01_keep_arg4 W).trans h

set_option maxHeartbeats 4000000 in
theorem s01_keep_arg5 (W : Valuation τ sig (Elt F)) :
    after hostOps0_1 W (Proc.devRef .tc main_arg5) = W (Proc.devRef .tc main_arg5) := by
  after_results_simp

theorem s01_keep_arg5' (W : Valuation τ sig (Elt F)) {x : Cf F S3x128} (h : W (Proc.devRef .tc main_arg5) = x) :
    after hostOps0_1 W (Proc.devRef .tc main_arg5) = x := (s01_keep_arg5 W).trans h

set_option maxHeartbeats 4000000 in
theorem s01_keep_arg6 (W : Valuation τ sig (Elt F)) :
    after hostOps0_1 W (Proc.devRef .tc main_arg6) = W (Proc.devRef .tc main_arg6) := by
  after_results_simp

theorem s01_keep_arg6' (W : Valuation τ sig (Elt F)) {x : Ci F S600000} (h : W (Proc.devRef .tc main_arg6) = x) :
    after hostOps0_1 W (Proc.devRef .tc main_arg6) = x := (s01_keep_arg6 W).trans h

set_option maxHeartbeats 4000000 in
theorem s01_keep_arg7 (W : Valuation τ sig (Elt F)) :
    after hostOps0_1 W (Proc.devRef .tc main_arg7) = W (Proc.devRef .tc main_arg7) := by
  after_results_simp

theorem s01_keep_arg7' (W : Valuation τ sig (Elt F)) {x : Ci F S600000} (h : W (Proc.devRef .tc main_arg7) = x) :
    after hostOps0_1 W (Proc.devRef .tc main_arg7) = x := (s01_keep_arg7 W).trans h

set_option maxHeartbeats 4000000 in
theorem s02_v18 (W : Valuation τ sig (Elt F)) :
    after hostOps0_2 W (Proc.devRef .tc main_v18)
      = invd2 (W (Proc.devRef .tc main_v3)) := by
  after_results_simp <;> rfl

theorem s02_v18' (W : Valuation τ sig (Elt F)) {x_v3 : Cf F S100000}
    (h_v3 : W (Proc.devRef .tc main_v3) = x_v3) :
    after hostOps0_2 W (Proc.devRef .tc main_v18)
      = invd2 x_v3 := by
  subst h_v3
  exact s02_v18 W

set_option maxHeartbeats 4000000 in
theorem s02_v25 (W : Valuation τ sig (Elt F)) :
    after hostOps0_2 W (Proc.devRef .tc main_v25)
      = onEdges (W (Proc.devRef .tc main_v10)) (W (Proc.devRef .tc main_arg6)) := by
  after_results_simp <;> rfl

theorem s02_v25' (W : Valuation τ sig (Elt F)) {x_v10 : Cf F S100000} {x_arg6 : Ci F S600000}
    (h_v10 : W (Proc.devRef .tc main_v10) = x_v10) (h_arg6 : W (Proc.devRef .tc main_arg6) = x_arg6) :
    after hostOps0_2 W (Proc.devRef .tc main_v25)
      = onEdges x_v10 x_arg6 := by
  subst h_v10 h_arg6
  exact s02_v25 W

set_option maxHeartbeats 4000000 in
theorem s02_v39 (W : Valuation τ sig (Elt F)) :
    after hostOps0_2 W (Proc.devRef .tc main_v39)
      = onEdges (invd2 (W (Proc.devRef .tc main_v3))) (W (Proc.devRef .tc main_arg6)) := by
  after_results_simp <;> rfl

theorem s02_v39' (W : Valuation τ sig (Elt F)) {x_v3 : Cf F S100000} {x_arg6 : Ci F S600000}
    (h_v3 : W (Proc.devRef .tc main_v3) = x_v3) (h_arg6 : W (Proc.devRef .tc main_arg6) = x_arg6) :
    after hostOps0_2 W (Proc.devRef .tc main_v39)
      = onEdges (invd2 x_v3) x_arg6 := by
  subst h_v3 h_arg6
  exact s02_v39 W

set_option maxHeartbeats 4000000 in
theorem s02_v41 (W : Valuation τ sig (Elt F)) :
    after hostOps0_2 W (Proc.devRef .tc main_v41)
      = headMask (W (Proc.devRef .tc main_v3)) := by
  after_results_simp <;> rfl

theorem s02_v41' (W : Valuation τ sig (Elt F)) {x_v3 : Cf F S100000}
    (h_v3 : W (Proc.devRef .tc main_v3) = x_v3) :
    after hostOps0_2 W (Proc.devRef .tc main_v41)
      = headMask x_v3 := by
  subst h_v3
  exact s02_v41 W

set_option maxHeartbeats 4000000 in
theorem s02_v100 (W : Valuation τ sig (Elt F)) :
    after hostOps0_2 W (Proc.devRef .tc main_v100)
      = mean4 (W (Proc.devRef .tc main_arg0))
        (headStep (onEdges (invd1 (W (Proc.devRef .tc main_v3))) (W (Proc.devRef .tc main_arg6))) (invd1 (W (Proc.devRef .tc main_v3))) (W (Proc.devRef .tc main_arg0)) (W (Proc.devRef .tc main_arg6)) (W (Proc.devRef .tc main_arg7)))
        (headStep (onEdges (invd1 (W (Proc.devRef .tc main_v3))) (W (Proc.devRef .tc main_arg6))) (invd1 (W (Proc.devRef .tc main_v3))) (headStep (onEdges (invd1 (W (Proc.devRef .tc main_v3))) (W (Proc.devRef .tc main_arg6))) (invd1 (W (Proc.devRef .tc main_v3))) (W (Proc.devRef .tc main_arg0)) (W (Proc.devRef .tc main_arg6)) (W (Proc.devRef .tc main_arg7))) (W (Proc.devRef .tc main_arg6)) (W (Proc.devRef .tc main_arg7)))
        (headStep (onEdges (invd1 (W (Proc.devRef .tc main_v3))) (W (Proc.devRef .tc main_arg6))) (invd1 (W (Proc.devRef .tc main_v3))) (headStep (onEdges (invd1 (W (Proc.devRef .tc main_v3))) (W (Proc.devRef .tc main_arg6))) (invd1 (W (Proc.devRef .tc main_v3))) (headStep (onEdges (invd1 (W (Proc.devRef .tc main_v3))) (W (Proc.devRef .tc main_arg6))) (invd1 (W (Proc.devRef .tc main_v3))) (W (Proc.devRef .tc main_arg0)) (W (Proc.devRef .tc main_arg6)) (W (Proc.devRef .tc main_arg7))) (W (Proc.devRef .tc main_arg6)) (W (Proc.devRef .tc main_arg7))) (W (Proc.devRef .tc main_arg6)) (W (Proc.devRef .tc main_arg7))) := by
  after_results_simp <;> rfl

theorem s02_v100' (W : Valuation τ sig (Elt F)) {x_v3 : Cf F S100000} {x_arg0 : Cf F S100000x128} {x_arg6 : Ci F S600000} {x_arg7 : Ci F S600000}
    (h_v3 : W (Proc.devRef .tc main_v3) = x_v3) (h_arg0 : W (Proc.devRef .tc main_arg0) = x_arg0) (h_arg6 : W (Proc.devRef .tc main_arg6) = x_arg6) (h_arg7 : W (Proc.devRef .tc main_arg7) = x_arg7) :
    after hostOps0_2 W (Proc.devRef .tc main_v100)
      = mean4 x_arg0
        (headStep (onEdges (invd1 x_v3) x_arg6) (invd1 x_v3) x_arg0 x_arg6 x_arg7)
        (headStep (onEdges (invd1 x_v3) x_arg6) (invd1 x_v3) (headStep (onEdges (invd1 x_v3) x_arg6) (invd1 x_v3) x_arg0 x_arg6 x_arg7) x_arg6 x_arg7)
        (headStep (onEdges (invd1 x_v3) x_arg6) (invd1 x_v3) (headStep (onEdges (invd1 x_v3) x_arg6) (invd1 x_v3) (headStep (onEdges (invd1 x_v3) x_arg6) (invd1 x_v3) x_arg0 x_arg6 x_arg7) x_arg6 x_arg7) x_arg6 x_arg7) := by
  subst h_v3 h_arg0 h_arg6 h_arg7
  exact s02_v100 W

set_option maxHeartbeats 4000000 in
theorem s02_v113 (W : Valuation τ sig (Elt F)) :
    after hostOps0_2 W (Proc.devRef .tc main_v113)
      = spmm (onEdges (W (Proc.devRef .tc main_v10)) (W (Proc.devRef .tc main_arg6))) (W (Proc.devRef .tc main_arg0)) (W (Proc.devRef .tc main_arg6)) (W (Proc.devRef .tc main_arg7)) := by
  after_results_simp <;> rfl

theorem s02_v113' (W : Valuation τ sig (Elt F)) {x_v10 : Cf F S100000} {x_arg0 : Cf F S100000x128} {x_arg6 : Ci F S600000} {x_arg7 : Ci F S600000}
    (h_v10 : W (Proc.devRef .tc main_v10) = x_v10) (h_arg0 : W (Proc.devRef .tc main_arg0) = x_arg0) (h_arg6 : W (Proc.devRef .tc main_arg6) = x_arg6) (h_arg7 : W (Proc.devRef .tc main_arg7) = x_arg7) :
    after hostOps0_2 W (Proc.devRef .tc main_v113)
      = spmm (onEdges x_v10 x_arg6) x_arg0 x_arg6 x_arg7 := by
  subst h_v10 h_arg0 h_arg6 h_arg7
  exact s02_v113 W

set_option maxHeartbeats 4000000 in
theorem s02_v126 (W : Valuation τ sig (Elt F)) :
    after hostOps0_2 W (Proc.devRef .tc main_v126)
      = spmm (onEdges (invd2 (W (Proc.devRef .tc main_v3))) (W (Proc.devRef .tc main_arg6))) (W (Proc.devRef .tc main_arg0)) (W (Proc.devRef .tc main_arg6)) (W (Proc.devRef .tc main_arg7)) := by
  after_results_simp <;> rfl

theorem s02_v126' (W : Valuation τ sig (Elt F)) {x_v3 : Cf F S100000} {x_arg0 : Cf F S100000x128} {x_arg6 : Ci F S600000} {x_arg7 : Ci F S600000}
    (h_v3 : W (Proc.devRef .tc main_v3) = x_v3) (h_arg0 : W (Proc.devRef .tc main_arg0) = x_arg0) (h_arg6 : W (Proc.devRef .tc main_arg6) = x_arg6) (h_arg7 : W (Proc.devRef .tc main_arg7) = x_arg7) :
    after hostOps0_2 W (Proc.devRef .tc main_v126)
      = spmm (onEdges (invd2 x_v3) x_arg6) x_arg0 x_arg6 x_arg7 := by
  subst h_v3 h_arg0 h_arg6 h_arg7
  exact s02_v126 W

set_option maxHeartbeats 4000000 in
theorem s02_v137 (W : Valuation τ sig (Elt F)) :
    after hostOps0_2 W (Proc.devRef .tc main_v137)
      = weightT0 (W (Proc.devRef .tc main_arg1)) := by
  after_results_simp <;> rfl

theorem s02_v137' (W : Valuation τ sig (Elt F)) {x_arg1 : Cf F S3x128x128}
    (h_arg1 : W (Proc.devRef .tc main_arg1) = x_arg1) :
    after hostOps0_2 W (Proc.devRef .tc main_v137)
      = weightT0 x_arg1 := by
  subst h_arg1
  exact s02_v137 W

set_option maxHeartbeats 4000000 in
theorem s02_v138 (W : Valuation τ sig (Elt F)) :
    after hostOps0_2 W (Proc.devRef .tc main_v138)
      = weightT0 (W (Proc.devRef .tc main_arg2)) := by
  after_results_simp <;> rfl

theorem s02_v138' (W : Valuation τ sig (Elt F)) {x_arg2 : Cf F S3x128x128}
    (h_arg2 : W (Proc.devRef .tc main_arg2) = x_arg2) :
    after hostOps0_2 W (Proc.devRef .tc main_v138)
      = weightT0 x_arg2 := by
  subst h_arg2
  exact s02_v138 W

set_option maxHeartbeats 4000000 in
theorem s02_v139 (W : Valuation τ sig (Elt F)) :
    after hostOps0_2 W (Proc.devRef .tc main_v139)
      = weightT0 (W (Proc.devRef .tc main_arg3)) := by
  after_results_simp <;> rfl

theorem s02_v139' (W : Valuation τ sig (Elt F)) {x_arg3 : Cf F S3x128x128}
    (h_arg3 : W (Proc.devRef .tc main_arg3) = x_arg3) :
    after hostOps0_2 W (Proc.devRef .tc main_v139)
      = weightT0 x_arg3 := by
  subst h_arg3
  exact s02_v139 W

set_option maxHeartbeats 4000000 in
theorem s02_v140 (W : Valuation τ sig (Elt F)) :
    after hostOps0_2 W (Proc.devRef .tc main_v140)
      = weightT0 (W (Proc.devRef .tc main_arg4)) := by
  after_results_simp <;> rfl

theorem s02_v140' (W : Valuation τ sig (Elt F)) {x_arg4 : Cf F S3x128x128}
    (h_arg4 : W (Proc.devRef .tc main_arg4) = x_arg4) :
    after hostOps0_2 W (Proc.devRef .tc main_v140)
      = weightT0 x_arg4 := by
  subst h_arg4
  exact s02_v140 W

set_option maxHeartbeats 4000000 in
theorem s02_v141 (W : Valuation τ sig (Elt F)) :
    after hostOps0_2 W (Proc.devRef .tc main_v141)
      = biasRow (bias0 (W (Proc.devRef .tc main_arg5))) := by
  after_results_simp <;> rfl

theorem s02_v141' (W : Valuation τ sig (Elt F)) {x_arg5 : Cf F S3x128}
    (h_arg5 : W (Proc.devRef .tc main_arg5) = x_arg5) :
    after hostOps0_2 W (Proc.devRef .tc main_v141)
      = biasRow (bias0 x_arg5) := by
  subst h_arg5
  exact s02_v141 W

set_option maxHeartbeats 4000000 in
theorem s02_v142 (W : Valuation τ sig (Elt F)) :
    after hostOps0_2 W (Proc.devRef .tc main_v142)
      = column (invd2 (W (Proc.devRef .tc main_v3))) := by
  after_results_simp <;> rfl

theorem s02_v142' (W : Valuation τ sig (Elt F)) {x_v3 : Cf F S100000}
    (h_v3 : W (Proc.devRef .tc main_v3) = x_v3) :
    after hostOps0_2 W (Proc.devRef .tc main_v142)
      = column (invd2 x_v3) := by
  subst h_v3
  exact s02_v142 W

set_option maxHeartbeats 4000000 in
theorem s02_keep_arg0 (W : Valuation τ sig (Elt F)) :
    after hostOps0_2 W (Proc.devRef .tc main_arg0) = W (Proc.devRef .tc main_arg0) := by
  after_results_simp

theorem s02_keep_arg0' (W : Valuation τ sig (Elt F)) {x : Cf F S100000x128} (h : W (Proc.devRef .tc main_arg0) = x) :
    after hostOps0_2 W (Proc.devRef .tc main_arg0) = x := (s02_keep_arg0 W).trans h

set_option maxHeartbeats 4000000 in
theorem s02_keep_arg1 (W : Valuation τ sig (Elt F)) :
    after hostOps0_2 W (Proc.devRef .tc main_arg1) = W (Proc.devRef .tc main_arg1) := by
  after_results_simp

theorem s02_keep_arg1' (W : Valuation τ sig (Elt F)) {x : Cf F S3x128x128} (h : W (Proc.devRef .tc main_arg1) = x) :
    after hostOps0_2 W (Proc.devRef .tc main_arg1) = x := (s02_keep_arg1 W).trans h

set_option maxHeartbeats 4000000 in
theorem s02_keep_arg2 (W : Valuation τ sig (Elt F)) :
    after hostOps0_2 W (Proc.devRef .tc main_arg2) = W (Proc.devRef .tc main_arg2) := by
  after_results_simp

theorem s02_keep_arg2' (W : Valuation τ sig (Elt F)) {x : Cf F S3x128x128} (h : W (Proc.devRef .tc main_arg2) = x) :
    after hostOps0_2 W (Proc.devRef .tc main_arg2) = x := (s02_keep_arg2 W).trans h

set_option maxHeartbeats 4000000 in
theorem s02_keep_arg3 (W : Valuation τ sig (Elt F)) :
    after hostOps0_2 W (Proc.devRef .tc main_arg3) = W (Proc.devRef .tc main_arg3) := by
  after_results_simp

theorem s02_keep_arg3' (W : Valuation τ sig (Elt F)) {x : Cf F S3x128x128} (h : W (Proc.devRef .tc main_arg3) = x) :
    after hostOps0_2 W (Proc.devRef .tc main_arg3) = x := (s02_keep_arg3 W).trans h

set_option maxHeartbeats 4000000 in
theorem s02_keep_arg4 (W : Valuation τ sig (Elt F)) :
    after hostOps0_2 W (Proc.devRef .tc main_arg4) = W (Proc.devRef .tc main_arg4) := by
  after_results_simp

theorem s02_keep_arg4' (W : Valuation τ sig (Elt F)) {x : Cf F S3x128x128} (h : W (Proc.devRef .tc main_arg4) = x) :
    after hostOps0_2 W (Proc.devRef .tc main_arg4) = x := (s02_keep_arg4 W).trans h

set_option maxHeartbeats 4000000 in
theorem s02_keep_arg5 (W : Valuation τ sig (Elt F)) :
    after hostOps0_2 W (Proc.devRef .tc main_arg5) = W (Proc.devRef .tc main_arg5) := by
  after_results_simp

theorem s02_keep_arg5' (W : Valuation τ sig (Elt F)) {x : Cf F S3x128} (h : W (Proc.devRef .tc main_arg5) = x) :
    after hostOps0_2 W (Proc.devRef .tc main_arg5) = x := (s02_keep_arg5 W).trans h

set_option maxHeartbeats 4000000 in
theorem s02_keep_arg6 (W : Valuation τ sig (Elt F)) :
    after hostOps0_2 W (Proc.devRef .tc main_arg6) = W (Proc.devRef .tc main_arg6) := by
  after_results_simp

theorem s02_keep_arg6' (W : Valuation τ sig (Elt F)) {x : Ci F S600000} (h : W (Proc.devRef .tc main_arg6) = x) :
    after hostOps0_2 W (Proc.devRef .tc main_arg6) = x := (s02_keep_arg6 W).trans h

set_option maxHeartbeats 4000000 in
theorem s02_keep_arg7 (W : Valuation τ sig (Elt F)) :
    after hostOps0_2 W (Proc.devRef .tc main_arg7) = W (Proc.devRef .tc main_arg7) := by
  after_results_simp

theorem s02_keep_arg7' (W : Valuation τ sig (Elt F)) {x : Ci F S600000} (h : W (Proc.devRef .tc main_arg7) = x) :
    after hostOps0_2 W (Proc.devRef .tc main_arg7) = x := (s02_keep_arg7 W).trans h

end Cert.V.K

end
-- ==== Proof.V.KStage1.lean ====
/- The host operations before pallas_call 1, read from any contents W at the buffers the call's windows take:
   the two neighbour sums of the previous layer's output (the edge weights 1/deg and 1/(deg+2) at each edge's source),
   the layer's four transposed weight matrices, its bias row and the normalisation column; every buffer a later
   stretch reads is left as it was. -/
import proofs.«120490_j9904194585124_1_alg».proof.Proof.V.Spec
import proofs.«120490_j9904194585124_1_alg».proof.Proof.Gen.KernelIdeal.Launch
import Idealize.ShloMosaic.Lib.StableHlo.Run

set_option maxRecDepth 16384

noncomputable section

namespace Cert.V.K

open Idealize.ShloMosaic Idealize.ShloMosaic.TcCoe Idealize.ShloMosaic.StableHlo Cert.KernelIdeal Cert.KernelIdeal.Gen

variable {F : FTy → Type} [FloatOps F]

set_option maxHeartbeats 4000000 in
theorem s1_v156 (W : Valuation τ sig (Elt F)) :
    after hostOps1 W (Proc.devRef .tc main_v156)
      = spmm (W (Proc.devRef .tc main_v25)) (W (Proc.devRef .tc main_v143)) (W (Proc.devRef .tc main_arg6)) (W (Proc.devRef .tc main_arg7)) := by
  after_results_simp <;> rfl

theorem s1_v156' (W : Valuation τ sig (Elt F)) {x_v25 : Cf F S600000} {x_v143 : Cf F S100000x128} {x_arg6 : Ci F S600000} {x_arg7 : Ci F S600000}
    (h_v25 : W (Proc.devRef .tc main_v25) = x_v25) (h_v143 : W (Proc.devRef .tc main_v143) = x_v143) (h_arg6 : W (Proc.devRef .tc main_arg6) = x_arg6) (h_arg7 : W (Proc.devRef .tc main_arg7) = x_arg7) :
    after hostOps1 W (Proc.devRef .tc main_v156)
      = spmm x_v25 x_v143 x_arg6 x_arg7 := by
  subst h_v25 h_v143 h_arg6 h_arg7
  exact s1_v156 W

set_option maxHeartbeats 4000000 in
theorem s1_v169 (W : Valuation τ sig (Elt F)) :
    after hostOps1 W (Proc.devRef .tc main_v169)
      = spmm (W (Proc.devRef .tc main_v39)) (W (Proc.devRef .tc main_v143)) (W (Proc.devRef .tc main_arg6)) (W (Proc.devRef .tc main_arg7)) := by
  after_results_simp <;> rfl

theorem s1_v169' (W : Valuation τ sig (Elt F)) {x_v39 : Cf F S600000} {x_v143 : Cf F S100000x128} {x_arg6 : Ci F S600000} {x_arg7 : Ci F S600000}
    (h_v39 : W (Proc.devRef .tc main_v39) = x_v39) (h_v143 : W (Proc.devRef .tc main_v143) = x_v143) (h_arg6 : W (Proc.devRef .tc main_arg6) = x_arg6) (h_arg7 : W (Proc.devRef .tc main_arg7) = x_arg7) :
    after hostOps1 W (Proc.devRef .tc main_v169)
      = spmm x_v39 x_v143 x_arg6 x_arg7 := by
  subst h_v39 h_v143 h_arg6 h_arg7
  exact s1_v169 W

set_option maxHeartbeats 4000000 in
theorem s1_v180 (W : Valuation τ sig (Elt F)) :
    after hostOps1 W (Proc.devRef .tc main_v180)
      = weightT1 (W (Proc.devRef .tc main_arg1)) := by
  after_results_simp <;> rfl

theorem s1_v180' (W : Valuation τ sig (Elt F)) {x_arg1 : Cf F S3x128x128}
    (h_arg1 : W (Proc.devRef .tc main_arg1) = x_arg1) :
    after hostOps1 W (Proc.devRef .tc main_v180)
      = weightT1 x_arg1 := by
  subst h_arg1
  exact s1_v180 W

set_option maxHeartbeats 4000000 in
theorem s1_v181 (W : Valuation τ sig (Elt F)) :
    after hostOps1 W (Proc.devRef .tc main_v181)
      = weightT1 (W (Proc.devRef .tc main_arg2)) := by
  after_results_simp <;> rfl

theorem s1_v181' (W : Valuation τ sig (Elt F)) {x_arg2 : Cf F S3x128x128}
    (h_arg2 : W (Proc.devRef .tc main_arg2) = x_arg2) :
    after hostOps1 W (Proc.devRef .tc main_v181)
      = weightT1 x_arg2 := by
  subst h_arg2
  exact s1_v181 W

set_option maxHeartbeats 4000000 in
theorem s1_v182 (W : Valuation τ sig (Elt F)) :
    after hostOps1 W (Proc.devRef .tc main_v182)
      = weightT1 (W (Proc.devRef .tc main_arg3)) := by
  after_results_simp <;> rfl

theorem s1_v182' (W : Valuation τ sig (Elt F)) {x_arg3 : Cf F S3x128x128}
    (h_arg3 : W (Proc.devRef .tc main_arg3) = x_arg3) :
    after hostOps1 W (Proc.devRef .tc main_v182)
      = weightT1 x_arg3 := by
  subst h_arg3
  exact s1_v182 W

set_option maxHeartbeats 4000000 in
theorem s1_v183 (W : Valuation τ sig (Elt F)) :
    after hostOps1 W (Proc.devRef .tc main_v183)
      = weightT1 (W (Proc.devRef .tc main_arg4)) := by
  after_results_simp <;> rfl

theorem s1_v183' (W : Valuation τ sig (Elt F)) {x_arg4 : Cf F S3x128x128}
    (h_arg4 : W (Proc.devRef .tc main_arg4) = x_arg4) :
    after hostOps1 W (Proc.devRef .tc main_v183)
      = weightT1 x_arg4 := by
  subst h_arg4
  exact s1_v183 W

set_option maxHeartbeats 4000000 in
theorem s1_v184 (W : Valuation τ sig (Elt F)) :
    after hostOps1 W (Proc.devRef .tc main_v184)
      = biasRow (bias1 (W (Proc.devRef .tc main_arg5))) := by
  after_results_simp <;> rfl

theorem s1_v184' (W : Valuation τ sig (Elt F)) {x_arg5 : Cf F S3x128}
    (h_arg5 : W (Proc.devRef .tc main_arg5) = x_arg5) :
    after hostOps1 W (Proc.devRef .tc main_v184)
      = biasRow (bias1 x_arg5) := by
  subst h_arg5
  exact s1_v184 W

set_option maxHeartbeats 4000000 in
theorem s1_v185 (W : Valuation τ sig (Elt F)) :
    after hostOps1 W (Proc.devRef .tc main_v185)
      = column (W (Proc.devRef .tc main_v18)) := by
  after_results_simp <;> rfl

theorem s1_v185' (W : Valuation τ sig (Elt F)) {x_v18 : Cf F S100000}
    (h_v18 : W (Proc.devRef .tc main_v18) = x_v18) :
    after hostOps1 W (Proc.devRef .tc main_v185)
      = column x_v18 := by
  subst h_v18
  exact s1_v185 W

set_option maxHeartbeats 4000000 in
theorem s1_keep_arg0 (W : Valuation τ sig (Elt F)) :
    after hostOps1 W (Proc.devRef .tc main_arg0) = W (Proc.devRef .tc main_arg0) := by
  after_results_simp

theorem s1_keep_arg0' (W : Valuation τ sig (Elt F)) {x : Cf F S100000x128} (h : W (Proc.devRef .tc main_arg0) = x) :
    after hostOps1 W (Proc.devRef .tc main_arg0) = x := (s1_keep_arg0 W).trans h

set_option maxHeartbeats 4000000 in
theorem s1_keep_arg1 (W : Valuation τ sig (Elt F)) :
    after hostOps1 W (Proc.devRef .tc main_arg1) = W (Proc.devRef .tc main_arg1) := by
  after_results_simp

theorem s1_keep_arg1' (W : Valuation τ sig (Elt F)) {x : Cf F S3x128x128} (h : W (Proc.devRef .tc main_arg1) = x) :
    after hostOps1 W (Proc.devRef .tc main_arg1) = x := (s1_keep_arg1 W).trans h

set_option maxHeartbeats 4000000 in
theorem s1_keep_arg2 (W : Valuation τ sig (Elt F)) :
    after hostOps1 W (Proc.devRef .tc main_arg2) = W (Proc.devRef .tc main_arg2) := by
  after_results_simp

theorem s1_keep_arg2' (W : Valuation τ sig (Elt F)) {x : Cf F S3x128x128} (h : W (Proc.devRef .tc main_arg2) = x) :
    after hostOps1 W (Proc.devRef .tc main_arg2) = x := (s1_keep_arg2 W).trans h

set_option maxHeartbeats 4000000 in
theorem s1_keep_arg3 (W : Valuation τ sig (Elt F)) :
    after hostOps1 W (Proc.devRef .tc main_arg3) = W (Proc.devRef .tc main_arg3) := by
  after_results_simp

theorem s1_keep_arg3' (W : Valuation τ sig (Elt F)) {x : Cf F S3x128x128} (h : W (Proc.devRef .tc main_arg3) = x) :
    after hostOps1 W (Proc.devRef .tc main_arg3) = x := (s1_keep_arg3 W).trans h

set_option maxHeartbeats 4000000 in
theorem s1_keep_arg4 (W : Valuation τ sig (Elt F)) :
    after hostOps1 W (Proc.devRef .tc main_arg4) = W (Proc.devRef .tc main_arg4) := by
  after_results_simp

theorem s1_keep_arg4' (W : Valuation τ sig (Elt F)) {x : Cf F S3x128x128} (h : W (Proc.devRef .tc main_arg4) = x) :
    after hostOps1 W (Proc.devRef .tc main_arg4) = x := (s1_keep_arg4 W).trans h

set_option maxHeartbeats 4000000 in
theorem s1_keep_arg5 (W : Valuation τ sig (Elt F)) :
    after hostOps1 W (Proc.devRef .tc main_arg5) = W (Proc.devRef .tc main_arg5) := by
  after_results_simp

theorem s1_keep_arg5' (W : Valuation τ sig (Elt F)) {x : Cf F S3x128} (h : W (Proc.devRef .tc main_arg5) = x) :
    after hostOps1 W (Proc.devRef .tc main_arg5) = x := (s1_keep_arg5 W).trans h

set_option maxHeartbeats 4000000 in
theorem s1_keep_arg6 (W : Valuation τ sig (Elt F)) :
    after hostOps1 W (Proc.devRef .tc main_arg6) = W (Proc.devRef .tc main_arg6) := by
  after_results_simp

theorem s1_keep_arg6' (W : Valuation τ sig (Elt F)) {x : Ci F S600000} (h : W (Proc.devRef .tc main_arg6) = x) :
    after hostOps1 W (Proc.devRef .tc main_arg6) = x := (s1_keep_arg6 W).trans h

set_option maxHeartbeats 4000000 in
theorem s1_keep_arg7 (W : Valuation τ sig (Elt F)) :
    after hostOps1 W (Proc.devRef .tc main_arg7) = W (Proc.devRef .tc main_arg7) := by
  after_results_simp

theorem s1_keep_arg7' (W : Valuation τ sig (Elt F)) {x : Ci F S600000} (h : W (Proc.devRef .tc main_arg7) = x) :
    after hostOps1 W (Proc.devRef .tc main_arg7) = x := (s1_keep_arg7 W).trans h

set_option maxHeartbeats 4000000 in
theorem s1_keep_v18 (W : Valuation τ sig (Elt F)) :
    after hostOps1 W (Proc.devRef .tc main_v18) = W (Proc.devRef .tc main_v18) := by
  after_results_simp

theorem s1_keep_v18' (W : Valuation τ sig (Elt F)) {x : Cf F S100000} (h : W (Proc.devRef .tc main_v18) = x) :
    after hostOps1 W (Proc.devRef .tc main_v18) = x := (s1_keep_v18 W).trans h

set_option maxHeartbeats 4000000 in
theorem s1_keep_v25 (W : Valuation τ sig (Elt F)) :
    after hostOps1 W (Proc.devRef .tc main_v25) = W (Proc.devRef .tc main_v25) := by
  after_results_simp

theorem s1_keep_v25' (W : Valuation τ sig (Elt F)) {x : Cf F S600000} (h : W (Proc.devRef .tc main_v25) = x) :
    after hostOps1 W (Proc.devRef .tc main_v25) = x := (s1_keep_v25 W).trans h

set_option maxHeartbeats 4000000 in
theorem s1_keep_v39 (W : Valuation τ sig (Elt F)) :
    after hostOps1 W (Proc.devRef .tc main_v39) = W (Proc.devRef .tc main_v39) := by
  after_results_simp

theorem s1_keep_v39' (W : Valuation τ sig (Elt F)) {x : Cf F S600000} (h : W (Proc.devRef .tc main_v39) = x) :
    after hostOps1 W (Proc.devRef .tc main_v39) = x := (s1_keep_v39 W).trans h

set_option maxHeartbeats 4000000 in
theorem s1_keep_v41 (W : Valuation τ sig (Elt F)) :
    after hostOps1 W (Proc.devRef .tc main_v41) = W (Proc.devRef .tc main_v41) := by
  after_results_simp

theorem s1_keep_v41' (W : Valuation τ sig (Elt F)) {x : Cb F S100000} (h : W (Proc.devRef .tc main_v41) = x) :
    after hostOps1 W (Proc.devRef .tc main_v41) = x := (s1_keep_v41 W).trans h

set_option maxHeartbeats 4000000 in
theorem s1_keep_v100 (W : Valuation τ sig (Elt F)) :
    after hostOps1 W (Proc.devRef .tc main_v100) = W (Proc.devRef .tc main_v100) := by
  after_results_simp

theorem s1_keep_v100' (W : Valuation τ sig (Elt F)) {x : Cf F S100000x128} (h : W (Proc.devRef .tc main_v100) = x) :
    after hostOps1 W (Proc.devRef .tc main_v100) = x := (s1_keep_v100 W).trans h

set_option maxHeartbeats 4000000 in
theorem s1_keep_v143 (W : Valuation τ sig (Elt F)) :
    after hostOps1 W (Proc.devRef .tc main_v143) = W (Proc.devRef .tc main_v143) := by
  after_results_simp

theorem s1_keep_v143' (W : Valuation τ sig (Elt F)) {x : Cf F S100000x128} (h : W (Proc.devRef .tc main_v143) = x) :
    after hostOps1 W (Proc.devRef .tc main_v143) = x := (s1_keep_v143 W).trans h

end Cert.V.K

end
-- ==== Proof.V.KStage2.lean ====
/- The host operations before pallas_call 2, read from any contents W at the buffers the call's windows take:
   the two neighbour sums of the previous layer's output (the edge weights 1/deg and 1/(deg+2) at each edge's source),
   the layer's four transposed weight matrices, its bias row and the normalisation column; every buffer a later
   stretch reads is left as it was. -/
import proofs.«120490_j9904194585124_1_alg».proof.Proof.V.Spec
import proofs.«120490_j9904194585124_1_alg».proof.Proof.Gen.KernelIdeal.Launch
import Idealize.ShloMosaic.Lib.StableHlo.Run

set_option maxRecDepth 16384

noncomputable section

namespace Cert.V.K

open Idealize.ShloMosaic Idealize.ShloMosaic.TcCoe Idealize.ShloMosaic.StableHlo Cert.KernelIdeal Cert.KernelIdeal.Gen

variable {F : FTy → Type} [FloatOps F]

set_option maxHeartbeats 4000000 in
theorem s2_v199 (W : Valuation τ sig (Elt F)) :
    after hostOps2 W (Proc.devRef .tc main_v199)
      = spmm (W (Proc.devRef .tc main_v25)) (W (Proc.devRef .tc main_v186)) (W (Proc.devRef .tc main_arg6)) (W (Proc.devRef .tc main_arg7)) := by
  after_results_simp <;> rfl

theorem s2_v199' (W : Valuation τ sig (Elt F)) {x_v25 : Cf F S600000} {x_v186 : Cf F S100000x128} {x_arg6 : Ci F S600000} {x_arg7 : Ci F S600000}
    (h_v25 : W (Proc.devRef .tc main_v25) = x_v25) (h_v186 : W (Proc.devRef .tc main_v186) = x_v186) (h_arg6 : W (Proc.devRef .tc main_arg6) = x_arg6) (h_arg7 : W (Proc.devRef .tc main_arg7) = x_arg7) :
    after hostOps2 W (Proc.devRef .tc main_v199)
      = spmm x_v25 x_v186 x_arg6 x_arg7 := by
  subst h_v25 h_v186 h_arg6 h_arg7
  exact s2_v199 W

set_option maxHeartbeats 4000000 in
theorem s2_v212 (W : Valuation τ sig (Elt F)) :
    after hostOps2 W (Proc.devRef .tc main_v212)
      = spmm (W (Proc.devRef .tc main_v39)) (W (Proc.devRef .tc main_v186)) (W (Proc.devRef .tc main_arg6)) (W (Proc.devRef .tc main_arg7)) := by
  after_results_simp <;> rfl

theorem s2_v212' (W : Valuation τ sig (Elt F)) {x_v39 : Cf F S600000} {x_v186 : Cf F S100000x128} {x_arg6 : Ci F S600000} {x_arg7 : Ci F S600000}
    (h_v39 : W (Proc.devRef .tc main_v39) = x_v39) (h_v186 : W (Proc.devRef .tc main_v186) = x_v186) (h_arg6 : W (Proc.devRef .tc main_arg6) = x_arg6) (h_arg7 : W (Proc.devRef .tc main_arg7) = x_arg7) :
    after hostOps2 W (Proc.devRef .tc main_v212)
      = spmm x_v39 x_v186 x_arg6 x_arg7 := by
  subst h_v39 h_v186 h_arg6 h_arg7
  exact s2_v212 W

set_option maxHeartbeats 4000000 in
theorem s2_v223 (W : Valuation τ sig (Elt F)) :
    after hostOps2 W (Proc.devRef .tc main_v223)
      = weightT2 (W (Proc.devRef .tc main_arg1)) := by
  after_results_simp <;> rfl

theorem s2_v223' (W : Valuation τ sig (Elt F)) {x_arg1 : Cf F S3x128x128}
    (h_arg1 : W (Proc.devRef .tc main_arg1) = x_arg1) :
    after hostOps2 W (Proc.devRef .tc main_v223)
      = weightT2 x_arg1 := by
  subst h_arg1
  exact s2_v223 W

set_option maxHeartbeats 4000000 in
theorem s2_v224 (W : Valuation τ sig (Elt F)) :
    after hostOps2 W (Proc.devRef .tc main_v224)
      = weightT2 (W (Proc.devRef .tc main_arg2)) := by
  after_results_simp <;> rfl

theorem s2_v224' (W : Valuation τ sig (Elt F)) {x_arg2 : Cf F S3x128x128}
    (h_arg2 : W (Proc.devRef .tc main_arg2) = x_arg2) :
    after hostOps2 W (Proc.devRef .tc main_v224)
      = weightT2 x_arg2 := by
  subst h_arg2
  exact s2_v224 W

set_option maxHeartbeats 4000000 in
theorem s2_v225 (W : Valuation τ sig (Elt F)) :
    after hostOps2 W (Proc.devRef .tc main_v225)
      = weightT2 (W (Proc.devRef .tc main_arg3)) := by
  after_results_simp <;> rfl

theorem s2_v225' (W : Valuation τ sig (Elt F)) {x_arg3 : Cf F S3x128x128}
    (h_arg3 : W (Proc.devRef .tc main_arg3) = x_arg3) :
    after hostOps2 W (Proc.devRef .tc main_v225)
      = weightT2 x_arg3 := by
  subst h_arg3
  exact s2_v225 W

set_option maxHeartbeats 4000000 in
theorem s2_v226 (W : Valuation τ sig (Elt F)) :
    after hostOps2 W (Proc.devRef .tc main_v226)
      = weightT2 (W (Proc.devRef .tc main_arg4)) := by
  after_results_simp <;> rfl

theorem s2_v226' (W : Valuation τ sig (Elt F)) {x_arg4 : Cf F S3x128x128}
    (h_arg4 : W (Proc.devRef .tc main_arg4) = x_arg4) :
    after hostOps2 W (Proc.devRef .tc main_v226)
      = weightT2 x_arg4 := by
  subst h_arg4
  exact s2_v226 W

set_option maxHeartbeats 4000000 in
theorem s2_v227 (W : Valuation τ sig (Elt F)) :
    after hostOps2 W (Proc.devRef .tc main_v227)
      = biasRow (bias2 (W (Proc.devRef .tc main_arg5))) := by
  after_results_simp <;> rfl

theorem s2_v227' (W : Valuation τ sig (Elt F)) {x_arg5 : Cf F S3x128}
    (h_arg5 : W (Proc.devRef .tc main_arg5) = x_arg5) :
    after hostOps2 W (Proc.devRef .tc main_v227)
      = biasRow (bias2 x_arg5) := by
  subst h_arg5
  exact s2_v227 W

set_option maxHeartbeats 4000000 in
theorem s2_v228 (W : Valuation τ sig (Elt F)) :
    after hostOps2 W (Proc.devRef .tc main_v228)
      = column (W (Proc.devRef .tc main_v18)) := by
  after_results_simp <;> rfl

theorem s2_v228' (W : Valuation τ sig (Elt F)) {x_v18 : Cf F S100000}
    (h_v18 : W (Proc.devRef .tc main_v18) = x_v18) :
    after hostOps2 W (Proc.devRef .tc main_v228)
      = column x_v18 := by
  subst h_v18
  exact s2_v228 W

set_option maxHeartbeats 4000000 in
theorem s2_keep_arg0 (W : Valuation τ sig (Elt F)) :
    after hostOps2 W (Proc.devRef .tc main_arg0) = W (Proc.devRef .tc main_arg0) := by
  after_results_simp

theorem s2_keep_arg0' (W : Valuation τ sig (Elt F)) {x : Cf F S100000x128} (h : W (Proc.devRef .tc main_arg0) = x) :
    after hostOps2 W (Proc.devRef .tc main_arg0) = x := (s2_keep_arg0 W).trans h

set_option maxHeartbeats 4000000 in
theorem s2_keep_v41 (W : Valuation τ sig (Elt F)) :
    after hostOps2 W (Proc.devRef .tc main_v41) = W (Proc.devRef .tc main_v41) := by
  after_results_simp

theorem s2_keep_v41' (W : Valuation τ sig (Elt F)) {x : Cb F S100000} (h : W (Proc.devRef .tc main_v41) = x) :
    after hostOps2 W (Proc.devRef .tc main_v41) = x := (s2_keep_v41 W).trans h

set_option maxHeartbeats 4000000 in
theorem s2_keep_v100 (W : Valuation τ sig (Elt F)) :
    after hostOps2 W (Proc.devRef .tc main_v100) = W (Proc.devRef .tc main_v100) := by
  after_results_simp

theorem s2_keep_v100' (W : Valuation τ sig (Elt F)) {x : Cf F S100000x128} (h : W (Proc.devRef .tc main_v100) = x) :
    after hostOps2 W (Proc.devRef .tc main_v100) = x := (s2_keep_v100 W).trans h

set_option maxHeartbeats 4000000 in
theorem s2_keep_v143 (W : Valuation τ sig (Elt F)) :
    after hostOps2 W (Proc.devRef .tc main_v143) = W (Proc.devRef .tc main_v143) := by
  after_results_simp

theorem s2_keep_v143' (W : Valuation τ sig (Elt F)) {x : Cf F S100000x128} (h : W (Proc.devRef .tc main_v143) = x) :
    after hostOps2 W (Proc.devRef .tc main_v143) = x := (s2_keep_v143 W).trans h

set_option maxHeartbeats 4000000 in
theorem s2_keep_v186 (W : Valuation τ sig (Elt F)) :
    after hostOps2 W (Proc.devRef .tc main_v186) = W (Proc.devRef .tc main_v186) := by
  after_results_simp

theorem s2_keep_v186' (W : Valuation τ sig (Elt F)) {x : Cf F S100000x128} (h : W (Proc.devRef .tc main_v186) = x) :
    after hostOps2 W (Proc.devRef .tc main_v186) = x := (s2_keep_v186 W).trans h

end Cert.V.K

end
-- ==== Proof.V.KStage3.lean ====
/- The host operations after the last pallas_call, in their two stretches, read from any contents W: the mean of the
   input and the three tail layers and the degree mask as a column; then (the called where) the mask laid along the
   features choosing between the head branch's mean and the tail branch's. -/
import proofs.«120490_j9904194585124_1_alg».proof.Proof.V.Spec
import proofs.«120490_j9904194585124_1_alg».proof.Proof.Gen.KernelIdeal.Launch
import Idealize.ShloMosaic.Lib.StableHlo.Run

set_option maxRecDepth 16384

noncomputable section

namespace Cert.V.K

open Idealize.ShloMosaic Idealize.ShloMosaic.TcCoe Idealize.ShloMosaic.StableHlo Cert.KernelIdeal Cert.KernelIdeal.Gen

variable {F : FTy → Type} [FloatOps F]

set_option maxHeartbeats 4000000 in
theorem s3_v237 (W : Valuation τ sig (Elt F)) :
    after hostOps3 W (Proc.devRef .tc main_v237)
      = mean4 (W (Proc.devRef .tc main_arg0)) (W (Proc.devRef .tc main_v143)) (W (Proc.devRef .tc main_v186)) (W (Proc.devRef .tc main_v229)) := by
  after_results_simp <;> rfl

theorem s3_v237' (W : Valuation τ sig (Elt F)) {x_arg0 : Cf F S100000x128} {x_v143 : Cf F S100000x128} {x_v186 : Cf F S100000x128} {x_v229 : Cf F S100000x128}
    (h_arg0 : W (Proc.devRef .tc main_arg0) = x_arg0) (h_v143 : W (Proc.devRef .tc main_v143) = x_v143) (h_v186 : W (Proc.devRef .tc main_v186) = x_v186) (h_v229 : W (Proc.devRef .tc main_v229) = x_v229) :
    after hostOps3 W (Proc.devRef .tc main_v237)
      = mean4 x_arg0 x_v143 x_v186 x_v229 := by
  subst h_arg0 h_v143 h_v186 h_v229
  exact s3_v237 W

set_option maxHeartbeats 4000000 in
theorem s3_v238 (W : Valuation τ sig (Elt F)) :
    after hostOps3 W (Proc.devRef .tc main_v238)
      = broadcastInDim S100000x1 ![0] bcast_S100000_S100000x1_0 (W (Proc.devRef .tc main_v41)) := by
  after_results_simp <;> rfl

theorem s3_v238' (W : Valuation τ sig (Elt F)) {x_v41 : Cb F S100000}
    (h_v41 : W (Proc.devRef .tc main_v41) = x_v41) :
    after hostOps3 W (Proc.devRef .tc main_v238)
      = broadcastInDim S100000x1 ![0] bcast_S100000_S100000x1_0 x_v41 := by
  subst h_v41
  exact s3_v238 W

set_option maxHeartbeats 4000000 in
theorem s3_keep_v100 (W : Valuation τ sig (Elt F)) :
    after hostOps3 W (Proc.devRef .tc main_v100) = W (Proc.devRef .tc main_v100) := by
  after_results_simp

theorem s3_keep_v100' (W : Valuation τ sig (Elt F)) {x : Cf F S100000x128} (h : W (Proc.devRef .tc main_v100) = x) :
    after hostOps3 W (Proc.devRef .tc main_v100) = x := (s3_keep_v100 W).trans h

set_option maxHeartbeats 4000000 in
theorem s31_v239 (W : Valuation τ sig (Elt F)) :
    after hostOps3_1 W (Proc.devRef .tc main_v239)
      = select (broadcastInDim S100000x128 ![0, 1] bcast_S100000x1_S100000x128_0_1 (W (Proc.devRef .tc main_v238))) (W (Proc.devRef .tc main_v100)) (W (Proc.devRef .tc main_v237)) := by
  after_results_simp <;> rfl

theorem s31_v239' (W : Valuation τ sig (Elt F)) {x_v238 : Cb F S100000x1} {x_v100 : Cf F S100000x128} {x_v237 : Cf F S100000x128}
    (h_v238 : W (Proc.devRef .tc main_v238) = x_v238) (h_v100 : W (Proc.devRef .tc main_v100) = x_v100) (h_v237 : W (Proc.devRef .tc main_v237) = x_v237) :
    after hostOps3_1 W (Proc.devRef .tc main_v239)
      = select (broadcastInDim S100000x128 ![0, 1] bcast_S100000x1_S100000x128_0_1 x_v238) x_v100 x_v237 := by
  subst h_v238 h_v100 h_v237
  exact s31_v239 W

end Cert.V.K

end
-- ==== Proof.V.KChain.lean ====
/-
  The kernel program's result array as a term of its argument arrays, at the ideal reading.

  The program's @main is a chain of stretches of host operations and three pallas_calls.  Going boundary by boundary, each
  buffer a later step reads is named by the function of the arguments it holds:
    after the prelude      the degree's normalisation 1/(deg+2), the edge weights w0 = 1/deg and w2 = 1/(deg+2) at each edge's
                           source, the degree mask, the head branch's mean embH, and layer 0's operands
    after pallas_call l    the tail layer t_{l+1} = tailK (t_l, spmm w0 t_l, spmm w2 t_l, …)   (the call's output window, given as
                           a hypothesis per call: what the call leaves is tailK of what its windows held)
    after each stretch     the next layer's operands, from t_l by the same host operations
    at the end             pick (deg > 5) embH (mean4 x t1 t2 t3) = resultK.
  A stretch is read by its stage lemmas (KStage0 … KStage3): a buffer after the stretch is a named function of the buffers
  before it.  A pallas_call changes its output window's array only; an input window's array and every other buffer stay.
  No step compares two unfolded terms: every equation is between a buffer and a named term, and the named terms of
  Result.lean open by one definition at a time.
-/
import proofs.«120490_j9904194585124_1_alg».proof.Proof.V.KStage0
import proofs.«120490_j9904194585124_1_alg».proof.Proof.V.KStage1
import proofs.«120490_j9904194585124_1_alg».proof.Proof.V.KStage2
import proofs.«120490_j9904194585124_1_alg».proof.Proof.V.KStage3
import proofs.«120490_j9904194585124_1_alg».proof.Proof.V.Result
import proofs.«120490_j9904194585124_1_alg».proof.Proof.KI.Bound

set_option maxRecDepth 16384

noncomputable section

namespace Cert.V.K

open Cert.KernelIdeal Cert.KernelIdeal.Gen Cert.KernelIdeal.Hand
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg) (c : Dev nD)

/-! ## The argument arrays as launched -/

abbrev aX : FVec Ideal S100000x128 .f32 := W0 m ρ c (Proc.devRef .tc main_arg0)
abbrev aG1 : FVec Ideal S3x128x128 .f32 := W0 m ρ c (Proc.devRef .tc main_arg1)
abbrev aG2 : FVec Ideal S3x128x128 .f32 := W0 m ρ c (Proc.devRef .tc main_arg2)
abbrev aB1 : FVec Ideal S3x128x128 .f32 := W0 m ρ c (Proc.devRef .tc main_arg3)
abbrev aB2 : FVec Ideal S3x128x128 .f32 := W0 m ρ c (Proc.devRef .tc main_arg4)
abbrev aR : FVec Ideal S3x128 .f32 := W0 m ρ c (Proc.devRef .tc main_arg5)
abbrev aSrc : IVec S600000 32 := W0 m ρ c (Proc.devRef .tc main_arg6)
abbrev aDst : IVec S600000 32 := W0 m ρ c (Proc.devRef .tc main_arg7)

local notation "𝐱" => aX m ρ c
local notation "𝐆₁" => aG1 m ρ c
local notation "𝐆₂" => aG2 m ρ c
local notation "𝐁₁" => aB1 m ρ c
local notation "𝐁₂" => aB2 m ρ c
local notation "𝐑" => aR m ρ c
local notation "𝐬" => aSrc m ρ c
local notation "𝐭" => aDst m ρ c
-- the degree of every node
local notation "𝐝" => deg (F := Ideal) (aSrc m ρ c)

/-- One tail layer is a function of its nine operands. -/
theorem tailK_congr {h h' nb nb' agg agg' : FVec Ideal S100000x128 .f32} {col col' : FVec Ideal S100000x1 .f32}
    {g1 g1' g2 g2' b1 b1' b2 b2' : FVec Ideal S128x128 .f32} {row row' : FVec Ideal S1x128 .f32}
    (e1 : h = h') (e2 : nb = nb') (e3 : agg = agg') (e4 : col = col') (e5 : g1 = g1') (e6 : g2 = g2') (e7 : b1 = b1')
    (e8 : b2 = b2') (e9 : row = row') :
    tailK h nb agg col g1 g2 b1 b2 row = tailK h' nb' agg' col' g1' g2' b1' b2' row' := by
  subst e1 e2 e3 e4 e5 e6 e7 e8 e9; rfl

/-- What a boundary holds at the eight argument arrays: what was launched. -/
structure ArgsAre (W : Valuation τ sig (Elt Ideal)) : Prop where
  a0 : W (Proc.devRef .tc main_arg0) = 𝐱
  a1 : W (Proc.devRef .tc main_arg1) = 𝐆₁
  a2 : W (Proc.devRef .tc main_arg2) = 𝐆₂
  a3 : W (Proc.devRef .tc main_arg3) = 𝐁₁
  a4 : W (Proc.devRef .tc main_arg4) = 𝐁₂
  a5 : W (Proc.devRef .tc main_arg5) = 𝐑
  a6 : W (Proc.devRef .tc main_arg6) = 𝐬
  a7 : W (Proc.devRef .tc main_arg7) = 𝐭

/-! ## The arguments at each boundary up to the last stretch that reads them all -/

theorem args0 : ArgsAre m ρ c (W0 m ρ c) := ⟨rfl, rfl, rfl, rfl, rfl, rfl, rfl, rfl⟩
theorem args1 : ArgsAre m ρ c (W1 m ρ c) :=
  have h := args0 m ρ c
  ⟨s0_keep_arg0' _ h.a0, s0_keep_arg1' _ h.a1, s0_keep_arg2' _ h.a2, s0_keep_arg3' _ h.a3, s0_keep_arg4' _ h.a4,
   s0_keep_arg5' _ h.a5, s0_keep_arg6' _ h.a6, s0_keep_arg7' _ h.a7⟩
theorem args2 : ArgsAre m ρ c (W2 m ρ c) :=
  have h := args1 m ρ c
  ⟨s01_keep_arg0' _ h.a0, s01_keep_arg1' _ h.a1, s01_keep_arg2' _ h.a2, s01_keep_arg3' _ h.a3, s01_keep_arg4' _ h.a4,
   s01_keep_arg5' _ h.a5, s01_keep_arg6' _ h.a6, s01_keep_arg7' _ h.a7⟩
theorem args3 : ArgsAre m ρ c (W3 m ρ c) :=
  have h := args2 m ρ c
  ⟨s02_keep_arg0' _ h.a0, s02_keep_arg1' _ h.a1, s02_keep_arg2' _ h.a2, s02_keep_arg3' _ h.a3, s02_keep_arg4' _ h.a4,
   s02_keep_arg5' _ h.a5, s02_keep_arg6' _ h.a6, s02_keep_arg7' _ h.a7⟩
/-- pallas_call 0 reads the first argument through an input window and bypasses the others. -/
theorem args4 : ArgsAre m ρ c (W4 m ρ c) :=
  have h := args3 m ρ c
  ⟨((W4_arr m ρ c 0).trans (((dat0 (V3 m ρ) c).arrAt_in 0 rfl _).trans (A_eq0 (V3 m ρ) c 0))).trans h.a0,
   (W4_of_ne m ρ c main_arg1 (by decide)).trans h.a1, (W4_of_ne m ρ c main_arg2 (by decide)).trans h.a2,
   (W4_of_ne m ρ c main_arg3 (by decide)).trans h.a3, (W4_of_ne m ρ c main_arg4 (by decide)).trans h.a4,
   (W4_of_ne m ρ c main_arg5 (by decide)).trans h.a5, (W4_of_ne m ρ c main_arg6 (by decide)).trans h.a6,
   (W4_of_ne m ρ c main_arg7 (by decide)).trans h.a7⟩
theorem args5 : ArgsAre m ρ c (W5 m ρ c) :=
  have h := args4 m ρ c
  ⟨s1_keep_arg0' _ h.a0, s1_keep_arg1' _ h.a1, s1_keep_arg2' _ h.a2, s1_keep_arg3' _ h.a3, s1_keep_arg4' _ h.a4,
   s1_keep_arg5' _ h.a5, s1_keep_arg6' _ h.a6, s1_keep_arg7' _ h.a7⟩
/-- pallas_call 1 touches no argument. -/
theorem args6 : ArgsAre m ρ c (W6 m ρ c) :=
  have h := args5 m ρ c
  ⟨(W6_of_ne m ρ c main_arg0 (by decide)).trans h.a0,
   (W6_of_ne m ρ c main_arg1 (by decide)).trans h.a1, (W6_of_ne m ρ c main_arg2 (by decide)).trans h.a2,
   (W6_of_ne m ρ c main_arg3 (by decide)).trans h.a3, (W6_of_ne m ρ c main_arg4 (by decide)).trans h.a4,
   (W6_of_ne m ρ c main_arg5 (by decide)).trans h.a5, (W6_of_ne m ρ c main_arg6 (by decide)).trans h.a6,
   (W6_of_ne m ρ c main_arg7 (by decide)).trans h.a7⟩

/-! ## The prelude: the degree, the guarded reciprocal, and what pallas_call 0 and the later stretches read -/

theorem W1_v3 : W1 m ρ c (Proc.devRef .tc main_v3) = 𝐝 := s0_v3' _ (args0 m ρ c).a6

theorem W2_v3 : W2 m ρ c (Proc.devRef .tc main_v3) = 𝐝 := s01_keep_v3' _ (W1_v3 m ρ c)
/-- The called where: 1/deg where the degree is positive, 0 elsewhere. -/
theorem W2_v10 : W2 m ρ c (Proc.devRef .tc main_v10) = invd (F := Ideal) 𝐝 :=
  s01_v10' (W1 m ρ c) (s0_v5' (W0 m ρ c) (args0 m ρ c).a6) (s0_v9' (W0 m ρ c) (args0 m ρ c).a6) (s0_cst_4 (W0 m ρ c))

theorem W3_v18 : W3 m ρ c (Proc.devRef .tc main_v18) = invd2 (F := Ideal) 𝐝 := s02_v18' _ (W2_v3 m ρ c)
theorem W3_v25 : W3 m ρ c (Proc.devRef .tc main_v25) = w0 𝐬 := s02_v25' _ (W2_v10 m ρ c) (args2 m ρ c).a6
theorem W3_v39 : W3 m ρ c (Proc.devRef .tc main_v39) = w2 𝐬 := s02_v39' _ (W2_v3 m ρ c) (args2 m ρ c).a6
theorem W3_v41 : W3 m ρ c (Proc.devRef .tc main_v41) = headMask (F := Ideal) 𝐝 := s02_v41' _ (W2_v3 m ρ c)
/-- The head branch: three hops from the input and the mean of the four. -/
theorem W3_v100 : W3 m ρ c (Proc.devRef .tc main_v100) = embH 𝐱 𝐬 𝐭 :=
  s02_v100' _ (W2_v3 m ρ c) (args2 m ρ c).a0 (args2 m ρ c).a6 (args2 m ρ c).a7
theorem W3_v113 : W3 m ρ c (Proc.devRef .tc main_v113) = spmm (F := Ideal) (w0 𝐬) 𝐱 𝐬 𝐭 :=
  s02_v113' _ (W2_v10 m ρ c) (args2 m ρ c).a0 (args2 m ρ c).a6 (args2 m ρ c).a7
theorem W3_v126 : W3 m ρ c (Proc.devRef .tc main_v126) = spmm (F := Ideal) (w2 𝐬) 𝐱 𝐬 𝐭 :=
  s02_v126' _ (W2_v3 m ρ c) (args2 m ρ c).a0 (args2 m ρ c).a6 (args2 m ρ c).a7
theorem W3_v137 : W3 m ρ c (Proc.devRef .tc main_v137) = weightT0 (F := Ideal) 𝐆₁ := s02_v137' _ (args2 m ρ c).a1
theorem W3_v138 : W3 m ρ c (Proc.devRef .tc main_v138) = weightT0 (F := Ideal) 𝐆₂ := s02_v138' _ (args2 m ρ c).a2
theorem W3_v139 : W3 m ρ c (Proc.devRef .tc main_v139) = weightT0 (F := Ideal) 𝐁₁ := s02_v139' _ (args2 m ρ c).a3
theorem W3_v140 : W3 m ρ c (Proc.devRef .tc main_v140) = weightT0 (F := Ideal) 𝐁₂ := s02_v140' _ (args2 m ρ c).a4
theorem W3_v141 : W3 m ρ c (Proc.devRef .tc main_v141) = biasRow (F := Ideal) (bias0 (F := Ideal) 𝐑) := s02_v141' _ (args2 m ρ c).a5
theorem W3_v142 : W3 m ρ c (Proc.devRef .tc main_v142) = column (F := Ideal) (invd2 (F := Ideal) 𝐝) := s02_v142' _ (W2_v3 m ρ c)

/-! ## What each pallas_call leaves in its output window: one tail layer of what its nine input windows held -/

abbrev Harr0 : Prop := ∀ (V : (c : Dev nD) → (b : Ref sig .tc) → Buf (Elt Ideal) ((c : Thread nD τ).loc b)) (c : Dev nD),
  (dat0 (F := Ideal) V c).arrAt 9 cfg0.N = tailK (V c main_arg0) (V c main_v113) (V c main_v126) (V c main_v142) (V c main_v137)
    (V c main_v138) (V c main_v139) (V c main_v140) (V c main_v141)
abbrev Harr1 : Prop := ∀ (V : (c : Dev nD) → (b : Ref sig .tc) → Buf (Elt Ideal) ((c : Thread nD τ).loc b)) (c : Dev nD),
  (dat1 (F := Ideal) V c).arrAt 9 cfg1.N = tailK (V c main_v143) (V c main_v156) (V c main_v169) (V c main_v185) (V c main_v180)
    (V c main_v181) (V c main_v182) (V c main_v183) (V c main_v184)
abbrev Harr2 : Prop := ∀ (V : (c : Dev nD) → (b : Ref sig .tc) → Buf (Elt Ideal) ((c : Thread nD τ).loc b)) (c : Dev nD),
  (dat2 (F := Ideal) V c).arrAt 9 cfg2.N = tailK (V c main_v186) (V c main_v199) (V c main_v212) (V c main_v228) (V c main_v223)
    (V c main_v224) (V c main_v225) (V c main_v226) (V c main_v227)

/-! ## pallas_call 0 and the stretch after it -/

/-- The first tail layer: the call's output window, its operands as the prelude left them. -/
theorem W4_v143 (harr0 : Harr0) : W4 m ρ c (Proc.devRef .tc main_v143) = tK1 𝐱 𝐆₁ 𝐆₂ 𝐁₁ 𝐁₂ 𝐑 𝐬 𝐭 :=
  (W4_arr m ρ c 9).trans ((harr0 (V3 m ρ) c).trans
    (tailK_congr (args3 m ρ c).a0 (W3_v113 m ρ c) (W3_v126 m ρ c) (W3_v142 m ρ c) (W3_v137 m ρ c) (W3_v138 m ρ c)
      (W3_v139 m ρ c) (W3_v140 m ρ c) (W3_v141 m ρ c)))
theorem W4_v18 : W4 m ρ c (Proc.devRef .tc main_v18) = invd2 (F := Ideal) 𝐝 := (W4_of_ne m ρ c main_v18 (by decide)).trans (W3_v18 m ρ c)
theorem W4_v25 : W4 m ρ c (Proc.devRef .tc main_v25) = w0 𝐬 := (W4_of_ne m ρ c main_v25 (by decide)).trans (W3_v25 m ρ c)
theorem W4_v39 : W4 m ρ c (Proc.devRef .tc main_v39) = w2 𝐬 := (W4_of_ne m ρ c main_v39 (by decide)).trans (W3_v39 m ρ c)
theorem W4_v41 : W4 m ρ c (Proc.devRef .tc main_v41) = headMask (F := Ideal) 𝐝 := (W4_of_ne m ρ c main_v41 (by decide)).trans (W3_v41 m ρ c)
theorem W4_v100 : W4 m ρ c (Proc.devRef .tc main_v100) = embH 𝐱 𝐬 𝐭 := (W4_of_ne m ρ c main_v100 (by decide)).trans (W3_v100 m ρ c)

theorem W5_v143 (harr0 : Harr0) : W5 m ρ c (Proc.devRef .tc main_v143) = tK1 𝐱 𝐆₁ 𝐆₂ 𝐁₁ 𝐁₂ 𝐑 𝐬 𝐭 := s1_keep_v143' _ (W4_v143 m ρ c harr0)
theorem W5_v18 : W5 m ρ c (Proc.devRef .tc main_v18) = invd2 (F := Ideal) 𝐝 := s1_keep_v18' _ (W4_v18 m ρ c)
theorem W5_v25 : W5 m ρ c (Proc.devRef .tc main_v25) = w0 𝐬 := s1_keep_v25' _ (W4_v25 m ρ c)
theorem W5_v39 : W5 m ρ c (Proc.devRef .tc main_v39) = w2 𝐬 := s1_keep_v39' _ (W4_v39 m ρ c)
theorem W5_v41 : W5 m ρ c (Proc.devRef .tc main_v41) = headMask (F := Ideal) 𝐝 := s1_keep_v41' _ (W4_v41 m ρ c)
theorem W5_v100 : W5 m ρ c (Proc.devRef .tc main_v100) = embH 𝐱 𝐬 𝐭 := s1_keep_v100' _ (W4_v100 m ρ c)
theorem W5_v156 (harr0 : Harr0) : W5 m ρ c (Proc.devRef .tc main_v156) = spmm (F := Ideal) (w0 𝐬) (tK1 𝐱 𝐆₁ 𝐆₂ 𝐁₁ 𝐁₂ 𝐑 𝐬 𝐭) 𝐬 𝐭 :=
  s1_v156' _ (W4_v25 m ρ c) (W4_v143 m ρ c harr0) (args4 m ρ c).a6 (args4 m ρ c).a7
theorem W5_v169 (harr0 : Harr0) : W5 m ρ c (Proc.devRef .tc main_v169) = spmm (F := Ideal) (w2 𝐬) (tK1 𝐱 𝐆₁ 𝐆₂ 𝐁₁ 𝐁₂ 𝐑 𝐬 𝐭) 𝐬 𝐭 :=
  s1_v169' _ (W4_v39 m ρ c) (W4_v143 m ρ c harr0) (args4 m ρ c).a6 (args4 m ρ c).a7
theorem W5_v180 : W5 m ρ c (Proc.devRef .tc main_v180) = weightT1 (F := Ideal) 𝐆₁ := s1_v180' _ (args4 m ρ c).a1
theorem W5_v181 : W5 m ρ c (Proc.devRef .tc main_v181) = weightT1 (F := Ideal) 𝐆₂ := s1_v181' _ (args4 m ρ c).a2
theorem W5_v182 : W5 m ρ c (Proc.devRef .tc main_v182) = weightT1 (F := Ideal) 𝐁₁ := s1_v182' _ (args4 m ρ c).a3
theorem W5_v183 : W5 m ρ c (Proc.devRef .tc main_v183) = weightT1 (F := Ideal) 𝐁₂ := s1_v183' _ (args4 m ρ c).a4
theorem W5_v184 : W5 m ρ c (Proc.devRef .tc main_v184) = biasRow (F := Ideal) (bias1 (F := Ideal) 𝐑) := s1_v184' _ (args4 m ρ c).a5
theorem W5_v185 : W5 m ρ c (Proc.devRef .tc main_v185) = column (F := Ideal) (invd2 (F := Ideal) 𝐝) := s1_v185' _ (W4_v18 m ρ c)

/-! ## pallas_call 1 and the stretch after it -/

/-- The second tail layer. -/
theorem W6_v186 (harr0 : Harr0) (harr1 : Harr1) : W6 m ρ c (Proc.devRef .tc main_v186) = tK2 𝐱 𝐆₁ 𝐆₂ 𝐁₁ 𝐁₂ 𝐑 𝐬 𝐭 :=
  (W6_arr m ρ c 9).trans ((harr1 (V5 m ρ) c).trans
    (tailK_congr (W5_v143 m ρ c harr0) (W5_v156 m ρ c harr0) (W5_v169 m ρ c harr0) (W5_v185 m ρ c) (W5_v180 m ρ c) (W5_v181 m ρ c)
      (W5_v182 m ρ c) (W5_v183 m ρ c) (W5_v184 m ρ c)))
/-- The first tail layer is the call's first input window: its array stays. -/
theorem W6_v143 (harr0 : Harr0) : W6 m ρ c (Proc.devRef .tc main_v143) = tK1 𝐱 𝐆₁ 𝐆₂ 𝐁₁ 𝐁₂ 𝐑 𝐬 𝐭 :=
  ((W6_arr m ρ c 0).trans (((dat1 (V5 m ρ) c).arrAt_in 0 rfl _).trans (A_eq1 (V5 m ρ) c 0))).trans (W5_v143 m ρ c harr0)
theorem W6_v18 : W6 m ρ c (Proc.devRef .tc main_v18) = invd2 (F := Ideal) 𝐝 := (W6_of_ne m ρ c main_v18 (by decide)).trans (W5_v18 m ρ c)
theorem W6_v25 : W6 m ρ c (Proc.devRef .tc main_v25) = w0 𝐬 := (W6_of_ne m ρ c main_v25 (by decide)).trans (W5_v25 m ρ c)
theorem W6_v39 : W6 m ρ c (Proc.devRef .tc main_v39) = w2 𝐬 := (W6_of_ne m ρ c main_v39 (by decide)).trans (W5_v39 m ρ c)
theorem W6_v41 : W6 m ρ c (Proc.devRef .tc main_v41) = headMask (F := Ideal) 𝐝 := (W6_of_ne m ρ c main_v41 (by decide)).trans (W5_v41 m ρ c)
theorem W6_v100 : W6 m ρ c (Proc.devRef .tc main_v100) = embH 𝐱 𝐬 𝐭 := (W6_of_ne m ρ c main_v100 (by decide)).trans (W5_v100 m ρ c)

theorem W7_arg0 : W7 m ρ c (Proc.devRef .tc main_arg0) = 𝐱 := s2_keep_arg0' _ (args6 m ρ c).a0
theorem W7_v41 : W7 m ρ c (Proc.devRef .tc main_v41) = headMask (F := Ideal) 𝐝 := s2_keep_v41' _ (W6_v41 m ρ c)
theorem W7_v100 : W7 m ρ c (Proc.devRef .tc main_v100) = embH 𝐱 𝐬 𝐭 := s2_keep_v100' _ (W6_v100 m ρ c)
theorem W7_v143 (harr0 : Harr0) : W7 m ρ c (Proc.devRef .tc main_v143) = tK1 𝐱 𝐆₁ 𝐆₂ 𝐁₁ 𝐁₂ 𝐑 𝐬 𝐭 := s2_keep_v143' _ (W6_v143 m ρ c harr0)
theorem W7_v186 (harr0 : Harr0) (harr1 : Harr1) : W7 m ρ c (Proc.devRef .tc main_v186) = tK2 𝐱 𝐆₁ 𝐆₂ 𝐁₁ 𝐁₂ 𝐑 𝐬 𝐭 := s2_keep_v186' _ (W6_v186 m ρ c harr0 harr1)
theorem W7_v199 (harr0 : Harr0) (harr1 : Harr1) : W7 m ρ c (Proc.devRef .tc main_v199) = spmm (F := Ideal) (w0 𝐬) (tK2 𝐱 𝐆₁ 𝐆₂ 𝐁₁ 𝐁₂ 𝐑 𝐬 𝐭) 𝐬 𝐭 :=
  s2_v199' _ (W6_v25 m ρ c) (W6_v186 m ρ c harr0 harr1) (args6 m ρ c).a6 (args6 m ρ c).a7
theorem W7_v212 (harr0 : Harr0) (harr1 : Harr1) : W7 m ρ c (Proc.devRef .tc main_v212) = spmm (F := Ideal) (w2 𝐬) (tK2 𝐱 𝐆₁ 𝐆₂ 𝐁₁ 𝐁₂ 𝐑 𝐬 𝐭) 𝐬 𝐭 :=
  s2_v212' _ (W6_v39 m ρ c) (W6_v186 m ρ c harr0 harr1) (args6 m ρ c).a6 (args6 m ρ c).a7
theorem W7_v223 : W7 m ρ c (Proc.devRef .tc main_v223) = weightT2 (F := Ideal) 𝐆₁ := s2_v223' _ (args6 m ρ c).a1
theorem W7_v224 : W7 m ρ c (Proc.devRef .tc main_v224) = weightT2 (F := Ideal) 𝐆₂ := s2_v224' _ (args6 m ρ c).a2
theorem W7_v225 : W7 m ρ c (Proc.devRef .tc main_v225) = weightT2 (F := Ideal) 𝐁₁ := s2_v225' _ (args6 m ρ c).a3
theorem W7_v226 : W7 m ρ c (Proc.devRef .tc main_v226) = weightT2 (F := Ideal) 𝐁₂ := s2_v226' _ (args6 m ρ c).a4
theorem W7_v227 : W7 m ρ c (Proc.devRef .tc main_v227) = biasRow (F := Ideal) (bias2 (F := Ideal) 𝐑) := s2_v227' _ (args6 m ρ c).a5
theorem W7_v228 : W7 m ρ c (Proc.devRef .tc main_v228) = column (F := Ideal) (invd2 (F := Ideal) 𝐝) := s2_v228' _ (W6_v18 m ρ c)

/-! ## pallas_call 2, the tail branch's mean and the final choice -/

/-- The third tail layer. -/
theorem W8_v229 (harr0 : Harr0) (harr1 : Harr1) (harr2 : Harr2) : W8 m ρ c (Proc.devRef .tc main_v229) = tK3 𝐱 𝐆₁ 𝐆₂ 𝐁₁ 𝐁₂ 𝐑 𝐬 𝐭 :=
  (W8_arr m ρ c 9).trans ((harr2 (V7 m ρ) c).trans
    (tailK_congr (W7_v186 m ρ c harr0 harr1) (W7_v199 m ρ c harr0 harr1) (W7_v212 m ρ c harr0 harr1) (W7_v228 m ρ c) (W7_v223 m ρ c)
      (W7_v224 m ρ c) (W7_v225 m ρ c) (W7_v226 m ρ c) (W7_v227 m ρ c)))
/-- The second tail layer is the call's first input window: its array stays. -/
theorem W8_v186 (harr0 : Harr0) (harr1 : Harr1) : W8 m ρ c (Proc.devRef .tc main_v186) = tK2 𝐱 𝐆₁ 𝐆₂ 𝐁₁ 𝐁₂ 𝐑 𝐬 𝐭 :=
  ((W8_arr m ρ c 0).trans (((dat2 (V7 m ρ) c).arrAt_in 0 rfl _).trans (A_eq2 (V7 m ρ) c 0))).trans (W7_v186 m ρ c harr0 harr1)
theorem W8_arg0 : W8 m ρ c (Proc.devRef .tc main_arg0) = 𝐱 := (W8_of_ne m ρ c main_arg0 (by decide)).trans (W7_arg0 m ρ c)
theorem W8_v41 : W8 m ρ c (Proc.devRef .tc main_v41) = headMask (F := Ideal) 𝐝 := (W8_of_ne m ρ c main_v41 (by decide)).trans (W7_v41 m ρ c)
theorem W8_v100 : W8 m ρ c (Proc.devRef .tc main_v100) = embH 𝐱 𝐬 𝐭 := (W8_of_ne m ρ c main_v100 (by decide)).trans (W7_v100 m ρ c)
theorem W8_v143 (harr0 : Harr0) : W8 m ρ c (Proc.devRef .tc main_v143) = tK1 𝐱 𝐆₁ 𝐆₂ 𝐁₁ 𝐁₂ 𝐑 𝐬 𝐭 :=
  (W8_of_ne m ρ c main_v143 (by decide)).trans (W7_v143 m ρ c harr0)

theorem W9_v237 (harr0 : Harr0) (harr1 : Harr1) (harr2 : Harr2) : W9 m ρ c (Proc.devRef .tc main_v237)
    = mean4 (F := Ideal) 𝐱 (tK1 𝐱 𝐆₁ 𝐆₂ 𝐁₁ 𝐁₂ 𝐑 𝐬 𝐭) (tK2 𝐱 𝐆₁ 𝐆₂ 𝐁₁ 𝐁₂ 𝐑 𝐬 𝐭) (tK3 𝐱 𝐆₁ 𝐆₂ 𝐁₁ 𝐁₂ 𝐑 𝐬 𝐭) :=
  s3_v237' _ (W8_arg0 m ρ c) (W8_v143 m ρ c harr0) (W8_v186 m ρ c harr0 harr1) (W8_v229 m ρ c harr0 harr1 harr2)
theorem W9_v238 : W9 m ρ c (Proc.devRef .tc main_v238)
    = broadcastInDim S100000x1 ![0] bcast_S100000_S100000x1_0 (headMask (F := Ideal) 𝐝) := s3_v238' _ (W8_v41 m ρ c)
theorem W9_v100 : W9 m ρ c (Proc.devRef .tc main_v100) = embH 𝐱 𝐬 𝐭 := s3_keep_v100' _ (W8_v100 m ρ c)

/-- The called where at the end: the mask laid along the features chooses between the two means. -/
theorem W10_v239 (harr0 : Harr0) (harr1 : Harr1) (harr2 : Harr2) : W10 m ρ c (Proc.devRef .tc main_v239)
    = pick (F := Ideal) (headMask (F := Ideal) 𝐝) (embH 𝐱 𝐬 𝐭)
        (mean4 (F := Ideal) 𝐱 (tK1 𝐱 𝐆₁ 𝐆₂ 𝐁₁ 𝐁₂ 𝐑 𝐬 𝐭) (tK2 𝐱 𝐆₁ 𝐆₂ 𝐁₁ 𝐁₂ 𝐑 𝐬 𝐭) (tK3 𝐱 𝐆₁ 𝐆₂ 𝐁₁ 𝐁₂ 𝐑 𝐬 𝐭)) :=
  s31_v239' _ (W9_v238 m ρ c) (W9_v100 m ρ c) (W9_v237 m ρ c harr0 harr1 harr2)

/-- The kernel program's result array: the head branch's mean where the degree exceeds 5, the tail branch's elsewhere. -/
theorem kernel_result (harr0 : Harr0) (harr1 : Harr1) (harr2 : Harr2) :
    W10 m ρ c (Proc.devRef .tc main_v239) = resultK 𝐱 𝐆₁ 𝐆₂ 𝐁₁ 𝐁₂ 𝐑 𝐬 𝐭 :=
  W10_v239 m ρ c harr0 harr1 harr2

end Cert.V.K

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.V.Pay0.lean ====
/-
  The body of the first tail-layer kernel, read at an entry of its output block.

  With x0 … x8 the nine input blocks (2000 rows of h, of nb and of agg, the 2000 normalisations as a column, the four
  transposed weight matrices and the bias row), entry (p, q) of what the body stores is
      x2[p,q] + x3[p,0] · (x0[p,q] + ((x0[p,q] + (lrelu s_g + 1) · x8[0,q]) + lrelu s_b − x1[p,q]))
  with s_g = Σ_k x0[p,k]·x4[k,q] + Σ_k x1[p,k]·x5[k,q] and s_b the same sum over x6, x7: the roundings to bf16 are the
  identity on extended reals, a matrix product into the zero accumulator is the plain sum of products.
-/
import proofs.«120490_j9904194585124_1_alg».proof.Proof.Gen.KernelIdeal.Skeleton
import proofs.«120490_j9904194585124_1_alg».proof.Proof.V.TailK
import proofs.«120490_j9904194585124_1_alg».proof.Proof.LibPlainMatmul
import Idealize.ShloMosaic.Lib.ValueLayout
import Idealize.ShloMosaic.Lib.Pipeline.Value

noncomputable section

namespace Cert.V

open Idealize.ShloMosaic Idealize.ShloMosaic.ValueIdx Cert.KernelIdeal Cert.KernelIdeal.Gen Cert.KernelIdeal.Facts₀

/-- The pre-activation at row p of the block and column q. -/
def preactB (x0 x1 : FVec Ideal S2000x128 .f32) (wa wb : FVec Ideal S128x128 .f32) (p : Fin 2000) (q : Fin 128) : EReal :=
  (∑ k : Fin 128, x0 (ix2 p k) * wa (ix2 k q)) + ∑ k : Fin 128, x1 (ix2 p k) * wb (ix2 k q)

/-- The body's stored value at (p, q), over the nine blocks. -/
def tailBAt (x0 x1 x2 : FVec Ideal S2000x128 .f32) (x3 : FVec Ideal S2000x1 .f32) (x4 x5 x6 x7 : FVec Ideal S128x128 .f32)
    (x8 : FVec Ideal S1x128 .f32) (p : Fin 2000) (q : Fin 128) : EReal :=
  x2 (ix2 p q) + x3 (ix2 p (0 : Fin 1)) * (x0 (ix2 p q)
    + (((x0 (ix2 p q) + (lreluS (preactB x0 x1 x4 x5 p q) + Ideal.ofBits .f32 0x3F800000#32) * x8 (ix2 (0 : Fin 1) q))
        + lreluS (preactB x0 x1 x6 x7 p q)) - x1 (ix2 p q)))

/-- A block times a weight matrix, both rounded to bf16 on the way in, into the zero accumulator: the sum of products. -/
theorem mm_block (x : FVec Ideal S2000x128 .f32) (w : FVec Ideal S128x128 .f32) (p : Fin 2000) (q : Fin 128) :
    matmul dot_S2000x128_S128x128_S2000x128_1_0_0_1_n_n none (truncf .bf16 x Gen.bitsLt_bf16_f32)
      (truncf .bf16 w Gen.bitsLt_bf16_f32) (constant S2000x128 .f32 0x00000000#32) (ix2 p q)
      = ∑ k : Fin 128, x (ix2 p k) * w (ix2 k q) :=
  Cert.Lib.PlainMatmul.matmul_zero_apply dot_S2000x128_S128x128_S2000x128_1_0_0_1_n_n rfl rfl rfl rfl rfl rfl none
    (truncf .bf16 x Gen.bitsLt_bf16_f32) (truncf .bf16 w Gen.bitsLt_bf16_f32) p q

theorem k0_pay8_at (x0 x1 : FVec Ideal S2000x128 .f32) (x6 x7 : FVec Ideal S128x128 .f32) (p : Fin 2000) (q : Fin 128) :
    k0_pay8 (F := Ideal) x0 x1 x6 x7 (ix2 p q) = preactB x0 x1 x6 x7 p q := by
  unfold k0_pay8 k0_pay6 k0_pay7 k0_pay2 preactB
  simp only [shapeCast_self, addf_apply, mm_block]

theorem k0_pay9_at (x0 x1 : FVec Ideal S2000x128 .f32) (x4 x5 : FVec Ideal S128x128 .f32) (p : Fin 2000) (q : Fin 128) :
    k0_pay9 (F := Ideal) x0 x1 x4 x5 (ix2 p q) = lreluS (preactB x0 x1 x4 x5 p q) := by
  unfold k0_pay9 k0_pay6 k0_pay7 k0_pay2 preactB
  simp only [shapeCast_self, select_apply, cmpf_apply, mulf_apply, addf_apply, broadcast_apply, mm_block]
  rfl

theorem k0_pay1_at (v0 v2 v4 : FVec Ideal S2000x128 .f32) (v6 : FVec Ideal S2000x1 .f32) (v8 : FVec Ideal S1x128 .f32)
    (v28 v33 : FVec Ideal S2000x128 .f32) (cst : Ideal .f32) (p : Fin 2000) (q : Fin 128) :
    k0_pay1 (F := Ideal) v0 v2 v4 v6 v8 v28 v33 cst (ix2 p q)
      = v4 (ix2 p q) + v6 (ix2 p (0 : Fin 1)) * (v0 (ix2 p q)
          + (((v0 (ix2 p q) + (v33 (ix2 p q) + cst) * v8 (ix2 (0 : Fin 1) q)) + lreluS (v28 (ix2 p q))) - v2 (ix2 p q))) := by
  unfold k0_pay1
  simp only [addf_apply, mulf_apply, subf_apply, select_apply, cmpf_apply, broadcast_apply,
    Idealize.ShloMosaic.ColumnLayout.broadcastTo_a1_ab_apply, broadcastTo_1b_ab_apply]
  rfl

/-- The body's one store, at (p, q). -/
theorem k0_store_at (x0 x1 x2 : FVec Ideal S2000x128 .f32) (x3 : FVec Ideal S2000x1 .f32) (x4 x5 x6 x7 : FVec Ideal S128x128 .f32)
    (x8 : FVec Ideal S1x128 .f32) (p : Fin 2000) (q : Fin 128) :
    k0_pay1 (F := Ideal) x0 (k0_pay2 x1) (k0_pay3 x2) (k0_pay4 x3) (k0_pay5 x8) (k0_pay8 x0 x1 x6 x7) (k0_pay9 x0 x1 x4 x5)
        (Scalar.ofBits .f32 0x3F800000#32) (ix2 p q)
      = tailBAt x0 x1 x2 x3 x4 x5 x6 x7 x8 p q := by
  rw [k0_pay1_at, k0_pay8_at, k0_pay9_at]
  unfold k0_pay2 k0_pay3 k0_pay4 k0_pay5 tailBAt
  simp only [shapeCast_self]
  rfl

end Cert.V

end
-- ==== Proof.V.Blocks0.lean ====
/-
  Region 0's output array after its fifty points: the kernel's tail update (TailK.tailK) of the arrays the region finds.

  Point t loads rows 2000·t … 2000·t+1999 of the layer's input, of its two neighbour sums and of the normalisation column, and
  the four weight matrices and the bias row whole; what it writes back is rows 2000·t … of tailK of those arrays (the stored
  value at (p, q) is Pay0's formula over the blocks, each block entry an entry of its array); the fifty blocks tile the rows.
-/
import proofs.«120490_j9904194585124_1_alg».proof.Proof.KI.Body
import proofs.«120490_j9904194585124_1_alg».proof.Proof.V.Pay0
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.V

open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-blocked windows sit at block t of the rows, the whole-matrix ones at 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_9.index t (0 : Fin 2) = t.val
    ∧ win0_9.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ t.val < 50 :=
  (by decide +kernel : ∀ t : Fin grid0.N, _)

/-- The array row that row p of point t's block is. -/
def rowOf0 (t : Fin cfg0.N) (p : Fin 2000) : Fin 100000 :=
  ⟨t.val * 2000 + p.val, by have h := (idx0 t); have := p.isLt; omega⟩

/-- Window 0's block at point t holds rows 2000·t … of its array. -/
theorem rd0_0 (c : Dev nD) (t : Fin cfg0.N) (p : Fin 2000) (k : Fin 128) :
    iblk0 V c 0 t (ix2 p k) = V c main_arg0 (ix2 (rowOf0 t p) k) := by
  show V c main_arg0 (((cfg0.win 0).blk t).view.emb (ix2 p k)) = V c main_arg0 (ix2 (rowOf0 t p) k)
  refine congrArg _ (funext fun a => Fin.ext ?_)
  have h := idx0 t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Window 1's block at point t holds rows 2000·t … of its array. -/
theorem rd0_1 (c : Dev nD) (t : Fin cfg0.N) (p : Fin 2000) (k : Fin 128) :
    iblk0 V c 1 t (ix2 p k) = V c main_v113 (ix2 (rowOf0 t p) k) := by
  show V c main_v113 (((cfg0.win 1).blk t).view.emb (ix2 p k)) = V c main_v113 (ix2 (rowOf0 t p) k)
  refine congrArg _ (funext fun a => Fin.ext ?_)
  have h := idx0 t
  match a with
  | ⟨0, _⟩ => show win0_1.index t (0 : Fin 2) * 2000 + 1 * p.val = t.val * 2000 + p.val; omega
  | ⟨1, _⟩ => show win0_1.index t (1 : Fin 2) * 128 + 1 * k.val = k.val; omega

/-- Window 2's block at point t holds rows 2000·t … of its array. -/
theorem rd0_2 (c : Dev nD) (t : Fin cfg0.N) (p : Fin 2000) (k : Fin 128) :
    iblk0 V c 2 t (ix2 p k) = V c main_v126 (ix2 (rowOf0 t p) k) := by
  show V c main_v126 (((cfg0.win 2).blk t).view.emb (ix2 p k)) = V c main_v126 (ix2 (rowOf0 t p) k)
  refine congrArg _ (funext fun a => Fin.ext ?_)
  have h := idx0 t
  match a with
  | ⟨0, _⟩ => show win0_2.index t (0 : Fin 2) * 2000 + 1 * p.val = t.val * 2000 + p.val; omega
  | ⟨1, _⟩ => show win0_2.index t (1 : Fin 2) * 128 + 1 * k.val = k.val; omega

/-- The normalisation column's block at point t holds rows 2000·t … of the column. -/
theorem rd0_3 (c : Dev nD) (t : Fin cfg0.N) (p : Fin 2000) :
    iblk0 V c 3 t (ix2 p (0 : Fin 1)) = V c main_v142 (ix2 (rowOf0 t p) (0 : Fin 1)) := by
  show V c main_v142 (((cfg0.win 3).blk t).view.emb (ix2 p (0 : Fin 1))) = V c main_v142 (ix2 (rowOf0 t p) (0 : Fin 1))
  refine congrArg _ (funext fun a => Fin.ext ?_)
  have h := idx0 t
  match a with
  | ⟨0, _⟩ => show win0_3.index t (0 : Fin 2) * 2000 + 1 * p.val = t.val * 2000 + p.val; omega
  | ⟨1, _⟩ => show win0_3.index t (1 : Fin 2) * 1 + 1 * 0 = 0; omega

/-- Window 4's block is its whole matrix at every point. -/
theorem rd0_4 (c : Dev nD) (t : Fin cfg0.N) (k : Fin 128) (q : Fin 128) :
    iblk0 V c 4 t (ix2 k q) = V c main_v137 (ix2 k q) := by
  show V c main_v137 (((cfg0.win 4).blk t).view.emb (ix2 k q)) = V c main_v137 (ix2 k q)
  refine congrArg _ (funext fun a => Fin.ext ?_)
  have h := idx0 t
  match a with
  | ⟨0, _⟩ => show win0_4.index t (0 : Fin 2) * 128 + 1 * k.val = k.val; omega
  | ⟨1, _⟩ => show win0_4.index t (1 : Fin 2) * 128 + 1 * q.val = q.val; omega

/-- Window 5's block is its whole matrix at every point. -/
theorem rd0_5 (c : Dev nD) (t : Fin cfg0.N) (k : Fin 128) (q : Fin 128) :
    iblk0 V c 5 t (ix2 k q) = V c main_v138 (ix2 k q) := by
  show V c main_v138 (((cfg0.win 5).blk t).view.emb (ix2 k q)) = V c main_v138 (ix2 k q)
  refine congrArg _ (funext fun a => Fin.ext ?_)
  have h := idx0 t
  match a with
  | ⟨0, _⟩ => show win0_5.index t (0 : Fin 2) * 128 + 1 * k.val = k.val; omega
  | ⟨1, _⟩ => show win0_5.index t (1 : Fin 2) * 128 + 1 * q.val = q.val; omega

/-- Window 6's block is its whole matrix at every point. -/
theorem rd0_6 (c : Dev nD) (t : Fin cfg0.N) (k : Fin 128) (q : Fin 128) :
    iblk0 V c 6 t (ix2 k q) = V c main_v139 (ix2 k q) := by
  show V c main_v139 (((cfg0.win 6).blk t).view.emb (ix2 k q)) = V c main_v139 (ix2 k q)
  refine congrArg _ (funext fun a => Fin.ext ?_)
  have h := idx0 t
  match a with
  | ⟨0, _⟩ => show win0_6.index t (0 : Fin 2) * 128 + 1 * k.val = k.val; omega
  | ⟨1, _⟩ => show win0_6.index t (1 : Fin 2) * 128 + 1 * q.val = q.val; omega

/-- Window 7's block is its whole matrix at every point. -/
theorem rd0_7 (c : Dev nD) (t : Fin cfg0.N) (k : Fin 128) (q : Fin 128) :
    iblk0 V c 7 t (ix2 k q) = V c main_v140 (ix2 k q) := by
  show V c main_v140 (((cfg0.win 7).blk t).view.emb (ix2 k q)) = V c main_v140 (ix2 k q)
  refine congrArg _ (funext fun a => Fin.ext ?_)
  have h := idx0 t
  match a with
  | ⟨0, _⟩ => show win0_7.index t (0 : Fin 2) * 128 + 1 * k.val = k.val; omega
  | ⟨1, _⟩ => show win0_7.index t (1 : Fin 2) * 128 + 1 * q.val = q.val; omega

/-- The bias row's block is the row at every point. -/
theorem rd0_8 (c : Dev nD) (t : Fin cfg0.N) (q : Fin 128) :
    iblk0 V c 8 t (ix2 (0 : Fin 1) q) = V c main_v141 (ix2 (0 : Fin 1) q) := by
  show V c main_v141 (((cfg0.win 8).blk t).view.emb (ix2 (0 : Fin 1) q)) = V c main_v141 (ix2 (0 : Fin 1) q)
  refine congrArg _ (funext fun a => Fin.ext ?_)
  have h := idx0 t
  match a with
  | ⟨0, _⟩ => show win0_8.index t (0 : Fin 2) * 1 + 1 * 0 = 0; omega
  | ⟨1, _⟩ => show win0_8.index t (1 : Fin 2) * 128 + 1 * q.val = q.val; omega

/-- An entry of the output block at point t is the entry of the output array in row 2000·t + p. -/
theorem emb0_9 (t : Fin cfg0.N) (p : Fin 2000) (q : Fin 128) :
    ((cfg0.win 9).blk t).view.emb (ix2 p q) = ix2 (rowOf0 t p) q := by
  refine funext fun a => Fin.ext ?_
  have h := idx0 t
  match a with
  | ⟨0, _⟩ => show win0_9.index t (0 : Fin 2) * 2000 + 1 * p.val = t.val * 2000 + p.val; omega
  | ⟨1, _⟩ => show win0_9.index t (1 : Fin 2) * 128 + 1 * q.val = q.val; omega

/-- The stored value over the point's blocks is the kernel's update of the arrays, in the block's row of the array. -/
theorem store0_eq (c : Dev nD) (t : Fin cfg0.N) (p : Fin 2000) (q : Fin 128) :
    tailBAt (iblk0 V c 0 t) (iblk0 V c 1 t) (iblk0 V c 2 t) (iblk0 V c 3 t) (iblk0 V c 4 t) (iblk0 V c 5 t)
        (iblk0 V c 6 t) (iblk0 V c 7 t) (iblk0 V c 8 t) p q
      = tailKAt (V c main_arg0) (V c main_v113) (V c main_v126) (V c main_v142) (V c main_v137) (V c main_v138) (V c main_v139)
          (V c main_v140) (V c main_v141) (rowOf0 t p) q := by
  unfold tailBAt tailKAt missingAt preactB preact
  simp only [rd0_0, rd0_1, rd0_2, rd0_3, rd0_4, rd0_5, rd0_6, rd0_7, rd0_8]

/-- WHAT POINT t WRITES BACK is block t of the kernel's update of the arrays the region finds. -/
theorem flushed0_eq (c : Dev nD) (t : Fin cfg0.N) :
    (dat0 V c).flushed 9 t = ((cfg0.win 9).blk t).view.read (Elt Ideal)
      (tailK (V c main_arg0) (V c main_v113) (V c main_v126) (V c main_v142) (V c main_v137) (V c main_v138) (V c main_v139)
        (V c main_v140) (V c main_v141)) := by
  show (cfg0.win 9).cut (grid0.coords t) ((dat0 V c).after 9 t) = _
  rw [after0_9]
  unfold out0_9
  rw [View.canon_unit_zero hz0]
  simp only [View.ld_unit_zero (S := S2000x128) hz0, View.ld_unit_zero (S := S2000x1) hz0,
    View.ld_unit_zero (S := S128x128) hz0, View.ld_unit_zero (S := S1x128) hz0]
  funext j
  obtain ⟨p, q, rfl⟩ : ∃ (p : Fin 2000) (q : Fin 128), j = ix2 p q := ⟨j 0, j 1, eq_ix2 j⟩
  refine (k0_store_at (iblk0 V c 0 t) (iblk0 V c 1 t) (iblk0 V c 2 t) (iblk0 V c 3 t) (iblk0 V c 4 t)
    (iblk0 V c 5 t) (iblk0 V c 6 t) (iblk0 V c 7 t) (iblk0 V c 8 t) p q).trans ?_
  rw [store0_eq]
  show _ = tailK (V c main_arg0) (V c main_v113) (V c main_v126) (V c main_v142) (V c main_v137) (V c main_v138) (V c main_v139)
      (V c main_v140) (V c main_v141) (((cfg0.win 9).blk t).view.emb (ix2 p q))
  rw [emb0_9, tailK_apply]

/-- An index of the array is in point t's block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v143).slice (win0_9.rect t)).set ↔ _
  rw [View.set_slice_whole, Rect.mem_set_unit]
  exact Iff.rfl

/-- The fifty blocks tile the rows: row r is in the block of point r / 2000. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : grid0.N = 50 := N_0
  have hlt : (i 0).val / 2000 < grid0.N := by omega
  have h := idx0 ⟨(i 0).val / 2000, hlt⟩
  have e0 : win0_9.index ⟨(i 0).val / 2000, hlt⟩ (0 : Fin 2) = (i 0).val / 2000 := h.2.2.2.2.2.2.1
  have e1 : win0_9.index ⟨(i 0).val / 2000, hlt⟩ (1 : Fin 2) = 0 := h.2.2.2.2.2.2.2.1
  refine ⟨⟨(i 0).val / 2000, hlt⟩, flush0_9 _, ?_⟩
  rw [mem_blk0]
  intro a
  match a with
  | ⟨0, _⟩ =>
    show win0_9.index ⟨(i 0).val / 2000, hlt⟩ (0 : Fin 2) * 2000 ≤ (i 0).val
      ∧ (i 0).val < win0_9.index ⟨(i 0).val / 2000, hlt⟩ (0 : Fin 2) * 2000 + 2000
    rw [e0]; omega
  | ⟨1, _⟩ =>
    show win0_9.index ⟨(i 0).val / 2000, hlt⟩ (1 : Fin 2) * 128 ≤ (i 1).val
      ∧ (i 1).val < win0_9.index ⟨(i 0).val / 2000, hlt⟩ (1 : Fin 2) * 128 + 128
    rw [e1]; omega

/-- THE OUTPUT ARRAY after region 0: the kernel's tail update of the arrays the region finds. -/
theorem arrAt0 (c : Dev nD) :
    (dat0 V c).arrAt 9 cfg0.N
      = tailK (V c main_arg0) (V c main_v113) (V c main_v126) (V c main_v142) (V c main_v137) (V c main_v138) (V c main_v139)
          (V c main_v140) (V c main_v141) :=
  (dat0 V c).arrAt_eq_of_cover 9 _ (fun t _ => flushed0_eq V c t) (cover0)

end Cert.V

end
-- ==== Proof.V.Pay1.lean ====
/-
  The body of tail-layer kernel 1, read at an entry of its output block: the same update as the first layer's
  (Pay0.tailBAt), its parts named differently.
-/
import proofs.«120490_j9904194585124_1_alg».proof.Proof.V.Pay0

noncomputable section

namespace Cert.V

open Idealize.ShloMosaic Idealize.ShloMosaic.ValueIdx Cert.KernelIdeal Cert.KernelIdeal.Gen

theorem k1_pay9_at (x0 x1 : FVec Ideal S2000x128 .f32) (x6 x7 : FVec Ideal S128x128 .f32) (p : Fin 2000) (q : Fin 128) :
    k1_pay9 (F := Ideal) x0 x1 x6 x7 (ix2 p q) = preactB x0 x1 x6 x7 p q := by
  unfold k1_pay9 k1_pay7 k1_pay8 k1_pay2 k1_pay3 preactB
  simp only [shapeCast_self, addf_apply, mm_block]

theorem k1_pay10_at (x0 x1 : FVec Ideal S2000x128 .f32) (x4 x5 : FVec Ideal S128x128 .f32) (p : Fin 2000) (q : Fin 128) :
    k1_pay10 (F := Ideal) x0 x1 x4 x5 (ix2 p q) = lreluS (preactB x0 x1 x4 x5 p q) := by
  unfold k1_pay10 k1_pay7 k1_pay8 k1_pay2 k1_pay3 preactB
  simp only [shapeCast_self, select_apply, cmpf_apply, mulf_apply, addf_apply, broadcast_apply, mm_block]
  rfl

theorem k1_pay1_at (v1 v3 v5 : FVec Ideal S2000x128 .f32) (v7 : FVec Ideal S2000x1 .f32) (v9 : FVec Ideal S1x128 .f32)
    (v29 v34 : FVec Ideal S2000x128 .f32) (p : Fin 2000) (q : Fin 128) :
    k1_pay1 (F := Ideal) v1 v3 v5 v7 v9 v29 v34 (ix2 p q)
      = v5 (ix2 p q) + v7 (ix2 p (0 : Fin 1)) * (v1 (ix2 p q)
          + (((v1 (ix2 p q) + (v34 (ix2 p q) + Ideal.ofBits .f32 0x3F800000#32) * v9 (ix2 (0 : Fin 1) q)) + lreluS (v29 (ix2 p q)))
              - v3 (ix2 p q))) := by
  unfold k1_pay1
  simp only [addf_apply, mulf_apply, subf_apply, select_apply, cmpf_apply, broadcast_apply,
    Idealize.ShloMosaic.ColumnLayout.broadcastTo_a1_ab_apply, broadcastTo_1b_ab_apply]
  rfl

/-- The body's one store, at (p, q). -/
theorem k1_store_at (x0 x1 x2 : FVec Ideal S2000x128 .f32) (x3 : FVec Ideal S2000x1 .f32) (x4 x5 x6 x7 : FVec Ideal S128x128 .f32)
    (x8 : FVec Ideal S1x128 .f32) (p : Fin 2000) (q : Fin 128) :
    k1_pay1 (F := Ideal) (k1_pay2 x0) (k1_pay3 x1) (k1_pay4 x2) (k1_pay5 x3) (k1_pay6 x8) (k1_pay9 x0 x1 x6 x7)
        (k1_pay10 x0 x1 x4 x5) (ix2 p q)
      = tailBAt x0 x1 x2 x3 x4 x5 x6 x7 x8 p q := by
  rw [k1_pay1_at, k1_pay9_at, k1_pay10_at]
  unfold k1_pay2 k1_pay3 k1_pay4 k1_pay5 k1_pay6 tailBAt
  simp only [shapeCast_self]

end Cert.V

end
-- ==== Proof.V.Blocks1.lean ====
/-
  Region 1's output array after its fifty points: the kernel's tail update (TailK.tailK) of the arrays the region finds.

  Point t loads rows 2000·t … 2000·t+1999 of the layer's input, of its two neighbour sums and of the normalisation column, and
  the four weight matrices and the bias row whole; what it writes back is rows 2000·t … of tailK of those arrays (the stored
  value at (p, q) is Pay1's formula over the blocks, each block entry an entry of its array); the fifty blocks tile the rows.
-/
import proofs.«120490_j9904194585124_1_alg».proof.Proof.KI.Body
import proofs.«120490_j9904194585124_1_alg».proof.Proof.V.Pay1
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.V

open Cert.KernelIdeal Cert.KernelIdeal.Gen Cert.KernelIdeal.Hand

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-blocked windows sit at block t of the rows, the whole-matrix ones at 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_9.index t (0 : Fin 2) = t.val
    ∧ win1_9.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ t.val < 50 :=
  (by decide +kernel : ∀ t : Fin grid1.N, _)

/-- The array row that row p of point t's block is. -/
def rowOf1 (t : Fin cfg1.N) (p : Fin 2000) : Fin 100000 :=
  ⟨t.val * 2000 + p.val, by have h := (idx1 t); have := p.isLt; omega⟩

/-- Window 0's block at point t holds rows 2000·t … of its array. -/
theorem rd1_0 (c : Dev nD) (t : Fin cfg1.N) (p : Fin 2000) (k : Fin 128) :
    iblk1 V c 0 t (ix2 p k) = V c main_v143 (ix2 (rowOf1 t p) k) := by
  show V c main_v143 (((cfg1.win 0).blk t).view.emb (ix2 p k)) = V c main_v143 (ix2 (rowOf1 t p) k)
  refine congrArg _ (funext fun a => Fin.ext ?_)
  have h := idx1 t
  match a with
  | ⟨0, _⟩ => show win1_0.index t (0 : Fin 2) * 2000 + 1 * p.val = t.val * 2000 + p.val; omega
  | ⟨1, _⟩ => show win1_0.index t (1 : Fin 2) * 128 + 1 * k.val = k.val; omega

/-- Window 1's block at point t holds rows 2000·t … of its array. -/
theorem rd1_1 (c : Dev nD) (t : Fin cfg1.N) (p : Fin 2000) (k : Fin 128) :
    iblk1 V c 1 t (ix2 p k) = V c main_v156 (ix2 (rowOf1 t p) k) := by
  show V c main_v156 (((cfg1.win 1).blk t).view.emb (ix2 p k)) = V c main_v156 (ix2 (rowOf1 t p) k)
  refine congrArg _ (funext fun a => Fin.ext ?_)
  have h := idx1 t
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2's block at point t holds rows 2000·t … of its array. -/
theorem rd1_2 (c : Dev nD) (t : Fin cfg1.N) (p : Fin 2000) (k : Fin 128) :
    iblk1 V c 2 t (ix2 p k) = V c main_v169 (ix2 (rowOf1 t p) k) := by
  show V c main_v169 (((cfg1.win 2).blk t).view.emb (ix2 p k)) = V c main_v169 (ix2 (rowOf1 t p) k)
  refine congrArg _ (funext fun a => Fin.ext ?_)
  have h := idx1 t
  match a with
  | ⟨0, _⟩ => show win1_2.index t (0 : Fin 2) * 2000 + 1 * p.val = t.val * 2000 + p.val; omega
  | ⟨1, _⟩ => show win1_2.index t (1 : Fin 2) * 128 + 1 * k.val = k.val; omega

/-- The normalisation column's block at point t holds rows 2000·t … of the column. -/
theorem rd1_3 (c : Dev nD) (t : Fin cfg1.N) (p : Fin 2000) :
    iblk1 V c 3 t (ix2 p (0 : Fin 1)) = V c main_v185 (ix2 (rowOf1 t p) (0 : Fin 1)) := by
  show V c main_v185 (((cfg1.win 3).blk t).view.emb (ix2 p (0 : Fin 1))) = V c main_v185 (ix2 (rowOf1 t p) (0 : Fin 1))
  refine congrArg _ (funext fun a => Fin.ext ?_)
  have h := idx1 t
  match a with
  | ⟨0, _⟩ => show win1_3.index t (0 : Fin 2) * 2000 + 1 * p.val = t.val * 2000 + p.val; omega
  | ⟨1, _⟩ => show win1_3.index t (1 : Fin 2) * 1 + 1 * 0 = 0; omega

/-- Window 4's block is its whole matrix at every point. -/
theorem rd1_4 (c : Dev nD) (t : Fin cfg1.N) (k : Fin 128) (q : Fin 128) :
    iblk1 V c 4 t (ix2 k q) = V c main_v180 (ix2 k q) := by
  show V c main_v180 (((cfg1.win 4).blk t).view.emb (ix2 k q)) = V c main_v180 (ix2 k q)
  refine congrArg _ (funext fun a => Fin.ext ?_)
  have h := idx1 t
  match a with
  | ⟨0, _⟩ => show win1_4.index t (0 : Fin 2) * 128 + 1 * k.val = k.val; omega
  | ⟨1, _⟩ => show win1_4.index t (1 : Fin 2) * 128 + 1 * q.val = q.val; omega

/-- Window 5's block is its whole matrix at every point. -/
theorem rd1_5 (c : Dev nD) (t : Fin cfg1.N) (k : Fin 128) (q : Fin 128) :
    iblk1 V c 5 t (ix2 k q) = V c main_v181 (ix2 k q) := by
  show V c main_v181 (((cfg1.win 5).blk t).view.emb (ix2 k q)) = V c main_v181 (ix2 k q)
  refine congrArg _ (funext fun a => Fin.ext ?_)
  have h := idx1 t
  match a with
  | ⟨0, _⟩ => show win1_5.index t (0 : Fin 2) * 128 + 1 * k.val = k.val; omega
  | ⟨1, _⟩ => show win1_5.index t (1 : Fin 2) * 128 + 1 * q.val = q.val; omega

/-- Window 6's block is its whole matrix at every point. -/
theorem rd1_6 (c : Dev nD) (t : Fin cfg1.N) (k : Fin 128) (q : Fin 128) :
    iblk1 V c 6 t (ix2 k q) = V c main_v182 (ix2 k q) := by
  show V c main_v182 (((cfg1.win 6).blk t).view.emb (ix2 k q)) = V c main_v182 (ix2 k q)
  refine congrArg _ (funext fun a => Fin.ext ?_)
  have h := idx1 t
  match a with
  | ⟨0, _⟩ => show win1_6.index t (0 : Fin 2) * 128 + 1 * k.val = k.val; omega
  | ⟨1, _⟩ => show win1_6.index t (1 : Fin 2) * 128 + 1 * q.val = q.val; omega

/-- Window 7's block is its whole matrix at every point. -/
theorem rd1_7 (c : Dev nD) (t : Fin cfg1.N) (k : Fin 128) (q : Fin 128) :
    iblk1 V c 7 t (ix2 k q) = V c main_v183 (ix2 k q) := by
  show V c main_v183 (((cfg1.win 7).blk t).view.emb (ix2 k q)) = V c main_v183 (ix2 k q)
  refine congrArg _ (funext fun a => Fin.ext ?_)
  have h := idx1 t
  match a with
  | ⟨0, _⟩ => show win1_7.index t (0 : Fin 2) * 128 + 1 * k.val = k.val; omega
  | ⟨1, _⟩ => show win1_7.index t (1 : Fin 2) * 128 + 1 * q.val = q.val; omega

/-- The bias row's block is the row at every point. -/
theorem rd1_8 (c : Dev nD) (t : Fin cfg1.N) (q : Fin 128) :
    iblk1 V c 8 t (ix2 (0 : Fin 1) q) = V c main_v184 (ix2 (0 : Fin 1) q) := by
  show V c main_v184 (((cfg1.win 8).blk t).view.emb (ix2 (0 : Fin 1) q)) = V c main_v184 (ix2 (0 : Fin 1) q)
  refine congrArg _ (funext fun a => Fin.ext ?_)
  have h := idx1 t
  match a with
  | ⟨0, _⟩ => show win1_8.index t (0 : Fin 2) * 1 + 1 * 0 = 0; omega
  | ⟨1, _⟩ => show win1_8.index t (1 : Fin 2) * 128 + 1 * q.val = q.val; omega

/-- An entry of the output block at point t is the entry of the output array in row 2000·t + p. -/
theorem emb1_9 (t : Fin cfg1.N) (p : Fin 2000) (q : Fin 128) :
    ((cfg1.win 9).blk t).view.emb (ix2 p q) = ix2 (rowOf1 t p) q := by
  refine funext fun a => Fin.ext ?_
  have h := idx1 t
  match a with
  | ⟨0, _⟩ => show win1_9.index t (0 : Fin 2) * 2000 + 1 * p.val = t.val * 2000 + p.val; omega
  | ⟨1, _⟩ => show win1_9.index t (1 : Fin 2) * 128 + 1 * q.val = q.val; omega

/-- The stored value over the point's blocks is the kernel's update of the arrays, in the block's row of the array. -/
theorem store1_eq (c : Dev nD) (t : Fin cfg1.N) (p : Fin 2000) (q : Fin 128) :
    tailBAt (iblk1 V c 0 t) (iblk1 V c 1 t) (iblk1 V c 2 t) (iblk1 V c 3 t) (iblk1 V c 4 t) (iblk1 V c 5 t)
        (iblk1 V c 6 t) (iblk1 V c 7 t) (iblk1 V c 8 t) p q
      = tailKAt (V c main_v143) (V c main_v156) (V c main_v169) (V c main_v185) (V c main_v180) (V c main_v181) (V c main_v182)
          (V c main_v183) (V c main_v184) (rowOf1 t p) q := by
  unfold tailBAt tailKAt missingAt preactB preact
  simp only [rd1_0, rd1_1, rd1_2, rd1_3, rd1_4, rd1_5, rd1_6, rd1_7, rd1_8]

/-- WHAT POINT t WRITES BACK is block t of the kernel's update of the arrays the region finds. -/
theorem flushed1_eq (c : Dev nD) (t : Fin cfg1.N) :
    (dat1 V c).flushed 9 t = ((cfg1.win 9).blk t).view.read (Elt Ideal)
      (tailK (V c main_v143) (V c main_v156) (V c main_v169) (V c main_v185) (V c main_v180) (V c main_v181) (V c main_v182)
        (V c main_v183) (V c main_v184)) := by
  show (cfg1.win 9).cut (grid1.coords t) ((dat1 V c).after 9 t) = _
  rw [after1_9]
  unfold out1_9
  rw [View.canon_unit_zero hz1]
  simp only [View.ld_unit_zero (S := S2000x128) hz1, View.ld_unit_zero (S := S2000x1) hz1,
    View.ld_unit_zero (S := S128x128) hz1, View.ld_unit_zero (S := S1x128) hz1]
  funext j
  obtain ⟨p, q, rfl⟩ : ∃ (p : Fin 2000) (q : Fin 128), j = ix2 p q := ⟨j 0, j 1, eq_ix2 j⟩
  refine (k1_store_at (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  rw [store1_eq]
  show _ = tailK (V c main_v143) (V c main_v156) (V c main_v169) (V c main_v185) (V c main_v180) (V c main_v181) (V c main_v182)
      (V c main_v183) (V c main_v184) (((cfg1.win 9).blk t).view.emb (ix2 p q))
  rw [emb1_9, tailK_apply]

/-- An index of the array is in point t's block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v186).slice (win1_9.rect t)).set ↔ _
  rw [View.set_slice_whole, Rect.mem_set_unit]
  exact Iff.rfl

/-- The fifty blocks tile the rows: row r is in the block of point r / 2000. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : grid1.N = 50 := N_1
  have hlt : (i 0).val / 2000 < grid1.N := by omega
  have h := idx1 ⟨(i 0).val / 2000, hlt⟩
  have e0 : win1_9.index ⟨(i 0).val / 2000, hlt⟩ (0 : Fin 2) = (i 0).val / 2000 := h.2.2.2.2.2.2.1
  have e1 : win1_9.index ⟨(i 0).val / 2000, hlt⟩ (1 : Fin 2) = 0 := h.2.2.2.2.2.2.2.1
  refine ⟨⟨(i 0).val / 2000, hlt⟩, flush1_9 _, ?_⟩
  rw [mem_blk1]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [e0]; omega
  | ⟨1, _⟩ =>
    show win1_9.index ⟨(i 0).val / 2000, hlt⟩ (1 : Fin 2) * 128 ≤ (i 1).val
      ∧ (i 1).val < win1_9.index ⟨(i 0).val / 2000, hlt⟩ (1 : Fin 2) * 128 + 128
    rw [e1]; omega

/-- THE OUTPUT ARRAY after region 1: the kernel's tail update of the arrays the region finds. -/
theorem arrAt1 (c : Dev nD) :
    (dat1 V c).arrAt 9 cfg1.N
      = tailK (V c main_v143) (V c main_v156) (V c main_v169) (V c main_v185) (V c main_v180) (V c main_v181) (V c main_v182)
          (V c main_v183) (V c main_v184) :=
  (dat1 V c).arrAt_eq_of_cover 9 _ (fun t _ => flushed1_eq V c t) (cover1)

end Cert.V

end
-- ==== Proof.V.Pay2.lean ====
/-
  The body of tail-layer kernel 2, read at an entry of its output block: the same update as the first layer's
  (Pay0.tailBAt), its parts named differently.
-/
import proofs.«120490_j9904194585124_1_alg».proof.Proof.V.Pay0

noncomputable section

namespace Cert.V

open Idealize.ShloMosaic Idealize.ShloMosaic.ValueIdx Cert.KernelIdeal Cert.KernelIdeal.Gen

theorem k2_pay9_at (x0 x1 : FVec Ideal S2000x128 .f32) (x6 x7 : FVec Ideal S128x128 .f32) (p : Fin 2000) (q : Fin 128) :
    k2_pay9 (F := Ideal) x0 x1 x6 x7 (ix2 p q) = preactB x0 x1 x6 x7 p q := by
  unfold k2_pay9 k2_pay7 k2_pay8 k2_pay2 k2_pay3 preactB
  simp only [shapeCast_self, addf_apply, mm_block]

theorem k2_pay10_at (x0 x1 : FVec Ideal S2000x128 .f32) (x4 x5 : FVec Ideal S128x128 .f32) (p : Fin 2000) (q : Fin 128) :
    k2_pay10 (F := Ideal) x0 x1 x4 x5 (ix2 p q) = lreluS (preactB x0 x1 x4 x5 p q) := by
  unfold k2_pay10 k2_pay7 k2_pay8 k2_pay2 k2_pay3 preactB
  simp only [shapeCast_self, select_apply, cmpf_apply, mulf_apply, addf_apply, broadcast_apply, mm_block]
  rfl

theorem k2_pay1_at (v1 v3 v5 : FVec Ideal S2000x128 .f32) (v7 : FVec Ideal S2000x1 .f32) (v9 : FVec Ideal S1x128 .f32)
    (v29 v34 : FVec Ideal S2000x128 .f32) (p : Fin 2000) (q : Fin 128) :
    k2_pay1 (F := Ideal) v1 v3 v5 v7 v9 v29 v34 (ix2 p q)
      = v5 (ix2 p q) + v7 (ix2 p (0 : Fin 1)) * (v1 (ix2 p q)
          + (((v1 (ix2 p q) + (v34 (ix2 p q) + Ideal.ofBits .f32 0x3F800000#32) * v9 (ix2 (0 : Fin 1) q)) + lreluS (v29 (ix2 p q)))
              - v3 (ix2 p q))) := by
  unfold k2_pay1
  simp only [addf_apply, mulf_apply, subf_apply, select_apply, cmpf_apply, broadcast_apply,
    Idealize.ShloMosaic.ColumnLayout.broadcastTo_a1_ab_apply, broadcastTo_1b_ab_apply]
  rfl

/-- The body's one store, at (p, q). -/
theorem k2_store_at (x0 x1 x2 : FVec Ideal S2000x128 .f32) (x3 : FVec Ideal S2000x1 .f32) (x4 x5 x6 x7 : FVec Ideal S128x128 .f32)
    (x8 : FVec Ideal S1x128 .f32) (p : Fin 2000) (q : Fin 128) :
    k2_pay1 (F := Ideal) (k2_pay2 x0) (k2_pay3 x1) (k2_pay4 x2) (k2_pay5 x3) (k2_pay6 x8) (k2_pay9 x0 x1 x6 x7)
        (k2_pay10 x0 x1 x4 x5) (ix2 p q)
      = tailBAt x0 x1 x2 x3 x4 x5 x6 x7 x8 p q := by
  rw [k2_pay1_at, k2_pay9_at, k2_pay10_at]
  unfold k2_pay2 k2_pay3 k2_pay4 k2_pay5 k2_pay6 tailBAt
  simp only [shapeCast_self]

end Cert.V

end
-- ==== Proof.V.Blocks2.lean ====
/-
  Region 2's output array after its fifty points: the kernel's tail update (TailK.tailK) of the arrays the region finds.

  Point t loads rows 2000·t … 2000·t+1999 of the layer's input, of its two neighbour sums and of the normalisation column, and
  the four weight matrices and the bias row whole; what it writes back is rows 2000·t … of tailK of those arrays (the stored
  value at (p, q) is Pay2's formula over the blocks, each block entry an entry of its array); the fifty blocks tile the rows.
-/
import proofs.«120490_j9904194585124_1_alg».proof.Proof.KI.Body
import proofs.«120490_j9904194585124_1_alg».proof.Proof.V.Pay2
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.V

open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block t of the rows, the whole-matrix ones at 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_9.index t (0 : Fin 2) = t.val
    ∧ win2_9.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ t.val < 50 :=
  (by decide +kernel : ∀ t : Fin grid2.N, _)

/-- The array row that row p of point t's block is. -/
def rowOf2 (t : Fin cfg2.N) (p : Fin 2000) : Fin 100000 :=
  ⟨t.val * 2000 + p.val, by have h := (idx2 t); have := p.isLt; omega⟩

/-- Window 0's block at point t holds rows 2000·t … of its array. -/
theorem rd2_0 (c : Dev nD) (t : Fin cfg2.N) (p : Fin 2000) (k : Fin 128) :
    iblk2 V c 0 t (ix2 p k) = V c main_v186 (ix2 (rowOf2 t p) k) := by
  show V c main_v186 (((cfg2.win 0).blk t).view.emb (ix2 p k)) = V c main_v186 (ix2 (rowOf2 t p) k)
  refine congrArg _ (funext fun a => Fin.ext ?_)
  have h := idx2 t
  match a with
  | ⟨0, _⟩ => show win2_0.index t (0 : Fin 2) * 2000 + 1 * p.val = t.val * 2000 + p.val; omega
  | ⟨1, _⟩ => show win2_0.index t (1 : Fin 2) * 128 + 1 * k.val = k.val; omega

/-- Window 1's block at point t holds rows 2000·t … of its array. -/
theorem rd2_1 (c : Dev nD) (t : Fin cfg2.N) (p : Fin 2000) (k : Fin 128) :
    iblk2 V c 1 t (ix2 p k) = V c main_v199 (ix2 (rowOf2 t p) k) := by
  show V c main_v199 (((cfg2.win 1).blk t).view.emb (ix2 p k)) = V c main_v199 (ix2 (rowOf2 t p) k)
  refine congrArg _ (funext fun a => Fin.ext ?_)
  have h := idx2 t
  match a with
  | ⟨0, _⟩ => show win2_1.index t (0 : Fin 2) * 2000 + 1 * p.val = t.val * 2000 + p.val; omega
  | ⟨1, _⟩ => show win2_1.index t (1 : Fin 2) * 128 + 1 * k.val = k.val; omega

/-- Window 2's block at point t holds rows 2000·t … of its array. -/
theorem rd2_2 (c : Dev nD) (t : Fin cfg2.N) (p : Fin 2000) (k : Fin 128) :
    iblk2 V c 2 t (ix2 p k) = V c main_v212 (ix2 (rowOf2 t p) k) := by
  show V c main_v212 (((cfg2.win 2).blk t).view.emb (ix2 p k)) = V c main_v212 (ix2 (rowOf2 t p) k)
  refine congrArg _ (funext fun a => Fin.ext ?_)
  have h := idx2 t
  match a with
  | ⟨0, _⟩ => show win2_2.index t (0 : Fin 2) * 2000 + 1 * p.val = t.val * 2000 + p.val; omega
  | ⟨1, _⟩ => show win2_2.index t (1 : Fin 2) * 128 + 1 * k.val = k.val; omega

/-- The normalisation column's block at point t holds rows 2000·t … of the column. -/
theorem rd2_3 (c : Dev nD) (t : Fin cfg2.N) (p : Fin 2000) :
    iblk2 V c 3 t (ix2 p (0 : Fin 1)) = V c main_v228 (ix2 (rowOf2 t p) (0 : Fin 1)) := by
  show V c main_v228 (((cfg2.win 3).blk t).view.emb (ix2 p (0 : Fin 1))) = V c main_v228 (ix2 (rowOf2 t p) (0 : Fin 1))
  refine congrArg _ (funext fun a => Fin.ext ?_)
  have h := idx2 t
  match a with
  | ⟨0, _⟩ => show win2_3.index t (0 : Fin 2) * 2000 + 1 * p.val = t.val * 2000 + p.val; omega
  | ⟨1, _⟩ => show win2_3.index t (1 : Fin 2) * 1 + 1 * 0 = 0; omega

/-- Window 4's block is its whole matrix at every point. -/
theorem rd2_4 (c : Dev nD) (t : Fin cfg2.N) (k : Fin 128) (q : Fin 128) :
    iblk2 V c 4 t (ix2 k q) = V c main_v223 (ix2 k q) := by
  show V c main_v223 (((cfg2.win 4).blk t).view.emb (ix2 k q)) = V c main_v223 (ix2 k q)
  refine congrArg _ (funext fun a => Fin.ext ?_)
  have h := idx2 t
  match a with
  | ⟨0, _⟩ => show win2_4.index t (0 : Fin 2) * 128 + 1 * k.val = k.val; omega
  | ⟨1, _⟩ => show win2_4.index t (1 : Fin 2) * 128 + 1 * q.val = q.val; omega

/-- Window 5's block is its whole matrix at every point. -/
theorem rd2_5 (c : Dev nD) (t : Fin cfg2.N) (k : Fin 128) (q : Fin 128) :
    iblk2 V c 5 t (ix2 k q) = V c main_v224 (ix2 k q) := by
  show V c main_v224 (((cfg2.win 5).blk t).view.emb (ix2 k q)) = V c main_v224 (ix2 k q)
  refine congrArg _ (funext fun a => Fin.ext ?_)
  have h := idx2 t
  match a with
  | ⟨0, _⟩ => show win2_5.index t (0 : Fin 2) * 128 + 1 * k.val = k.val; omega
  | ⟨1, _⟩ => show win2_5.index t (1 : Fin 2) * 128 + 1 * q.val = q.val; omega

/-- Window 6's block is its whole matrix at every point. -/
theorem rd2_6 (c : Dev nD) (t : Fin cfg2.N) (k : Fin 128) (q : Fin 128) :
    iblk2 V c 6 t (ix2 k q) = V c main_v225 (ix2 k q) := by
  show V c main_v225 (((cfg2.win 6).blk t).view.emb (ix2 k q)) = V c main_v225 (ix2 k q)
  refine congrArg _ (funext fun a => Fin.ext ?_)
  have h := idx2 t
  match a with
  | ⟨0, _⟩ => show win2_6.index t (0 : Fin 2) * 128 + 1 * k.val = k.val; omega
  | ⟨1, _⟩ => show win2_6.index t (1 : Fin 2) * 128 + 1 * q.val = q.val; omega

/-- Window 7's block is its whole matrix at every point. -/
theorem rd2_7 (c : Dev nD) (t : Fin cfg2.N) (k : Fin 128) (q : Fin 128) :
    iblk2 V c 7 t (ix2 k q) = V c main_v226 (ix2 k q) := by
  show V c main_v226 (((cfg2.win 7).blk t).view.emb (ix2 k q)) = V c main_v226 (ix2 k q)
  refine congrArg _ (funext fun a => Fin.ext ?_)
  have h := idx2 t
  match a with
  | ⟨0, _⟩ => show win2_7.index t (0 : Fin 2) * 128 + 1 * k.val = k.val; omega
  | ⟨1, _⟩ => show win2_7.index t (1 : Fin 2) * 128 + 1 * q.val = q.val; omega

/-- The bias row's block is the row at every point. -/
theorem rd2_8 (c : Dev nD) (t : Fin cfg2.N) (q : Fin 128) :
    iblk2 V c 8 t (ix2 (0 : Fin 1) q) = V c main_v227 (ix2 (0 : Fin 1) q) := by
  show V c main_v227 (((cfg2.win 8).blk t).view.emb (ix2 (0 : Fin 1) q)) = V c main_v227 (ix2 (0 : Fin 1) q)
  refine congrArg _ (funext fun a => Fin.ext ?_)
  have h := idx2 t
  match a with
  | ⟨0, _⟩ => show win2_8.index t (0 : Fin 2) * 1 + 1 * 0 = 0; omega
  | ⟨1, _⟩ => show win2_8.index t (1 : Fin 2) * 128 + 1 * q.val = q.val; omega

/-- An entry of the output block at point t is the entry of the output array in row 2000·t + p. -/
theorem emb2_9 (t : Fin cfg2.N) (p : Fin 2000) (q : Fin 128) :
    ((cfg2.win 9).blk t).view.emb (ix2 p q) = ix2 (rowOf2 t p) q := by
  refine funext fun a => Fin.ext ?_
  have h := idx2 t
  match a with
  | ⟨0, _⟩ => show win2_9.index t (0 : Fin 2) * 2000 + 1 * p.val = t.val * 2000 + p.val; omega
  | ⟨1, _⟩ => show win2_9.index t (1 : Fin 2) * 128 + 1 * q.val = q.val; omega

/-- The stored value over the point's blocks is the kernel's update of the arrays, in the block's row of the array. -/
theorem store2_eq (c : Dev nD) (t : Fin cfg2.N) (p : Fin 2000) (q : Fin 128) :
    tailBAt (iblk2 V c 0 t) (iblk2 V c 1 t) (iblk2 V c 2 t) (iblk2 V c 3 t) (iblk2 V c 4 t) (iblk2 V c 5 t)
        (iblk2 V c 6 t) (iblk2 V c 7 t) (iblk2 V c 8 t) p q
      = tailKAt (V c main_v186) (V c main_v199) (V c main_v212) (V c main_v228) (V c main_v223) (V c main_v224) (V c main_v225)
          (V c main_v226) (V c main_v227) (rowOf2 t p) q := by
  unfold tailBAt tailKAt missingAt preactB preact
  simp only [rd2_0, rd2_1, rd2_2, rd2_3, rd2_4, rd2_5, rd2_6, rd2_7, rd2_8]

/-- WHAT POINT t WRITES BACK is block t of the kernel's update of the arrays the region finds. -/
theorem flushed2_eq (c : Dev nD) (t : Fin cfg2.N) :
    (dat2 V c).flushed 9 t = ((cfg2.win 9).blk t).view.read (Elt Ideal)
      (tailK (V c main_v186) (V c main_v199) (V c main_v212) (V c main_v228) (V c main_v223) (V c main_v224) (V c main_v225)
        (V c main_v226) (V c main_v227)) := by
  show (cfg2.win 9).cut (grid2.coords t) ((dat2 V c).after 9 t) = _
  rw [after2_9]
  unfold out2_9
  rw [View.canon_unit_zero hz2]
  simp only [View.ld_unit_zero (S := S2000x128) hz2, View.ld_unit_zero (S := S2000x1) hz2,
    View.ld_unit_zero (S := S128x128) hz2, View.ld_unit_zero (S := S1x128) hz2]
  funext j
  obtain ⟨p, q, rfl⟩ : ∃ (p : Fin 2000) (q : Fin 128), j = ix2 p q := ⟨j 0, j 1, eq_ix2 j⟩
  refine (k2_store_at (iblk2 V c 0 t) (iblk2 V c 1 t) (iblk2 V c 2 t) (iblk2 V c 3 t) (iblk2 V c 4 t)
    (iblk2 V c 5 t) (iblk2 V c 6 t) (iblk2 V c 7 t) (iblk2 V c 8 t) p q).trans ?_
  rw [store2_eq]
  show _ = tailK (V c main_v186) (V c main_v199) (V c main_v212) (V c main_v228) (V c main_v223) (V c main_v224) (V c main_v225)
      (V c main_v226) (V c main_v227) (((cfg2.win 9).blk t).view.emb (ix2 p q))
  rw [emb2_9, tailK_apply]

/-- An index of the array is in point t's block iff each coordinate is in the block's range on its axis. -/
theorem mem_blk2 (t : Fin cfg2.N) (i : S100000x128.Idx) :
    i ∈ ((cfg2.win 9).blk t).view.set ↔ ∀ a : Fin 2, win2_9.index t a * S2000x128.size a ≤ (i a).val
      ∧ (i a).val < win2_9.index t a * S2000x128.size a + S2000x128.size a := by
  show i ∈ ((View.whole main_v229).slice (win2_9.rect t)).set ↔ _
  rw [View.set_slice_whole, Rect.mem_set_unit]
  exact Iff.rfl

/-- The fifty blocks tile the rows: row r is in the block of point r / 2000. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : grid2.N = 50 := N_2
  have hlt : (i 0).val / 2000 < grid2.N := by omega
  have h := idx2 ⟨(i 0).val / 2000, hlt⟩
  have e0 : win2_9.index ⟨(i 0).val / 2000, hlt⟩ (0 : Fin 2) = (i 0).val / 2000 := h.2.2.2.2.2.2.1
  have e1 : win2_9.index ⟨(i 0).val / 2000, hlt⟩ (1 : Fin 2) = 0 := h.2.2.2.2.2.2.2.1
  refine ⟨⟨(i 0).val / 2000, hlt⟩, flush2_9 _, ?_⟩
  rw [mem_blk2]
  intro a
  match a with
  | ⟨0, _⟩ =>
    show win2_9.index ⟨(i 0).val / 2000, hlt⟩ (0 : Fin 2) * 2000 ≤ (i 0).val
      ∧ (i 0).val < win2_9.index ⟨(i 0).val / 2000, hlt⟩ (0 : Fin 2) * 2000 + 2000
    rw [e0]; omega
  | ⟨1, _⟩ =>
    show win2_9.index ⟨(i 0).val / 2000, hlt⟩ (1 : Fin 2) * 128 ≤ (i 1).val
      ∧ (i 1).val < win2_9.index ⟨(i 0).val / 2000, hlt⟩ (1 : Fin 2) * 128 + 128
    rw [e1]; omega

/-- THE OUTPUT ARRAY after region 2: the kernel's tail update of the arrays the region finds. -/
theorem arrAt2 (c : Dev nD) :
    (dat2 V c).arrAt 9 cfg2.N
      = tailK (V c main_v186) (V c main_v199) (V c main_v212) (V c main_v228) (V c main_v223) (V c main_v224) (V c main_v225)
          (V c main_v226) (V c main_v227) :=
  (dat2 V c).arrAt_eq_of_cover 9 _ (fun t _ => flushed2_eq V c t) (cover2)

end Cert.V

end
-- ==== Proof.V.KResult.lean ====
/-
  The kernel program's result array as a term of its argument arrays, with each pallas_call's output window read by its
  own value lemma (one tail layer of what its nine input windows held).
-/
import proofs.«120490_j9904194585124_1_alg».proof.Proof.V.KChain
import proofs.«120490_j9904194585124_1_alg».proof.Proof.V.Blocks0
import proofs.«120490_j9904194585124_1_alg».proof.Proof.V.Blocks1
import proofs.«120490_j9904194585124_1_alg».proof.Proof.V.Blocks2

noncomputable section

namespace Cert.V.K

open Cert.KernelIdeal Cert.KernelIdeal.Gen Cert.KernelIdeal.Hand
open Idealize.ShloMosaic Idealize.ShloMosaic.TcCoe

/-- What the kernel program's result array holds at the end of the frame run, as a function of the launched arguments. -/
theorem kernel_result' (m : (ℓ : Loc nD τ sig) → Buf (Elt Ideal) ℓ) (ρ : Dev nD → PrngReg) (c : Dev nD) :
    W10 m ρ c (Proc.devRef .tc main_v239)
      = resultK (aX m ρ c) (aG1 m ρ c) (aG2 m ρ c) (aB1 m ρ c) (aB2 m ρ c) (aR m ρ c) (aSrc m ρ c) (aDst m ρ c) :=
  kernel_result m ρ c (fun V c => arrAt0 V c) (fun V c => arrAt1 V c) (fun V c => arrAt2 V c)

/-- The same with the launched arguments read straight off the launch memory. -/
theorem kernel_result_at (m : (ℓ : Loc nD τ sig) → Buf (Elt Ideal) ℓ) (ρ : Dev nD → PrngReg) (c : Dev nD) :
    W10 (F := Ideal) m ρ c (Proc.devRef .tc main_v239)
      = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  kernel_result' m ρ c

end Cert.V.K

end
-- ==== Proof.V.RParts.lean ====
/-
  Small named pieces of the shared vocabulary (Spec.lean), for reading a stretch of host operations that a window
  boundary cuts in the middle of one of Spec's functions: the pieces compose to those functions by unfolding.
    col1 w, colI i      = a per-edge vector as a [600000,1] column
    bcastE z, bcastND z = a scalar laid along the edges / along nodes × features
    startsZ z i         = starts i with the zero vector it compares against as a parameter
    msgsP wc h st       = the per-edge messages: the weight column along the features times h gathered at st
    msgs w h dst        = msgsP (col1 w) h (starts dst)
    scatP z sc u        = the scatter-add of the messages u at the index column sc into z
    tailP agg h ms d2   = (agg + d2 · h) + ms · d2, the reference's tail update from its missing-information term
-/
import proofs.«120490_j9904194585124_1_alg».proof.Proof.V.Spec

noncomputable section

namespace Cert.V.R

open Idealize.ShloMosaic Cert.KernelIdeal Cert.KernelIdeal.Facts₀ Cert.V

variable {F : FTy → Type} [FloatOps F]

def zeroI : Ci F S_ := constantI S_ 32 0#32
def zeroF : Cf F S_ := constant S_ .f32 0x00000000#32

def col1 (w : Cf F S600000) : Cf F S600000x1 := broadcastInDim S600000x1 ![0] bcast_S600000_S600000x1_0 w
def colI (i : Ci F S600000) : Ci F S600000x1 := broadcastInDim S600000x1 ![0] bcast_S600000_S600000x1_0 i
def bcastE (z : Ci F S_) : Ci F S600000 := broadcastInDim S600000 ![] bcast_S_S600000 z
def bcastND (z : Cf F S_) : Cf F S100000x128 := broadcastInDim S100000x128 ![] bcast_S_S100000x128 z

def startsZ (z i : Ci F S600000) : Ci F S600000x1 :=
  broadcastInDim S600000x1 ![0] bcast_S600000_S600000x1_0
    (select (cmpi .slt i z) (addi i (splatE (F := F) 100000#32)) i)

def msgsP (wc : Cf F S600000x1) (h : Cf F S100000x128) (st : Ci F S600000x1) : Cf F S600000x128 :=
  mulf (broadcastInDim S600000x128 ![0, 1] bcast_S600000x1_S600000x128_0_1 wc)
    (Host.gather gather_S100000x128_S600000x1_S600000x128_1_0_n_n_0_1_1128 h st)

def msgs (w : Cf F S600000) (h : Cf F S100000x128) (dst : Ci F S600000) : Cf F S600000x128 :=
  msgsP (col1 w) h (starts dst)

def scatP (z : Cf F S100000x128) (sc : Ci F S600000x1) (u : Cf F S600000x128) : Cf F S100000x128 :=
  Host.scatterAdd scatter_S100000x128_S600000x1_S600000x128_1_0_0_1 z sc u

def tailP (agg h ms : Cf F S100000x128) (d2 : Cf F S100000) : Cf F S100000x128 :=
  addf (addf agg (mulf (alongRows d2) h)) (mulf ms (alongRows d2))

theorem splatE_zero : splatE (F := F) 0#32 = bcastE zeroI := rfl
theorem splatND_zero : splatND (F := F) 0x00000000#32 = bcastND zeroF := rfl
theorem starts_eq (i : Ci F S600000) : starts i = startsZ (splatE (F := F) 0#32) i := rfl

/-- The neighbour sum is the scatter-add of the per-edge messages into zeros at the sources. -/
theorem spmm_eq (w : Cf F S600000) (h : Cf F S100000x128) (src dst : Ci F S600000) :
    spmm w h src dst = scatP (splatND 0x00000000#32) (colI src) (msgs w h dst) := rfl

theorem headStep_eq (w1 : Cf F S600000) (d1 : Cf F S100000) (h : Cf F S100000x128) (src dst : Ci F S600000) :
    headStep w1 d1 h src dst = addf (scatP (splatND 0x00000000#32) (colI src) (msgs w1 h dst)) (mulf (alongRows d1) h) := rfl

theorem tailRef_eq (agg nb h : Cf F S100000x128) (d2 : Cf F S100000) (g1 g2 b1 b2 : Cf F S128x128) (r : Cf F S128) :
    tailRef agg nb h d2 g1 g2 b1 b2 r = tailP agg h (missing h nb g1 g2 b1 b2 r) d2 := rfl

end Cert.V.R

end
-- ==== Proof.V.RStage0.lean ====
/- What window 0 of the reference program's @main leaves in the buffers later windows read, from any valuation,
   as terms of the shared vocabulary over the contents it starts from. -/
import proofs.«120490_j9904194585124_1_alg».proof.Proof.V.RParts
import proofs.«120490_j9904194585124_1_alg».proof.Proof.Ref.Ops0
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- After window 0 the buffer of 1/(deg+1) holds it, as a function of the sources. -/
theorem s0_v14 (W : Valuation τ sig (Elt F)) :
    after ops0 W (Proc.devRef .tc main_v14)
      = invd1 (deg (W (Proc.devRef .tc main_arg6))) := by
  after_results_simp
  rfl

set_option maxHeartbeats 4000000 in
/-- After window 0 the buffer of 1/(deg+2) holds it. -/
theorem s0_v18 (W : Valuation τ sig (Elt F)) :
    after ops0 W (Proc.devRef .tc main_v18)
      = invd2 (deg (W (Proc.devRef .tc main_arg6))) := by
  after_results_simp
  rfl

set_option maxHeartbeats 4000000 in
/-- After window 0: the first edge weight, the guarded 1/deg at each edge's source. -/
theorem s0_v25 (W : Valuation τ sig (Elt F)) :
    after ops0 W (Proc.devRef .tc main_v25)
      = onEdges (invd (deg (W (Proc.devRef .tc main_arg6)))) (W (Proc.devRef .tc main_arg6)) := by
  after_results_simp
  rfl

set_option maxHeartbeats 4000000 in
/-- After window 0: the second edge weight, 1/(deg+1) at each edge's source. -/
theorem s0_v32 (W : Valuation τ sig (Elt F)) :
    after ops0 W (Proc.devRef .tc main_v32)
      = onEdges (invd1 (deg (W (Proc.devRef .tc main_arg6)))) (W (Proc.devRef .tc main_arg6)) := by
  after_results_simp
  rfl

set_option maxHeartbeats 4000000 in
/-- After window 0: the third edge weight, 1/(deg+2) at each edge's source. -/
theorem s0_v39 (W : Valuation τ sig (Elt F)) :
    after ops0 W (Proc.devRef .tc main_v39)
      = onEdges (invd2 (deg (W (Proc.devRef .tc main_arg6)))) (W (Proc.devRef .tc main_arg6)) := by
  after_results_simp
  rfl

set_option maxHeartbeats 4000000 in
/-- After window 0: the mask deg > 5. -/
theorem s0_v41 (W : Valuation τ sig (Elt F)) :
    after ops0 W (Proc.devRef .tc main_v41)
      = headMask (deg (W (Proc.devRef .tc main_arg6))) := by
  after_results_simp
  rfl

end Cert.V.R

end
-- ==== Proof.V.RStage1.lean ====
/- What window 1 of the reference program's @main leaves in the buffers later windows read, from any valuation,
   as terms of the shared vocabulary over the contents it starts from. -/
import proofs.«120490_j9904194585124_1_alg».proof.Proof.V.RParts
import proofs.«120490_j9904194585124_1_alg».proof.Proof.Ref.Ops1
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 1 ends with the first head hop's per-edge messages. -/
theorem s1_v94 (W : Valuation τ sig (Elt F)) :
    after ops1 W (Proc.devRef .tc main_v94)
      = msgs (W (Proc.devRef .tc main_v32)) (W (Proc.devRef .tc main_arg0)) (W (Proc.devRef .tc main_arg7)) := by
  after_results_simp
  rfl

end Cert.V.R

end
-- ==== Proof.V.RStage2.lean ====
/- What window 2 of the reference program's @main leaves in the buffers later windows read, from any valuation,
   as terms of the shared vocabulary over the contents it starts from. -/
import proofs.«120490_j9904194585124_1_alg».proof.Proof.V.RParts
import proofs.«120490_j9904194585124_1_alg».proof.Proof.Ref.Ops2
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 2 finishes the first head hop from the messages window 1 left. -/
theorem s2_v101 (W : Valuation τ sig (Elt F)) :
    after ops2 W (Proc.devRef .tc main_v101)
      = addf (scatP (splatND 0x00000000#32) (colI (W (Proc.devRef .tc main_arg6))) (W (Proc.devRef .tc main_v94))) (mulf (alongRows (W (Proc.devRef .tc main_v14))) (W (Proc.devRef .tc main_arg0))) := by
  after_results_simp
  rfl

set_option maxHeartbeats 4000000 in
/-- Window 2 ends with the second hop's weight column. -/
theorem s2_v145 (W : Valuation τ sig (Elt F)) :
    after ops2 W (Proc.devRef .tc main_v145)
      = col1 (W (Proc.devRef .tc main_v32)) := by
  after_results_simp
  rfl

set_option maxHeartbeats 4000000 in
/-- Window 2 ends with the zero vector the index wrap compares against. -/
theorem s2_v146 (W : Valuation τ sig (Elt F)) :
    after ops2 W (Proc.devRef .tc main_v146)
      = splatE 0#32 := by
  after_results_simp
  rfl

end Cert.V.R

end
-- ==== Proof.V.RStage3.lean ====
/- What window 3 of the reference program's @main leaves in the buffers later windows read, from any valuation,
   as terms of the shared vocabulary over the contents it starts from. -/
import proofs.«120490_j9904194585124_1_alg».proof.Proof.V.RParts
import proofs.«120490_j9904194585124_1_alg».proof.Proof.Ref.Ops3
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 3 finishes the second head hop from the column and the zero vector window 2 left. -/
theorem s3_v161 (W : Valuation τ sig (Elt F)) :
    after ops3 W (Proc.devRef .tc main_v161)
      = addf (scatP (splatND 0x00000000#32) (colI (W (Proc.devRef .tc main_arg6))) (msgsP (W (Proc.devRef .tc main_v145)) (W (Proc.devRef .tc main_v101)) (startsZ (W (Proc.devRef .tc main_v146)) (W (Proc.devRef .tc main_arg7))))) (mulf (alongRows (W (Proc.devRef .tc main_v14))) (W (Proc.devRef .tc main_v101))) := by
  after_results_simp
  rfl

end Cert.V.R

end
-- ==== Proof.V.RStage4.lean ====
/- What window 4 of the reference program's @main leaves in the buffers later windows read, from any valuation,
   as terms of the shared vocabulary over the contents it starts from. -/
import proofs.«120490_j9904194585124_1_alg».proof.Proof.V.RParts
import proofs.«120490_j9904194585124_1_alg».proof.Proof.Ref.Ops4
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 4 runs the third head hop and takes the head branch's mean. -/
theorem s4_v229 (W : Valuation τ sig (Elt F)) :
    after ops4 W (Proc.devRef .tc main_v229)
      = mean4 (W (Proc.devRef .tc main_arg0)) (W (Proc.devRef .tc main_v101)) (W (Proc.devRef .tc main_v161)) (headStep (W (Proc.devRef .tc main_v32)) (W (Proc.devRef .tc main_v14)) (W (Proc.devRef .tc main_v161)) (W (Proc.devRef .tc main_arg6)) (W (Proc.devRef .tc main_arg7))) := by
  after_results_simp
  rfl

set_option maxHeartbeats 4000000 in
/-- Window 4 ends with the first tail layer's neighbour messages. -/
theorem s4_v246 (W : Valuation τ sig (Elt F)) :
    after ops4 W (Proc.devRef .tc main_v246)
      = msgs (W (Proc.devRef .tc main_v25)) (W (Proc.devRef .tc main_arg0)) (W (Proc.devRef .tc main_arg7)) := by
  after_results_simp
  rfl

set_option maxHeartbeats 4000000 in
/-- … and the zeros they are added into. -/
theorem s4_v247 (W : Valuation τ sig (Elt F)) :
    after ops4 W (Proc.devRef .tc main_v247)
      = splatND 0x00000000#32 := by
  after_results_simp
  rfl

set_option maxHeartbeats 4000000 in
/-- … and the sources as an index column. -/
theorem s4_v248 (W : Valuation τ sig (Elt F)) :
    after ops4 W (Proc.devRef .tc main_v248)
      = colI (W (Proc.devRef .tc main_arg6)) := by
  after_results_simp
  rfl

end Cert.V.R

end
-- ==== Proof.V.RStage5.lean ====
/- What window 5 of the reference program's @main leaves in the buffers later windows read, from any valuation,
   as terms of the shared vocabulary over the contents it starts from. -/
import proofs.«120490_j9904194585124_1_alg».proof.Proof.V.RParts
import proofs.«120490_j9904194585124_1_alg».proof.Proof.Ref.Ops5
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 5 is the first tail layer, its neighbour sum scattered from what window 4 left. -/
theorem s5_v300 (W : Valuation τ sig (Elt F)) :
    after ops5 W (Proc.devRef .tc main_v300)
      = tailRef (spmm (W (Proc.devRef .tc main_v39)) (W (Proc.devRef .tc main_arg0)) (W (Proc.devRef .tc main_arg6)) (W (Proc.devRef .tc main_arg7))) (scatP (W (Proc.devRef .tc main_v247)) (W (Proc.devRef .tc main_v248)) (W (Proc.devRef .tc main_v246))) (W (Proc.devRef .tc main_arg0)) (W (Proc.devRef .tc main_v18)) (weightT0 (W (Proc.devRef .tc main_arg1))) (weightT0 (W (Proc.devRef .tc main_arg2))) (weightT0 (W (Proc.devRef .tc main_arg3))) (weightT0 (W (Proc.devRef .tc main_arg4))) (bias0 (W (Proc.devRef .tc main_arg5))) := by
  after_results_simp
  rfl

set_option maxHeartbeats 4000000 in
/-- Window 5 ends with the second layer's weight column. -/
theorem s5_v301 (W : Valuation τ sig (Elt F)) :
    after ops5 W (Proc.devRef .tc main_v301)
      = col1 (W (Proc.devRef .tc main_v25)) := by
  after_results_simp
  rfl

set_option maxHeartbeats 4000000 in
/-- … and the integer zero its index wrap compares against. -/
theorem s5_c55 (W : Valuation τ sig (Elt F)) :
    after ops5 W (Proc.devRef .tc main_c_55)
      = zeroI := by
  after_results_simp
  rfl

end Cert.V.R

end
-- ==== Proof.V.RStage6.lean ====
/- What window 6 of the reference program's @main leaves in the buffers later windows read, from any valuation,
   as terms of the shared vocabulary over the contents it starts from. -/
import proofs.«120490_j9904194585124_1_alg».proof.Proof.V.RParts
import proofs.«120490_j9904194585124_1_alg».proof.Proof.Ref.Ops6
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 6 computes the second tail layer's missing-information term. -/
theorem s6_v343 (W : Valuation τ sig (Elt F)) :
    after ops6 W (Proc.devRef .tc main_v343)
      = missing (W (Proc.devRef .tc main_v300)) (scatP (splatND 0x00000000#32) (colI (W (Proc.devRef .tc main_arg6))) (msgsP (W (Proc.devRef .tc main_v301)) (W (Proc.devRef .tc main_v300)) (startsZ (bcastE (W (Proc.devRef .tc main_c_55))) (W (Proc.devRef .tc main_arg7))))) (weightT1 (W (Proc.devRef .tc main_arg1))) (weightT1 (W (Proc.devRef .tc main_arg2))) (weightT1 (W (Proc.devRef .tc main_arg3))) (weightT1 (W (Proc.devRef .tc main_arg4))) (bias1 (W (Proc.devRef .tc main_arg5))) := by
  after_results_simp
  rfl

set_option maxHeartbeats 4000000 in
/-- Window 6 ends with the second layer's aggregation messages. -/
theorem s6_v353 (W : Valuation τ sig (Elt F)) :
    after ops6 W (Proc.devRef .tc main_v353)
      = msgs (W (Proc.devRef .tc main_v39)) (W (Proc.devRef .tc main_v300)) (W (Proc.devRef .tc main_arg7)) := by
  after_results_simp
  rfl

set_option maxHeartbeats 4000000 in
/-- … and the float zero they are added into. -/
theorem s6_cst63 (W : Valuation τ sig (Elt F)) :
    after ops6 W (Proc.devRef .tc main_cst_63)
      = zeroF := by
  after_results_simp
  rfl

end Cert.V.R

end
-- ==== Proof.V.RStage7.lean ====
/- What window 7 of the reference program's @main leaves in the buffers later windows read, from any valuation,
   as terms of the shared vocabulary over the contents it starts from. -/
import proofs.«120490_j9904194585124_1_alg».proof.Proof.V.RParts
import proofs.«120490_j9904194585124_1_alg».proof.Proof.Ref.Ops7
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 7 finishes the second tail layer. -/
theorem s7_v364 (W : Valuation τ sig (Elt F)) :
    after ops7 W (Proc.devRef .tc main_v364)
      = tailP (scatP (bcastND (W (Proc.devRef .tc main_cst_63))) (colI (W (Proc.devRef .tc main_arg6))) (W (Proc.devRef .tc main_v353))) (W (Proc.devRef .tc main_v300)) (W (Proc.devRef .tc main_v343)) (W (Proc.devRef .tc main_v18)) := by
  after_results_simp
  rfl

set_option maxHeartbeats 4000000 in
/-- Window 7 computes the third tail layer's missing-information term from the second layer it has just finished. -/
theorem s7_v407 (W : Valuation τ sig (Elt F)) :
    after ops7 W (Proc.devRef .tc main_v407)
      = missing (tailP (scatP (bcastND (W (Proc.devRef .tc main_cst_63))) (colI (W (Proc.devRef .tc main_arg6))) (W (Proc.devRef .tc main_v353))) (W (Proc.devRef .tc main_v300)) (W (Proc.devRef .tc main_v343)) (W (Proc.devRef .tc main_v18))) (spmm (W (Proc.devRef .tc main_v25)) (tailP (scatP (bcastND (W (Proc.devRef .tc main_cst_63))) (colI (W (Proc.devRef .tc main_arg6))) (W (Proc.devRef .tc main_v353))) (W (Proc.devRef .tc main_v300)) (W (Proc.devRef .tc main_v343)) (W (Proc.devRef .tc main_v18))) (W (Proc.devRef .tc main_arg6)) (W (Proc.devRef .tc main_arg7))) (weightT2 (W (Proc.devRef .tc main_arg1))) (weightT2 (W (Proc.devRef .tc main_arg2))) (weightT2 (W (Proc.devRef .tc main_arg3))) (weightT2 (W (Proc.devRef .tc main_arg4))) (bias2 (W (Proc.devRef .tc main_arg5))) := by
  after_results_simp
  rfl

end Cert.V.R

end
-- ==== Proof.V.RStage8.lean ====
/- What window 8 of the reference program's @main leaves in the buffers later windows read, from any valuation,
   as terms of the shared vocabulary over the contents it starts from. -/
import proofs.«120490_j9904194585124_1_alg».proof.Proof.V.RParts
import proofs.«120490_j9904194585124_1_alg».proof.Proof.Ref.Ops8
import Idealize.ShloMosaic.Lib.StableHlo.Run

set_option maxRecDepth 16384

noncomputable section

namespace Cert.V.R

open Idealize.ShloMosaic Idealize.ShloMosaic.TcCoe Idealize.ShloMosaic.StableHlo Cert.ReferenceIdeal Cert.ReferenceIdeal.Hand

variable {F : FTy → Type} [FloatOps F]

set_option maxHeartbeats 4000000 in
/-- Window 8 finishes the third tail layer, takes the tail branch's mean and picks by the mask. -/
theorem s8_v445 (W : Valuation τ sig (Elt F)) :
    after ops8 W (Proc.devRef .tc main_v445)
      = pick (W (Proc.devRef .tc main_v41)) (W (Proc.devRef .tc main_v229)) (mean4 (W (Proc.devRef .tc main_arg0)) (W (Proc.devRef .tc main_v300)) (W (Proc.devRef .tc main_v364)) (tailP (spmm (W (Proc.devRef .tc main_v39)) (W (Proc.devRef .tc main_v364)) (W (Proc.devRef .tc main_arg6)) (W (Proc.devRef .tc main_arg7))) (W (Proc.devRef .tc main_v364)) (W (Proc.devRef .tc main_v407)) (W (Proc.devRef .tc main_v18)))) := by
  after_results_simp
  rfl

end Cert.V.R

end
-- ==== Proof.Ref.Skip0.lean ====
/- Window 0 of the reference program's @main: the buffers its operations write, in order, and that the fold
   over the window leaves every other buffer as it was. -/
import proofs.«120490_j9904194585124_1_alg».proof.Proof.Ref.Ops0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 0's 62 operations, in order. -/
abbrev written0 : List (Ref sig .tc) :=
  [main_cst, main_v0, main_cst_0, main_v1, main_v2, main_v3, main_cst_1, main_v4, main_v5, main_cst_2, main_v6, main_v7, main_cst_3, main_v8, main_v9, main_cst_4, main_call0_v0, main_call0_v1, main_v10, main_cst_5, main_v11, main_v12, main_cst_6, main_v13, main_v14, main_cst_7, main_v15, main_v16, main_cst_8, main_v17, main_v18, main_c, main_v19, main_v20, main_c_9, main_v21, main_v22, main_v23, main_v24, main_v25, main_c_10, main_v26, main_v27, main_c_11, main_v28, main_v29, main_v30, main_v31, main_v32, main_c_12, main_v33, main_v34, main_c_13, main_v35, main_v36, main_v37, main_v38, main_v39, main_cst_14, main_v40, main_v41, main_v42]

set_option maxHeartbeats 40000000 in
/-- Each operation of the window writes one of those buffers and nothing else. -/
theorem ops0_writes : (ops0 : List (HloOp τ sig (Elt F))).Forall fun op => op.writes ⊆ (written0.map (Proc.devRef (τ := τ) .tc)).toFinset := by
  simp only [ops0, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops0_skip {r : Ref sig .tc} (hr : r ∉ written0) (V : Valuation τ sig (Elt F)) :
    after ops0 V (Proc.devRef .tc r) = V (Proc.devRef .tc r) :=
  after_of_writes_sub ops0 V ops0_writes hr

end Cert.ReferenceIdeal.Hand

end
-- ==== Proof.Ref.Skip1.lean ====
/- Window 1 of the reference program's @main: the buffers its operations write, in order, and that the fold
   over the window leaves every other buffer as it was. -/
import proofs.«120490_j9904194585124_1_alg».proof.Proof.Ref.Ops1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 1's 72 operations, in order. -/
abbrev written1 : List (Ref sig .tc) :=
  [main_c_15, main_v43, main_v44, main_c_16, main_v45, main_v46, main_v47, main_v48, main_v49, main_v50, main_v51, main_cst_17, main_v52, main_v53, main_v54, main_v55, main_v56, main_v57, main_v58, main_v59, main_v60, main_v61, main_v62, main_v63, main_cst_18, main_call1_cst, main_call1_v0, main_call1_v1, main_call1_v2, main_call1_v3, main_call1_v4, main_v64, main_cst_19, main_v65, main_v66, main_v67, main_v68, main_v69, main_v70, main_v71, main_v72, main_v73, main_v74, main_v75, main_cst_20, main_call2_cst, main_call2_v0, main_call2_v1, main_call2_v2, main_call2_v3, main_call2_v4, main_v76, main_v77, main_v78, main_v79, main_v80, main_v81, main_v82, main_v83, main_v84, main_v85, main_c_21, main_v86, main_v87, main_c_22, main_v88, main_v89, main_v90, main_v91, main_v92, main_v93, main_v94]

set_option maxHeartbeats 40000000 in
/-- Each operation of the window writes one of those buffers and nothing else. -/
theorem ops1_writes : (ops1 : List (HloOp τ sig (Elt F))).Forall fun op => op.writes ⊆ (written1.map (Proc.devRef (τ := τ) .tc)).toFinset := by
  simp only [ops1, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops1_skip {r : Ref sig .tc} (hr : r ∉ written1) (V : Valuation τ sig (Elt F)) :
    after ops1 V (Proc.devRef .tc r) = V (Proc.devRef .tc r) :=
  after_of_writes_sub ops1 V ops1_writes hr

end Cert.ReferenceIdeal.Hand

end
-- ==== Proof.Ref.Skip2.lean ====
/- Window 2 of the reference program's @main: the buffers its operations write, in order, and that the fold
   over the window leaves every other buffer as it was. -/
import proofs.«120490_j9904194585124_1_alg».proof.Proof.Ref.Ops2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 2's 72 operations, in order. -/
abbrev written2 : List (Ref sig .tc) :=
  [main_cst_23, main_v95, main_v96, main_v97, main_v98, main_v99, main_v100, main_v101, main_v102, main_c_24, main_v103, main_v104, main_c_25, main_v105, main_v106, main_v107, main_v108, main_v109, main_v110, main_v111, main_cst_26, main_v112, main_v113, main_v114, main_v115, main_v116, main_v117, main_v118, main_v119, main_v120, main_v121, main_v122, main_v123, main_cst_27, main_call3_cst, main_call3_v0, main_call3_v1, main_call3_v2, main_call3_v3, main_call3_v4, main_v124, main_cst_28, main_v125, main_v126, main_v127, main_v128, main_v129, main_v130, main_v131, main_v132, main_v133, main_v134, main_v135, main_cst_29, main_call4_cst, main_call4_v0, main_call4_v1, main_call4_v2, main_call4_v3, main_call4_v4, main_v136, main_v137, main_v138, main_v139, main_v140, main_v141, main_v142, main_v143, main_v144, main_v145, main_c_30, main_v146]

set_option maxHeartbeats 40000000 in
/-- Each operation of the window writes one of those buffers and nothing else. -/
theorem ops2_writes : (ops2 : List (HloOp τ sig (Elt F))).Forall fun op => op.writes ⊆ (written2.map (Proc.devRef (τ := τ) .tc)).toFinset := by
  simp only [ops2, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops2_skip {r : Ref sig .tc} (hr : r ∉ written2) (V : Valuation τ sig (Elt F)) :
    after ops2 V (Proc.devRef .tc r) = V (Proc.devRef .tc r) :=
  after_of_writes_sub ops2 V ops2_writes hr

end Cert.ReferenceIdeal.Hand

end
-- ==== Proof.Ref.Skip3.lean ====
/- Window 3 of the reference program's @main: the buffers its operations write, in order, and that the fold
   over the window leaves every other buffer as it was. -/
import proofs.«120490_j9904194585124_1_alg».proof.Proof.Ref.Ops3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 3's 72 operations, in order. -/
abbrev written3 : List (Ref sig .tc) :=
  [main_v147, main_c_31, main_v148, main_v149, main_v150, main_v151, main_v152, main_v153, main_v154, main_cst_32, main_v155, main_v156, main_v157, main_v158, main_v159, main_v160, main_v161, main_v162, main_c_33, main_v163, main_v164, main_c_34, main_v165, main_v166, main_v167, main_v168, main_v169, main_v170, main_v171, main_cst_35, main_v172, main_v173, main_v174, main_v175, main_v176, main_v177, main_v178, main_v179, main_v180, main_v181, main_v182, main_v183, main_cst_36, main_call5_cst, main_call5_v0, main_call5_v1, main_call5_v2, main_call5_v3, main_call5_v4, main_v184, main_cst_37, main_v185, main_v186, main_v187, main_v188, main_v189, main_v190, main_v191, main_v192, main_v193, main_v194, main_v195, main_cst_38, main_call6_cst, main_call6_v0, main_call6_v1, main_call6_v2, main_call6_v3, main_call6_v4, main_v196, main_v197, main_v198]

set_option maxHeartbeats 40000000 in
/-- Each operation of the window writes one of those buffers and nothing else. -/
theorem ops3_writes : (ops3 : List (HloOp τ sig (Elt F))).Forall fun op => op.writes ⊆ (written3.map (Proc.devRef (τ := τ) .tc)).toFinset := by
  simp only [ops3, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops3_skip {r : Ref sig .tc} (hr : r ∉ written3) (V : Valuation τ sig (Elt F)) :
    after ops3 V (Proc.devRef .tc r) = V (Proc.devRef .tc r) :=
  after_of_writes_sub ops3 V ops3_writes hr

end Cert.ReferenceIdeal.Hand

end
-- ==== Proof.Ref.Skip4.lean ====
/- Window 4 of the reference program's @main: the buffers its operations write, in order, and that the fold
   over the window leaves every other buffer as it was. -/
import proofs.«120490_j9904194585124_1_alg».proof.Proof.Ref.Ops4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 4's 60 operations, in order. -/
abbrev written4 : List (Ref sig .tc) :=
  [main_v199, main_v200, main_v201, main_v202, main_v203, main_v204, main_v205, main_c_39, main_v206, main_v207, main_c_40, main_v208, main_v209, main_v210, main_v211, main_v212, main_v213, main_v214, main_cst_41, main_v215, main_v216, main_v217, main_v218, main_v219, main_v220, main_v221, main_v222, main_v223, main_v224, main_v225, main_v226, main_cst_42, main_v227, main_cst_43, main_v228, main_v229, main_v230, main_v231, main_v232, main_v233, main_cst_44, main_v234, main_cst_45, main_v235, main_v236, main_v237, main_c_46, main_v238, main_v239, main_c_47, main_v240, main_v241, main_v242, main_v243, main_v244, main_v245, main_v246, main_cst_48, main_v247, main_v248]

set_option maxHeartbeats 40000000 in
/-- Each operation of the window writes one of those buffers and nothing else. -/
theorem ops4_writes : (ops4 : List (HloOp τ sig (Elt F))).Forall fun op => op.writes ⊆ (written4.map (Proc.devRef (τ := τ) .tc)).toFinset := by
  simp only [ops4, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops4_skip {r : Ref sig .tc} (hr : r ∉ written4) (V : Valuation τ sig (Elt F)) :
    after ops4 V (Proc.devRef .tc r) = V (Proc.devRef .tc r) :=
  after_of_writes_sub ops4 V ops4_writes hr

end Cert.ReferenceIdeal.Hand

end
-- ==== Proof.Ref.Skip5.lean ====
/- Window 5 of the reference program's @main: the buffers its operations write, in order, and that the fold
   over the window leaves every other buffer as it was. -/
import proofs.«120490_j9904194585124_1_alg».proof.Proof.Ref.Ops5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 5's 72 operations, in order. -/
abbrev written5 : List (Ref sig .tc) :=
  [main_v249, main_v250, main_v251, main_v252, main_v253, main_v254, main_v255, main_v256, main_v257, main_v258, main_cst_49, main_call7_cst, main_call7_v0, main_call7_v1, main_call7_v2, main_call7_v3, main_call7_v4, main_v259, main_cst_50, main_v260, main_v261, main_v262, main_v263, main_v264, main_v265, main_v266, main_v267, main_v268, main_v269, main_v270, main_cst_51, main_call8_cst, main_call8_v0, main_call8_v1, main_call8_v2, main_call8_v3, main_call8_v4, main_v271, main_v272, main_v273, main_v274, main_v275, main_v276, main_v277, main_v278, main_v279, main_v280, main_c_52, main_v281, main_v282, main_c_53, main_v283, main_v284, main_v285, main_v286, main_v287, main_v288, main_v289, main_cst_54, main_v290, main_v291, main_v292, main_v293, main_v294, main_v295, main_v296, main_v297, main_v298, main_v299, main_v300, main_v301, main_c_55]

set_option maxHeartbeats 40000000 in
/-- Each operation of the window writes one of those buffers and nothing else. -/
theorem ops5_writes : (ops5 : List (HloOp τ sig (Elt F))).Forall fun op => op.writes ⊆ (written5.map (Proc.devRef (τ := τ) .tc)).toFinset := by
  simp only [ops5, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops5_skip {r : Ref sig .tc} (hr : r ∉ written5) (V : Valuation τ sig (Elt F)) :
    after ops5 V (Proc.devRef .tc r) = V (Proc.devRef .tc r) :=
  after_of_writes_sub ops5 V ops5_writes hr

end Cert.ReferenceIdeal.Hand

end
-- ==== Proof.Ref.Skip6.lean ====
/- Window 6 of the reference program's @main: the buffers its operations write, in order, and that the fold
   over the window leaves every other buffer as it was. -/
import proofs.«120490_j9904194585124_1_alg».proof.Proof.Ref.Ops6

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 6's 72 operations, in order. -/
abbrev written6 : List (Ref sig .tc) :=
  [main_v302, main_v303, main_c_56, main_v304, main_v305, main_v306, main_v307, main_v308, main_v309, main_v310, main_cst_57, main_v311, main_v312, main_v313, main_v314, main_v315, main_v316, main_v317, main_v318, main_v319, main_v320, main_v321, main_v322, main_cst_58, main_call9_cst, main_call9_v0, main_call9_v1, main_call9_v2, main_call9_v3, main_call9_v4, main_v323, main_cst_59, main_v324, main_v325, main_v326, main_v327, main_v328, main_v329, main_v330, main_v331, main_v332, main_v333, main_v334, main_cst_60, main_call10_cst, main_call10_v0, main_call10_v1, main_call10_v2, main_call10_v3, main_call10_v4, main_v335, main_v336, main_v337, main_v338, main_v339, main_v340, main_v341, main_v342, main_v343, main_v344, main_c_61, main_v345, main_v346, main_c_62, main_v347, main_v348, main_v349, main_v350, main_v351, main_v352, main_v353, main_cst_63]

set_option maxHeartbeats 40000000 in
/-- Each operation of the window writes one of those buffers and nothing else. -/
theorem ops6_writes : (ops6 : List (HloOp τ sig (Elt F))).Forall fun op => op.writes ⊆ (written6.map (Proc.devRef (τ := τ) .tc)).toFinset := by
  simp only [ops6, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops6_skip {r : Ref sig .tc} (hr : r ∉ written6) (V : Valuation τ sig (Elt F)) :
    after ops6 V (Proc.devRef .tc r) = V (Proc.devRef .tc r) :=
  after_of_writes_sub ops6 V ops6_writes hr

end Cert.ReferenceIdeal.Hand

end
-- ==== Proof.Ref.Skip7.lean ====
/- Window 7 of the reference program's @main: the buffers its operations write, in order, and that the fold
   over the window leaves every other buffer as it was. -/
import proofs.«120490_j9904194585124_1_alg».proof.Proof.Ref.Ops7

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 7's 72 operations, in order. -/
abbrev written7 : List (Ref sig .tc) :=
  [main_v354, main_v355, main_v356, main_v357, main_v358, main_v359, main_v360, main_v361, main_v362, main_v363, main_v364, main_v365, main_c_64, main_v366, main_v367, main_c_65, main_v368, main_v369, main_v370, main_v371, main_v372, main_v373, main_v374, main_cst_66, main_v375, main_v376, main_v377, main_v378, main_v379, main_v380, main_v381, main_v382, main_v383, main_v384, main_v385, main_v386, main_cst_67, main_call11_cst, main_call11_v0, main_call11_v1, main_call11_v2, main_call11_v3, main_call11_v4, main_v387, main_cst_68, main_v388, main_v389, main_v390, main_v391, main_v392, main_v393, main_v394, main_v395, main_v396, main_v397, main_v398, main_cst_69, main_call12_cst, main_call12_v0, main_call12_v1, main_call12_v2, main_call12_v3, main_call12_v4, main_v399, main_v400, main_v401, main_v402, main_v403, main_v404, main_v405, main_v406, main_v407]

set_option maxHeartbeats 40000000 in
/-- Each operation of the window writes one of those buffers and nothing else. -/
theorem ops7_writes : (ops7 : List (HloOp τ sig (Elt F))).Forall fun op => op.writes ⊆ (written7.map (Proc.devRef (τ := τ) .tc)).toFinset := by
  simp only [ops7, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops7_skip {r : Ref sig .tc} (hr : r ∉ written7) (V : Valuation τ sig (Elt F)) :
    after ops7 V (Proc.devRef .tc r) = V (Proc.devRef .tc r) :=
  after_of_writes_sub ops7 V ops7_writes hr

end Cert.ReferenceIdeal.Hand

end
-- ==== Proof.Ref.Skip8.lean ====
/- Window 8 of the reference program's @main: the buffers its operations write, in order, and that the fold
   over the window leaves every other buffer as it was. -/
import proofs.«120490_j9904194585124_1_alg».proof.Proof.Ref.Ops8

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result buffers of window 8's 46 operations, in order. -/
abbrev written8 : List (Ref sig .tc) :=
  [main_v408, main_c_70, main_v409, main_v410, main_c_71, main_v411, main_v412, main_v413, main_v414, main_v415, main_v416, main_v417, main_cst_72, main_v418, main_v419, main_v420, main_v421, main_v422, main_v423, main_v424, main_v425, main_v426, main_v427, main_v428, main_v429, main_v430, main_v431, main_v432, main_v433, main_cst_73, main_v434, main_cst_74, main_v435, main_v436, main_v437, main_v438, main_v439, main_v440, main_cst_75, main_v441, main_cst_76, main_v442, main_v443, main_v444, main_call13_v0, main_v445]

set_option maxHeartbeats 40000000 in
/-- Each operation of the window writes one of those buffers and nothing else. -/
theorem ops8_writes : (ops8 : List (HloOp τ sig (Elt F))).Forall fun op => op.writes ⊆ (written8.map (Proc.devRef (τ := τ) .tc)).toFinset := by
  simp only [ops8, List.Forall, nullary_writes, unary_writes, binary_writes, ternary_writes, quaternary_writes, reshape_writes, nary_writes, Finset.singleton_subset_iff, List.mem_toFinset]
  repeat' apply And.intro
  all_goals exact List.mem_map.mpr ⟨_, by decide, rfl⟩

/-- The fold over the window leaves a buffer none of its operations writes as it was. -/
theorem ops8_skip {r : Ref sig .tc} (hr : r ∉ written8) (V : Valuation τ sig (Elt F)) :
    after ops8 V (Proc.devRef .tc r) = V (Proc.devRef .tc r) :=
  after_of_writes_sub ops8 V ops8_writes hr

end Cert.ReferenceIdeal.Hand

end
-- ==== Proof.V.RChain.lean ====
/-
  The reference program's result as a term: the fold of @main's operations, cut at the window boundaries, read
  window by window.  U k is the valuation after the first k windows; at each boundary every buffer a later window
  reads holds a NAMED term of the shared vocabulary over the arguments' launch contents (the terms of Result.lean and
  the small parts of RParts.lean): a buffer the window writes by its stage lemma at the previous valuation, rewritten
  with the previous boundary's equations and closed by unfolding one definition; a buffer it does not write by the
  window's skip lemma.  At the last boundary the result buffer holds resultR.
-/
import proofs.«120490_j9904194585124_1_alg».proof.Proof.V.Result
import proofs.«120490_j9904194585124_1_alg».proof.Proof.V.RParts
import proofs.«120490_j9904194585124_1_alg».proof.Proof.V.RStage0
import proofs.«120490_j9904194585124_1_alg».proof.Proof.V.RStage1
import proofs.«120490_j9904194585124_1_alg».proof.Proof.V.RStage2
import proofs.«120490_j9904194585124_1_alg».proof.Proof.V.RStage3
import proofs.«120490_j9904194585124_1_alg».proof.Proof.V.RStage4
import proofs.«120490_j9904194585124_1_alg».proof.Proof.V.RStage5
import proofs.«120490_j9904194585124_1_alg».proof.Proof.V.RStage6
import proofs.«120490_j9904194585124_1_alg».proof.Proof.V.RStage7
import proofs.«120490_j9904194585124_1_alg».proof.Proof.V.RStage8
import proofs.«120490_j9904194585124_1_alg».proof.Proof.Ref.Skip0
import proofs.«120490_j9904194585124_1_alg».proof.Proof.Ref.Skip1
import proofs.«120490_j9904194585124_1_alg».proof.Proof.Ref.Skip2
import proofs.«120490_j9904194585124_1_alg».proof.Proof.Ref.Skip3
import proofs.«120490_j9904194585124_1_alg».proof.Proof.Ref.Skip4
import proofs.«120490_j9904194585124_1_alg».proof.Proof.Ref.Skip5
import proofs.«120490_j9904194585124_1_alg».proof.Proof.Ref.Skip6
import proofs.«120490_j9904194585124_1_alg».proof.Proof.Ref.Skip7
import proofs.«120490_j9904194585124_1_alg».proof.Proof.Ref.Skip8
import proofs.«120490_j9904194585124_1_alg».proof.Proof.Ref.Run

set_option maxRecDepth 16384

noncomputable section

namespace Cert.V

open Idealize.ShloMosaic Idealize.ShloMosaic.ValueIdx Cert.KernelIdeal Cert.KernelIdeal.Facts₀ Cert.V.R

section
variable (x : FVec Ideal S100000x128 .f32) (G1 G2 B1 B2 : FVec Ideal S3x128x128 .f32) (R : FVec Ideal S3x128 .f32)
  (src dst : IVec S600000 32)

/-- The reference's missing-information term of the second tail layer, from the first layer's output. -/
def ms2 : FVec Ideal S100000x128 .f32 :=
  missing (F := Ideal) (tR1 x G1 G2 B1 B2 R src dst) (spmm (F := Ideal) (w0 src) (tR1 x G1 G2 B1 B2 R src dst) src dst)
    (weightT1 (F := Ideal) G1) (weightT1 (F := Ideal) G2) (weightT1 (F := Ideal) B1) (weightT1 (F := Ideal) B2) (bias1 (F := Ideal) R)
/-- … and of the third, from the second layer's output. -/
def ms3 : FVec Ideal S100000x128 .f32 :=
  missing (F := Ideal) (tR2 x G1 G2 B1 B2 R src dst) (spmm (F := Ideal) (w0 src) (tR2 x G1 G2 B1 B2 R src dst) src dst)
    (weightT2 (F := Ideal) G1) (weightT2 (F := Ideal) G2) (weightT2 (F := Ideal) B1) (weightT2 (F := Ideal) B2) (bias2 (F := Ideal) R)

end

end Cert.V

namespace Cert.V.R

open Idealize.ShloMosaic Idealize.ShloMosaic.TcCoe Idealize.ShloMosaic.StableHlo Cert.ReferenceIdeal Cert.ReferenceIdeal.Hand

/-- The valuation after the first k windows. -/
abbrev U1 (V : Valuation τ sig (Elt Ideal)) : Valuation τ sig (Elt Ideal) := after ops0 V
abbrev U2 (V : Valuation τ sig (Elt Ideal)) : Valuation τ sig (Elt Ideal) := after ops1 (U1 V)
abbrev U3 (V : Valuation τ sig (Elt Ideal)) : Valuation τ sig (Elt Ideal) := after ops2 (U2 V)
abbrev U4 (V : Valuation τ sig (Elt Ideal)) : Valuation τ sig (Elt Ideal) := after ops3 (U3 V)
abbrev U5 (V : Valuation τ sig (Elt Ideal)) : Valuation τ sig (Elt Ideal) := after ops4 (U4 V)
abbrev U6 (V : Valuation τ sig (Elt Ideal)) : Valuation τ sig (Elt Ideal) := after ops5 (U5 V)
abbrev U7 (V : Valuation τ sig (Elt Ideal)) : Valuation τ sig (Elt Ideal) := after ops6 (U6 V)
abbrev U8 (V : Valuation τ sig (Elt Ideal)) : Valuation τ sig (Elt Ideal) := after ops7 (U7 V)
abbrev U9 (V : Valuation τ sig (Elt Ideal)) : Valuation τ sig (Elt Ideal) := after ops8 (U8 V)

section
variable (V : Valuation τ sig (Elt Ideal))

/-! ### After window 0 -/

theorem u1_arg0 : U1 V (Proc.devRef .tc main_arg0) = (V (Proc.devRef .tc main_arg0)) :=
  ops0_skip (r := main_arg0) (by decide) V

theorem u1_arg1 : U1 V (Proc.devRef .tc main_arg1) = (V (Proc.devRef .tc main_arg1)) :=
  ops0_skip (r := main_arg1) (by decide) V

theorem u1_arg2 : U1 V (Proc.devRef .tc main_arg2) = (V (Proc.devRef .tc main_arg2)) :=
  ops0_skip (r := main_arg2) (by decide) V

theorem u1_arg3 : U1 V (Proc.devRef .tc main_arg3) = (V (Proc.devRef .tc main_arg3)) :=
  ops0_skip (r := main_arg3) (by decide) V

theorem u1_arg4 : U1 V (Proc.devRef .tc main_arg4) = (V (Proc.devRef .tc main_arg4)) :=
  ops0_skip (r := main_arg4) (by decide) V

theorem u1_arg5 : U1 V (Proc.devRef .tc main_arg5) = (V (Proc.devRef .tc main_arg5)) :=
  ops0_skip (r := main_arg5) (by decide) V

theorem u1_arg6 : U1 V (Proc.devRef .tc main_arg6) = (V (Proc.devRef .tc main_arg6)) :=
  ops0_skip (r := main_arg6) (by decide) V

theorem u1_arg7 : U1 V (Proc.devRef .tc main_arg7) = (V (Proc.devRef .tc main_arg7)) :=
  ops0_skip (r := main_arg7) (by decide) V

theorem u1_v14 : U1 V (Proc.devRef .tc main_v14) = (invd1 (F := Ideal) (deg (F := Ideal) (V (Proc.devRef .tc main_arg6)))) := by
  have h := s0_v14 V
  exact h

theorem u1_v18 : U1 V (Proc.devRef .tc main_v18) = (invd2 (F := Ideal) (deg (F := Ideal) (V (Proc.devRef .tc main_arg6)))) := by
  have h := s0_v18 V
  exact h

theorem u1_v25 : U1 V (Proc.devRef .tc main_v25) = (w0 (V (Proc.devRef .tc main_arg6))) := by
  have h := s0_v25 V
  exact h

theorem u1_v32 : U1 V (Proc.devRef .tc main_v32) = (w1 (V (Proc.devRef .tc main_arg6))) := by
  have h := s0_v32 V
  exact h

theorem u1_v39 : U1 V (Proc.devRef .tc main_v39) = (w2 (V (Proc.devRef .tc main_arg6))) := by
  have h := s0_v39 V
  exact h

theorem u1_v41 : U1 V (Proc.devRef .tc main_v41) = (headMask (F := Ideal) (deg (F := Ideal) (V (Proc.devRef .tc main_arg6)))) := by
  have h := s0_v41 V
  exact h

/-! ### After window 1 -/

theorem u2_v14 : U2 V (Proc.devRef .tc main_v14) = (invd1 (F := Ideal) (deg (F := Ideal) (V (Proc.devRef .tc main_arg6)))) :=
  (ops1_skip (r := main_v14) (by decide) (U1 V)).trans (u1_v14 V)

theorem u2_v18 : U2 V (Proc.devRef .tc main_v18) = (invd2 (F := Ideal) (deg (F := Ideal) (V (Proc.devRef .tc main_arg6)))) :=
  (ops1_skip (r := main_v18) (by decide) (U1 V)).trans (u1_v18 V)

theorem u2_v25 : U2 V (Proc.devRef .tc main_v25) = (w0 (V (Proc.devRef .tc main_arg6))) :=
  (ops1_skip (r := main_v25) (by decide) (U1 V)).trans (u1_v25 V)

theorem u2_v32 : U2 V (Proc.devRef .tc main_v32) = (w1 (V (Proc.devRef .tc main_arg6))) :=
  (ops1_skip (r := main_v32) (by decide) (U1 V)).trans (u1_v32 V)

theorem u2_v39 : U2 V (Proc.devRef .tc main_v39) = (w2 (V (Proc.devRef .tc main_arg6))) :=
  (ops1_skip (r := main_v39) (by decide) (U1 V)).trans (u1_v39 V)

theorem u2_v41 : U2 V (Proc.devRef .tc main_v41) = (headMask (F := Ideal) (deg (F := Ideal) (V (Proc.devRef .tc main_arg6)))) :=
  (ops1_skip (r := main_v41) (by decide) (U1 V)).trans (u1_v41 V)

theorem u2_arg0 : U2 V (Proc.devRef .tc main_arg0) = (V (Proc.devRef .tc main_arg0)) :=
  (ops1_skip (r := main_arg0) (by decide) (U1 V)).trans (u1_arg0 V)

theorem u2_arg1 : U2 V (Proc.devRef .tc main_arg1) = (V (Proc.devRef .tc main_arg1)) :=
  (ops1_skip (r := main_arg1) (by decide) (U1 V)).trans (u1_arg1 V)

theorem u2_arg2 : U2 V (Proc.devRef .tc main_arg2) = (V (Proc.devRef .tc main_arg2)) :=
  (ops1_skip (r := main_arg2) (by decide) (U1 V)).trans (u1_arg2 V)

theorem u2_arg3 : U2 V (Proc.devRef .tc main_arg3) = (V (Proc.devRef .tc main_arg3)) :=
  (ops1_skip (r := main_arg3) (by decide) (U1 V)).trans (u1_arg3 V)

theorem u2_arg4 : U2 V (Proc.devRef .tc main_arg4) = (V (Proc.devRef .tc main_arg4)) :=
  (ops1_skip (r := main_arg4) (by decide) (U1 V)).trans (u1_arg4 V)

theorem u2_arg5 : U2 V (Proc.devRef .tc main_arg5) = (V (Proc.devRef .tc main_arg5)) :=
  (ops1_skip (r := main_arg5) (by decide) (U1 V)).trans (u1_arg5 V)

theorem u2_arg6 : U2 V (Proc.devRef .tc main_arg6) = (V (Proc.devRef .tc main_arg6)) :=
  (ops1_skip (r := main_arg6) (by decide) (U1 V)).trans (u1_arg6 V)

theorem u2_arg7 : U2 V (Proc.devRef .tc main_arg7) = (V (Proc.devRef .tc main_arg7)) :=
  (ops1_skip (r := main_arg7) (by decide) (U1 V)).trans (u1_arg7 V)

theorem u2_v94 : U2 V (Proc.devRef .tc main_v94) = (msgs (F := Ideal) (w1 (V (Proc.devRef .tc main_arg6))) (V (Proc.devRef .tc main_arg0)) (V (Proc.devRef .tc main_arg7))) := by
  have h := s1_v94 (U1 V)
  rw [u1_v32 V, u1_arg0 V, u1_arg7 V] at h
  exact h

/-! ### After window 2 -/

theorem u3_v14 : U3 V (Proc.devRef .tc main_v14) = (invd1 (F := Ideal) (deg (F := Ideal) (V (Proc.devRef .tc main_arg6)))) :=
  (ops2_skip (r := main_v14) (by decide) (U2 V)).trans (u2_v14 V)

theorem u3_v18 : U3 V (Proc.devRef .tc main_v18) = (invd2 (F := Ideal) (deg (F := Ideal) (V (Proc.devRef .tc main_arg6)))) :=
  (ops2_skip (r := main_v18) (by decide) (U2 V)).trans (u2_v18 V)

theorem u3_v25 : U3 V (Proc.devRef .tc main_v25) = (w0 (V (Proc.devRef .tc main_arg6))) :=
  (ops2_skip (r := main_v25) (by decide) (U2 V)).trans (u2_v25 V)

theorem u3_v32 : U3 V (Proc.devRef .tc main_v32) = (w1 (V (Proc.devRef .tc main_arg6))) :=
  (ops2_skip (r := main_v32) (by decide) (U2 V)).trans (u2_v32 V)

theorem u3_v39 : U3 V (Proc.devRef .tc main_v39) = (w2 (V (Proc.devRef .tc main_arg6))) :=
  (ops2_skip (r := main_v39) (by decide) (U2 V)).trans (u2_v39 V)

theorem u3_v41 : U3 V (Proc.devRef .tc main_v41) = (headMask (F := Ideal) (deg (F := Ideal) (V (Proc.devRef .tc main_arg6)))) :=
  (ops2_skip (r := main_v41) (by decide) (U2 V)).trans (u2_v41 V)

theorem u3_arg0 : U3 V (Proc.devRef .tc main_arg0) = (V (Proc.devRef .tc main_arg0)) :=
  (ops2_skip (r := main_arg0) (by decide) (U2 V)).trans (u2_arg0 V)

theorem u3_arg1 : U3 V (Proc.devRef .tc main_arg1) = (V (Proc.devRef .tc main_arg1)) :=
  (ops2_skip (r := main_arg1) (by decide) (U2 V)).trans (u2_arg1 V)

theorem u3_arg2 : U3 V (Proc.devRef .tc main_arg2) = (V (Proc.devRef .tc main_arg2)) :=
  (ops2_skip (r := main_arg2) (by decide) (U2 V)).trans (u2_arg2 V)

theorem u3_arg3 : U3 V (Proc.devRef .tc main_arg3) = (V (Proc.devRef .tc main_arg3)) :=
  (ops2_skip (r := main_arg3) (by decide) (U2 V)).trans (u2_arg3 V)

theorem u3_arg4 : U3 V (Proc.devRef .tc main_arg4) = (V (Proc.devRef .tc main_arg4)) :=
  (ops2_skip (r := main_arg4) (by decide) (U2 V)).trans (u2_arg4 V)

theorem u3_arg5 : U3 V (Proc.devRef .tc main_arg5) = (V (Proc.devRef .tc main_arg5)) :=
  (ops2_skip (r := main_arg5) (by decide) (U2 V)).trans (u2_arg5 V)

theorem u3_arg6 : U3 V (Proc.devRef .tc main_arg6) = (V (Proc.devRef .tc main_arg6)) :=
  (ops2_skip (r := main_arg6) (by decide) (U2 V)).trans (u2_arg6 V)

theorem u3_arg7 : U3 V (Proc.devRef .tc main_arg7) = (V (Proc.devRef .tc main_arg7)) :=
  (ops2_skip (r := main_arg7) (by decide) (U2 V)).trans (u2_arg7 V)

theorem u3_v101 : U3 V (Proc.devRef .tc main_v101) = (hd1 (V (Proc.devRef .tc main_arg0)) (V (Proc.devRef .tc main_arg6)) (V (Proc.devRef .tc main_arg7))) := by
  have h := s2_v101 (U2 V)
  rw [u2_arg6 V, u2_v94 V, u2_v14 V, u2_arg0 V] at h
  exact h

theorem u3_v145 : U3 V (Proc.devRef .tc main_v145) = (col1 (F := Ideal) (w1 (V (Proc.devRef .tc main_arg6)))) := by
  have h := s2_v145 (U2 V)
  rw [u2_v32 V] at h
  exact h

theorem u3_v146 : U3 V (Proc.devRef .tc main_v146) = (splatE (F := Ideal) 0#32) := by
  have h := s2_v146 (U2 V)
  exact h

/-! ### After window 3 -/

theorem u4_v14 : U4 V (Proc.devRef .tc main_v14) = (invd1 (F := Ideal) (deg (F := Ideal) (V (Proc.devRef .tc main_arg6)))) :=
  (ops3_skip (r := main_v14) (by decide) (U3 V)).trans (u3_v14 V)

theorem u4_v18 : U4 V (Proc.devRef .tc main_v18) = (invd2 (F := Ideal) (deg (F := Ideal) (V (Proc.devRef .tc main_arg6)))) :=
  (ops3_skip (r := main_v18) (by decide) (U3 V)).trans (u3_v18 V)

theorem u4_v25 : U4 V (Proc.devRef .tc main_v25) = (w0 (V (Proc.devRef .tc main_arg6))) :=
  (ops3_skip (r := main_v25) (by decide) (U3 V)).trans (u3_v25 V)

theorem u4_v32 : U4 V (Proc.devRef .tc main_v32) = (w1 (V (Proc.devRef .tc main_arg6))) :=
  (ops3_skip (r := main_v32) (by decide) (U3 V)).trans (u3_v32 V)

theorem u4_v39 : U4 V (Proc.devRef .tc main_v39) = (w2 (V (Proc.devRef .tc main_arg6))) :=
  (ops3_skip (r := main_v39) (by decide) (U3 V)).trans (u3_v39 V)

theorem u4_v41 : U4 V (Proc.devRef .tc main_v41) = (headMask (F := Ideal) (deg (F := Ideal) (V (Proc.devRef .tc main_arg6)))) :=
  (ops3_skip (r := main_v41) (by decide) (U3 V)).trans (u3_v41 V)

theorem u4_v101 : U4 V (Proc.devRef .tc main_v101) = (hd1 (V (Proc.devRef .tc main_arg0)) (V (Proc.devRef .tc main_arg6)) (V (Proc.devRef .tc main_arg7))) :=
  (ops3_skip (r := main_v101) (by decide) (U3 V)).trans (u3_v101 V)

theorem u4_arg0 : U4 V (Proc.devRef .tc main_arg0) = (V (Proc.devRef .tc main_arg0)) :=
  (ops3_skip (r := main_arg0) (by decide) (U3 V)).trans (u3_arg0 V)

theorem u4_arg1 : U4 V (Proc.devRef .tc main_arg1) = (V (Proc.devRef .tc main_arg1)) :=
  (ops3_skip (r := main_arg1) (by decide) (U3 V)).trans (u3_arg1 V)

theorem u4_arg2 : U4 V (Proc.devRef .tc main_arg2) = (V (Proc.devRef .tc main_arg2)) :=
  (ops3_skip (r := main_arg2) (by decide) (U3 V)).trans (u3_arg2 V)

theorem u4_arg3 : U4 V (Proc.devRef .tc main_arg3) = (V (Proc.devRef .tc main_arg3)) :=
  (ops3_skip (r := main_arg3) (by decide) (U3 V)).trans (u3_arg3 V)

theorem u4_arg4 : U4 V (Proc.devRef .tc main_arg4) = (V (Proc.devRef .tc main_arg4)) :=
  (ops3_skip (r := main_arg4) (by decide) (U3 V)).trans (u3_arg4 V)

theorem u4_arg5 : U4 V (Proc.devRef .tc main_arg5) = (V (Proc.devRef .tc main_arg5)) :=
  (ops3_skip (r := main_arg5) (by decide) (U3 V)).trans (u3_arg5 V)

theorem u4_arg6 : U4 V (Proc.devRef .tc main_arg6) = (V (Proc.devRef .tc main_arg6)) :=
  (ops3_skip (r := main_arg6) (by decide) (U3 V)).trans (u3_arg6 V)

theorem u4_arg7 : U4 V (Proc.devRef .tc main_arg7) = (V (Proc.devRef .tc main_arg7)) :=
  (ops3_skip (r := main_arg7) (by decide) (U3 V)).trans (u3_arg7 V)

theorem u4_v161 : U4 V (Proc.devRef .tc main_v161) = (hd2 (V (Proc.devRef .tc main_arg0)) (V (Proc.devRef .tc main_arg6)) (V (Proc.devRef .tc main_arg7))) := by
  have h := s3_v161 (U3 V)
  rw [u3_arg6 V, u3_v145 V, u3_v101 V, u3_v146 V, u3_arg7 V, u3_v14 V] at h
  exact h

/-! ### After window 4 -/

theorem u5_v18 : U5 V (Proc.devRef .tc main_v18) = (invd2 (F := Ideal) (deg (F := Ideal) (V (Proc.devRef .tc main_arg6)))) :=
  (ops4_skip (r := main_v18) (by decide) (U4 V)).trans (u4_v18 V)

theorem u5_v25 : U5 V (Proc.devRef .tc main_v25) = (w0 (V (Proc.devRef .tc main_arg6))) :=
  (ops4_skip (r := main_v25) (by decide) (U4 V)).trans (u4_v25 V)

theorem u5_v39 : U5 V (Proc.devRef .tc main_v39) = (w2 (V (Proc.devRef .tc main_arg6))) :=
  (ops4_skip (r := main_v39) (by decide) (U4 V)).trans (u4_v39 V)

theorem u5_v41 : U5 V (Proc.devRef .tc main_v41) = (headMask (F := Ideal) (deg (F := Ideal) (V (Proc.devRef .tc main_arg6)))) :=
  (ops4_skip (r := main_v41) (by decide) (U4 V)).trans (u4_v41 V)

theorem u5_arg0 : U5 V (Proc.devRef .tc main_arg0) = (V (Proc.devRef .tc main_arg0)) :=
  (ops4_skip (r := main_arg0) (by decide) (U4 V)).trans (u4_arg0 V)

theorem u5_arg1 : U5 V (Proc.devRef .tc main_arg1) = (V (Proc.devRef .tc main_arg1)) :=
  (ops4_skip (r := main_arg1) (by decide) (U4 V)).trans (u4_arg1 V)

theorem u5_arg2 : U5 V (Proc.devRef .tc main_arg2) = (V (Proc.devRef .tc main_arg2)) :=
  (ops4_skip (r := main_arg2) (by decide) (U4 V)).trans (u4_arg2 V)

theorem u5_arg3 : U5 V (Proc.devRef .tc main_arg3) = (V (Proc.devRef .tc main_arg3)) :=
  (ops4_skip (r := main_arg3) (by decide) (U4 V)).trans (u4_arg3 V)

theorem u5_arg4 : U5 V (Proc.devRef .tc main_arg4) = (V (Proc.devRef .tc main_arg4)) :=
  (ops4_skip (r := main_arg4) (by decide) (U4 V)).trans (u4_arg4 V)

theorem u5_arg5 : U5 V (Proc.devRef .tc main_arg5) = (V (Proc.devRef .tc main_arg5)) :=
  (ops4_skip (r := main_arg5) (by decide) (U4 V)).trans (u4_arg5 V)

theorem u5_arg6 : U5 V (Proc.devRef .tc main_arg6) = (V (Proc.devRef .tc main_arg6)) :=
  (ops4_skip (r := main_arg6) (by decide) (U4 V)).trans (u4_arg6 V)

theorem u5_arg7 : U5 V (Proc.devRef .tc main_arg7) = (V (Proc.devRef .tc main_arg7)) :=
  (ops4_skip (r := main_arg7) (by decide) (U4 V)).trans (u4_arg7 V)

theorem u5_v229 : U5 V (Proc.devRef .tc main_v229) = (embH (V (Proc.devRef .tc main_arg0)) (V (Proc.devRef .tc main_arg6)) (V (Proc.devRef .tc main_arg7))) := by
  have h := s4_v229 (U4 V)
  rw [u4_arg0 V, u4_v101 V, u4_v161 V, u4_v32 V, u4_v14 V, u4_arg6 V, u4_arg7 V] at h
  exact h

theorem u5_v246 : U5 V (Proc.devRef .tc main_v246) = (msgs (F := Ideal) (w0 (V (Proc.devRef .tc main_arg6))) (V (Proc.devRef .tc main_arg0)) (V (Proc.devRef .tc main_arg7))) := by
  have h := s4_v246 (U4 V)
  rw [u4_v25 V, u4_arg0 V, u4_arg7 V] at h
  exact h

theorem u5_v247 : U5 V (Proc.devRef .tc main_v247) = (splatND (F := Ideal) 0x00000000#32) := by
  have h := s4_v247 (U4 V)
  exact h

theorem u5_v248 : U5 V (Proc.devRef .tc main_v248) = (colI (F := Ideal) (V (Proc.devRef .tc main_arg6))) := by
  have h := s4_v248 (U4 V)
  rw [u4_arg6 V] at h
  exact h

/-! ### After window 5 -/

theorem u6_v18 : U6 V (Proc.devRef .tc main_v18) = (invd2 (F := Ideal) (deg (F := Ideal) (V (Proc.devRef .tc main_arg6)))) :=
  (ops5_skip (r := main_v18) (by decide) (U5 V)).trans (u5_v18 V)

theorem u6_v25 : U6 V (Proc.devRef .tc main_v25) = (w0 (V (Proc.devRef .tc main_arg6))) :=
  (ops5_skip (r := main_v25) (by decide) (U5 V)).trans (u5_v25 V)

theorem u6_v39 : U6 V (Proc.devRef .tc main_v39) = (w2 (V (Proc.devRef .tc main_arg6))) :=
  (ops5_skip (r := main_v39) (by decide) (U5 V)).trans (u5_v39 V)

theorem u6_v41 : U6 V (Proc.devRef .tc main_v41) = (headMask (F := Ideal) (deg (F := Ideal) (V (Proc.devRef .tc main_arg6)))) :=
  (ops5_skip (r := main_v41) (by decide) (U5 V)).trans (u5_v41 V)

theorem u6_v229 : U6 V (Proc.devRef .tc main_v229) = (embH (V (Proc.devRef .tc main_arg0)) (V (Proc.devRef .tc main_arg6)) (V (Proc.devRef .tc main_arg7))) :=
  (ops5_skip (r := main_v229) (by decide) (U5 V)).trans (u5_v229 V)

theorem u6_arg0 : U6 V (Proc.devRef .tc main_arg0) = (V (Proc.devRef .tc main_arg0)) :=
  (ops5_skip (r := main_arg0) (by decide) (U5 V)).trans (u5_arg0 V)

theorem u6_arg1 : U6 V (Proc.devRef .tc main_arg1) = (V (Proc.devRef .tc main_arg1)) :=
  (ops5_skip (r := main_arg1) (by decide) (U5 V)).trans (u5_arg1 V)

theorem u6_arg2 : U6 V (Proc.devRef .tc main_arg2) = (V (Proc.devRef .tc main_arg2)) :=
  (ops5_skip (r := main_arg2) (by decide) (U5 V)).trans (u5_arg2 V)

theorem u6_arg3 : U6 V (Proc.devRef .tc main_arg3) = (V (Proc.devRef .tc main_arg3)) :=
  (ops5_skip (r := main_arg3) (by decide) (U5 V)).trans (u5_arg3 V)

theorem u6_arg4 : U6 V (Proc.devRef .tc main_arg4) = (V (Proc.devRef .tc main_arg4)) :=
  (ops5_skip (r := main_arg4) (by decide) (U5 V)).trans (u5_arg4 V)

theorem u6_arg5 : U6 V (Proc.devRef .tc main_arg5) = (V (Proc.devRef .tc main_arg5)) :=
  (ops5_skip (r := main_arg5) (by decide) (U5 V)).trans (u5_arg5 V)

theorem u6_arg6 : U6 V (Proc.devRef .tc main_arg6) = (V (Proc.devRef .tc main_arg6)) :=
  (ops5_skip (r := main_arg6) (by decide) (U5 V)).trans (u5_arg6 V)

theorem u6_arg7 : U6 V (Proc.devRef .tc main_arg7) = (V (Proc.devRef .tc main_arg7)) :=
  (ops5_skip (r := main_arg7) (by decide) (U5 V)).trans (u5_arg7 V)

theorem u6_v300 : U6 V (Proc.devRef .tc main_v300) = (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have h := s5_v300 (U5 V)
  rw [u5_v39 V, u5_arg0 V, u5_arg6 V, u5_arg7 V, u5_v247 V, u5_v248 V, u5_v246 V, u5_v18 V, u5_arg1 V, u5_arg2 V, u5_arg3 V, u5_arg4 V, u5_arg5 V] at h
  exact h

theorem u6_v301 : U6 V (Proc.devRef .tc main_v301) = (col1 (F := Ideal) (w0 (V (Proc.devRef .tc main_arg6)))) := by
  have h := s5_v301 (U5 V)
  rw [u5_v25 V] at h
  exact h

theorem u6_c_55 : U6 V (Proc.devRef .tc main_c_55) = (zeroI (F := Ideal)) := by
  have h := s5_c55 (U5 V)
  exact h

/-! ### After window 6 -/

theorem u7_v18 : U7 V (Proc.devRef .tc main_v18) = (invd2 (F := Ideal) (deg (F := Ideal) (V (Proc.devRef .tc main_arg6)))) :=
  (ops6_skip (r := main_v18) (by decide) (U6 V)).trans (u6_v18 V)

theorem u7_v25 : U7 V (Proc.devRef .tc main_v25) = (w0 (V (Proc.devRef .tc main_arg6))) :=
  (ops6_skip (r := main_v25) (by decide) (U6 V)).trans (u6_v25 V)

theorem u7_v39 : U7 V (Proc.devRef .tc main_v39) = (w2 (V (Proc.devRef .tc main_arg6))) :=
  (ops6_skip (r := main_v39) (by decide) (U6 V)).trans (u6_v39 V)

theorem u7_v41 : U7 V (Proc.devRef .tc main_v41) = (headMask (F := Ideal) (deg (F := Ideal) (V (Proc.devRef .tc main_arg6)))) :=
  (ops6_skip (r := main_v41) (by decide) (U6 V)).trans (u6_v41 V)

theorem u7_v229 : U7 V (Proc.devRef .tc main_v229) = (embH (V (Proc.devRef .tc main_arg0)) (V (Proc.devRef .tc main_arg6)) (V (Proc.devRef .tc main_arg7))) :=
  (ops6_skip (r := main_v229) (by decide) (U6 V)).trans (u6_v229 V)

theorem u7_v300 : U7 V (Proc.devRef .tc main_v300) = (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :=
  (ops6_skip (r := main_v300) (by decide) (U6 V)).trans (u6_v300 V)

theorem u7_arg0 : U7 V (Proc.devRef .tc main_arg0) = (V (Proc.devRef .tc main_arg0)) :=
  (ops6_skip (r := main_arg0) (by decide) (U6 V)).trans (u6_arg0 V)

theorem u7_arg1 : U7 V (Proc.devRef .tc main_arg1) = (V (Proc.devRef .tc main_arg1)) :=
  (ops6_skip (r := main_arg1) (by decide) (U6 V)).trans (u6_arg1 V)

theorem u7_arg2 : U7 V (Proc.devRef .tc main_arg2) = (V (Proc.devRef .tc main_arg2)) :=
  (ops6_skip (r := main_arg2) (by decide) (U6 V)).trans (u6_arg2 V)

theorem u7_arg3 : U7 V (Proc.devRef .tc main_arg3) = (V (Proc.devRef .tc main_arg3)) :=
  (ops6_skip (r := main_arg3) (by decide) (U6 V)).trans (u6_arg3 V)

theorem u7_arg4 : U7 V (Proc.devRef .tc main_arg4) = (V (Proc.devRef .tc main_arg4)) :=
  (ops6_skip (r := main_arg4) (by decide) (U6 V)).trans (u6_arg4 V)

theorem u7_arg5 : U7 V (Proc.devRef .tc main_arg5) = (V (Proc.devRef .tc main_arg5)) :=
  (ops6_skip (r := main_arg5) (by decide) (U6 V)).trans (u6_arg5 V)

theorem u7_arg6 : U7 V (Proc.devRef .tc main_arg6) = (V (Proc.devRef .tc main_arg6)) :=
  (ops6_skip (r := main_arg6) (by decide) (U6 V)).trans (u6_arg6 V)

theorem u7_arg7 : U7 V (Proc.devRef .tc main_arg7) = (V (Proc.devRef .tc main_arg7)) :=
  (ops6_skip (r := main_arg7) (by decide) (U6 V)).trans (u6_arg7 V)

theorem u7_v343 : U7 V (Proc.devRef .tc main_v343) = (ms2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have h := s6_v343 (U6 V)
  rw [u6_v300 V, u6_arg6 V, u6_v301 V, u6_c_55 V, u6_arg7 V, u6_arg1 V, u6_arg2 V, u6_arg3 V, u6_arg4 V, u6_arg5 V] at h
  exact h

theorem u7_v353 : U7 V (Proc.devRef .tc main_v353) = (msgs (F := Ideal) (w2 (V (Proc.devRef .tc main_arg6))) (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg7))) := by
  have h := s6_v353 (U6 V)
  rw [u6_v39 V, u6_v300 V, u6_arg7 V] at h
  exact h

theorem u7_cst_63 : U7 V (Proc.devRef .tc main_cst_63) = (zeroF (F := Ideal)) := by
  have h := s6_cst63 (U6 V)
  exact h

/-! ### After window 7 -/

theorem u8_v18 : U8 V (Proc.devRef .tc main_v18) = (invd2 (F := Ideal) (deg (F := Ideal) (V (Proc.devRef .tc main_arg6)))) :=
  (ops7_skip (r := main_v18) (by decide) (U7 V)).trans (u7_v18 V)

theorem u8_v39 : U8 V (Proc.devRef .tc main_v39) = (w2 (V (Proc.devRef .tc main_arg6))) :=
  (ops7_skip (r := main_v39) (by decide) (U7 V)).trans (u7_v39 V)

theorem u8_v41 : U8 V (Proc.devRef .tc main_v41) = (headMask (F := Ideal) (deg (F := Ideal) (V (Proc.devRef .tc main_arg6)))) :=
  (ops7_skip (r := main_v41) (by decide) (U7 V)).trans (u7_v41 V)

theorem u8_v229 : U8 V (Proc.devRef .tc main_v229) = (embH (V (Proc.devRef .tc main_arg0)) (V (Proc.devRef .tc main_arg6)) (V (Proc.devRef .tc main_arg7))) :=
  (ops7_skip (r := main_v229) (by decide) (U7 V)).trans (u7_v229 V)

theorem u8_v300 : U8 V (Proc.devRef .tc main_v300) = (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :=
  (ops7_skip (r := main_v300) (by decide) (U7 V)).trans (u7_v300 V)

theorem u8_arg0 : U8 V (Proc.devRef .tc main_arg0) = (V (Proc.devRef .tc main_arg0)) :=
  (ops7_skip (r := main_arg0) (by decide) (U7 V)).trans (u7_arg0 V)

theorem u8_arg6 : U8 V (Proc.devRef .tc main_arg6) = (V (Proc.devRef .tc main_arg6)) :=
  (ops7_skip (r := main_arg6) (by decide) (U7 V)).trans (u7_arg6 V)

theorem u8_arg7 : U8 V (Proc.devRef .tc main_arg7) = (V (Proc.devRef .tc main_arg7)) :=
  (ops7_skip (r := main_arg7) (by decide) (U7 V)).trans (u7_arg7 V)

theorem u8_v364 : U8 V (Proc.devRef .tc main_v364) = (tR2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have h := s7_v364 (U7 V)
  rw [u7_cst_63 V, u7_arg6 V, u7_v353 V, u7_v300 V, u7_v343 V, u7_v18 V] at h
  exact h

theorem u8_v407 : U8 V (Proc.devRef .tc main_v407) = (ms3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have h := s7_v407 (U7 V)
  rw [u7_cst_63 V, u7_arg6 V, u7_v353 V, u7_v300 V, u7_v343 V, u7_v18 V, u7_v25 V, u7_arg7 V, u7_arg1 V, u7_arg2 V, u7_arg3 V, u7_arg4 V, u7_arg5 V] at h
  have hT : tailP (F := Ideal) (scatP (F := Ideal) (bcastND (F := Ideal) (zeroF (F := Ideal))) (colI (F := Ideal) (V (Proc.devRef .tc main_arg6))) (msgs (F := Ideal) (w2 (V (Proc.devRef .tc main_arg6))) (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg7)))) (tR1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (ms2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (invd2 (F := Ideal) (deg (F := Ideal) (V (Proc.devRef .tc main_arg6)))) = tR2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := rfl
  rw [hT] at h
  exact h

/-! ### After window 8 -/

theorem u9_v445 : U9 V (Proc.devRef .tc main_v445) = (resultR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have h := s8_v445 (U8 V)
  rw [u8_v41 V, u8_v229 V, u8_arg0 V, u8_v300 V, u8_v364 V, u8_v39 V, u8_arg6 V, u8_arg7 V, u8_v407 V, u8_v18 V] at h
  exact h

/-- The reference program's result buffer, after all of @main's operations from any valuation, holds resultR of the
    arguments' contents. -/
theorem reference_result :
    after (ops (F := Ideal)) V (Proc.devRef .tc main_v445)
      = Cert.V.resultR (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [after_ops]
  exact u9_v445 V

end

end Cert.V.R

end
-- ==== Proof.lean ====
/-
  The certificate of a three-hop graph encoder: a Pallas kernel program (host sparse aggregations around three launches of
  one fused tail-layer kernel) against its plain jnp reference, over the extended reals.

  Nodes n < 100000 with 128 features, 600000 edges.  Both programs compute the degrees deg (a scatter-add of ones), the
  normalisations 1/max(deg,1) (0 where deg = 0), 1/(deg+1), 1/(deg+2) gathered onto the edges, a HEAD branch
  h ↦ spmm h + h/(deg+1) of three hops and a TAIL branch of three layers, and return, node by node, the mean of the head's
  four layers where deg > 5 and the mean of the tail's four layers elsewhere.  The head branch, the degrees and the two
  neighbour sums of a tail layer are the same host operations in both programs.  A tail layer differs: the reference
  forms  (agg + d·h) + m·d  on the host, the kernel  agg + d·(h + m)  in one fused body over blocks of 2000 nodes, with
  d = 1/(deg+2) and the same missing-information term m (two pairs of 128×128 matrix products, a leaky ReLU, the bias).
  On the extended reals the two are equal because d is a finite nonnegative number at every node — deg is a sum of ones,
  so deg + 2 ≥ 2 — whatever h and m are: multiplication by such a d distributes over any sum (V/Algebra.lean, V/TailK.lean,
  V/Result.lean).  The precondition (finite inputs) is not needed for that and is never opened.

  The five claims:
  * the three frames — each program runs to the end, faults nowhere and leaves its arguments as launched: the kernel
    program (at the word level and idealized) by the launch theorem for several regions among host stretches, each region's
    body obligation from the body's run (KI/, K/); the reference by the run of its host operations in order (Ref/);
  * preserves — the idealization rewrote nothing, the claim is True;
  * algebraic — the kernel program's result array is resultK of the arguments (each region's output array is the tail
    update of the arrays it finds, V/Blocks0..2; the host stretches read back, V/KStage*, V/KChain), the reference's is
    resultR (V/RStage*, V/RChain), and resultK = resultR (V/Result.lean); assembled in Claims.lean.
-/
import proofs.«120490_j9904194585124_1_alg».proof.Defs
import proofs.«120490_j9904194585124_1_alg».proof.Proof.Claims
import proofs.«120490_j9904194585124_1_alg».proof.Proof.V.KResult
import proofs.«120490_j9904194585124_1_alg».proof.Proof.V.RChain

noncomputable section

namespace Cert.Proof

open Idealize.ShloMosaic Idealize.SL.Sem

theorem claim : Cert.Claim :=
  Claims.claim_of (fun m ρ c => Cert.V.K.kernel_result_at m ρ c) Cert.V.R.reference_result

end Cert.Proof

end
